-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x13 : Shape := ⟨2, ![16384, 13]⟩
abbrev S16384x26 : Shape := ⟨2, ![16384, 26]⟩
abbrev S1 : Shape := ⟨1, ![1]⟩
abbrev S1x13 : Shape := ⟨2, ![1, 13]⟩
abbrev S26x100000x1 : Shape := ⟨3, ![26, 100000, 1]⟩
abbrev S13x16 : Shape := ⟨2, ![13, 16]⟩
abbrev S26x100000x16 : Shape := ⟨3, ![26, 100000, 16]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S1 : S_.BroadcastsInDim S1 (![] : Fin 0 → Fin S1.rank)
  reducesTo_S1_S_d0 : S1.ReducesTo [0] S_
  bcast_S_S1x13 : S_.BroadcastsInDim S1x13 (![] : Fin 0 → Fin S1x13.rank)
  reducesTo_S1x13_S_d0_1 : S1x13.ReducesTo [0, 1] S_
  bcast_S_S26x100000x1 : S_.BroadcastsInDim S26x100000x1 (![] : Fin 0 → Fin S26x100000x1.rank)
  reducesTo_S26x100000x1_S_d0_1_2 : S26x100000x1.ReducesTo [0, 1, 2] S_
  bcast_S_S13x16 : S_.BroadcastsInDim S13x16 (![] : Fin 0 → Fin S13x16.rank)
  reducesTo_S13x16_S_d0_1 : S13x16.ReducesTo [0, 1] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S16384x26 : S_.BroadcastsInDim S16384x26 (![] : Fin 0 → Fin S16384x26.rank)
  reducesTo_S16384x26_S_d0_1 : S16384x26.ReducesTo [0, 1] S_

variable [Facts]

def fn_part2 {F : FTy → Type} [FloatOps F] (main_v28 : IVec S_ 1) (main_v33 : IVec S16384x26 1) : IVec S_ 1 :=
  let main_c_12 : IVec S_ 1 := constantI S_ 1 1#1
  let main_v34 : IVec S_ 1 := (fun x v => Host.reduce IntOp.andi x v reducesTo_S16384x26_S_d0_1 h_S_) main_v33 main_c_12
  let main_v35 : IVec S_ 1 := andi main_v28 main_v34
  main_v35

def fn_part1 {F : FTy → Type} [FloatOps F] (main_arg1 : IVec S16384x26 32) (main_arg5 : FVec F S13x16 .f32) (main_arg6 : FVec F S26x100000x16 .f32) (main_v13 : IVec S_ 1) (main_v16 : IVec S26x100000x1 1) : IVec S_ 1 :=
  let main_c_5 : IVec S_ 1 := constantI S_ 1 1#1
  let main_v17 : IVec S_ 1 := (fun x v => Host.reduce IntOp.andi x v reducesTo_S26x100000x1_S_d0_1_2 h_S_) main_v16 main_c_5
  let main_v18 : IVec S_ 1 := andi main_v13 main_v17
  let main_v19 : FVec F S13x16 .f32 := Host.absf main_arg5
  let main_cst_6 : FVec F S_ .f32 := constant S_ .f32 0x7F800000#32
  let main_v20 : FVec F S13x16 .f32 := broadcastInDim S13x16 ![] bcast_S_S13x16 main_cst_6
  let main_v21 : IVec S13x16 1 := cmpf .olt main_v19 main_v20
  let main_c_7 : IVec S_ 1 := constantI S_ 1 1#1
  let main_v22 : IVec S_ 1 := (fun x v => Host.reduce IntOp.andi x v reducesTo_S13x16_S_d0_1 h_S_) main_v21 main_c_7
  let main_v23 : IVec S_ 1 := andi main_v18 main_v22
  let main_v24 : FVec F S26x100000x16 .f32 := Host.absf main_arg6
  let main_cst_8 : FVec F S_ .f32 := constant S_ .f32 0x7F800000#32
  let main_v25 : FVec F S26x100000x16 .f32 := broadcastInDim S26x100000x16 ![] bcast_S_S26x100000x16 main_cst_8
  let main_v26 : IVec S26x100000x16 1 := cmpf .olt main_v24 main_v25
  let main_c_9 : IVec S_ 1 := constantI S_ 1 1#1
  let main_v27 : IVec S_ 1 := (fun x v => Host.reduce IntOp.andi x v reducesTo_S26x100000x16_S_d0_1_2 h_S_) main_v26 main_c_9
  let main_v28 : IVec S_ 1 := andi main_v23 main_v27
  let main_c_10 : IVec S_ 32 := constantI S_ 32 0#32
  let main_v29 : IVec S16384x26 32 := broadcastInDim S16384x26 ![] bcast_S_S16384x26 main_c_10
  let main_v30 : IVec S16384x26 1 := cmpi .sge main_arg1 main_v29
  let main_c_11 : IVec S_ 32 := constantI S_ 32 99999#32
  let main_v31 : IVec S16384x26 32 := broadcastInDim S16384x26 ![] bcast_S_S16384x26 main_c_11
  let main_v32 : IVec S16384x26 1 := cmpi .sle main_arg1 main_v31
  let main_v33 : IVec S16384x26 1 := andi main_v30 main_v32
  fn_part2 (F := F) main_v28 main_v33

def fn {F : FTy → Type} [FloatOps F] (main_arg0 : FVec F S16384x13 .f32) (main_arg1 : IVec S16384x26 32) (main_arg2 : FVec F S1 .f32) (main_arg3 : FVec F S1x13 .f32) (main_arg4 : FVec F S26x100000x1 .f32) (main_arg5 : FVec F S13x16 .f32) (main_arg6 : FVec F S26x100000x16 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1x13 .f32 := Host.absf main_arg3
  let main_cst_2 : FVec F S_ .f32 := constant S_ .f32 0x7F800000#32
  let main_v10 : FVec F S1x13 .f32 := broadcastInDim S1x13 ![] bcast_S_S1x13 main_cst_2
  let main_v11 : IVec S1x13 1 := cmpf .olt main_v9 main_v10
  let main_c_3 : IVec S_ 1 := constantI S_ 1 1#1
  let main_v12 : IVec S_ 1 := (fun x v => Host.reduce IntOp.andi x v reducesTo_S1x13_S_d0_1 h_S_) main_v11 main_c_3
  let main_v13 : IVec S_ 1 := andi main_v8 main_v12
  let main_v14 : FVec F S26x100000x1 .f32 := Host.absf main_arg4
  let main_cst_4 : FVec F S_ .f32 := constant S_ .f32 0x7F800000#32
  let main_v15 : FVec F S26x100000x1 .f32 := broadcastInDim S26x100000x1 ![] bcast_S_S26x100000x1 main_cst_4
  let main_v16 : IVec S26x100000x1 1 := cmpf .olt main_v14 main_v15
  fn_part1 (F := F) main_arg1 main_arg5 main_arg6 main_v13 main_v16
-- ==== Kernel.lean ====
abbrev S16384x13 : Shape := ⟨2, ![16384, 13]⟩
abbrev S16384x26 : Shape := ⟨2, ![16384, 26]⟩
abbrev S1 : Shape := ⟨1, ![1]⟩
abbrev S1x13 : Shape := ⟨2, ![1, 13]⟩
abbrev S26x100000x1 : Shape := ⟨3, ![26, 100000, 1]⟩
abbrev S13x16 : Shape := ⟨2, ![13, 16]⟩
abbrev S26x100000x16 : Shape := ⟨3, ![26, 100000, 16]⟩
abbrev S26x16384 : Shape := ⟨2, ![26, 16384]⟩
abbrev S425984 : Shape := ⟨1, ![425984]⟩
abbrev S26x16x100000 : Shape := ⟨3, ![26, 16, 100000]⟩
abbrev S26x1x100000 : Shape := ⟨3, ![26, 1, 100000]⟩
abbrev S786432 : Shape := ⟨1, ![786432]⟩
abbrev S100000 : Shape := ⟨1, ![100000]⟩
abbrev S8192 : Shape := ⟨1, ![8192]⟩
abbrev S_ : Shape := ⟨0, ![]⟩
abbrev S16 : Shape := ⟨1, ![16]⟩
abbrev S1x1x100000 : Shape := ⟨3, ![1, 1, 100000]⟩
abbrev S2x3x16x8192 : Shape := ⟨4, ![2, 3, 16, 8192]⟩
abbrev S1x1 : Shape := ⟨2, ![1, 1]⟩
abbrev S16384x1 : Shape := ⟨2, ![16384, 1]⟩
abbrev S1x3x16x512 : Shape := ⟨4, ![1, 3, 16, 512]⟩
abbrev S512x13 : Shape := ⟨2, ![512, 13]⟩
abbrev S512x1 : Shape := ⟨2, ![512, 1]⟩
abbrev S3x16x512 : Shape := ⟨3, ![3, 16, 512]⟩
abbrev S1x16x512 : Shape := ⟨3, ![1, 16, 512]⟩
abbrev S16x512 : Shape := ⟨2, ![16, 512]⟩
abbrev S512x16 : Shape := ⟨2, ![512, 16]⟩
abbrev S512 : Shape := ⟨1, ![512]⟩

abbrev nBuf : Table → Nat
  | .hbm => 15
  | .local .tc .vmem => 9
  | .local .scVector .vmem => 4
  | _ => 0

abbrev bufTy : (tb : Table) → Fin (nBuf tb) → BufTy
  | .hbm, ⟨0, _⟩ => ⟨S16384x13, .f32⟩
  | .hbm, ⟨1, _⟩ => ⟨S16384x26, .i32⟩
  | .hbm, ⟨2, _⟩ => ⟨S1, .f32⟩
  | .hbm, ⟨3, _⟩ => ⟨S1x13, .f32⟩
  | .hbm, ⟨4, _⟩ => ⟨S26x100000x1, .f32⟩
  | .hbm, ⟨5, _⟩ => ⟨S13x16, .f32⟩
  | .hbm, ⟨6, _⟩ => ⟨S26x100000x16, .f32⟩
  | .hbm, ⟨7, _⟩ => ⟨S26x16384, .i32⟩
  | .hbm, ⟨8, _⟩ => ⟨S425984, .i32⟩
  | .hbm, ⟨9, _⟩ => ⟨S26x16x100000, .f32⟩
  | .hbm, ⟨10, _⟩ => ⟨S26x1x100000, .f32⟩
  | .hbm, ⟨11, _⟩ => ⟨S786432, .f32⟩
  | .hbm, ⟨12, _⟩ => ⟨S2x3x16x8192, .f32⟩
  | .hbm, ⟨13, _⟩ => ⟨S1x1, .f32⟩
  | .hbm, ⟨14, _⟩ => ⟨S16384x1, .f32⟩
  | .local .tc .vmem, ⟨0, _⟩ => ⟨S1x3x16x512, .f32⟩
  | .local .tc .vmem, ⟨1, _⟩ => ⟨S1x3x16x512, .f32⟩
  | .local .tc .vmem, ⟨2, _⟩ => ⟨S512x13, .f32⟩
  | .local .tc .vmem, ⟨3, _⟩ => ⟨S512x13, .f32⟩
  | .local .tc .vmem, ⟨4, _⟩ => ⟨S13x16, .f32⟩
  | .local .tc .vmem, ⟨5, _⟩ => ⟨S1x13, .f32⟩
  | .local .tc .vmem, ⟨6, _⟩ => ⟨S1x1, .f32⟩
  | .local .tc .vmem, ⟨7, _⟩ => ⟨S512x1, .f32⟩
  | .local .tc .vmem, ⟨8, _⟩ => ⟨S512x1, .f32⟩
  | .local .scVector .vmem, ⟨0, _⟩ => ⟨S100000, .f32⟩
  | .local .scVector .vmem, ⟨1, _⟩ => ⟨S8192, .i32⟩
  | .local .scVector .vmem, ⟨2, _⟩ => ⟨S8192, .f32⟩
  | .local .scVector .vmem, ⟨3, _⟩ => ⟨S8192, .f32⟩
  | _, _ => ⟨S16384x13, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v2_scv : Ref sig .scVector := ⟨.hbm, 9, rfl⟩
abbrev main_v3_scv : Ref sig .scVector := ⟨.hbm, 10, rfl⟩
abbrev main_v1_scv : Ref sig .scVector := ⟨.hbm, 8, rfl⟩
abbrev main_v4_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c512_i32 : BitVec 32 := 512#32
  let v1 : BitVec 32 := Scalar.addi c0_i32 c512_i32
  let c1_i32 : BitVec 32 := 1#32
  ⟨c0_i32, v1, c1_i32⟩
def k0_off1 (k0_t1 : Fin k0_t1_loop.trips) : Fin 1 → Nat :=
  let c0_i32_30 : BitVec 32 := 0#32
  let c0_i32 : BitVec 32 := 0#32
  let c1_i32 : BitVec 32 := 1#32
  let arg12 : BitVec 32 := Scf.iv c0_i32 c1_i32 k0_t1
  let c16_i32_29 : BitVec 32 := 16#32
  let v38 : BitVec 32 := Scalar.muli arg12 c16_i32_29
  let v39 : BitVec 32 := Scalar.addi c0_i32_30 v38
  let v41 : Index := Scalar.indexCast v39
  ![v41.toNat]
@[reducible] def k0_t2_loop : Scf.Loop 32 :=
  let c0_i32_1 : BitVec 32 := 0#32
  let c26_i32 : BitVec 32 := 26#32
  let v2 : BitVec 32 := Scalar.addi c0_i32_1 c26_i32
  let c1_i32_2 : BitVec 32 := 1#32
  ⟨c0_i32_1, v2, c1_i32_2⟩
def k0_off2 (i : grid0.Coords) (k0_t2 : Fin k0_t2_loop.trips) : Fin 3 → Nat :=
  let c0_i32_30 : BitVec 32 := 0#32
  let c0_i32_1 : BitVec 32 := 0#32
  let c1_i32_2 : BitVec 32 := 1#32
  let arg12 : BitVec 32 := Scf.iv c0_i32_1 c1_i32_2 k0_t2
  let c1_i32_29 : BitVec 32 := 1#32
  let v38 : BitVec 32 := Scalar.muli arg12 c1_i32_29
  let v39 : BitVec 32 := Scalar.addi c0_i32_30 v38
  let arg1 : BitVec 32 := BitVec.ofNat 32 (i 1).val
  let c0_i32_31 : BitVec 32 := 0#32
  ![v39.toNat, arg1.toNat, 0]
def k0_off3 (i : grid0.Coords) (k0_t2 : Fin k0_t2_loop.trips) : Fin 1 → Nat :=
  let c0_i32_30 : BitVec 32 := 0#32
  let c0_i32_1 : BitVec 32 := 0#32
  let c1_i32_2 : BitVec 32 := 1#32
  let arg12 : BitVec 32 := Scf.iv c0_i32_1 c1_i32_2 k0_t2
  let c1_i32_29 : BitVec 32 := 1#32
  let v38 : BitVec 32 := Scalar.muli arg12 c1_i32_29
  let v39 : BitVec 32 := Scalar.addi c0_i32_30 v38
  let c16384_i32_33 : BitVec 32 := 16384#32
  let v44 : BitVec 32 := Scalar.muli v39 c16384_i32_33
  let arg0 : BitVec 32 := BitVec.ofNat 32 (i 0).val
  let c8192_i32 : BitVec 32 := 8192#32
  let v0 : BitVec 32 := Scalar.muli arg0 c8192_i32
  let v45 : BitVec 32 := Scalar.addi v44 v0
  ![v45.toNat]
@[reducible] def k0_t3_loop : Scf.Loop 32 :=
  let c0_i32_36 : BitVec 32 := 0#32
  let c128_i32_37 : BitVec 32 := 128#32
  let v54 : BitVec 32 := Scalar.addi c0_i32_36 c128_i32_37
  let c1_i32_38 : BitVec 32 := 1#32
  ⟨c0_i32_36, v54, c1_i32_38⟩
def k0_off4 (k0_t3 : Fin k0_t3_loop.trips) : Fin 1 → Nat :=
  let c0_i32_40 : BitVec 32 := 0#32
  let c0_i32_36 : BitVec 32 := 0#32
  let c1_i32_38 : BitVec 32 := 1#32
  let arg13 : BitVec 32 := Scf.iv c0_i32_36 c1_i32_38 k0_t3
  let c64_i32 : BitVec 32 := 64#32
  let v55 : BitVec 32 := Scalar.muli arg13 c64_i32
  let v56 : BitVec 32 := Scalar.addi c0_i32_40 v55
  let c0_i32_41 : BitVec 32 := 0#32
  let v57 : BitVec 32 := Scalar.addi v56 c0_i32_41
  let v58 : Index := Scalar.indexCast v57
  ![v58.toNat]

def k0_chk1 (v59 : IVec S16 32) : Prop :=
  (∀ a x, ((![v59] : Fin 1 → IVec S16 32) a x).toNat < S100000.size a)
instance k0_chk1.dec : ∀ (v59 : IVec S16 32), Decidable (k0_chk1 v59) := fun v59 => decidable_of_iff' _ (Iff.of_eq (k0_chk1.eq_1 v59))
theorem k0_idx1_inb : ∀ (v59 : IVec S16 32) (k0_hw1 : k0_chk1 v59), ∀ a x, ((![v59] : Fin 1 → IVec S16 32) a x).toNat < S100000.size a := fun v59 k0_hw1 => k0_hw1
def k0_off5 (k0_t3 : Fin k0_t3_loop.trips) (c0_i32_41 : BitVec 32) : Fin 1 → Nat :=
  let c0_i32_40 : BitVec 32 := 0#32
  let c0_i32_36 : BitVec 32 := 0#32
  let c1_i32_38 : BitVec 32 := 1#32
  let arg13 : BitVec 32 := Scf.iv c0_i32_36 c1_i32_38 k0_t3
  let c64_i32 : BitVec 32 := 64#32
  let v55 : BitVec 32 := Scalar.muli arg13 c64_i32
  let v56 : BitVec 32 := Scalar.addi c0_i32_40 v55
  let v57 : BitVec 32 := Scalar.addi v56 c0_i32_41
  let v61 : Index := Scalar.indexCast v57
  ![v61.toNat]

def k0_chk2 (v74 : IVec S16 32) : Prop :=
  (∀ a x, ((![v74] : Fin 1 → IVec S16 32) a x).toNat < S100000.size a)
instance k0_chk2.dec : ∀ (v74 : IVec S16 32), Decidable (k0_chk2 v74) := fun v74 => decidable_of_iff' _ (Iff.of_eq (k0_chk2.eq_1 v74))
theorem k0_idx2_inb : ∀ (v74 : IVec S16 32) (k0_hw2 : k0_chk2 v74), ∀ a x, ((![v74] : Fin 1 → IVec S16 32) a x).toNat < S100000.size a := fun v74 k0_hw2 => k0_hw2
def k0_off6 (k0_t3 : Fin k0_t3_loop.trips) (c16_i32_42 : BitVec 32) : Fin 1 → Nat :=
  let c0_i32_40 : BitVec 32 := 0#32
  let c0_i32_36 : BitVec 32 := 0#32
  let c1_i32_38 : BitVec 32 := 1#32
  let arg13 : BitVec 32 := Scf.iv c0_i32_36 c1_i32_38 k0_t3
  let c64_i32 : BitVec 32 := 64#32
  let v55 : BitVec 32 := Scalar.muli arg13 c64_i32
  let v56 : BitVec 32 := Scalar.addi c0_i32_40 v55
  let v72 : BitVec 32 := Scalar.addi v56 c16_i32_42
  let v76 : Index := Scalar.indexCast v72
  ![v76.toNat]

def k0_chk3 (v89 : IVec S16 32) : Prop :=
  (∀ a x, ((![v89] : Fin 1 → IVec S16 32) a x).toNat < S100000.size a)
instance k0_chk3.dec : ∀ (v89 : IVec S16 32), Decidable (k0_chk3 v89) := fun v89 => decidable_of_iff' _ (Iff.of_eq (k0_chk3.eq_1 v89))
theorem k0_idx3_inb : ∀ (v89 : IVec S16 32) (k0_hw3 : k0_chk3 v89), ∀ a x, ((![v89] : Fin 1 → IVec S16 32) a x).toNat < S100000.size a := fun v89 k0_hw3 => k0_hw3
def k0_off7 (k0_t3 : Fin k0_t3_loop.trips) (c32_i32 : BitVec 32) : Fin 1 → Nat :=
  let c0_i32_40 : BitVec 32 := 0#32
  let c0_i32_36 : BitVec 32 := 0#32
  let c1_i32_38 : BitVec 32 := 1#32
  let arg13 : BitVec 32 := Scf.iv c0_i32_36 c1_i32_38 k0_t3
  let c64_i32 : BitVec 32 := 64#32
  let v55 : BitVec 32 := Scalar.muli arg13 c64_i32
  let v56 : BitVec 32 := Scalar.addi c0_i32_40 v55
  let v87 : BitVec 32 := Scalar.addi v56 c32_i32
  let v91 : Index := Scalar.indexCast v87
  ![v91.toNat]

def k0_chk4 (v104 : IVec S16 32) : Prop :=
  (∀ a x, ((![v104] : Fin 1 → IVec S16 32) a x).toNat < S100000.size a)
instance k0_chk4.dec : ∀ (v104 : IVec S16 32), Decidable (k0_chk4 v104) := fun v104 => decidable_of_iff' _ (Iff.of_eq (k0_chk4.eq_1 v104))
theorem k0_idx4_inb : ∀ (v104 : IVec S16 32) (k0_hw4 : k0_chk4 v104), ∀ a x, ((![v104] : Fin 1 → IVec S16 32) a x).toNat < S100000.size a := fun v104 k0_hw4 => k0_hw4
def k0_off8 (k0_t3 : Fin k0_t3_loop.trips) : Fin 1 → Nat :=
  let c0_i32_40 : BitVec 32 := 0#32
  let c0_i32_36 : BitVec 32 := 0#32
  let c1_i32_38 : BitVec 32 := 1#32
  let arg13 : BitVec 32 := Scf.iv c0_i32_36 c1_i32_38 k0_t3
  let c64_i32 : BitVec 32 := 64#32
  let v55 : BitVec 32 := Scalar.muli arg13 c64_i32
  let v56 : BitVec 32 := Scalar.addi c0_i32_40 v55
  let c48_i32 : BitVec 32 := 48#32
  let v102 : BitVec 32 := Scalar.addi v56 c48_i32
  let v106 : Index := Scalar.indexCast v102
  ![v106.toNat]
def k0_off9 (i : grid0.Coords) (c0_i32_4 : BitVec 32) : Fin 1 → Nat :=
  let arg0 : BitVec 32 := BitVec.ofNat 32 (i 0).val
  let c3_i32 : BitVec 32 := 3#32
  let v3 : BitVec 32 := Scalar.muli arg0 c3_i32
  let v4 : BitVec 32 := Scalar.addi v3 c0_i32_4
  let c16_i32 : BitVec 32 := 16#32
  let v5 : BitVec 32 := Scalar.muli v4 c16_i32
  let arg1 : BitVec 32 := BitVec.ofNat 32 (i 1).val
  let v6 : BitVec 32 := Scalar.addi v5 arg1
  let c8192_i32_5 : BitVec 32 := 8192#32
  let v7 : BitVec 32 := Scalar.muli v6 c8192_i32_5
  ![v7.toNat]
@[reducible] def k0_t4_loop : Scf.Loop 32 :=
  let c0_i32_10 : BitVec 32 := 0#32
  let c512_i32_11 : BitVec 32 := 512#32
  let v13 : BitVec 32 := Scalar.addi c0_i32_10 c512_i32_11
  let c1_i32_12 : BitVec 32 := 1#32
  ⟨c0_i32_10, v13, c1_i32_12⟩
def k0_off10 (k0_t4 : Fin k0_t4_loop.trips) : Fin 1 → Nat :=
  let c0_i32_30 : BitVec 32 := 0#32
  let c0_i32_10 : BitVec 32 := 0#32
  let c1_i32_12 : BitVec 32 := 1#32
  let arg12 : BitVec 32 := Scf.iv c0_i32_10 c1_i32_12 k0_t4
  let c16_i32_29 : BitVec 32 := 16#32
  let v38 : BitVec 32 := Scalar.muli arg12 c16_i32_29
  let v39 : BitVec 32 := Scalar.addi c0_i32_30 v38
  let v41 : Index := Scalar.indexCast v39
  ![v41.toNat]
def k0_off11 (i : grid0.Coords) : Fin 3 → Nat :=
  let arg1 : BitVec 32 := BitVec.ofNat 32 (i 1).val
  let c0_i32_14 : BitVec 32 := 0#32
  let c0_i32_15 : BitVec 32 := 0#32
  ![arg1.toNat, 0, 0]
def k0_off12 (i : grid0.Coords) : Fin 1 → Nat :=
  let arg1 : BitVec 32 := BitVec.ofNat 32 (i 1).val
  let c16384_i32 : BitVec 32 := 16384#32
  let v18 : BitVec 32 := Scalar.muli arg1 c16384_i32
  let arg0 : BitVec 32 := BitVec.ofNat 32 (i 0).val
  let c8192_i32 : BitVec 32 := 8192#32
  let v0 : BitVec 32 := Scalar.muli arg0 c8192_i32
  let v19 : BitVec 32 := Scalar.addi v18 v0
  ![v19.toNat]
@[reducible] def k0_t5_loop : Scf.Loop 32 :=
  let c0_i32_20 : BitVec 32 := 0#32
  let c128_i32 : BitVec 32 := 128#32
  let v28 : BitVec 32 := Scalar.addi c0_i32_20 c128_i32
  let c1_i32_21 : BitVec 32 := 1#32
  ⟨c0_i32_20, v28, c1_i32_21⟩
def k0_off13 (k0_t5 : Fin k0_t5_loop.trips) : Fin 1 → Nat :=
  let c0_i32_29 : BitVec 32 := 0#32
  let c0_i32_20 : BitVec 32 := 0#32
  let c1_i32_21 : BitVec 32 := 1#32
  let arg12 : BitVec 32 := Scf.iv c0_i32_20 c1_i32_21 k0_t5
  let c64_i32 : BitVec 32 := 64#32
  let v38 : BitVec 32 := Scalar.muli arg12 c64_i32
  let v39 : BitVec 32 := Scalar.addi c0_i32_29 v38
  let c0_i32_30 : BitVec 32 := 0#32
  let v40 : BitVec 32 := Scalar.addi v39 c0_i32_30
  let v41 : Index := Scalar.indexCast v40
  ![v41.toNat]

def k0_chk5 (v42 : IVec S16 32) : Prop :=
  (∀ a x, ((![v42] : Fin 1 → IVec S16 32) a x).toNat < S100000.size a)
instance k0_chk5.dec : ∀ (v42 : IVec S16 32), Decidable (k0_chk5 v42) := fun v42 => decidable_of_iff' _ (Iff.of_eq (k0_chk5.eq_1 v42))
theorem k0_idx5_inb : ∀ (v42 : IVec S16 32) (k0_hw5 : k0_chk5 v42), ∀ a x, ((![v42] : Fin 1 → IVec S16 32) a x).toNat < S100000.size a := fun v42 k0_hw5 => k0_hw5
def k0_off14 (k0_t5 : Fin k0_t5_loop.trips) (c0_i32_30 : BitVec 32) : Fin 1 → Nat :=
  let c0_i32_29 : BitVec 32 := 0#32
  let c0_i32_20 : BitVec 32 := 0#32
  let c1_i32_21 : BitVec 32 := 1#32
  let arg12 : BitVec 32 := Scf.iv c0_i32_20 c1_i32_21 k0_t5
  let c64_i32 : BitVec 32 := 64#32
  let v38 : BitVec 32 := Scalar.muli arg12 c64_i32
  let v39 : BitVec 32 := Scalar.addi c0_i32_29 v38
  let v40 : BitVec 32 := Scalar.addi v39 c0_i32_30
  let v44 : Index := Scalar.indexCast v40
  ![v44.toNat]

def k0_chk6 (v51 : IVec S16 32) : Prop :=
  (∀ a x, ((![v51] : Fin 1 → IVec S16 32) a x).toNat < S100000.size a)
instance k0_chk6.dec : ∀ (v51 : IVec S16 32), Decidable (k0_chk6 v51) := fun v51 => decidable_of_iff' _ (Iff.of_eq (k0_chk6.eq_1 v51))
theorem k0_idx6_inb : ∀ (v51 : IVec S16 32) (k0_hw6 : k0_chk6 v51), ∀ a x, ((![v51] : Fin 1 → IVec S16 32) a x).toNat < S100000.size a := fun v51 k0_hw6 => k0_hw6
def k0_off15 (k0_t5 : Fin k0_t5_loop.trips) (c16_i32_31 : BitVec 32) : Fin 1 → Nat :=
  let c0_i32_29 : BitVec 32 := 0#32
  let c0_i32_20 : BitVec 32 := 0#32
  let c1_i32_21 : BitVec 32 := 1#32
  let arg12 : BitVec 32 := Scf.iv c0_i32_20 c1_i32_21 k0_t5
  let c64_i32 : BitVec 32 := 64#32
  let v38 : BitVec 32 := Scalar.muli arg12 c64_i32
  let v39 : BitVec 32 := Scalar.addi c0_i32_29 v38
  let v49 : BitVec 32 := Scalar.addi v39 c16_i32_31
  let v53 : Index := Scalar.indexCast v49
  ![v53.toNat]

def k0_chk7 (v60 : IVec S16 32) : Prop :=
  (∀ a x, ((![v60] : Fin 1 → IVec S16 32) a x).toNat < S100000.size a)
instance k0_chk7.dec : ∀ (v60 : IVec S16 32), Decidable (k0_chk7 v60) := fun v60 => decidable_of_iff' _ (Iff.of_eq (k0_chk7.eq_1 v60))
theorem k0_idx7_inb : ∀ (v60 : IVec S16 32) (k0_hw7 : k0_chk7 v60), ∀ a x, ((![v60] : Fin 1 → IVec S16 32) a x).toNat < S100000.size a := fun v60 k0_hw7 => k0_hw7
def k0_off16 (k0_t5 : Fin k0_t5_loop.trips) (c32_i32 : BitVec 32) : Fin 1 → Nat :=
  let c0_i32_29 : BitVec 32 := 0#32
  let c0_i32_20 : BitVec 32 := 0#32
  let c1_i32_21 : BitVec 32 := 1#32
  let arg12 : BitVec 32 := Scf.iv c0_i32_20 c1_i32_21 k0_t5
  let c64_i32 : BitVec 32 := 64#32
  let v38 : BitVec 32 := Scalar.muli arg12 c64_i32
  let v39 : BitVec 32 := Scalar.addi c0_i32_29 v38
  let v58 : BitVec 32 := Scalar.addi v39 c32_i32
  let v62 : Index := Scalar.indexCast v58
  ![v62.toNat]

def k0_chk8 (v69 : IVec S16 32) : Prop :=
  (∀ a x, ((![v69] : Fin 1 → IVec S16 32) a x).toNat < S100000.size a)
instance k0_chk8.dec : ∀ (v69 : IVec S16 32), Decidable (k0_chk8 v69) := fun v69 => decidable_of_iff' _ (Iff.of_eq (k0_chk8.eq_1 v69))
theorem k0_idx8_inb : ∀ (v69 : IVec S16 32) (k0_hw8 : k0_chk8 v69), ∀ a x, ((![v69] : Fin 1 → IVec S16 32) a x).toNat < S100000.size a := fun v69 k0_hw8 => k0_hw8
def k0_off17 (k0_t5 : Fin k0_t5_loop.trips) : Fin 1 → Nat :=
  let c0_i32_29 : BitVec 32 := 0#32
  let c0_i32_20 : BitVec 32 := 0#32
  let c1_i32_21 : BitVec 32 := 1#32
  let arg12 : BitVec 32 := Scf.iv c0_i32_20 c1_i32_21 k0_t5
  let c64_i32 : BitVec 32 := 64#32
  let v38 : BitVec 32 := Scalar.muli arg12 c64_i32
  let v39 : BitVec 32 := Scalar.addi c0_i32_29 v38
  let c48_i32 : BitVec 32 := 48#32
  let v67 : BitVec 32 := Scalar.addi v39 c48_i32
  let v71 : Index := Scalar.indexCast v67
  ![v71.toNat]
def k0_cond1 (i : grid0.Coords) : BitVec 1 :=
  let arg1 : BitVec 32 := BitVec.ofNat 32 (i 1).val
  let c16_i32_23 : BitVec 32 := 16#32
  let v29 : BitVec 32 := Scalar.addi arg1 c16_i32_23
  let c26_i32_24 : BitVec 32 := 26#32
  let v30 : BitVec 1 := Scalar.cmpi .slt v29 c26_i32_24
  let v31 : BitVec 32 := Scalar.extui v30
  let c0_i32_25 : BitVec 32 := 0#32
  let v32 : BitVec 1 := Scalar.cmpi .ne v31 c0_i32_25
  v32

def k0_off18 (i : grid0.Coords) : Fin 3 → Nat :=
  let arg1 : BitVec 32 := BitVec.ofNat 32 (i 1).val
  let c16_i32_29 : BitVec 32 := 16#32
  let v38 : BitVec 32 := Scalar.addi arg1 c16_i32_29
  let c0_i32_30 : BitVec 32 := 0#32
  let c0_i32_31 : BitVec 32 := 0#32
  ![v38.toNat, 0, 0]
def k0_off19 (i : grid0.Coords) : Fin 1 → Nat :=
  let arg1 : BitVec 32 := BitVec.ofNat 32 (i 1).val
  let c16_i32_29 : BitVec 32 := 16#32
  let v38 : BitVec 32 := Scalar.addi arg1 c16_i32_29
  let c16384_i32_33 : BitVec 32 := 16384#32
  let v43 : BitVec 32 := Scalar.muli v38 c16384_i32_33
  let arg0 : BitVec 32 := BitVec.ofNat 32 (i 0).val
  let c8192_i32 : BitVec 32 := 8192#32
  let v0 : BitVec 32 := Scalar.muli arg0 c8192_i32
  let v44 : BitVec 32 := Scalar.addi v43 v0
  ![v44.toNat]
@[reducible] def k0_t6_loop : Scf.Loop 32 :=
  let c0_i32_37 : BitVec 32 := 0#32
  let c128_i32_38 : BitVec 32 := 128#32
  let v53 : BitVec 32 := Scalar.addi c0_i32_37 c128_i32_38
  let c1_i32_39 : BitVec 32 := 1#32
  ⟨c0_i32_37, v53, c1_i32_39⟩
def k0_off20 (k0_t6 : Fin k0_t6_loop.trips) : Fin 1 → Nat :=
  let c0_i32_41 : BitVec 32 := 0#32
  let c0_i32_37 : BitVec 32 := 0#32
  let c1_i32_39 : BitVec 32 := 1#32
  let arg12 : BitVec 32 := Scf.iv c0_i32_37 c1_i32_39 k0_t6
  let c64_i32 : BitVec 32 := 64#32
  let v54 : BitVec 32 := Scalar.muli arg12 c64_i32
  let v55 : BitVec 32 := Scalar.addi c0_i32_41 v54
  let c0_i32_42 : BitVec 32 := 0#32
  let v56 : BitVec 32 := Scalar.addi v55 c0_i32_42
  let v57 : Index := Scalar.indexCast v56
  ![v57.toNat]

def k0_chk9 (i : grid0.Coords) (v58 : IVec S16 32) : Prop :=
  (∀ (k0_h1 : k0_cond1 i = 1#1), ∀ a x, ((![v58] : Fin 1 → IVec S16 32) a x).toNat < S100000.size a)
instance k0_chk9.dec : ∀ (i : grid0.Coords) (v58 : IVec S16 32), Decidable (k0_chk9 i v58) := fun i v58 => decidable_of_iff' _ (Iff.of_eq (k0_chk9.eq_1 i v58))
theorem k0_idx9_inb : ∀ (i : grid0.Coords) (v58 : IVec S16 32) (k0_hw9 : k0_chk9 i v58), ∀ (k0_h1 : k0_cond1 i = 1#1), ∀ a x, ((![v58] : Fin 1 → IVec S16 32) a x).toNat < S100000.size a := fun i v58 k0_hw9 k0_h1 => k0_hw9 k0_h1
def k0_off21 (k0_t6 : Fin k0_t6_loop.trips) (c0_i32_42 : BitVec 32) : Fin 1 → Nat :=
  let c0_i32_41 : BitVec 32 := 0#32
  let c0_i32_37 : BitVec 32 := 0#32
  let c1_i32_39 : BitVec 32 := 1#32
  let arg12 : BitVec 32 := Scf.iv c0_i32_37 c1_i32_39 k0_t6
  let c64_i32 : BitVec 32 := 64#32
  let v54 : BitVec 32 := Scalar.muli arg12 c64_i32
  let v55 : BitVec 32 := Scalar.addi c0_i32_41 v54
  let v56 : BitVec 32 := Scalar.addi v55 c0_i32_42
  let v60 : Index := Scalar.indexCast v56
  ![v60.toNat]

def k0_chk10 (i : grid0.Coords) (v67 : IVec S16 32) : Prop :=
  (∀ (k0_h1 : k0_cond1 i = 1#1), ∀ a x, ((![v67] : Fin 1 → IVec S16 32) a x).toNat < S100000.size a)
instance k0_chk10.dec : ∀ (i : grid0.Coords) (v67 : IVec S16 32), Decidable (k0_chk10 i v67) := fun i v67 => decidable_of_iff' _ (Iff.of_eq (k0_chk10.eq_1 i v67))
theorem k0_idx10_inb : ∀ (i : grid0.Coords) (v67 : IVec S16 32) (k0_hw10 : k0_chk10 i v67), ∀ (k0_h1 : k0_cond1 i = 1#1), ∀ a x, ((![v67] : Fin 1 → IVec S16 32) a x).toNat < S100000.size a := fun i v67 k0_hw10 k0_h1 => k0_hw10 k0_h1
def k0_off22 (k0_t6 : Fin k0_t6_loop.trips) (c16_i32_43 : BitVec 32) : Fin 1 → Nat :=
  let c0_i32_41 : BitVec 32 := 0#32
  let c0_i32_37 : BitVec 32 := 0#32
  let c1_i32_39 : BitVec 32 := 1#32
  let arg12 : BitVec 32 := Scf.iv c0_i32_37 c1_i32_39 k0_t6
  let c64_i32 : BitVec 32 := 64#32
  let v54 : BitVec 32 := Scalar.muli arg12 c64_i32
  let v55 : BitVec 32 := Scalar.addi c0_i32_41 v54
  let v65 : BitVec 32 := Scalar.addi v55 c16_i32_43
  let v69 : Index := Scalar.indexCast v65
  ![v69.toNat]

def k0_chk11 (i : grid0.Coords) (v76 : IVec S16 32) : Prop :=
  (∀ (k0_h1 : k0_cond1 i = 1#1), ∀ a x, ((![v76] : Fin 1 → IVec S16 32) a x).toNat < S100000.size a)
instance k0_chk11.dec : ∀ (i : grid0.Coords) (v76 : IVec S16 32), Decidable (k0_chk11 i v76) := fun i v76 => decidable_of_iff' _ (Iff.of_eq (k0_chk11.eq_1 i v76))
theorem k0_idx11_inb : ∀ (i : grid0.Coords) (v76 : IVec S16 32) (k0_hw11 : k0_chk11 i v76), ∀ (k0_h1 : k0_cond1 i = 1#1), ∀ a x, ((![v76] : Fin 1 → IVec S16 32) a x).toNat < S100000.size a := fun i v76 k0_hw11 k0_h1 => k0_hw11 k0_h1
def k0_off23 (k0_t6 : Fin k0_t6_loop.trips) (c32_i32 : BitVec 32) : Fin 1 → Nat :=
  let c0_i32_41 : BitVec 32 := 0#32
  let c0_i32_37 : BitVec 32 := 0#32
  let c1_i32_39 : BitVec 32 := 1#32
  let arg12 : BitVec 32 := Scf.iv c0_i32_37 c1_i32_39 k0_t6
  let c64_i32 : BitVec 32 := 64#32
  let v54 : BitVec 32 := Scalar.muli arg12 c64_i32
  let v55 : BitVec 32 := Scalar.addi c0_i32_41 v54
  let v74 : BitVec 32 := Scalar.addi v55 c32_i32
  let v78 : Index := Scalar.indexCast v74
  ![v78.toNat]

def k0_chk12 (i : grid0.Coords) (v85 : IVec S16 32) : Prop :=
  (∀ (k0_h1 : k0_cond1 i = 1#1), ∀ a x, ((![v85] : Fin 1 → IVec S16 32) a x).toNat < S100000.size a)
instance k0_chk12.dec : ∀ (i : grid0.Coords) (v85 : IVec S16 32), Decidable (k0_chk12 i v85) := fun i v85 => decidable_of_iff' _ (Iff.of_eq (k0_chk12.eq_1 i v85))
theorem k0_idx12_inb : ∀ (i : grid0.Coords) (v85 : IVec S16 32) (k0_hw12 : k0_chk12 i v85), ∀ (k0_h1 : k0_cond1 i = 1#1), ∀ a x, ((![v85] : Fin 1 → IVec S16 32) a x).toNat < S100000.size a := fun i v85 k0_hw12 k0_h1 => k0_hw12 k0_h1
def k0_off24 (k0_t6 : Fin k0_t6_loop.trips) : Fin 1 → Nat :=
  let c0_i32_41 : BitVec 32 := 0#32
  let c0_i32_37 : BitVec 32 := 0#32
  let c1_i32_39 : BitVec 32 := 1#32
  let arg12 : BitVec 32 := Scf.iv c0_i32_37 c1_i32_39 k0_t6
  let c64_i32 : BitVec 32 := 64#32
  let v54 : BitVec 32 := Scalar.muli arg12 c64_i32
  let v55 : BitVec 32 := Scalar.addi c0_i32_41 v54
  let c48_i32 : BitVec 32 := 48#32
  let v83 : BitVec 32 := Scalar.addi v55 c48_i32
  let v87 : Index := Scalar.indexCast v83
  ![v87.toNat]
abbrev grid1 : Pipeline.Grid := ⟨1, ![32], ![false]⟩

def cc1_transform_0 (i : grid1.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x3x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x13 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S13x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x13 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x26_S26x16384_1_0 : S16384x26.Transposes [1, 0] S26x16384
  shapeCasts_S26x16384_S425984 : S26x16384.ShapeCasts S425984
  transposes_S26x100000x16_S26x16x100000_0_2_1 : S26x100000x16.Transposes [0, 2, 1] S26x16x100000
  transposes_S26x100000x1_S26x1x100000_0_2_1 : S26x100000x1.Transposes [0, 2, 1] S26x1x100000
  h_S16 : 0 < S16.numel
  squeezes_S1x1x100000_S100000 : S1x1x100000.Squeezes S100000
  h_S100000 : 0 < S100000.numel
  shapeCasts_S786432_S2x3x16x8192 : S786432.ShapeCasts S2x3x16x8192
  shapeCasts_S1_S1x1 : S1.ShapeCasts S1x1
  inb_S1x3x16x512_S1x3x16x512_0_0_0_0 : ∀ a, (![0, 0, 0, 0] : Fin 4 → Nat) a + S1x3x16x512.size a ≤ S1x3x16x512.size a
  h_S1x3x16x512 : 0 < S1x3x16x512.numel
  shapeCasts_S1x3x16x512_S3x16x512 : S1x3x16x512.ShapeCasts S3x16x512
  slices_S3x16x512_o0_0_0_S1x16x512 : S3x16x512.Slices ![0, 0, 0] S1x16x512
  shapeCasts_S1x16x512_S16x512 : S1x16x512.ShapeCasts S16x512
  transposes_S16x512_p1_0_S512x16 : S16x512.Transposes [1, 0] S512x16
  slices_S3x16x512_o1_0_0_S1x16x512 : S3x16x512.Slices ![1, 0, 0] S1x16x512
  slices_S3x16x512_o2_0_0_S1x16x512 : S3x16x512.Slices ![2, 0, 0] S1x16x512
  inb_S512x13_S512x13_0_0 : ∀ a, (![0, 0] : Fin 2 → Nat) a + S512x13.size a ≤ S512x13.size a
  h_S512x13 : 0 < S512x13.numel
  inb_S13x16_S13x16_0_0 : ∀ a, (![0, 0] : Fin 2 → Nat) a + S13x16.size a ≤ S13x16.size a
  h_S13x16 : 0 < S13x16.numel
  reduces_S512x16_S512 : S512x16.Reduces [1] S512
  shapeCasts_S512_S512x1 : S512.ShapeCasts S512x1
  inb_S1x13_S1x13_0_0 : ∀ a, (![0, 0] : Fin 2 → Nat) a + S1x13.size a ≤ S1x13.size a
  h_S1x13 : 0 < S1x13.numel
  broadcasts_S1x13_S512x13 : S1x13.Broadcasts S512x13
  reduces_S512x13_S512 : S512x13.Reduces [1] S512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x1_S512x1_0_0 : ∀ a, (![0, 0] : Fin 2 → Nat) a + S512x1.size a ≤ S512x1.size a
  h_S512x1 : 0 < S512x1.numel
  dot_S512x13_S13x16_S512x16_1_0_0_1_n_n_wf : DotDims.WF S512x13 S13x16 S512x16 [1] [0] [0] [1] [] []
  hcc0_scratch4 : 0 + S_.numel ≤ 14
  hcc0_scratch5 : 1 + S_.numel ≤ 14
  hcc0_scoped0 : 2 + S_.numel ≤ 14
  hcc0_scoped1 : 3 + S_.numel ≤ 14
  hcc0_scoped2 : 4 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S16.size a ≤ S8192.size a
  k0_t2_ok : k0_t2_loop.OK
  k0_off2_inb : ∀ (i : grid0.Coords) (k0_t2 : Fin k0_t2_loop.trips), ∀ a, (k0_off2 i k0_t2) a + S1x1x100000.size a ≤ S26x16x100000.size a
  k0_off3_inb : ∀ (i : grid0.Coords) (k0_t2 : Fin k0_t2_loop.trips), ∀ a, (k0_off3 i k0_t2) a + S8192.size a ≤ S425984.size a
  k0_t3_ok : k0_t3_loop.OK
  k0_off4_inb : ∀ k0_t3 : Fin k0_t3_loop.trips, ∀ a, (k0_off4 k0_t3) a + S16.size a ≤ S8192.size a
  k0_off5_inb : ∀ k0_t3 : Fin k0_t3_loop.trips, ∀ (r : Fin 2), ∀ a, (k0_off5 k0_t3 (BitVec.ofNat 32 (16 * r.val))) a + S16.size a ≤ S8192.size a
  k0_off6_inb : ∀ k0_t3 : Fin k0_t3_loop.trips, ∀ (r : Fin 2), ∀ a, (k0_off6 k0_t3 (BitVec.ofNat 32 (16 + 16 * r.val))) a + S16.size a ≤ S8192.size a
  k0_off7_inb : ∀ k0_t3 : Fin k0_t3_loop.trips, ∀ (r : Fin 2), ∀ a, (k0_off7 k0_t3 (BitVec.ofNat 32 (32 + 16 * r.val))) a + S16.size a ≤ S8192.size a
  k0_off8_inb : ∀ k0_t3 : Fin k0_t3_loop.trips, ∀ a, (k0_off8 k0_t3) a + S16.size a ≤ S8192.size a
  k0_off9_inb : ∀ i : grid0.Coords, ∀ (r : Fin 3), ∀ a, (k0_off9 i (BitVec.ofNat 32 r.val)) a + S8192.size a ≤ S786432.size a
  k0_t4_ok : k0_t4_loop.OK
  k0_off10_inb : ∀ k0_t4 : Fin k0_t4_loop.trips, ∀ a, (k0_off10 k0_t4) a + S16.size a ≤ S8192.size a
  k0_off11_inb : ∀ i : grid0.Coords, ∀ a, (k0_off11 i) a + S1x1x100000.size a ≤ S26x1x100000.size a
  k0_off12_inb : ∀ i : grid0.Coords, ∀ a, (k0_off12 i) a + S8192.size a ≤ S425984.size a
  k0_t5_ok : k0_t5_loop.OK
  k0_off13_inb : ∀ k0_t5 : Fin k0_t5_loop.trips, ∀ a, (k0_off13 k0_t5) a + S16.size a ≤ S8192.size a
  k0_off14_inb : ∀ k0_t5 : Fin k0_t5_loop.trips, ∀ (r : Fin 2), ∀ a, (k0_off14 k0_t5 (BitVec.ofNat 32 (16 * r.val))) a + S16.size a ≤ S8192.size a
  k0_off15_inb : ∀ k0_t5 : Fin k0_t5_loop.trips, ∀ (r : Fin 2), ∀ a, (k0_off15 k0_t5 (BitVec.ofNat 32 (16 + 16 * r.val))) a + S16.size a ≤ S8192.size a
  k0_off16_inb : ∀ k0_t5 : Fin k0_t5_loop.trips, ∀ (r : Fin 2), ∀ a, (k0_off16 k0_t5 (BitVec.ofNat 32 (32 + 16 * r.val))) a + S16.size a ≤ S8192.size a
  k0_off17_inb : ∀ k0_t5 : Fin k0_t5_loop.trips, ∀ a, (k0_off17 k0_t5) a + S16.size a ≤ S8192.size a
  k0_off18_inb : ∀ i : grid0.Coords, ∀ (k0_h1 : k0_cond1 i = 1#1), ∀ a, (k0_off18 i) a + S1x1x100000.size a ≤ S26x1x100000.size a
  k0_off19_inb : ∀ i : grid0.Coords, ∀ (k0_h1 : k0_cond1 i = 1#1), ∀ a, (k0_off19 i) a + S8192.size a ≤ S425984.size a
  k0_t6_ok : ∀ i : grid0.Coords, ∀ (k0_h1 : k0_cond1 i = 1#1), k0_t6_loop.OK
  k0_off20_inb : ∀ (i : grid0.Coords) (k0_t6 : Fin k0_t6_loop.trips), ∀ (k0_h1 : k0_cond1 i = 1#1), ∀ a, (k0_off20 k0_t6) a + S16.size a ≤ S8192.size a
  k0_off21_inb : ∀ (i : grid0.Coords) (k0_t6 : Fin k0_t6_loop.trips), ∀ (k0_h1 : k0_cond1 i = 1#1), ∀ (r : Fin 2), ∀ a, (k0_off21 k0_t6 (BitVec.ofNat 32 (16 * r.val))) a + S16.size a ≤ S8192.size a
  k0_off22_inb : ∀ (i : grid0.Coords) (k0_t6 : Fin k0_t6_loop.trips), ∀ (k0_h1 : k0_cond1 i = 1#1), ∀ (r : Fin 2), ∀ a, (k0_off22 k0_t6 (BitVec.ofNat 32 (16 + 16 * r.val))) a + S16.size a ≤ S8192.size a
  k0_off23_inb : ∀ (i : grid0.Coords) (k0_t6 : Fin k0_t6_loop.trips), ∀ (k0_h1 : k0_cond1 i = 1#1), ∀ (r : Fin 2), ∀ a, (k0_off23 k0_t6 (BitVec.ofNat 32 (32 + 16 * r.val))) a + S16.size a ≤ S8192.size a
  k0_off24_inb : ∀ (i : grid0.Coords) (k0_t6 : Fin k0_t6_loop.trips), ∀ (k0_h1 : k0_cond1 i = 1#1), ∀ a, (k0_off24 k0_t6) a + S16.size a ≤ S8192.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x16x512.size a ≤ S2x3x16x8192.size a
  hwx1_0 : ∀ i : grid1.Coords, EltTy.bits .f32 = 32 ∨ (Rect.block (s := S2x3x16x8192) S1x3x16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x13.size a ≤ S16384x13.size a
  hwx1_1 : ∀ i : grid1.Coords, EltTy.bits .f32 = 32 ∨ (Rect.block (s := S16384x13) S512x13.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S13x16.size a ≤ S13x16.size a
  hwx1_2 : ∀ i : grid1.Coords, EltTy.bits .f32 = 32 ∨ (Rect.block (s := S13x16) S13x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x13.size a ≤ S1x13.size a
  hwx1_3 : ∀ i : grid1.Coords, EltTy.bits .f32 = 32 ∨ (Rect.block (s := S1x13) S1x13.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S16384x1.size a
  hwx1_5 : ∀ i : grid1.Coords, EltTy.bits .f32 = 32 ∨ (Rect.block (s := S16384x1) S512x1.size (cc1_transform_5 i) (hinb1_5 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
def dot_S512x13_S13x16_S512x16_1_0_0_1_n_n : DotDims S512x13 S13x16 S512x16 where
  lhsContracting := [1]
  rhsContracting := [0]
  lhsNonContracting := [0]
  rhsNonContracting := [1]
  lhsBatch := []
  rhsBatch := []
  wf := dot_S512x13_S13x16_S512x16_1_0_0_1_n_n_wf

abbrev win1_0 : Pipeline.Window sig grid1 :=
  Pipeline.Window.ofSpec (Memref.whole main_v5) S1x3x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x13.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S13x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x13.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S512x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x13 : Shape := ⟨2, ![16384, 13]⟩
abbrev S16384x26 : Shape := ⟨2, ![16384, 26]⟩
abbrev S1 : Shape := ⟨1, ![1]⟩
abbrev S1x13 : Shape := ⟨2, ![1, 13]⟩
abbrev S26x100000x1 : Shape := ⟨3, ![26, 100000, 1]⟩
abbrev S13x16 : Shape := ⟨2, ![13, 16]⟩
abbrev S26x100000x16 : Shape := ⟨3, ![26, 100000, 16]⟩
abbrev S13x1 : Shape := ⟨2, ![13, 1]⟩
abbrev S16384x1 : Shape := ⟨2, ![16384, 1]⟩
abbrev S1x1 : Shape := ⟨2, ![1, 1]⟩
abbrev S_ : Shape := ⟨0, ![]⟩
abbrev S26x16384 : Shape := ⟨2, ![26, 16384]⟩
abbrev S26x16384x1 : Shape := ⟨3, ![26, 16384, 1]⟩
abbrev S1x1x1 : Shape := ⟨3, ![1, 1, 1]⟩
abbrev S16384x13x1 : Shape := ⟨3, ![16384, 13, 1]⟩
abbrev S1x13x16 : Shape := ⟨3, ![1, 13, 16]⟩
abbrev S16384x13x16 : Shape := ⟨3, ![16384, 13, 16]⟩
abbrev S26x16384x16 : Shape := ⟨3, ![26, 16384, 16]⟩
abbrev S16384x26x16 : Shape := ⟨3, ![16384, 26, 16]⟩
abbrev S16384x39x16 : Shape := ⟨3, ![16384, 39, 16]⟩
abbrev S16384x16 : Shape := ⟨2, ![16384, 16]⟩
abbrev S16384 : Shape := ⟨1, ![16384]⟩

abbrev nBuf : Space → Nat
  | .hbm => 84
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S1, .f32⟩
  | .hbm, ⟨3, _⟩ => ⟨S1x13, .f32⟩
  | .hbm, ⟨4, _⟩ => ⟨S26x100000x1, .f32⟩
  | .hbm, ⟨5, _⟩ => ⟨S13x16, .f32⟩
  | .hbm, ⟨6, _⟩ => ⟨S26x100000x16, .f32⟩
  | .hbm, ⟨7, _⟩ => ⟨S13x1, .f32⟩
  | .hbm, ⟨8, _⟩ => ⟨S16384x1, .f32⟩
  | .hbm, ⟨9, _⟩ => ⟨S1x1, .f32⟩
  | .hbm, ⟨10, _⟩ => ⟨S16384x1, .f32⟩
  | .hbm, ⟨11, _⟩ => ⟨S16384x1, .f32⟩
  | .hbm, ⟨12, _⟩ => ⟨S_, .i32⟩
  | .hbm, ⟨13, _⟩ => ⟨S16384x26, .i32⟩
  | .hbm, ⟨14, _⟩ => ⟨S16384x26, .i1⟩
  | .hbm, ⟨15, _⟩ => ⟨S_, .i32⟩
  | .hbm, ⟨16, _⟩ => ⟨S16384x26, .i32⟩
  | .hbm, ⟨17, _⟩ => ⟨S16384x26, .i32⟩
  | .hbm, ⟨18, _⟩ => ⟨S16384x26, .i32⟩
  | .hbm, ⟨19, _⟩ => ⟨S26x16384, .i32⟩
  | .hbm, ⟨20, _⟩ => ⟨S26x16384x1, .i32⟩
  | .hbm, ⟨21, _⟩ => ⟨S1, .i32⟩
  | .hbm, ⟨22, _⟩ => ⟨S_, .i32⟩
  | .hbm, ⟨23, _⟩ => ⟨S26x16384x1, .i32⟩
  | .hbm, ⟨24, _⟩ => ⟨S26x16384x1, .i1⟩
  | .hbm, ⟨25, _⟩ => ⟨S1x1x1, .i32⟩
  | .hbm, ⟨26, _⟩ => ⟨S26x16384x1, .i32⟩
  | .hbm, ⟨27, _⟩ => ⟨S26x16384x1, .i1⟩
  | .hbm, ⟨28, _⟩ => ⟨S26x16384x1, .i1⟩
  | .hbm, ⟨29, _⟩ => ⟨S_, .i1⟩
  | .hbm, ⟨30, _⟩ => ⟨S26x16384, .i1⟩
  | .hbm, ⟨31, _⟩ => ⟨S26x16384x1, .f32⟩
  | .hbm, ⟨32, _⟩ => ⟨S26x16384x1, .i1⟩
  | .hbm, ⟨33, _⟩ => ⟨S_, .f32⟩
  | .hbm, ⟨34, _⟩ => ⟨S26x16384x1, .f32⟩
  | .hbm, ⟨35, _⟩ => ⟨S26x16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x13x1, .f32⟩
  | .hbm, ⟨40, _⟩ => ⟨S1x13x16, .f32⟩
  | .hbm, ⟨41, _⟩ => ⟨S16384x13x16, .f32⟩
  | .hbm, ⟨42, _⟩ => ⟨S16384x13x16, .f32⟩
  | .hbm, ⟨43, _⟩ => ⟨S16384x13x16, .f32⟩
  | .hbm, ⟨44, _⟩ => ⟨S_, .i32⟩
  | .hbm, ⟨45, _⟩ => ⟨S16384x26, .i32⟩
  | .hbm, ⟨46, _⟩ => ⟨S16384x26, .i1⟩
  | .hbm, ⟨47, _⟩ => ⟨S_, .i32⟩
  | .hbm, ⟨48, _⟩ => ⟨S16384x26, .i32⟩
  | .hbm, ⟨49, _⟩ => ⟨S16384x26, .i32⟩
  | .hbm, ⟨50, _⟩ => ⟨S16384x26, .i32⟩
  | .hbm, ⟨51, _⟩ => ⟨S26x16384, .i32⟩
  | .hbm, ⟨52, _⟩ => ⟨S26x16384x1, .i32⟩
  | .hbm, ⟨53, _⟩ => ⟨S1, .i32⟩
  | .hbm, ⟨54, _⟩ => ⟨S_, .i32⟩
  | .hbm, ⟨55, _⟩ => ⟨S26x16384x1, .i32⟩
  | .hbm, ⟨56, _⟩ => ⟨S26x16384x1, .i1⟩
  | .hbm, ⟨57, _⟩ => ⟨S1x1x1, .i32⟩
  | .hbm, ⟨58, _⟩ => ⟨S26x16384x1, .i32⟩
  | .hbm, ⟨59, _⟩ => ⟨S26x16384x1, .i1⟩
  | .hbm, ⟨60, _⟩ => ⟨S26x16384x1, .i1⟩
  | .hbm, ⟨61, _⟩ => ⟨S_, .i1⟩
  | .hbm, ⟨62, _⟩ => ⟨S26x16384, .i1⟩
  | .hbm, ⟨63, _⟩ => ⟨S26x16384x16, .f32⟩
  | .hbm, ⟨64, _⟩ => ⟨S26x16384x16, .i1⟩
  | .hbm, ⟨65, _⟩ => ⟨S_, .f32⟩
  | .hbm, ⟨66, _⟩ => ⟨S26x16384x16, .f32⟩
  | .hbm, ⟨67, _⟩ => ⟨S26x16384x16, .f32⟩
  | .hbm, ⟨68, _⟩ => ⟨S16384x26x16, .f32⟩
  | .hbm, ⟨69, _⟩ => ⟨S16384x39x16, .f32⟩
  | .hbm, ⟨70, _⟩ => ⟨S_, .f32⟩
  | .hbm, ⟨71, _⟩ => ⟨S16384x16, .f32⟩
  | .hbm, ⟨72, _⟩ => ⟨S16384x16, .f32⟩
  | .hbm, ⟨73, _⟩ => ⟨S16384x39x16, .f32⟩
  | .hbm, ⟨74, _⟩ => ⟨S_, .f32⟩
  | .hbm, ⟨75, _⟩ => ⟨S16384x16, .f32⟩
  | .hbm, ⟨76, _⟩ => ⟨S16384x16, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_c_1 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_c_3 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_cst : Ref sig .tc := ⟨.hbm, 33, rfl⟩
abbrev main_call0_v16 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_c_1 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_c_3 : Ref sig .tc := ⟨.hbm, 61, rfl⟩
abbrev main_call1_v13 : Ref sig .tc := ⟨.hbm, 62, rfl⟩
abbrev main_call1_v14 : Ref sig .tc := ⟨.hbm, 63, rfl⟩
abbrev main_call1_v15 : Ref sig .tc := ⟨.hbm, 64, rfl⟩
abbrev main_call1_cst : Ref sig .tc := ⟨.hbm, 65, rfl⟩
abbrev main_call1_v16 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_0 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_1 : Ref sig .tc := ⟨.hbm, 74, rfl⟩
abbrev main_v19 : Ref sig .tc := ⟨.hbm, 75, rfl⟩
abbrev main_v20 : Ref sig .tc := ⟨.hbm, 76, rfl⟩
abbrev main_cst_2 : Ref sig .tc := ⟨.hbm, 77, rfl⟩
abbrev main_v21 : Ref sig .tc := ⟨.hbm, 78, rfl⟩
abbrev main_v22 : Ref sig .tc := ⟨.hbm, 79, rfl⟩
abbrev main_cst_3 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩

abbrev nD : Nat := 1
abbrev τ : Topo := Topo.v7x

variable {F : FTy → Type} [FloatOps F]

class Facts₀ : Prop where
  transposes_S1x13_S13x1_1_0 : S1x13.Transposes [1, 0] S13x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x26 : S_.BroadcastsInDim S16384x26 (![] : Fin 0 → Fin S16384x26.rank)
  transposes_S16384x26_S26x16384_1_0 : S16384x26.Transposes [1, 0] S26x16384
  bcast_S26x16384_S26x16384x1_0_1 : S26x16384.BroadcastsInDim S26x16384x1 (![0, 1] : Fin 2 → Fin S26x16384x1.rank)
  bcast_S_S26x16384x1 : S_.BroadcastsInDim S26x16384x1 (![] : Fin 0 → Fin S26x16384x1.rank)
  bcast_S1_S1x1x1_2 : S1.BroadcastsInDim S1x1x1 (![2] : Fin 1 → Fin S1x1x1.rank)
  bcast_S1x1x1_S26x16384x1_0_1_2 : S1x1x1.BroadcastsInDim S26x16384x1 (![0, 1, 2] : Fin 3 → Fin S26x16384x1.rank)
  reducesTo_S26x16384x1_S26x16384_d2 : S26x16384x1.ReducesTo [2] S26x16384
  h_S_ : 0 < S_.numel
  reducesTo_S26x16384x1_S16384x1_d0 : S26x16384x1.ReducesTo [0] S16384x1
  bcast_S16384x13_S16384x13x1_0_1 : S16384x13.BroadcastsInDim S16384x13x1 (![0, 1] : Fin 2 → Fin S16384x13x1.rank)
  bcast_S13x16_S1x13x16_1_2 : S13x16.BroadcastsInDim S1x13x16 (![1, 2] : Fin 2 → Fin S1x13x16.rank)
  bcast_S16384x13x1_S16384x13x16_0_1_2 : S16384x13x1.BroadcastsInDim S16384x13x16 (![0, 1, 2] : Fin 3 → Fin S16384x13x16.rank)
  bcast_S1x13x16_S16384x13x16_0_1_2 : S1x13x16.BroadcastsInDim S16384x13x16 (![0, 1, 2] : Fin 3 → Fin S16384x13x16.rank)
  bcast_S26x16384_S26x16384x16_0_1 : S26x16384.BroadcastsInDim S26x16384x16 (![0, 1] : Fin 2 → Fin S26x16384x16.rank)
  bcast_S_S26x16384x16 : S_.BroadcastsInDim S26x16384x16 (![] : Fin 0 → Fin S26x16384x16.rank)
  transposes_S26x16384x16_S16384x26x16_1_0_2 : S26x16384x16.Transposes [1, 0, 2] S16384x26x16
  concatenates_S16384x13x16_S16384x26x16_S16384x39x16_d1 : Shape.Concatenates [S16384x13x16, S16384x26x16] S16384x39x16 1
  reducesTo_S16384x39x16_S16384x16_d1 : S16384x39x16.ReducesTo [1] S16384x16
  reducesTo_S16384x16_S16384_d1 : S16384x16.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x13_S13x1_S16384x1_1_0_0_1_n_n_wf : DotDims.WF S16384x13 S13x1 S16384x1 [1] [0] [0] [1] [] []
  gather_S26x100000x1_S26x16384x1_S26x16384x1_2_1_0_0_1_2_111_wf : GatherDims.WF S26x100000x1 S26x16384x1 S26x16384x1 [2] [1] [0] [1] [0] 2 ![1, 1, 1]
  gather_S26x100000x16_S26x16384x1_S26x16384x16_2_1_0_0_1_2_1116_wf : GatherDims.WF S26x100000x16 S26x16384x1 S26x16384x16 [2] [1] [0] [1] [0] 2 ![1, 1, 16]

variable [Facts₀]

def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S26x100000x1_S26x16384x1_S26x16384x1_2_1_0_0_1_2_111 : GatherDims S26x100000x1 S26x16384x1 S26x16384x1 where
  offsetDims := [2]
  collapsedSliceDims := [1]
  operandBatchingDims := [0]
  startIndicesBatchingDims := [0]
  startIndexMap := [1]
  indexVectorDim := 2
  sliceSizes := ![1, 1, 1]
  wf := gather_S26x100000x1_S26x16384x1_S26x16384x1_2_1_0_0_1_2_111_wf
def gather_S26x100000x16_S26x16384x1_S26x16384x16_2_1_0_0_1_2_1116 : GatherDims S26x100000x16 S26x16384x1 S26x16384x16 where
  offsetDims := [2]
  collapsedSliceDims := [1]
  operandBatchingDims := [0]
  startIndicesBatchingDims := [0]
  startIndexMap := [1]
  indexVectorDim := 2
  sliceSizes := ![1, 1, 16]
  wf := gather_S26x100000x16_S26x16384x1_S26x16384x16_2_1_0_0_1_2_1116_wf

class Facts : Prop extends Facts₀ where

variable [Facts]
-- ==== Proof.KernelIdeal.Common.lean ====
/-
  The program as the launch theorem reads it, and the ghost state its proof runs over.

  The device has one TensorCore, which runs the host program, and two SparseCores of sixteen vector subcores each; the
  accumulation kernel runs once on every one of those thirty-two subcores, the combining kernel afterwards on the
  TensorCore as a pipelined region.  The ghost state has three summands: the rounds of the launch handshakes, the rounds of
  the pipelined region's staging cells, and the counters of the subcores' own copies (which need no schedule: every copy
  is waited for before its buffers are touched again).
-/
import proofs.«207209_g54674933678763_cont_9to1_m_278_38_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207209_g54674933678763_cont_9to1_m_278_38_alg».proof.Proof.Gen.KernelIdeal
import proofs.«207209_g54674933678763_cont_9to1_m_278_38_alg».proof.Proof.Gen.KernelIdeal.Skeleton
import proofs.«207209_g54674933678763_cont_9to1_m_278_38_alg».proof.Proof.Gen.KernelIdeal.Launch
import proofs.«207209_g54674933678763_cont_9to1_m_278_38_alg».proof.Proof.Gen.KernelIdeal.Points

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelined region's staging cells' rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

end Cert.Proof.KernelIdeal

end
-- ==== Proof.KernelIdeal.TileRes.lean ====
/-
  What one vector subcore's task of the accumulation kernel is handed and what it hands back.

  The task at the grid point (c, t) reads the three inputs (the factor table transposed to [26, 16, V], the linear
  table transposed to [26, 1, V], the index words laid out field by field) and writes three slices of 8192 words of
  the output: for j = 0 the sum over the 26 fields of the gathered factor component t, for j = 1 the sum of their
  squares, for j = 2 the partial linear sum over the fields t and t + 16.  The values are stated with the float
  operations of the instance, in the order the loops apply them.
-/
import proofs.«207209_g54674933678763_cont_9to1_m_278_38_alg».proof.Proof.KernelIdeal.Common
import Idealize.ShloMosaic.Lib.ValueIdx

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The processor of a grid point -/

abbrev cV (L : grid0.Coords) : Fin τ.nSC := (L 0).castLE hcore0
abbrev jV (L : grid0.Coords) : Fin τ.nSub := (L 1).castLE hsub0

/-! ## The four arrays, as locations of device d -/

abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

/-! ## The values -/

section Values
variable [FloatOps F]
variable (A1 : S425984.Idx → BitVec 32) (A2 : S26x16x100000.Idx → F .f32) (A3 : S26x1x100000.Idx → F .f32)

/-- The index word of example y of half c in field f. -/
def idxW (c f : ℕ) (y : S8192.Idx) : BitVec 32 :=
  A1 (ix1 ⟨(16384 * f + 8192 * c + (y 0).val) % 425984, Nat.mod_lt _ (by norm_num)⟩)

/-- The vocabulary row that word names (the word itself when it is below the vocabulary size). -/
def rowW (c f : ℕ) (y : S8192.Idx) : Fin 100000 := ⟨(idxW A1 c f y).toNat % 100000, Nat.mod_lt _ (by norm_num)⟩

/-- Component t of the factor embedding example y of half c picks in field f. -/
def gFac (c t f : ℕ) (y : S8192.Idx) : F .f32 :=
  A2 (ix3 ⟨f % 26, Nat.mod_lt _ (by norm_num)⟩ ⟨t % 16, Nat.mod_lt _ (by norm_num)⟩ (rowW A1 c f y))

/-- The linear embedding example y of half c picks in field f. -/
def gLin (c f : ℕ) (y : S8192.Idx) : F .f32 :=
  A3 (ix3 ⟨f % 26, Nat.mod_lt _ (by norm_num)⟩ (0 : Fin 1) (rowW A1 c f y))

/-- The float zero the accumulators start from. -/
def fzero : F .f32 := FloatOps.ofBits .f32 0x00000000#32

/-- The first accumulator after n fields: zero, then each field's component added in order. -/
def accSum (c t : ℕ) : ℕ → S8192.Idx → F .f32
  | 0, _ => fzero
  | n + 1, y => FloatOps.addf (accSum c t n y) (gFac A1 A2 c t n y)

/-- The second accumulator after n fields: zero, then each field's squared component added in order. -/
def accSq (c t : ℕ) : ℕ → S8192.Idx → F .f32
  | 0, _ => fzero
  | n + 1, y => FloatOps.addf (accSq c t n y) (FloatOps.mulf (gFac A1 A2 c t n y) (gFac A1 A2 c t n y))

/-- The linear accumulator: zero plus field t, plus field t + 16 when that is a field. -/
def accLin (c t : ℕ) (y : S8192.Idx) : F .f32 :=
  if t + 16 < 26 then FloatOps.addf (FloatOps.addf fzero (gLin A1 A3 c t y)) (gLin A1 A3 c (t + 16) y)
  else FloatOps.addf fzero (gLin A1 A3 c t y)

/-- What the task of half c, subcore t leaves in its j-th output slice. -/
def tileOutN (c t j : ℕ) (y : S8192.Idx) : F .f32 :=
  if j = 0 then accSum A1 A2 c t 26 y else if j = 1 then accSq A1 A2 c t 26 y else accLin A1 A3 c t y

/-- The same at a grid point. -/
def tileOut (L : grid0.Coords) (j : Fin 3) (y : S8192.Idx) : F .f32 := tileOutN A1 A2 A3 (L 0).val (L 1).val j.val y

/-- The whole output array all the tasks leave: word 393216·c + 131072·j + 8192·t + y is task (c, t)'s j-th value at y. -/
def outBuf : S786432.Idx → F .f32 := fun x =>
  tileOutN A1 A2 A3 ((x 0).val / 393216) ((x 0).val / 8192 % 16) ((x 0).val / 131072 % 3)
    (ix1 ⟨(x 0).val % 8192, Nat.mod_lt _ (by norm_num)⟩)

end Values

/-! ## The output slices -/

abbrev outR (L : grid0.Coords) (j : Fin 3) : Rect S786432 :=
  Rect.unit (s := S786432) (k0_off9 L (BitVec.ofNat 32 j.val)) S8192.size (k0_off9_inb L j)
abbrev outM (L : grid0.Coords) (j : Fin 3) : Memref sig .scVector .hbm S8192 .f32 :=
  (Memref.whole main_v4_scv).slice (outR L j) (fun _ => rfl)
/-- The words of the output the task at L writes as its j-th slice. -/
def outSet (L : grid0.Coords) (j : Fin 3) : Finset S786432.Idx := (outM L j).view.set

/-! ## What the task holds -/

section Res
variable (d : Dev nD) (L : grid0.Coords) (q : PosShare TreeShare)
variable (A1 : Buf (Elt F) (v1Loc d)) (A2 : Buf (Elt F) (v2Loc d)) (A3 : Buf (Elt F) (v3Loc d))

/-- The three inputs, whole, at a read share. -/
def inRes : sProp 𝕄 := iprop((v2Loc d ↦{q} A2) ∗ (v3Loc d ↦{q} A3) ∗ (v1Loc d ↦{q} A1))

/-- The task's three output slices at contents f. -/
def outRes (f : Buf (Elt F) (v4Loc d)) : sProp 𝕄 :=
  iprop((v4Loc d ↦[outSet L 0]{fullShare} f) ∗ (v4Loc d ↦[outSet L 1]{fullShare} f) ∗ (v4Loc d ↦[outSet L 2]{fullShare} f))

/-- What the task is handed: the inputs to read, its output slices at the launch contents B4. -/
def goRes (B4 : Buf (Elt F) (v4Loc d)) : sProp 𝕄 := iprop(inRes d q A1 A2 A3 ∗ outRes d L B4)

/-- What the task hands back: the inputs, its output slices at the accumulated values. -/
def tdRes [FloatOps F] : sProp 𝕄 := iprop(inRes d q A1 A2 A3 ∗ outRes d L (outBuf A1 A2 A3))

/-- What the task hands back when only the footprint is stated. -/
def tdResF : sProp 𝕄 := iprop(inRes d q A1 A2 A3 ∗ (∃ f0, v4Loc d ↦[outSet L 0]{fullShare} f0) ∗ (∃ f1, v4Loc d ↦[outSet L 1]{fullShare} f1) ∗ (∃ f2, v4Loc d ↦[outSet L 2]{fullShare} f2))

end Res

end Cert.Proof.KernelIdeal

end
-- ==== Proof.KernelIdeal.Coords.lean ====
/-
  The grid point of a vector subcore: SparseCore c, subcore s.
-/
import proofs.«207209_g54674933678763_cont_9to1_m_278_38_alg».proof.Proof.KernelIdeal.Common
import Idealize.ShloMosaic.Lib.Pipeline.Frame
import proofs.«207209_g54674933678763_cont_9to1_m_278_38_alg».proof.Proof.KernelIdeal.TileRes

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

/-- The grid point (c, s) of the accumulation kernel. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

end Cert.Proof.KernelIdeal

end
-- ==== Proof.KernelIdeal.Host.lean ====
/-
  The host program on the TensorCore around the accumulation call: six layout operations (two transposes of the
  embedding tables, the transposed-and-flattened index matrix, and three reshapes), each run over the device's arrays
  held whole; and the contents they leave.
-/
import proofs.«207209_g54674933678763_cont_9to1_m_278_38_alg».proof.Proof.KernelIdeal.Common
import Idealize.ShloMosaic.Lib.Pipeline.Frame

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The six host operations -/

abbrev op0 : HloOp τ sig (Elt F) := StableHlo.unary main_arg1 main_v0 ((transpose S26x16384 [1, 0] · transposes_S16384x26_S26x16384_1_0) : (⟨S16384x26, .i32⟩ : BufTy).Contents (Elt F) → (⟨S26x16384, .i32⟩ : BufTy).Contents (Elt F))
abbrev op1 : HloOp τ sig (Elt F) := StableHlo.reshape main_v0 main_v1 rfl shapeCasts_S26x16384_S425984
abbrev op2 : HloOp τ sig (Elt F) := StableHlo.unary main_arg6 main_v2 ((transpose S26x16x100000 [0, 2, 1] · transposes_S26x100000x16_S26x16x100000_0_2_1) : (⟨S26x100000x16, .f32⟩ : BufTy).Contents (Elt F) → (⟨S26x16x100000, .f32⟩ : BufTy).Contents (Elt F))
abbrev op3 : HloOp τ sig (Elt F) := StableHlo.unary main_arg4 main_v3 ((transpose S26x1x100000 [0, 2, 1] · transposes_S26x100000x1_S26x1x100000_0_2_1) : (⟨S26x100000x1, .f32⟩ : BufTy).Contents (Elt F) → (⟨S26x1x100000, .f32⟩ : BufTy).Contents (Elt F))
abbrev op4 : HloOp τ sig (Elt F) := StableHlo.reshape main_v4 main_v5 rfl shapeCasts_S786432_S2x3x16x8192
abbrev op5 : HloOp τ sig (Elt F) := StableHlo.reshape main_arg2 main_v6 rfl shapeCasts_S1_S1x1

abbrev r (b : Ref sig .tc) : DevRef τ sig := Proc.devRef .tc b

/-- The TensorCore's arrays (all of them unscoped). -/
abbrev SA : Finset (DevRef τ sig) := Pipeline.ucRefs τ sig

/-- The launch valuation. -/
def V0 (d : Dev nD) : Valuation τ sig (Elt F) := fun b => m (d, b)

theorem hop0 : (op0 (F := F)).bufs ⊆ SA := show ({r main_arg1, r main_v0} : Finset (DevRef τ sig)) ⊆ SA by decide
theorem hop1 : (op1 (F := F)).bufs ⊆ SA := show ({r main_v0, r main_v1} : Finset (DevRef τ sig)) ⊆ SA by decide
theorem hop2 : (op2 (F := F)).bufs ⊆ SA := show ({r main_arg6, r main_v2} : Finset (DevRef τ sig)) ⊆ SA by decide
theorem hop3 : (op3 (F := F)).bufs ⊆ SA := show ({r main_arg4, r main_v3} : Finset (DevRef τ sig)) ⊆ SA by decide
theorem hop4 : (op4 (F := F)).bufs ⊆ SA := show ({r main_v4, r main_v5} : Finset (DevRef τ sig)) ⊆ SA by decide
theorem hop5 : (op5 (F := F)).bufs ⊆ SA := show ({r main_arg2, r main_v6} : Finset (DevRef τ sig)) ⊆ SA by decide

/-- The contents after the four operations before the call. -/
def V4 (d : Dev nD) : Valuation τ sig (Elt F) := (op3 (F := F)).result ((op2 (F := F)).result ((op1 (F := F)).result ((op0 (F := F)).result (V0 m d))))

/-- The four operations before the call, from the launch contents. -/
theorem pre_call (d : Dev nD) {α : Type} (k : Prog (TpuEff nD τ sig (Elt F) (SparseCore.Sig (ΛP (F := F)) 1) .tc) α) (Φ : α → sProp 𝕄) :
    iprop(boundary (SparseCore.T d) ∗ (held (SparseCore.T d) SA (V0 m d) : sProp 𝕄)
        ∗ ((boundary (SparseCore.T d) ∗ (held (SparseCore.T d) SA (V4 m d) : sProp 𝕄)) -∗ wp frame (wpE ((K (F := F)).defs (D (F := F))) 𝒱 (SparseCore.T d) none) Set.univ k Φ))
      ⊢ wp frame (wpE ((K (F := F)).defs (D (F := F))) 𝒱 (SparseCore.T d) none) Set.univ
          (hlo rfl (op0 (F := F)) (fun _ => hlo rfl (op1 (F := F)) (fun _ => hlo rfl (op2 (F := F)) (fun _ => hlo rfl (op3 (F := F)) (fun _ => k))))) Φ := by
  iintro ⟨Hb, Hh, Hk⟩
  iapply (wp_hlo_within 𝒱 (SparseCore.T d) none Set.univ (op := op0) (S := SA) hop0 (V := V0 m d)) $$ [Hb Hh]
  · isplitl [Hb] <;> iassumption
  iintro ⟨Hb, Hh⟩
  iapply (wp_hlo_within 𝒱 (SparseCore.T d) none Set.univ (op := op1) (S := SA) hop1) $$ [Hb Hh]
  · isplitl [Hb] <;> iassumption
  iintro ⟨Hb, Hh⟩
  iapply (wp_hlo_within 𝒱 (SparseCore.T d) none Set.univ (op := op2) (S := SA) hop2) $$ [Hb Hh]
  · isplitl [Hb] <;> iassumption
  iintro ⟨Hb, Hh⟩
  iapply (wp_hlo_within 𝒱 (SparseCore.T d) none Set.univ (op := op3) (S := SA) hop3) $$ [Hb Hh]
  · isplitl [Hb] <;> iassumption
  iintro ⟨Hb, Hh⟩
  iapply Hk
  isplitl [Hb]; · iexact Hb
  iexact Hh

/-- The two reshapes after the call, over any set of arrays that holds theirs. -/
theorem post_call (d : Dev nD) (SB : Finset (DevRef τ sig)) (h4 : (op4 (F := F)).bufs ⊆ SB) (h5 : (op5 (F := F)).bufs ⊆ SB) (Vc : Valuation τ sig (Elt F))
    {α : Type} (k : Prog (TpuEff nD τ sig (Elt F) (SparseCore.Sig (ΛP (F := F)) 1) .tc) α) (Φ : α → sProp 𝕄) :
    iprop(boundary (SparseCore.T d) ∗ (held (SparseCore.T d) SB Vc : sProp 𝕄)
        ∗ ((boundary (SparseCore.T d) ∗ (held (SparseCore.T d) SB ((op5 (F := F)).result ((op4 (F := F)).result Vc)) : sProp 𝕄))
            -∗ wp frame (wpE ((K (F := F)).defs (D (F := F))) 𝒱 (SparseCore.T d) none) Set.univ k Φ))
      ⊢ wp frame (wpE ((K (F := F)).defs (D (F := F))) 𝒱 (SparseCore.T d) none) Set.univ
          (hlo rfl (op4 (F := F)) (fun _ => hlo rfl (op5 (F := F)) (fun _ => k))) Φ := by
  iintro ⟨Hb, Hh, Hk⟩
  iapply (wp_hlo_within 𝒱 (SparseCore.T d) none Set.univ (op := op4) (S := SB) h4 (V := Vc)) $$ [Hb Hh]
  · isplitl [Hb] <;> iassumption
  iintro ⟨Hb, Hh⟩
  iapply (wp_hlo_within 𝒱 (SparseCore.T d) none Set.univ (op := op5) (S := SB) h5) $$ [Hb Hh]
  · isplitl [Hb] <;> iassumption
  iintro ⟨Hb, Hh⟩
  iapply Hk
  isplitl [Hb]; · iexact Hb
  iexact Hh

omit [FloatOps F] in
/-- An array held whole is what the final memory holds there. -/
theorem agree_whole (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

end Cert.Proof.KernelIdeal

end
-- ==== Proof.KernelIdeal.Pay.lean ====
/-
  What the launch handshakes carry.  The TensorCore's start hands each SparseCore a read share of the three inputs and
  the output slices of its sixteen subcores; the sequencer's go hands each subcore a read share of the inputs and its
  three slices; taskDone and done bring the slices back at the accumulated values (the read shares are not needed
  again and are let go).
-/
import proofs.«207209_g54674933678763_cont_9to1_m_278_38_alg».proof.Proof.KernelIdeal.Common
import Idealize.ShloMosaic.Lib.Pipeline.Frame
import proofs.«207209_g54674933678763_cont_9to1_m_278_38_alg».proof.Proof.KernelIdeal.Coords
import proofs.«207209_g54674933678763_cont_9to1_m_278_38_alg».proof.Proof.KernelIdeal.Host

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

open Idealize.ShloMosaic.Transfers (shareTok shareDrop pointsTo_toks)

variable (m : (ℓ : Loc nD τ sig) → Buf (Elt F) ℓ) (ρ : Dev nD → PrngReg)
variable [FloatOps F]

/-! ## The arrays' contents when the call is made -/

def A1 (d : Dev nD) : Buf (Elt F) (v1Loc d) := V4 m d (r main_v1)
def A2 (d : Dev nD) : Buf (Elt F) (v2Loc d) := V4 m d (r main_v2)
def A3 (d : Dev nD) : Buf (Elt F) (v3Loc d) := V4 m d (r main_v3)
def B4 (d : Dev nD) : Buf (Elt F) (v4Loc d) := V4 m d (r main_v4)

/-- A SparseCore's read share, and a subcore's. -/
abbrev qC (c : Fin 2) : PosShare TreeShare := shareTok fullShare 2 c
abbrev qT (c : Fin 2) (i : Fin 16) : PosShare TreeShare := shareTok (qC c) 16 i

abbrev c2 (c : Fin ((K (F := F)).nCore 0)) : Fin 2 := Fin.cast nCore_zero c
abbrev i16 (i : Fin ((K (F := F)).nSub 0)) : Fin 16 := Fin.cast nSub_zero i

/-- The grid point of subcore i of SparseCore c of the call's grid. -/
abbrev LV (c : Fin ((K (F := F)).nCore 0)) (i : Fin ((K (F := F)).nSub 0)) : grid0.Coords :=
  coordsV (Fin.cast (nCore_zero.trans bound_zero.symm) c) (Fin.cast (nSub_zero.trans bound_one.symm) i)

def stRes (d : Dev nD) (c : Fin ((K (F := F)).nCore 0)) : sProp 𝕄 :=
  iprop(inRes d (qC (c2 c)) (A1 m d) (A2 m d) (A3 m d) ∗ bigSep Finset.univ fun i : Fin ((K (F := F)).nSub 0) => outRes d (LV c i) (B4 m d))
def dnRes (d : Dev nD) (c : Fin ((K (F := F)).nCore 0)) : sProp 𝕄 :=
  bigSep Finset.univ fun i : Fin ((K (F := F)).nSub 0) => outRes d (LV c i) (outBuf (A1 m d) (A2 m d) (A3 m d))

def P : (K (F := F)).Pay (nD := nD) (Val := Elt F) (Name := ℕ) (U := UU) where
  st := fun q d c => match q with | 0 => stRes m d c
  dn := fun q d c => match q with | 0 => dnRes m d c
  go := fun q d c i => match q with | 0 => goRes d (LV c i) (qT (c2 c) (i16 i)) (A1 m d) (A2 m d) (A3 m d) (B4 m d)
  td := fun q d c i => match q with | 0 => tdRes d (LV c i) (qT (c2 c) (i16 i)) (A1 m d) (A2 m d) (A3 m d)
  x := fun _ _ => iprop(emp)

instance stRes_storable (d : Dev nD) (c : Fin ((K (F := F)).nCore 0)) : BI.Storable (upEmb : UEmb _ 𝕄) (stRes m d c) := by
  unfold stRes inRes outRes; infer_instance
instance dnRes_storable (d : Dev nD) (c : Fin ((K (F := F)).nCore 0)) : BI.Storable (upEmb : UEmb _ 𝕄) (dnRes m d c) := by
  unfold dnRes outRes; infer_instance
omit [FloatOps F] in
instance goRes_storable (d : Dev nD) (L : grid0.Coords) (q : PosShare TreeShare) (a1 : Buf (Elt F) (v1Loc d)) (a2 : Buf (Elt F) (v2Loc d)) (a3 : Buf (Elt F) (v3Loc d))
    (b4 : Buf (Elt F) (v4Loc d)) : BI.Storable (upEmb : UEmb _ 𝕄) (goRes d L q a1 a2 a3 b4) := by
  unfold goRes inRes outRes; infer_instance
instance tdRes_storable (d : Dev nD) (L : grid0.Coords) (q : PosShare TreeShare) (a1 : Buf (Elt F) (v1Loc d)) (a2 : Buf (Elt F) (v2Loc d)) (a3 : Buf (Elt F) (v3Loc d)) :
    BI.Storable (upEmb : UEmb _ 𝕄) (tdRes d L q a1 a2 a3) := by
  unfold tdRes inRes outRes; infer_instance

instance P_storable : (P (F := F) m).IsStorable where
  st q d c := match q with | 0 => stRes_storable m d c
  dn q d c := match q with | 0 => dnRes_storable m d c
  go q d c i := match q with | 0 => goRes_storable d _ _ _ _ _ _
  td q d c i := match q with | 0 => tdRes_storable d _ _ _ _ _

end Cert.Proof.KernelIdeal

end
-- ==== Proof.KernelIdeal.Launch1.lean ====
/-
  The launch theorem's obligations for the accumulation call: a subcore's task (from the body's run at a symbolic grid
  point) and the split of a SparseCore's operands among its sixteen subcores.
-/
import proofs.«207209_g54674933678763_cont_9to1_m_278_38_alg».proof.Proof.KernelIdeal.Common
import Idealize.ShloMosaic.Lib.Pipeline.Frame
import proofs.«207209_g54674933678763_cont_9to1_m_278_38_alg».proof.Proof.KernelIdeal.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

open Idealize.ShloMosaic.Transfers (shareTok shareDrop pointsTo_toks)

variable (m : (ℓ : Loc nD τ sig) → Buf (Elt F) ℓ) (ρ : Dev nD → PrngReg)
variable [FloatOps F]

/-- The run of one subcore's task at a symbolic grid point, as the launch uses it: from the inputs at a read share and
    the task's three output slices, and the subcore's own scoped storage, to the slices at the accumulated values. -/
def TileBody : Prop :=
  ∀ (d : Dev nD) (L : grid0.Coords) (q : PosShare TreeShare) (O : CellTallies nD τ sig (HIx 1)) (W : Waits sig (HIx 1)), (∀ g, O g none = 0) →
    iprop(levAts (K (F := F)).L (K (F := F)).lev ∗ emp ∗ goRes d L q (A1 m d) (A2 m d) (A3 m d) (B4 m d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_v2_scv) (Memref.isWhole_whole _) (Memref.whole main_v3_scv) (Memref.isWhole_whole _)
            (Memref.whole main_v1_scv) (Memref.isWhole_whole _) (Memref.whole main_v4_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scoped0 cc0_scoped1 cc0_scoped2)
          fun _ => iprop(tdRes d L q (A1 m d) (A2 m d) (A3 m d) ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 0 ()
      = SparseCore.onTile hcore0 hsub0 (fun c s => cc0_k (coordsV c s) (Memref.whole main_v2_scv) (Memref.isWhole_whole _) (Memref.whole main_v3_scv) (Memref.isWhole_whole _)
            (Memref.whole main_v1_scv) (Memref.isWhole_whole _) (Memref.whole main_v4_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) _ O W hO).trans (wp_mono frame _ _ fun _ => obl_post)

omit [FloatOps F] in
/-- A read share of the three inputs splits into n smaller ones (the remainder is let go). -/
theorem inRes_split (d : Dev nD) (q : PosShare TreeShare) (n : ℕ) (a1 : Buf (Elt F) (v1Loc d)) (a2 : Buf (Elt F) (v2Loc d)) (a3 : Buf (Elt F) (v3Loc d)) :
    (inRes d q a1 a2 a3 : sProp 𝕄) ⊢ bigSep Finset.univ fun i : Fin n => inRes d (shareTok q n i) a1 a2 a3 := by
  unfold inRes
  simp only [bigSep_sep']
  iintro ⟨H2, H3, H1⟩
  ihave H2' := (pointsTo_toks (ℓ := v2Loc d) (S := Finset.univ) (f := a2) q n).1 $$ H2
  icases H2' with ⟨-, H2⟩
  ihave H3' := (pointsTo_toks (ℓ := v3Loc d) (S := Finset.univ) (f := a3) q n).1 $$ H3
  icases H3' with ⟨-, H3⟩
  ihave H1' := (pointsTo_toks (ℓ := v1Loc d) (S := Finset.univ) (f := a1) q n).1 $$ H1
  icases H1' with ⟨-, H1⟩
  isplitl [H2]; · iexact H2
  isplitl [H3]; · iexact H3
  iexact H1

theorem vecSplit : (K (F := F)).VecSplit' (P m) 0 := by
  intro d c
  show stRes m d c ⊢ |={Set.univ}=> iprop(
      (bigSep Finset.univ fun i : Fin ((K (F := F)).nSub 0) => goRes d (LV c i) (qT (c2 c) (i16 i)) (A1 m d) (A2 m d) (A3 m d) (B4 m d))
      ∗ ((bigSep Finset.univ fun i : Fin ((K (F := F)).nSub 0) => tdRes d (LV c i) (qT (c2 c) (i16 i)) (A1 m d) (A2 m d) (A3 m d)) -∗ dnRes m d c))
  unfold stRes dnRes goRes tdRes
  simp only [bigSep_sep']
  iintro ⟨Hin, Hout⟩
  ihave Hin' := (inRes_split d (qC (c2 c)) 16 (A1 m d) (A2 m d) (A3 m d)) $$ Hin
  imodintro
  isplitl [Hin' Hout]
  · isplitl [Hin']; · iexact Hin'
    iexact Hout
  iintro ⟨-, Hout⟩
  iexact Hout

end Cert.Proof.KernelIdeal

end
-- ==== Proof.KernelIdeal.RegionData.lean ====
/-
  The combining kernel as a pipelined region: what it computes, array by array.

  The region walks 32 points.  At point t it stages, of the accumulated planes [2, 3, 16, 8192], the block
  [t / 16, :, :, (t % 16) * 512 .. + 512); of the dense features rows t * 512 .. + 512; the dense factors, the linear weight
  row and the bias whole; and writes rows t * 512 .. + 512 of the result from the body's arithmetic on those blocks.
  So row r of the result is the body's arithmetic at point r / 512, read at row r % 512.
-/
import proofs.«207209_g54674933678763_cont_9to1_m_278_38_alg».proof.Proof.KernelIdeal.Common
import Idealize.ShloMosaic.Lib.Pipeline.FrameBody

noncomputable section

namespace Cert.Proof.KernelIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-- The region has no prefetched table. -/
abbrev adm : (p : Fin 1) → (pcfgs (F := F) p).Adm := fun p => (cfgs p).toPCfg_adm

/-! ## The arrays' contents when the region is entered, and the blocks the points stage -/

abbrev C5 (F : FTy → Type) : Type := (⟨S2x3x16x8192, .f32⟩ : BufTy).Contents (Elt F)
abbrev C0 (F : FTy → Type) : Type := (⟨S16384x13, .f32⟩ : BufTy).Contents (Elt F)
abbrev Cvn (F : FTy → Type) : Type := (⟨S13x16, .f32⟩ : BufTy).Contents (Elt F)
abbrev CW (F : FTy → Type) : Type := (⟨S1x13, .f32⟩ : BufTy).Contents (Elt F)
abbrev Cb (F : FTy → Type) : Type := (⟨S1x1, .f32⟩ : BufTy).Contents (Elt F)
abbrev C7 (F : FTy → Type) : Type := (⟨S16384x1, .f32⟩ : BufTy).Contents (Elt F)

/-- The blocks the pipeline stages at point `t`, read off the arrays. -/
def blk5 (X5 : C5 F) (t : Fin cfg1.N) : Vec F S1x3x16x512 .f32 := ((cfg1.win 0).blk t).view.read (Elt F) X5
def blk0 (X0 : C0 F) (t : Fin cfg1.N) : Vec F S512x13 .f32 := ((cfg1.win 1).blk t).view.read (Elt F) X0
def blkvn (Xvn : Cvn F) (t : Fin cfg1.N) : Vec F S13x16 .f32 := ((cfg1.win 2).blk t).view.read (Elt F) Xvn
def blkW (XW : CW F) (t : Fin cfg1.N) : Vec F S1x13 .f32 := ((cfg1.win 3).blk t).view.read (Elt F) XW
def blkb (Xb : Cb F) (t : Fin cfg1.N) : Vec F S1x1 .f32 := ((cfg1.win 4).blk t).view.read (Elt F) Xb

/-- What the body computes at point `t`: its arithmetic on the five staged blocks, 512 rows of the result. -/
def payAt (X5 : C5 F) (X0 : C0 F) (Xvn : Cvn F) (XW : CW F) (Xb : Cb F) (t : Fin cfg1.N) : Vec F S512x1 .f32 :=
  k1_pay1 (blk5 X5 t) (blk0 X0 t) (blkvn Xvn t) (blkW XW t) (blkb Xb t)

/-- THE RESULT, whole: row `r` is the body's arithmetic at point `r / 512`, read at row `r % 512`. -/
def regionOut (X5 : C5 F) (X0 : C0 F) (Xvn : Cvn F) (XW : CW F) (Xb : Cb F) : C7 F := fun j =>
  payAt X5 X0 Xvn XW Xb ⟨(j 0).val / 512, by have h : (j 0).val < 16384 := (j 0).isLt; show (j 0).val / 512 < 32; omega⟩
    (fun a => match a with
      | ⟨0, _⟩ => ⟨(j 0).val % 512, Nat.mod_lt _ (by norm_num)⟩
      | ⟨1, _⟩ => ⟨0, by norm_num⟩)

/-! ## The pipeline's proof data -/

/-- The six arrays at region entry, by window. -/
def arrs (d : Dev nD) (X5 : C5 F) (X0 : C0 F) (Xvn : Cvn F) (XW : CW F) (Xb : Cb F) (X7 : C7 F) :
    (w : Fin cfg1.W) → Buf (Elt F) ((cfg1.win w).arr.view.loc (d : Thread nD τ))
  | ⟨0, _⟩ => X5
  | ⟨1, _⟩ => X0
  | ⟨2, _⟩ => Xvn
  | ⟨3, _⟩ => XW
  | ⟨4, _⟩ => Xb
  | ⟨5, _⟩ => X7

/-- The proof data on core `d`: the arrays as the region finds them; after the body at point `t` each input's buffer at its
    block and the result's at the body's arithmetic on them; as invariant the scoped buffers no window stages (none); nothing
    owed; full shares. -/
def dats (X5 : C5 F) (X0 : C0 F) (Xvn : Cvn F) (XW : CW F) (Xb : Cb F) (X7 : C7 F) (_ : Fin 1) (d : Dev nD) :
    Dat τ (Elt F) (HIx 1) ℕ UU ℕ cfg1 d where
  A := arrs d X5 X0 Xvn XW Xb X7
  after w t := match w with
    | ⟨0, _⟩ => blk5 X5 t
    | ⟨1, _⟩ => blk0 X0 t
    | ⟨2, _⟩ => blkvn Xvn t
    | ⟨3, _⟩ => blkW XW t
    | ⟨4, _⟩ => blkb Xb t
    | ⟨5, _⟩ => payAt X5 X0 Xvn XW Xb t
  Φ _ := Pipeline.scopedRest (Ix := HIx 1) (Name := ℕ) (U := UU) (Lvl := ℕ) (Val := Elt F) spec1 d
  q _ := fullShare
  owed _ := 0

end Cert.Proof.KernelIdeal

end
-- ==== Proof.KernelIdeal.Vals.lean ====
/-
  The arrays' contents along the host program: after the accumulation call, after the two reshapes; and the result
  array the combining region leaves.
-/
import proofs.«207209_g54674933678763_cont_9to1_m_278_38_alg».proof.Proof.KernelIdeal.Common
import Idealize.ShloMosaic.Lib.Pipeline.Frame
import proofs.«207209_g54674933678763_cont_9to1_m_278_38_alg».proof.Proof.KernelIdeal.Pay
import proofs.«207209_g54674933678763_cont_9to1_m_278_38_alg».proof.Proof.KernelIdeal.RegionData

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## The valuations along the program -/

/-- After the call: the output array at the accumulated values. -/
def Vc (d : Dev nD) : Valuation τ sig (Elt F) := Function.update (V4 m d) (r main_v4) (outBuf (A1 m d) (A2 m d) (A3 m d))
/-- After the two reshapes. -/
def V6 (d : Dev nD) : Valuation τ sig (Elt F) := (op5 (F := F)).result ((op4 (F := F)).result (Vc m d))

/-- The result array. -/
def OUT (d : Dev nD) : C7 F :=
  regionOut (V6 m d (r main_v5)) (V6 m d (r main_arg0)) (V6 m d (r main_arg5)) (V6 m d (r main_arg3)) (V6 m d (r main_v6))

end Cert.Proof.KernelIdeal

end
-- ==== Proof.KernelIdeal.OutCover.lean ====
/-
  The output slices of the accumulation kernel's thirty-two tasks tile the output array.

  The array has 786432 = 96 · 8192 words.  The task at the grid point (c, t) writes, as its j-th slice (j = 0, 1, 2), the
  8192 consecutive words from 393216·c + 131072·j + 8192·t: block number 48·c + 16·j + t of the 96 blocks of 8192 words.
  The map (c, t, j) ↦ 48·c + 16·j + t is a bijection from [0,2) × [0,16) × [0,3) onto [0,96) (c is the quotient by 48,
  j the quotient by 16 modulo 3, t the remainder modulo 16), so the slices are pairwise disjoint and cover the array, and
  holding the whole array is holding every task's three slices.
-/
import proofs.«207209_g54674933678763_cont_9to1_m_278_38_alg».proof.Proof.KernelIdeal.Coords

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The ninety-six blocks -/

theorem hdiv96 : 96 ∣ S786432.size 0 := ⟨8192, rfl⟩

/-- The block number of the j-th slice of the task at L. -/
def blk (L : grid0.Coords) (j : Fin 3) : Fin 96 :=
  ⟨48 * (L 0).val + 16 * j.val + (L 1).val, by
    have h0 : (L 0).val < 2 := (L 0).isLt
    have h1 : (L 1).val < 16 := (L 1).isLt
    have := j.isLt
    omega⟩

/-- The slice's rectangle is that block. -/
theorem outR_eq (L : grid0.Coords) (j : Fin 3) :
    outR L j = Rect.part (s := S786432) (a₀ := 0) hdiv96 (blk L j) := by
  unfold outR Rect.part Rect.block
  congr 1 <;> funext a
  · rw [k0_off9_eq]
    have ha : a = 0 := Subsingleton.elim _ _
    subst ha
    show 393216 * (L 0).val + 131072 * j.val + 8192 * (L 1).val
      = (48 * (L 0).val + 16 * j.val + (L 1).val) * (786432 / 96)
    omega
  · have ha : a = 0 := Subsingleton.elim _ _
    subst ha
    show 8192 = 786432 / 96
    rfl

/-- The slice's words are that block's. -/
theorem outSet_eq (L : grid0.Coords) (j : Fin 3) :
    outSet L j = (Rect.part (s := S786432) (a₀ := 0) hdiv96 (blk L j)).set := by
  unfold outSet
  show ((View.whole (main_v4_scv : Ref sig .scVector)).slice (outR L j)).set = _
  rw [View.set_slice_whole, outR_eq]

/-! ## The slices, indexed by (c, t, j) -/

abbrev TT : Type := Fin (grid0.bound 0) × Fin (grid0.bound 1) × Fin 3

/-- The words of the slice (c, t, j). -/
def KK (x : TT) : Finset S786432.Idx := outSet (coordsV x.1 x.2.1) x.2.2

/-- Different slices are different blocks. -/
theorem blk_inj (x x' : TT) (h : blk (coordsV x.1 x.2.1) x.2.2 = blk (coordsV x'.1 x'.2.1) x'.2.2) : x = x' := by
  obtain ⟨c, i, j⟩ := x
  obtain ⟨c', i', j'⟩ := x'
  have h' : 48 * c.val + 16 * j.val + i.val = 48 * c'.val + 16 * j'.val + i'.val := congrArg Fin.val h
  have hc : c.val < 2 := c.isLt
  have hc' : c'.val < 2 := c'.isLt
  have hi : i.val < 16 := i.isLt
  have hi' : i'.val < 16 := i'.isLt
  have hj := j.isLt
  have hj' := j'.isLt
  have e1 : c = c' := Fin.ext (by omega)
  have e2 : i = i' := Fin.ext (by omega)
  have e3 : j = j' := Fin.ext (by omega)
  rw [e1, e2, e3]

theorem KK_disjoint : ∀ x ∈ (Finset.univ : Finset TT), ∀ x' ∈ (Finset.univ : Finset TT), x ≠ x' → Disjoint (KK x) (KK x') :=
  fun x _ x' _ h => by
    unfold KK
    rw [outSet_eq, outSet_eq]
    exact Rect.part_disjoint hdiv96 fun e => h (blk_inj x x' e)

theorem KK_cover : (Finset.univ : Finset TT).biUnion KK = Finset.univ := by
  ext x
  simp only [Finset.mem_biUnion, Finset.mem_univ, true_and, iff_true]
  obtain ⟨n, hn⟩ := Rect.exists_mem_part hdiv96 x
  have hn' := n.isLt
  refine ⟨(⟨n.val / 48, show n.val / 48 < 2 by omega⟩, ⟨n.val % 16, show n.val % 16 < 16 by omega⟩,
    ⟨n.val / 16 % 3, by omega⟩), ?_⟩
  unfold KK
  rw [outSet_eq]
  have e : blk (coordsV ⟨n.val / 48, show n.val / 48 < 2 by omega⟩ ⟨n.val % 16, show n.val % 16 < 16 by omega⟩)
      ⟨n.val / 16 % 3, by omega⟩ = n :=
    Fin.ext (by show 48 * (n.val / 48) + 16 * (n.val / 16 % 3) + n.val % 16 = n.val; omega)
  rw [e]
  exact hn

/-! ## The whole array is the tasks' slices -/

theorem bigSep_three (Φ : Fin 3 → sProp 𝕄) : bigSep Finset.univ Φ = iprop(Φ 0 ∗ Φ 1 ∗ Φ 2) := by
  rw [show (Finset.univ : Finset (Fin 3)) = {0, 1, 2} from by decide, bigSep_insert (by decide),
    bigSep_insert (by decide), bigSep_singleton]
  rfl

/-- Holding the whole output array at contents f is holding every task's three slices at f. -/
theorem v4_split (d : Dev nD) (f : Buf (Elt F) (v4Loc d)) :
    (v4Loc d ↦{fullShare} f : sProp 𝕄)
      = bigSep Finset.univ fun c : Fin (grid0.bound 0) => bigSep Finset.univ fun i : Fin (grid0.bound 1) =>
          outRes d (coordsV c i) f := by
  have h1 : (v4Loc d ↦{fullShare} f : sProp 𝕄)
      = bigSep (Finset.univ : Finset TT) fun x => v4Loc d ↦[KK x]{fullShare} f := by
    rw [← pointsTo_biUnion Finset.univ (ℓ := v4Loc d) KK KK_disjoint, KK_cover]; try rfl
  rw [h1, bigSep_univ_prod]
  refine bigSep_congr fun c _ => ?_
  rw [bigSep_univ_prod]
  refine bigSep_congr fun i _ => ?_
  rw [bigSep_three]
  rfl

end Cert.Proof.KernelIdeal

end
-- ==== Proof.KernelIdeal.RegionBody.lean ====
/-
  The combining kernel's body at one point: it loads its five input blocks, computes, and stores the 512 rows of the result;
  the inputs' staging buffers are left as found.
-/
import proofs.«207209_g54674933678763_cont_9to1_m_278_38_alg».proof.Proof.KernelIdeal.RegionData
import Idealize.ShloMosaic.Lib.Tactic
import Idealize.ShloMosaic.Lib.Pipeline.Value

noncomputable section

namespace Cert.Proof.KernelIdeal

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

theorem hz2 : (![0, 0] : Fin 2 → Nat) = fun _ => 0 := funext fun a => by fin_cases a <;> rfl
theorem hz4 : (![0, 0, 0, 0] : Fin 4 → Nat) = fun _ => 0 := funext fun a => by fin_cases a <;> rfl

abbrev r5 : Rect S512x1 := Rect.unit (s := S512x1) ![0, 0] S512x1.size inb_S512x1_S512x1_0_0

theorem cover5 (p0 : Vec F S512x1 .f32) (y : S512x1.Idx) :
    ∃ pc ∈ ([⟨r5, p0⟩] : List (View.Piece (Elt F) S512x1 .f32)), y ∈ pc.1.set :=
  View.cover_of_tiled [⟨r5, p0⟩] S512x1.size (by rfl) y

set_option maxHeartbeats 1000000 in
/-- The body on whole staging memrefs, the inputs' at read contents and the result's at anything, runs to the continuation
    holding the inputs' as they were and the result's at the body's arithmetic on them. -/
theorem sound_kernel (c : Dev nD) (E : Set ℕ) (i : grid1.Coords)
    (arg1 : Memref sig .tc .vmem S1x3x16x512 .f32) (harg1 : arg1.IsWhole) (arg2 : Memref sig .tc .vmem S512x13 .f32) (harg2 : arg2.IsWhole)
    (arg3 : Memref sig .tc .vmem S13x16 .f32) (harg3 : arg3.IsWhole) (arg4 : Memref sig .tc .vmem S1x13 .f32) (harg4 : arg4.IsWhole)
    (arg5 : Memref sig .tc .vmem S1x1 .f32) (harg5 : arg5.IsWhole) (arg6 : Memref sig .tc .vmem S512x1 .f32) (harg6 : arg6.IsWhole)
    (x0 : Vec F S1x3x16x512 .f32) (x1 : Vec F S512x13 .f32) (x2 : Vec F S13x16 .f32) (x3 : Vec F S1x13 .f32) (x4 : Vec F S1x1 .f32)
    (Kk : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ Kk ⟨⟩))
      ⊢ wp frame (wpE (defs₀ (F := F)) 𝒱₀ c none) E (cc1_body i arg1 harg1 arg2 harg2 arg3 harg3 arg4 harg4 arg5 harg5 arg6 harg6) Kk := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover5 _)).trans ?_
  rw [View.canon_unit_zero hz2]
  show k1_pay1 (View.ld (View.read (Elt F) arg1.view f0) (Rect.unit (s := S1x3x16x512) ![0, 0, 0, 0] S1x3x16x512.size inb_S1x3x16x512_S1x3x16x512_0_0_0_0))
      (View.ld (View.read (Elt F) arg2.view f1) (Rect.unit (s := S512x13) ![0, 0] S512x13.size inb_S512x13_S512x13_0_0))
      (View.ld (View.read (Elt F) arg3.view f2) (Rect.unit (s := S13x16) ![0, 0] S13x16.size inb_S13x16_S13x16_0_0))
      (View.ld (View.read (Elt F) arg4.view f3) (Rect.unit (s := S1x13) ![0, 0] S1x13.size inb_S1x13_S1x13_0_0))
      (View.ld (View.read (Elt F) arg5.view f4) (Rect.unit (s := S1x1) ![0, 0] S1x1.size inb_S1x1_S1x1_0_0)) = _
  rw [View.ld_unit_zero (S := S1x3x16x512) hz4, View.ld_unit_zero (S := S512x13) hz2, View.ld_unit_zero (S := S13x16) hz2,
    View.ld_unit_zero (S := S1x13) hz2, View.ld_unit_zero (S := S1x1) hz2]

/-! ## What the body is handed and what it leaves, window by window -/

section Obligation

variable (X5 : C5 F) (X0 : C0 F) (Xvn : Cvn F) (XW : CW F) (Xb : Cb F) (X7 : C7 F) (d : Dev nD)

theorem A1_0 : (dats X5 X0 Xvn XW Xb X7 0 d).A 0 = X5 := by dsimp only [dats, arrs]
theorem A1_1 : (dats X5 X0 Xvn XW Xb X7 0 d).A 1 = X0 := by dsimp only [dats, arrs]
theorem A1_2 : (dats X5 X0 Xvn XW Xb X7 0 d).A 2 = Xvn := by dsimp only [dats, arrs]
theorem A1_3 : (dats X5 X0 Xvn XW Xb X7 0 d).A 3 = XW := by dsimp only [dats, arrs]
theorem A1_4 : (dats X5 X0 Xvn XW Xb X7 0 d).A 4 = Xb := by dsimp only [dats, arrs]
theorem A1_5 : (dats X5 X0 Xvn XW Xb X7 0 d).A 5 = X7 := by dsimp only [dats, arrs]

theorem after1_0 (t : Fin cfg1.N) : (dats X5 X0 Xvn XW Xb X7 0 d).after 0 t = blk5 X5 t := by dsimp only [dats]
theorem after1_1 (t : Fin cfg1.N) : (dats X5 X0 Xvn XW Xb X7 0 d).after 1 t = blk0 X0 t := by dsimp only [dats]
theorem after1_2 (t : Fin cfg1.N) : (dats X5 X0 Xvn XW Xb X7 0 d).after 2 t = blkvn Xvn t := by dsimp only [dats]
theorem after1_3 (t : Fin cfg1.N) : (dats X5 X0 Xvn XW Xb X7 0 d).after 3 t = blkW XW t := by dsimp only [dats]
theorem after1_4 (t : Fin cfg1.N) : (dats X5 X0 Xvn XW Xb X7 0 d).after 4 t = blkb Xb t := by dsimp only [dats]
theorem after1_5 (t : Fin cfg1.N) : (dats X5 X0 Xvn XW Xb X7 0 d).after 5 t = payAt X5 X0 Xvn XW Xb t := by dsimp only [dats]

/-- Each input's current staging buffer holds its block at every point, fetched there or not: unfetched, the block index
    has not moved and the body left the block in place. -/
theorem before1_0 (t : Fin cfg1.N) (dd) : (dats X5 X0 Xvn XW Xb X7 0 d).before 0 t dd = blk5 X5 t :=
  ((dats X5 X0 Xvn XW Xb X7 0 d).before_in_eq_fetched 0 rfl (fun _ => rfl) (fun _ _ _ => rfl)
      (fun t => by rw [after1_0]; unfold Dat.blockOf blk5; rw [A1_0]; try rfl) t dd).trans
    (by unfold Dat.fetched Dat.blockOf blk5; rw [A1_0]; try rfl)
theorem before1_1 (t : Fin cfg1.N) (dd) : (dats X5 X0 Xvn XW Xb X7 0 d).before 1 t dd = blk0 X0 t :=
  ((dats X5 X0 Xvn XW Xb X7 0 d).before_in_eq_fetched 1 rfl (fun _ => rfl) (fun _ _ _ => rfl)
      (fun t => by rw [after1_1]; unfold Dat.blockOf blk0; rw [A1_1]; try rfl) t dd).trans
    (by unfold Dat.fetched Dat.blockOf blk0; rw [A1_1]; try rfl)
theorem before1_2 (t : Fin cfg1.N) (dd) : (dats X5 X0 Xvn XW Xb X7 0 d).before 2 t dd = blkvn Xvn t :=
  ((dats X5 X0 Xvn XW Xb X7 0 d).before_in_eq_fetched 2 rfl (fun _ => rfl) (fun _ _ _ => rfl)
      (fun t => by rw [after1_2]; unfold Dat.blockOf blkvn; rw [A1_2]; try rfl) t dd).trans
    (by unfold Dat.fetched Dat.blockOf blkvn; rw [A1_2]; try rfl)
theorem before1_3 (t : Fin cfg1.N) (dd) : (dats X5 X0 Xvn XW Xb X7 0 d).before 3 t dd = blkW XW t :=
  ((dats X5 X0 Xvn XW Xb X7 0 d).before_in_eq_fetched 3 rfl (fun _ => rfl) (fun _ _ _ => rfl)
      (fun t => by rw [after1_3]; unfold Dat.blockOf blkW; rw [A1_3]; try rfl) t dd).trans
    (by unfold Dat.fetched Dat.blockOf blkW; rw [A1_3]; try rfl)
theorem before1_4 (t : Fin cfg1.N) (dd) : (dats X5 X0 Xvn XW Xb X7 0 d).before 4 t dd = blkb Xb t :=
  ((dats X5 X0 Xvn XW Xb X7 0 d).before_in_eq_fetched 4 rfl (fun _ => rfl) (fun _ _ _ => rfl)
      (fun t => by rw [after1_4]; unfold Dat.blockOf blkb; rw [A1_4]; try rfl) t dd).trans
    (by unfold Dat.fetched Dat.blockOf blkb; rw [A1_4]; try rfl)

/-- What the body is called with at point `t`, the windows one by one, -/
def bodyPre (t : Fin cfg1.N) : sProp 𝕄 :=
  iprop((dats X5 X0 Xvn XW Xb X7 0 d).Φ t.castSucc ∗ (dats X5 X0 Xvn XW Xb X7 0 d).owesAt none t.castSucc
    ∗ (∃ dd, owns (d : Thread nD τ) (st1_0 t) fullShare ((dats X5 X0 Xvn XW Xb X7 0 d).before 0 t dd))
    ∗ (∃ dd, owns (d : Thread nD τ) (st1_1 t) fullShare ((dats X5 X0 Xvn XW Xb X7 0 d).before 1 t dd))
    ∗ (∃ dd, owns (d : Thread nD τ) (st1_2 t) fullShare ((dats X5 X0 Xvn XW Xb X7 0 d).before 2 t dd))
    ∗ (∃ dd, owns (d : Thread nD τ) (st1_3 t) fullShare ((dats X5 X0 Xvn XW Xb X7 0 d).before 3 t dd))
    ∗ (∃ dd, owns (d : Thread nD τ) (st1_4 t) fullShare ((dats X5 X0 Xvn XW Xb X7 0 d).before 4 t dd))
    ∗ (∃ dd, owns (d : Thread nD τ) (st1_5 t) fullShare ((dats X5 X0 Xvn XW Xb X7 0 d).before 5 t dd)))

/-- and what it returns. -/
def bodyPost (t : Fin cfg1.N) : sProp 𝕄 :=
  iprop((dats X5 X0 Xvn XW Xb X7 0 d).Φ t.succ ∗ (dats X5 X0 Xvn XW Xb X7 0 d).owesAt none t.succ
    ∗ owns (d : Thread nD τ) (st1_0 t) fullShare ((dats X5 X0 Xvn XW Xb X7 0 d).after 0 t)
    ∗ owns (d : Thread nD τ) (st1_1 t) fullShare ((dats X5 X0 Xvn XW Xb X7 0 d).after 1 t)
    ∗ owns (d : Thread nD τ) (st1_2 t) fullShare ((dats X5 X0 Xvn XW Xb X7 0 d).after 2 t)
    ∗ owns (d : Thread nD τ) (st1_3 t) fullShare ((dats X5 X0 Xvn XW Xb X7 0 d).after 3 t)
    ∗ owns (d : Thread nD τ) (st1_4 t) fullShare ((dats X5 X0 Xvn XW Xb X7 0 d).after 4 t)
    ∗ owns (d : Thread nD τ) (st1_5 t) fullShare ((dats X5 X0 Xvn XW Xb X7 0 d).after 5 t))

/-- The body at any point: the inputs' memrefs hold their blocks, so `sound_kernel` applies; the invariant and the core's
    `owes` pass through unread. -/
theorem sound_body (t : Fin cfg1.N) :
    bodyPre X5 X0 Xvn XW Xb X7 d t ⊢ wp frame (wpE (defs₀ (F := F)) 𝒱₀ d none) Set.univ (bodyAt1 t) (fun _ => bodyPost X5 X0 Xvn XW Xb X7 d t) := by
  unfold bodyPre bodyPost bodyAt1
  simp only [before1_0, before1_1, before1_2, before1_3, before1_4]
  rw [show (dats X5 X0 Xvn XW Xb X7 0 d).Φ t.succ = (dats X5 X0 Xvn XW Xb X7 0 d).Φ t.castSucc from rfl,
    show (dats X5 X0 Xvn XW Xb X7 0 d).owesAt none t.succ = (dats X5 X0 Xvn XW Xb X7 0 d).owesAt none t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel d Set.univ (grid1.coords t) _ _ _ _ _ _ _ _ _ _ _ _ (blk5 X5 t) (blk0 X0 t) (blkvn Xvn t) (blkW XW t) (blkb Xb t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold payAt
  iexact H5

/-- The library's body obligation, at every point. -/
theorem body_obligation : BodyObligation (dats X5 X0 Xvn XW Xb X7 0 d) (defs₀ (F := F)) 𝒱₀ none Set.univ := fun t => by
  rw [bigSep_W1, bigSep_W1]
  exact sound_body X5 X0 Xvn XW Xb X7 d t

end Obligation

end Cert.Proof.KernelIdeal

end
-- ==== Proof.KernelIdeal.RegionFrame.lean ====
/-
  From blocks to the array: the result array after the region is `regionOut` of the inputs, since point t writes rows
  t * 512 .. + 512 back and those blocks tile the array.
-/
import proofs.«207209_g54674933678763_cont_9to1_m_278_38_alg».proof.Proof.KernelIdeal.RegionBody
import Idealize.ShloMosaic.Lib.Pipeline.Value

noncomputable section

namespace Cert.Proof.KernelIdeal

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

set_option maxRecDepth 16384

section Final

variable (X5 : C5 F) (X0 : C0 F) (Xvn : Cvn F) (XW : CW F) (Xb : Cb F) (X7 : C7 F) (d : Dev nD)

/-- The result window's block index at point `t`: `t` along the rows, 0 along the one column. -/
theorem idx5 : ∀ t : Fin cfg1.N, win1_5.index t (0 : Fin 2) = t.val ∧ win1_5.index t (1 : Fin 2) = 0 :=
  (by decide +kernel : ∀ t : Fin grid1.N, _)

/-- `regionOut` at row `t * 512 + y` is the body's arithmetic at point `t`, row `y`. -/
theorem regionOut_at (t : Fin cfg1.N) (y : S512x1.Idx) (j : S16384x1.Idx) (h0 : (j 0).val = t.val * 512 + (y 0).val) :
    regionOut X5 X0 Xvn XW Xb j = payAt X5 X0 Xvn XW Xb t y := by
  have hy0 : (y 0).val < 512 := (y 0).isLt
  have hy1 : (y 1).val < 1 := (y 1).isLt
  unfold regionOut
  refine congr (congrArg (payAt X5 X0 Xvn XW Xb) (Fin.ext ?_)) (funext fun a => ?_)
  · show (j 0).val / 512 = t.val
    omega
  · match a with
    | ⟨0, _⟩ => exact Fin.ext (by show (j 0).val % 512 = (y 0).val; omega)
    | ⟨1, _⟩ => exact Fin.ext (by show 0 = (y 1).val; omega)

/-- WHAT POINT `t` WRITES BACK is block `t` of `regionOut`. -/
theorem flushed5_eq (t : Fin cfg1.N) :
    (dats X5 X0 Xvn XW Xb X7 0 d).flushed 5 t = ((cfg1.win 5).blk t).view.read (Elt F) (regionOut X5 X0 Xvn XW Xb) := by
  show (cfg1.win 5).cut (grid1.coords t) ((dats X5 X0 Xvn XW Xb X7 0 d).after 5 t) = _
  rw [after1_5]
  obtain ⟨e0, e1⟩ := idx5 t
  funext y
  show payAt X5 X0 Xvn XW Xb t y = regionOut X5 X0 Xvn XW Xb (((cfg1.win 5).blk t).view.emb y)
  refine (regionOut_at X5 X0 Xvn XW Xb t y _ ?_).symm
  show win1_5.index t (0 : Fin 2) * 512 + 1 * (y 0).val = _
  rw [e0]; omega

/-- An index of the result array is in point `t`'s block iff each coordinate is in the block's range on its axis. -/
theorem mem_blk5 (t : Fin cfg1.N) (i : S16384x1.Idx) :
    i ∈ ((cfg1.win 5).blk t).view.set ↔ ∀ a : Fin 2, win1_5.index t a * S512x1.size a ≤ (i a).val ∧ (i a).val < win1_5.index t a * S512x1.size a + S512x1.size a := by
  show i ∈ ((View.whole main_v7).slice (win1_5.rect t)).set ↔ _
  rw [View.set_slice_whole, Rect.mem_set_unit]
  exact Iff.rfl

/-- Every row of the result is in the block of the point that is its number over 512. -/
theorem covered5 (i : S16384x1.Idx) : ∃ t : Fin cfg1.N, (cfg1.win 5).flush t = true ∧ i ∈ ((cfg1.win 5).blk t).view.set := by
  have hi0 : (i 0).val < 16384 := (i 0).isLt
  have hi1 : (i 1).val < 1 := (i 1).isLt
  have hlt : (i 0).val / 512 < cfg1.N := by show _ < 32; omega
  obtain ⟨e0, e1⟩ := idx5 ⟨(i 0).val / 512, hlt⟩
  refine ⟨⟨(i 0).val / 512, hlt⟩, flush1_5 _, ?_⟩
  rw [mem_blk5]
  intro a
  match a with
  | ⟨0, _⟩ =>
    show win1_5.index ⟨(i 0).val / 512, hlt⟩ (0 : Fin 2) * 512 ≤ (i 0).val ∧ (i 0).val < win1_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win1_5.index ⟨(i 0).val / 512, hlt⟩ (1 : Fin 2) * 1 ≤ (i 1).val ∧ (i 1).val < win1_5.index ⟨(i 0).val / 512, hlt⟩ (1 : Fin 2) * 1 + 1
    rw [e1]; omega

/-- THE RESULT ARRAY after the region. -/
theorem final5 : (dats X5 X0 Xvn XW Xb X7 0 d).arrAt 5 cfg1.N = regionOut X5 X0 Xvn XW Xb :=
  (dats X5 X0 Xvn XW Xb X7 0 d).arrAt_eq_of_cover 5 (regionOut X5 X0 Xvn XW Xb) (fun t _ => flushed5_eq X5 X0 Xvn XW Xb X7 d t)
    (covered5)

end Final

end Cert.Proof.KernelIdeal

end
-- ==== Proof.KernelIdeal.RegionStmt.lean ====
/-
  The combining kernel's region as @main uses it: entered with the six arrays whole, the region boundary, the core's
  handshake state after the one accelerator call and the staging cells' launch ghost state, it returns with the five inputs
  unchanged and the result array at `regionOut` of them.
-/
import proofs.«207209_g54674933678763_cont_9to1_m_278_38_alg».proof.Proof.KernelIdeal.RegionData
import proofs.«207209_g54674933678763_cont_9to1_m_278_38_alg».proof.Proof.KernelIdeal.RegionFrame

noncomputable section

namespace Cert.Proof.KernelIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The region as the regions library takes it -/

section Seg

variable (lv : GSem nD τ sig → HIx 1 → ℕ) (X5 : C5 F) (X0 : C0 F) (Xvn : Cvn F) (XW : CW F) (Xb : Cb F) (X7 : C7 F)

/-- The six arrays whole at the full share on core `c`, the result's at `Y7`. -/
def six (c : Dev nD) (Y7 : C7 F) : sProp 𝕄 :=
  iprop((((c : Thread nD τ).loc main_v5) ↦{fullShare} X5) ∗ (((c : Thread nD τ).loc main_arg0) ↦{fullShare} X0)
    ∗ (((c : Thread nD τ).loc main_arg5) ↦{fullShare} Xvn) ∗ (((c : Thread nD τ).loc main_arg3) ↦{fullShare} XW)
    ∗ (((c : Thread nD τ).loc main_v6) ↦{fullShare} Xb) ∗ (((c : Thread nD τ).loc main_v7) ↦{fullShare} Y7))

theorem share1 (c : Dev nD) (w : Fin cfg1.W) : (dats X5 X0 Xvn XW Xb X7 0 c).share w = fullShare :=
  (dats X5 X0 Xvn XW Xb X7 0 c).share_full (fun _ => rfl) w

/-- The windows' arrays at given contents are the six arrays. -/
theorem arrays_six (c : Dev nD) (G : (w : Fin cfg1.W) → Buf (Elt F) ((cfg1.win w).arr.view.loc (c : Thread nD τ))) :
    (dats X5 X0 Xvn XW Xb X7 0 c).arrays G
      = iprop((((c : Thread nD τ).loc main_v5) ↦{fullShare} G 0) ∗ (((c : Thread nD τ).loc main_arg0) ↦{fullShare} G 1)
        ∗ (((c : Thread nD τ).loc main_arg5) ↦{fullShare} G 2) ∗ (((c : Thread nD τ).loc main_arg3) ↦{fullShare} G 3)
        ∗ (((c : Thread nD τ).loc main_v6) ↦{fullShare} G 4) ∗ (((c : Thread nD τ).loc main_v7) ↦{fullShare} G 5)) := by
  rw [Pipeline.arrays_eq (Pipeline.pin (pcfgs (F := F)) adm) (dats X5 X0 Xvn XW Xb X7) 0 c launch1.arr_whole (share1 X5 X0 Xvn XW Xb X7 c) G, bigSep_W1]

set_option backward.isDefEq.respectTransparency.types false in
/-- THE REGION: the decided layout, no semaphore of its own, the body obligation; entered with the six arrays and the core
    owing nothing, left with the result at `regionOut`. -/
def reg : Pipeline.RegionSeg (pcfgs (F := F)) adm (dats X5 X0 Xvn XW Xb X7) none defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation X5 X0 Xvn XW Xb X7 c).loose
  hwaits := Pipeline.hwaits_of_owed_zero _ _ _ _ _ lv 0 fun _ _ => rfl
  pre c := iprop(six X5 X0 Xvn XW Xb c X7 ∗ ∃ W, owes (c : Thread nD τ) (0 : CellTallies nD τ sig (HIx 1)) W)
  post c := iprop(six X5 X0 Xvn XW Xb c (regionOut X5 X0 Xvn XW Xb) ∗ ∃ W, owes (c : Thread nD τ) (0 : CellTallies nD τ sig (HIx 1)) W)
  X _ := iprop(emp)
  Y _ := iprop(emp)
  Z _ := iprop(emp)
  hentry c := by
    rw [arrays_six]
    unfold six
    iintro ⟨⟨⟨H5, H0, Hvn, HW, Hb, H7⟩, HO⟩, -, -⟩
    imodintro
    isplitl [H5 H0 Hvn HW Hb H7]
    · isplitl [H5]; · iexact H5
      isplitl [H0]; · iexact H0
      isplitl [Hvn]; · iexact Hvn
      isplitl [HW]; · iexact HW
      isplitl [Hb]; · iexact Hb
      iexact H7
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl <;> iempintro
  hin c := by
    rw [show (dats X5 X0 Xvn XW Xb X7 0 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (dats X5 X0 Xvn XW Xb X7 0 c).Φ (Fin.last cfg1.N) = Pipeline.scopedRest (Ix := HIx 1) (Name := ℕ) (U := UU) (Lvl := ℕ) (Val := Elt F) spec1 c from rfl]
    iintro Hr
    isplitr; · iempintro
    isplitr; · iempintro
    iexact Hr
  hexit c := by
    rw [arrays_six]
    unfold six
    iintro ⟨⟨H5, H0, Hvn, HW, Hb, H7⟩, HO, -, -⟩
    imodintro
    isplitr [HO]
    · rw [(dats X5 X0 Xvn XW Xb X7 0 c).arrAt_in 0 rfl, (dats X5 X0 Xvn XW Xb X7 0 c).arrAt_in 1 rfl, (dats X5 X0 Xvn XW Xb X7 0 c).arrAt_in 2 rfl,
        (dats X5 X0 Xvn XW Xb X7 0 c).arrAt_in 3 rfl, (dats X5 X0 Xvn XW Xb X7 0 c).arrAt_in 4 rfl, final5 X5 X0 Xvn XW Xb X7 c,
        A1_0, A1_1, A1_2, A1_3, A1_4]
      isplitl [H5]; · iexact H5
      isplitl [H0]; · iexact H0
      isplitl [Hvn]; · iexact Hvn
      isplitl [HW]; · iexact HW
      isplitl [Hb]; · iexact Hb
      iexact H7
    · unfold Pipeline.Dat.owesAt Pipeline.owesWithin
      icases HO with ⟨%W, -, HO⟩; iexists W; iexact HO

end Seg

/-- What the region takes besides the handshake state and the level facts: the region boundary, the staging cells' launch
    ghost state and duty tokens, and the six arrays whole at the full share. -/
def regionPre (d : Dev nD) (X5 : C5 F) (X0 : C0 F) (Xvn : Cvn F) (XW : CW F) (Xb : Cb F) (X7 : C7 F) : sProp 𝕄 :=
  iprop(boundary (T d)
    ∗ Pipeline.cellsGhost (Pipeline.pin (pcfgs (F := F)) adm) EP 0 d ∗ Pipeline.toksInit (Pipeline.pin (pcfgs (F := F)) adm) EP 0 d
    ∗ (((T d : Thread nD τ).loc main_v5) ↦{fullShare} X5) ∗ (((T d : Thread nD τ).loc main_arg0) ↦{fullShare} X0)
    ∗ (((T d : Thread nD τ).loc main_arg5) ↦{fullShare} Xvn) ∗ (((T d : Thread nD τ).loc main_arg3) ↦{fullShare} XW)
    ∗ (((T d : Thread nD τ).loc main_v6) ↦{fullShare} Xb) ∗ (((T d : Thread nD τ).loc main_v7) ↦{fullShare} X7))

/-- What it gives back: the boundary, the five inputs as they were, the result at `regionOut` of them. -/
def regionPost (d : Dev nD) (X5 : C5 F) (X0 : C0 F) (Xvn : Cvn F) (XW : CW F) (Xb : Cb F) : sProp 𝕄 :=
  iprop(boundary (T d)
    ∗ (((T d : Thread nD τ).loc main_v5) ↦{fullShare} X5) ∗ (((T d : Thread nD τ).loc main_arg0) ↦{fullShare} X0)
    ∗ (((T d : Thread nD τ).loc main_arg5) ↦{fullShare} Xvn) ∗ (((T d : Thread nD τ).loc main_arg3) ↦{fullShare} XW)
    ∗ (((T d : Thread nD τ).loc main_v6) ↦{fullShare} Xb) ∗ (((T d : Thread nD τ).loc main_v7) ↦{fullShare} regionOut X5 X0 Xvn XW Xb))

/-- THE REGION, as @main's proof uses it on core `d`'s TensorCore after the one accelerator call. -/
theorem region_wp (lv : GSem nD τ sig → HIx 1 → ℕ) (d : Dev nD)
    (X5 : C5 F) (X0 : C0 F) (Xvn : Cvn F) (XW : CW F) (Xb : Cb F) (X7 : C7 F) :
    iprop(levAts (K (F := F)).L lv ∗ (K (F := F)).tcSt EH d 1 ∗ regionPre d X5 X0 Xvn XW Xb X7)
      ⊢ wp frame (wpE ((K (F := F)).defs D) 𝒱 (T d) none) Set.univ
          (Prog.lift (.customCall (SparseCore.inner (Pipeline.entry 0)) ()))
          (fun _ => iprop((K (F := F)).tcSt EH d 1 ∗ regionPost d X5 X0 Xvn XW Xb)) := by
  unfold regionPre regionPost SparseCore.Cfg.tcSt
  rw [show (K (F := F)).Otc d 1 = 0 from (K (F := F)).Otc_end d le_rfl]
  iintro ⟨#Hlev, ⟨⟨%W, %hW, HO⟩, Hrest⟩, Hb, Hg, Ht, H5, H0, Hvn, HW, Hbb, H7⟩
  iapply ((K (F := F)).wp_liftProg D 𝒱 (T d) Set.univ none (.op (.customCall (Pipeline.entry 0) ()) .ret) _)
  iapply (Pipeline.RegionSeg.wp (pcfgs (F := F)) adm (dats X5 X0 Xvn XW Xb X7) none cellOf_inj EP defs₀ 𝒱₀ (K (F := F)).L lv
    (reg lv X5 X0 Xvn XW Xb X7) d none (fun _ h => nomatch h) .ret _)
  rw [show (reg lv X5 X0 Xvn XW Xb X7).post d = iprop(six X5 X0 Xvn XW Xb d (regionOut X5 X0 Xvn XW Xb) ∗ ∃ W, owes (d : Thread nD τ) (0 : CellTallies nD τ sig (HIx 1)) W) from rfl,
    show (reg lv X5 X0 Xvn XW Xb X7).pre d = iprop(six X5 X0 Xvn XW Xb d X7 ∗ ∃ W, owes (d : Thread nD τ) (0 : CellTallies nD τ sig (HIx 1)) W) from rfl]
  isplitl [Hrest]
  · iintro ⟨Hb, ⟨H6, ⟨%W', HO⟩⟩⟩
    rw [wp_ret]
    imodintro
    unfold six
    icases H6 with ⟨H5, H0, Hvn, HW, Hbb, H7⟩
    isplitl [HO Hrest]
    · isplitl [HO]
      · iexists W'; isplitr
        · ipureintro
          intro p _
          rcases p with ⟨sm, _ | q⟩
          · exact Nat.zero_le _
          · exact ((K (F := F)).lev_some_le _ q).trans (by have := q.isLt; omega)
        iexact HO
      iexact Hrest
    isplitl [Hb]; · iexact Hb
    isplitl [H5]; · iexact H5
    isplitl [H0]; · iexact H0
    isplitl [Hvn]; · iexact Hvn
    isplitl [HW]; · iexact HW
    isplitl [Hbb]; · iexact Hbb
    iexact H7
  isplitl [Hb]; · iexact Hb
  isplitl [H5 H0 Hvn HW Hbb H7 HO]
  · unfold six
    isplitl [H5 H0 Hvn HW Hbb H7]
    · isplitl [H5]; · iexact H5
      isplitl [H0]; · iexact H0
      isplitl [Hvn]; · iexact Hvn
      isplitl [HW]; · iexact HW
      isplitl [Hbb]; · iexact Hbb
      iexact H7
    iexists W; iexact HO
  isplitr; · iexact Hlev
  isplitl [Hg]; · iexact Hg
  iexact Ht

end Cert.Proof.KernelIdeal

end
-- ==== Proof.KernelIdeal.RegionGhost.lean ====
/-
  The launch ghost state of the pipelined region's staging cells on one core: what the host program's proof carries from
  the launch to the region's entry.
-/
import proofs.«207209_g54674933678763_cont_9to1_m_278_38_alg».proof.Proof.KernelIdeal.Common
import Idealize.ShloMosaic.Lib.Pipeline.Frame
import proofs.«207209_g54674933678763_cont_9to1_m_278_38_alg».proof.Proof.KernelIdeal.RegionData

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable [FloatOps F]

/-- The one pipelined region's configuration (it has no prefetched table). -/
abbrev pc : Fin 1 → Pipeline.Cfg sig Λ₀ := Pipeline.pin (pcfgs (F := F)) adm

/-- The staging cells' launch state and the loop's duty tokens on core d. -/
def G (d : Dev nD) : sProp 𝕄 := iprop(Pipeline.cellsGhost (Pipeline.pin (pcfgs (F := F)) adm) EP 0 d ∗ Pipeline.toksInit (Pipeline.pin (pcfgs (F := F)) adm) EP 0 d)

end Cert.Proof.KernelIdeal

end
-- ==== Proof.KernelIdeal.Main.lean ====
/-
  The host program on the TensorCore, start to end: the four layout operations, the accumulation call (the inputs lent
  to the two SparseCores at read shares, the output array dealt out slice by slice and taken back at the accumulated
  values), the two reshapes, the combining region; the seven arguments are kept and the result array is named.
-/
import proofs.«207209_g54674933678763_cont_9to1_m_278_38_alg».proof.Proof.KernelIdeal.Common
import Idealize.ShloMosaic.Lib.Pipeline.Frame
import proofs.«207209_g54674933678763_cont_9to1_m_278_38_alg».proof.Proof.KernelIdeal.Launch1
import proofs.«207209_g54674933678763_cont_9to1_m_278_38_alg».proof.Proof.KernelIdeal.Vals
import proofs.«207209_g54674933678763_cont_9to1_m_278_38_alg».proof.Proof.KernelIdeal.OutCover
import proofs.«207209_g54674933678763_cont_9to1_m_278_38_alg».proof.Proof.KernelIdeal.RegionStmt
import proofs.«207209_g54674933678763_cont_9to1_m_278_38_alg».proof.Proof.KernelIdeal.RegionGhost

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

open Idealize.ShloMosaic.Transfers (shareTok shareDrop pointsTo_toks)

variable (m : (ℓ : Loc nD τ sig) → Buf (Elt F) ℓ) (ρ : Dev nD → PrngReg)
variable [FloatOps F]

/-- The region rule, as the host program's proof uses it. -/
def RegionRule : Prop :=
  ∀ (lv : GSem nD τ sig → HIx 1 → ℕ) (d : Dev nD) (X5 : C5 F) (X0 : C0 F) (Xvn : Cvn F) (XW : CW F) (Xb : Cb F) (X7 : C7 F),
    iprop(levAts (K (F := F)).L lv ∗ (K (F := F)).tcSt EH d 1 ∗ regionPre d X5 X0 Xvn XW Xb X7)
      ⊢ wp frame (wpE ((K (F := F)).defs D) 𝒱 (T d) none) Set.univ
          (Prog.lift (.customCall (SparseCore.inner (Pipeline.entry 0)) ()))
          (fun _ => iprop((K (F := F)).tcSt EH d 1 ∗ regionPost d X5 X0 Xvn XW Xb))

/-- One host operation whose continuation is a return. -/
theorem hlo_step (d : Dev nD) (op : HloOp τ sig (Elt F)) (S' : Finset (DevRef τ sig)) (hS : op.bufs ⊆ S') (Vv : Valuation τ sig (Elt F))
    (hf : op.fresh = ∅) (Ψ : PUnit → sProp 𝕄) :
    iprop(boundary (SparseCore.T d) ∗ (held (SparseCore.T d) S' Vv : sProp 𝕄)
        ∗ ((boundary (SparseCore.T d) ∗ (held (SparseCore.T d) S' (op.result Vv) : sProp 𝕄)) -∗ Ψ ⟨⟩))
      ⊢ wp frame (wpE ((K (F := F)).defs (D (F := F))) 𝒱 (SparseCore.T d) none) Set.univ (hlo rfl op (fun _ => Prog.ret PUnit.unit)) Ψ := by
  iintro ⟨Hb, Hh, Hk⟩
  iapply (wp_hlo_within 𝒱 (SparseCore.T d) none Set.univ (op := op) (S := S') hS (V := Vv) hf) $$ [Hb Hh]
  · isplitl [Hb] <;> iassumption
  iintro ⟨Hb, Hh⟩
  rw [wp_ret]; imodintro
  iapply Hk
  isplitl [Hb]; · iexact Hb
  iexact Hh

/-- What @main leaves the claim: the seven arguments at their launch contents, the result at `OUT`. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ ((SparseCore.T d).loc main_arg5 ↦{fullShare} m ((SparseCore.T d).loc main_arg5))
    ∗ ((SparseCore.T d).loc main_arg6 ↦{fullShare} m ((SparseCore.T d).loc main_arg6))
    ∗ ((SparseCore.T d).loc main_v7 ↦{fullShare} OUT m d))

/-! ## The held sets along the program -/

/-- The call's four arrays. -/
abbrev S4 : Finset (DevRef τ sig) := {r main_v1, r main_v2, r main_v3, r main_v4}
/-- Every array but the call's three inputs, which are not needed after it. -/
abbrev SB : Finset (DevRef τ sig) := SA \ {r main_v1, r main_v2, r main_v3}
/-- The region's six arrays and the four other arguments. -/
abbrev SF : Finset (DevRef τ sig) :=
  {r main_v5, r main_arg0, r main_arg5, r main_arg3, r main_v6, r main_v7, r main_arg1, r main_arg2, r main_arg4, r main_arg6}

omit [FloatOps F] in
theorem held_S4 (d : Dev nD) (W : Valuation τ sig (Elt F)) :
    (held (SparseCore.T d) S4 W : sProp 𝕄) = iprop((v1Loc d ↦{fullShare} W (r main_v1)) ∗ (v2Loc d ↦{fullShare} W (r main_v2))
        ∗ (v3Loc d ↦{fullShare} W (r main_v3)) ∗ (v4Loc d ↦{fullShare} W (r main_v4))) := by
  unfold held S4
  rw [SparseCore.bigSep_insert' (by decide), SparseCore.bigSep_insert' (by decide), SparseCore.bigSep_insert' (by decide), bigSep_singleton]

omit [FloatOps F] in
theorem held_SF (d : Dev nD) (W : Valuation τ sig (Elt F)) :
    (held (SparseCore.T d) SF W : sProp 𝕄) = iprop(((SparseCore.T d).loc main_v5 ↦{fullShare} W (r main_v5)) ∗ ((SparseCore.T d).loc main_arg0 ↦{fullShare} W (r main_arg0))
        ∗ ((SparseCore.T d).loc main_arg5 ↦{fullShare} W (r main_arg5)) ∗ ((SparseCore.T d).loc main_arg3 ↦{fullShare} W (r main_arg3))
        ∗ ((SparseCore.T d).loc main_v6 ↦{fullShare} W (r main_v6)) ∗ ((SparseCore.T d).loc main_v7 ↦{fullShare} W (r main_v7))
        ∗ ((SparseCore.T d).loc main_arg1 ↦{fullShare} W (r main_arg1)) ∗ ((SparseCore.T d).loc main_arg2 ↦{fullShare} W (r main_arg2))
        ∗ ((SparseCore.T d).loc main_arg4 ↦{fullShare} W (r main_arg4)) ∗ ((SparseCore.T d).loc main_arg6 ↦{fullShare} W (r main_arg6))) := by
  unfold held SF
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem hop4' : (op4 (F := F)).bufs ⊆ SB := show ({r main_v4, r main_v5} : Finset (DevRef τ sig)) ⊆ SB by decide
theorem hop5' : (op5 (F := F)).bufs ⊆ SB := show ({r main_arg2, r main_v6} : Finset (DevRef τ sig)) ⊆ SB by decide

/-- The call's operands, from the four arrays whole. -/
theorem st0_intro (d : Dev nD) :
    iprop(inRes d fullShare (A1 m d) (A2 m d) (A3 m d) ∗ (v4Loc d ↦{fullShare} B4 m d))
      ⊢ bigSep Finset.univ fun c : Fin ((K (F := F)).nCore 0) => (P m).st 0 d c := by
  show _ ⊢ bigSep Finset.univ fun c : Fin ((K (F := F)).nCore 0) => stRes m d c
  unfold stRes
  rw [bigSep_sep', v4_split]
  iintro ⟨Hin, Hout⟩
  isplitl [Hin]
  · iapply (inRes_split d fullShare 2 _ _ _); iexact Hin
  · iexact Hout

/-- The call's results: the output array whole at the accumulated values. -/
theorem dn0_elim (d : Dev nD) :
    (bigSep Finset.univ fun c : Fin ((K (F := F)).nCore 0) => (P m).dn 0 d c)
      ⊢ (v4Loc d ↦{fullShare} outBuf (A1 m d) (A2 m d) (A3 m d) : sProp 𝕄) := by
  show (bigSep Finset.univ fun c : Fin ((K (F := F)).nCore 0) => dnRes m d c) ⊢ _
  unfold dnRes
  rw [v4_split]
  exact Entails.refl _

/-- After the call: the output array and the arrays kept aside, as one held set. -/
theorem held_SB_intro (d : Dev nD) :
    iprop((v4Loc d ↦{fullShare} outBuf (A1 m d) (A2 m d) (A3 m d)) ∗ (held (SparseCore.T d) (SA \ S4) (V4 m d) : sProp 𝕄))
      ⊢ (held (SparseCore.T d) SB (Vc m d) : sProp 𝕄) := by
  rw [held_sub_split (SparseCore.T d) (show ({r main_v4} : Finset (DevRef τ sig)) ⊆ SB by decide) (Vc m d),
    show SB \ ({r main_v4} : Finset (DevRef τ sig)) = SA \ S4 by decide,
    held_congr (SparseCore.T d) (V := Vc m d) (V' := V4 m d) (S := SA \ S4)
      (fun b hb => Function.update_of_ne (fun e => absurd (e ▸ hb) (by decide)) _ _)]
  unfold held
  rw [bigSep_singleton]
  unfold Vc
  rw [Function.update_self]

/-- The program writes none of its seven arguments: each still holds its launch contents at the end. -/
theorem V6_unwritten (d : Dev nD) (b : DevRef τ sig) (h0 : b ∉ ({r main_v0} : Finset (DevRef τ sig))) (h1 : b ∉ ({r main_v1} : Finset (DevRef τ sig)))
    (h2 : b ∉ ({r main_v2} : Finset (DevRef τ sig))) (h3 : b ∉ ({r main_v3} : Finset (DevRef τ sig))) (h4 : b ≠ r main_v4)
    (h5 : b ∉ ({r main_v5} : Finset (DevRef τ sig))) (h6 : b ∉ ({r main_v6} : Finset (DevRef τ sig))) : V6 m d b = V0 m d b := by
  unfold V6 Vc V4
  rw [(op5 (F := F)).result_of_not_mem _ h6, (op4 (F := F)).result_of_not_mem _ h5, Function.update_of_ne h4,
    (op3 (F := F)).result_of_not_mem _ h3, (op2 (F := F)).result_of_not_mem _ h2, (op1 (F := F)).result_of_not_mem _ h1,
    (op0 (F := F)).result_of_not_mem _ h0]

theorem hmain (hreg : RegionRule (F := F)) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) SA (V0 m d) from Pipeline.unscopedBufs_held d (V0 m d)]
  simp only [main, wp_bind, wp_pure]
  iintro ⟨#Hctx, Hst, ⟨Hb, Hheld, -, -⟩, HG⟩
  iapply (hlo_step d op0 SA hop0 (V0 m d) rfl _) $$ [Hb Hheld Hst HG]
  isplitl [Hb]; · iexact Hb
  isplitl [Hheld]; · iexact Hheld
  iintro ⟨Hb, Hheld⟩
  iapply (hlo_step d op1 SA hop1 _ rfl _) $$ [Hb Hheld Hst HG]
  isplitl [Hb]; · iexact Hb
  isplitl [Hheld]; · iexact Hheld
  iintro ⟨Hb, Hheld⟩
  iapply (hlo_step d op2 SA hop2 _ rfl _) $$ [Hb Hheld Hst HG]
  isplitl [Hb]; · iexact Hb
  isplitl [Hheld]; · iexact Hheld
  iintro ⟨Hb, Hheld⟩
  iapply (hlo_step d op3 SA hop3 _ rfl _) $$ [Hb Hheld Hst HG]
  isplitl [Hb]; · iexact Hb
  isplitl [Hheld]; · iexact Hheld
  iintro ⟨Hb, Hheld⟩
  -- the call: the three inputs lent at read shares, the output dealt out slice by slice
  ihave Hheld := (Entails.of_eq (show (held (SparseCore.T d) SA ((op3 (F := F)).result ((op2 (F := F)).result ((op1 (F := F)).result ((op0 (F := F)).result (V0 m d))))) : sProp 𝕄)
      = held (SparseCore.T d) SA (V4 m d) from rfl)) $$ Hheld
  ihave Hh := (Entails.of_eq (held_sub_split (SparseCore.T d) (show S4 ⊆ SA by decide) (V4 m d))) $$ Hheld
  icases Hh with ⟨H4, Hrest⟩
  ihave H4' := (Entails.of_eq (held_S4 (F := F) d (V4 m d))) $$ H4
  icases H4' with ⟨H1, H2, H3, Hv4⟩
  iapply ((K (F := F)).wp_run (D (F := F)) 𝒱 (EH := EH) (P := P m) κ d 0) $$ [Hst H1 H2 H3 Hv4 Hb Hrest HG]
  isplitr; · iexact Hctx
  isplitl [Hst]; · iexact Hst
  isplitl [H1 H2 H3 Hv4]
  · iapply (st0_intro m d)
    isplitl [H1 H2 H3]
    · unfold inRes
      isplitl [H2]; · iexact H2
      isplitl [H3]; · iexact H3
      iexact H1
    · iexact Hv4
  iintro ⟨Hst, Hdn⟩
  ihave Hv4 := (dn0_elim m d) $$ Hdn
  ihave Hheld := (held_SB_intro m d) $$ [Hv4 Hrest]
  · isplitl [Hv4]; · iexact Hv4
    iexact Hrest
  -- the two reshapes
  iapply (hlo_step d op4 SB hop4' (Vc m d) rfl _) $$ [Hb Hheld Hst HG]
  isplitl [Hb]; · iexact Hb
  isplitl [Hheld]; · iexact Hheld
  iintro ⟨Hb, Hheld⟩
  iapply (hlo_step d op5 SB hop5' _ rfl _) $$ [Hb Hheld Hst HG]
  isplitl [Hb]; · iexact Hb
  isplitl [Hheld]; · iexact Hheld
  iintro ⟨Hb, Hheld⟩
  ihave Hheld := (Entails.of_eq (show (held (SparseCore.T d) SB ((op5 (F := F)).result ((op4 (F := F)).result (Vc m d))) : sProp 𝕄)
      = held (SparseCore.T d) SB (V6 m d) from rfl)) $$ Hheld
  ihave Hh := (Entails.of_eq (held_sub_split (SparseCore.T d) (show SF ⊆ SB by decide) (V6 m d))) $$ Hheld
  icases Hh with ⟨HF, -⟩
  ihave HF' := (Entails.of_eq (held_SF (F := F) d (V6 m d))) $$ HF
  icases HF' with ⟨H5, Ha0, Ha5, Ha3, H6, H7, Ha1, Ha2, Ha4, Ha6⟩
  -- the combining region
  ihave Hlev := ((K (F := F)).ctx_levAts (EH := EH) (P := P m) κ) $$ Hctx
  unfold G
  icases HG with ⟨Hcg, Htk⟩
  ihave Hwp := (hreg (K (F := F)).lev d (V6 m d (r main_v5)) (V6 m d (r main_arg0)) (V6 m d (r main_arg5)) (V6 m d (r main_arg3)) (V6 m d (r main_v6)) (V6 m d (r main_v7)))
      $$ [Hlev Hst Hb Hcg Htk H5 Ha0 Ha5 Ha3 H6 H7]
  · isplitl [Hlev]; · iexact Hlev
    isplitl [Hst]; · iexact Hst
    unfold regionPre
    isplitl [Hb]; · iexact Hb
    isplitl [Hcg]; · iexact Hcg
    isplitl [Htk]; · iexact Htk
    isplitl [H5]; · iexact H5
    isplitl [Ha0]; · iexact Ha0
    isplitl [Ha5]; · iexact Ha5
    isplitl [Ha3]; · iexact Ha3
    isplitl [H6]; · iexact H6
    iexact H7
  iapply (wp_wand_r frame _ Set.univ)
  isplitl [Hwp]; · iexact Hwp
  iintro %_ ⟨Hst, Hpost⟩
  unfold regionPost
  icases Hpost with ⟨-, -, Ha0, Ha5, Ha3, -, H7⟩
  imodintro
  isplitl [Hst]; · iexact Hst
  unfold FIN OUT
  rw [V6_unwritten m d (r main_arg0) (by decide) (by decide) (by decide) (by decide) (by decide) (by decide) (by decide),
    V6_unwritten m d (r main_arg1) (by decide) (by decide) (by decide) (by decide) (by decide) (by decide) (by decide),
    V6_unwritten m d (r main_arg2) (by decide) (by decide) (by decide) (by decide) (by decide) (by decide) (by decide),
    V6_unwritten m d (r main_arg3) (by decide) (by decide) (by decide) (by decide) (by decide) (by decide) (by decide),
    V6_unwritten m d (r main_arg4) (by decide) (by decide) (by decide) (by decide) (by decide) (by decide) (by decide),
    V6_unwritten m d (r main_arg5) (by decide) (by decide) (by decide) (by decide) (by decide) (by decide) (by decide),
    V6_unwritten m d (r main_arg6) (by decide) (by decide) (by decide) (by decide) (by decide) (by decide) (by decide)]
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  iexact H7

end Cert.Proof.KernelIdeal

end
-- ==== Proof.KernelIdeal.LaunchElem.lean ====
/-
  The launch element: the ghost state the run starts from, and what it funds.

  The ghost state has three components: the rounds of the launch handshakes, the rounds of the pipelined region's
  staging cells, and the counters of the subcores' own copies.  Owning the initial element of the product is owning
  each component's initial element.  The handshakes' is passed on whole; the staging cells' funds, on every core, the
  cells' launch state and the loop's duty tokens; the counters' unit is dropped; and no thread is handed anything of
  a protocol of the kernel's own, there being none.
-/
import proofs.«207209_g54674933678763_cont_9to1_m_278_38_alg».proof.Proof.KernelIdeal.Pay
import proofs.«207209_g54674933678763_cont_9to1_m_278_38_alg».proof.Proof.KernelIdeal.RegionData
import proofs.«207209_g54674933678763_cont_9to1_m_278_38_alg».proof.Proof.KernelIdeal.RegionGhost
import Idealize.ShloMosaic.Lib.Pipeline.Sound
import Idealize.ShloMosaic.Lib.Pipeline.Kit

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-- The region's staging cells are pairwise distinct. -/
theorem cellOf_inj' : Function.Injective (Pipeline.cellOf (nD := nD) (τ := τ) (pc (F := F))) := cellOf_inj

/-- The initial ghost state: the handshakes' rounds, the staging cells' rounds, the counters' unit. -/
def u₀ : UU :=
  (initOf (K (F := F)).hsCells (K (F := F)).hsToks,
    (initOf (Pipeline.cells (pc (F := F)) cellOf_inj') (Pipeline.launchToks (pc (F := F)) cellOf_inj'), 1))

theorem bigSep_emp' {I : Type} (s : Finset I) : (bigSep s fun _ => iprop(emp)) = (iprop(emp) : sProp 𝕄) := bigSep_emp_const s

/-- Owning the initial product element is owning the handshakes' and the staging cells' components, each through its
    embedding (the counters' component is let go). -/
theorem ownU_split3 (a : UH) (b : UP) (c : Counters) :
    (ownU ((a, (b, c)) : UU) : sProp 𝕄) ⊢ iprop(BI.own (EH a) ∗ BI.own (EP b)) := by
  have h : (ownU ((a, (b, c)) : UU) : sProp 𝕄)
      ⊢ iprop(BI.own (embL a) ∗ BI.own (((Emb.inl : Emb UP (UP × Counters)).trans embR) b)) := by
    iintro Hu
    ihave H := (ownU_pair _ _) $$ Hu
    icases H with ⟨HH, HR⟩
    ihave H2 := (own_pair_emb _ _ _) $$ HR
    icases H2 with ⟨HP, -⟩
    isplitl [HH]; · iexact HH
    iexact HP
  exact h

/-- The staging cells' initial element funds every core's launch state of the cells and duty tokens. -/
theorem G_intro :
    (BI.own (EP (initOf (Pipeline.cells (pc (F := F)) cellOf_inj') (Pipeline.launchToks (pc (F := F)) cellOf_inj'))) : sProp 𝕄)
      ⊢ iprop(|==> bigSep Finset.univ fun d : Dev nD => G (F := F) d) := by
  have eA : (bigSep Finset.univ fun c : Dev nD => bigSep Finset.univ fun p : Fin 1 => Pipeline.cellsGhost (pc (F := F)) EP p c : sProp 𝕄)
      = bigSep Finset.univ fun c : Dev nD => Pipeline.cellsGhost (pc (F := F)) EP 0 c :=
    bigSep_congr fun c _ => bigSep_univ_of_subsingleton (0 : Fin 1)
  have eB : (bigSep Finset.univ fun c : Dev nD => bigSep Finset.univ fun p : Fin 1 => (Pipeline.toksInit (pc (F := F)) EP p c : sProp 𝕄))
      = bigSep Finset.univ fun c : Dev nD => (Pipeline.toksInit (pc (F := F)) EP 0 c : sProp 𝕄) :=
    bigSep_congr fun c _ => bigSep_univ_of_subsingleton (0 : Fin 1)
  have h := Pipeline.fund_ghost (Val := Elt F) (pc (F := F)) (EP (F := F)) cellOf_inj'
  rw [eA, eB] at h
  unfold G
  rw [bigSep_sep']
  exact h

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split3 _ _ _) $$ Hu
  icases H with ⟨HH, HP⟩
  imod (G_intro (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KernelIdeal

end
-- ==== Proof.KernelIdeal.Run.lean ====
/-
  The program's run: from the launch memory every weakly fair execution of the thirty-five threads terminates, nothing
  faulting, with the seven arguments unchanged and the result array at the value the host program's proof names.
-/
import proofs.«207209_g54674933678763_cont_9to1_m_278_38_alg».proof.Proof.KernelIdeal.Common
import Idealize.ShloMosaic.Lib.Pipeline.Frame
import proofs.«207209_g54674933678763_cont_9to1_m_278_38_alg».proof.Proof.KernelIdeal.Main
import proofs.«207209_g54674933678763_cont_9to1_m_278_38_alg».proof.Proof.KernelIdeal.LaunchElem

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- What the final memory of device d holds: the result and the seven arguments. -/
def fq (d : Dev nD) (s' : Phys nD τ sig (Elt F)) : Prop :=
  s'.mem.mem ((SparseCore.T d).loc main_v7) = OUT m d
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7⟩, HSI⟩
  ihave H := (agree_whole _ _ s') $$ [H0 HSI]
  · isplitl [H0] <;> iassumption
  icases H with ⟨%h0, HSI⟩
  ihave H := (agree_whole _ _ s') $$ [H1 HSI]
  · isplitl [H1] <;> iassumption
  icases H with ⟨%h1, HSI⟩
  ihave H := (agree_whole _ _ s') $$ [H2 HSI]
  · isplitl [H2] <;> iassumption
  icases H with ⟨%h2, HSI⟩
  ihave H := (agree_whole _ _ s') $$ [H3 HSI]
  · isplitl [H3] <;> iassumption
  icases H with ⟨%h3, HSI⟩
  ihave H := (agree_whole _ _ s') $$ [H4 HSI]
  · isplitl [H4] <;> iassumption
  icases H with ⟨%h4, HSI⟩
  ihave H := (agree_whole _ _ s') $$ [H5 HSI]
  · isplitl [H5] <;> iassumption
  icases H with ⟨%h5, HSI⟩
  ihave H := (agree_whole _ _ s') $$ [H6 HSI]
  · isplitl [H6] <;> iassumption
  icases H with ⟨%h6, HSI⟩
  ihave H := (agree_whole _ _ s') $$ [H7 HSI]
  · isplitl [H7] <;> iassumption
  icases H with ⟨%h7, HSI⟩
  ipureintro
  exact ⟨h7, h0, h1, h2, h3, h4, h5, h6⟩

/-- The run's post: on every device the result array and the unchanged arguments. -/
def QC : PUnit × MemSt nD τ sig (Elt F) → Prop := fun r => ∀ c : Dev nD,
  r.2.mem ((SparseCore.T c).loc main_v7) = OUT m c
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ r.2.mem ((SparseCore.T c).loc main_arg6) = m ((SparseCore.T c).loc main_arg6)

theorem run_main [∀ e, Nonempty (Elt F e)] (hbody : TileBody (F := F) m) (hreg : RegionRule (F := F)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (G (F := F)) (FIN m) (u₀ (F := F)) (sep_elim_left.trans (hu₀ m)) (hmain m ρ hreg) (fq m) (hfin m) (QC m) (fun _ h => h)

end Cert.Proof.KernelIdeal

end
-- ==== Proof.KernelIdeal.HostValue.lean ====
/-
  The host's data movement around the two kernels, read at an index.  Before the first kernel the host transposes the
  index array and flattens it (entry 16384·f + b of the flat array is example b's index in field f) and moves the
  vocabulary axis of both embedding tables last; between the kernels it views the flat accumulator as the
  [2, 3, 16, 8192] planes (entry (c, j, t, i) is flat entry 393216·c + 131072·j + 8192·t + i) and the bias as a [1, 1] array.
  Each statement is over an arbitrary operand and an arbitrary element type; each comes once at an index given by
  coordinates and once as an equality of whole arrays.
-/
import proofs.«207209_g54674933678763_cont_9to1_m_278_38_alg».proof.KernelIdeal
import proofs.«207209_g54674933678763_cont_9to1_m_278_38_alg».proof.Proof.Gen.KernelIdeal
import Idealize.ShloMosaic.Lib.Pipeline.Value
import Idealize.ShloMosaic.Lib.ValueLayout
import Idealize.ShloMosaic.Lib.ValueIdx

namespace Cert.Proof.KernelIdeal

open Idealize.ShloMosaic Idealize.ShloMosaic.ValueIdx Cert.KernelIdeal

variable {α : Type}

/-! ## Coordinates below their extents, and indices from coordinates given as numbers -/

theorem idx1_lt0 {n : Nat} (j : (⟨1, ![n]⟩ : Shape).Idx) : (j 0).val < n := (j 0).isLt
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt
theorem idx4_lt0 {n0 n1 n2 n3 : Nat} (j : (⟨4, ![n0, n1, n2, n3]⟩ : Shape).Idx) : (j 0).val < n0 := (j 0).isLt
theorem idx4_lt1 {n0 n1 n2 n3 : Nat} (j : (⟨4, ![n0, n1, n2, n3]⟩ : Shape).Idx) : (j 1).val < n1 := (j 1).isLt
theorem idx4_lt2 {n0 n1 n2 n3 : Nat} (j : (⟨4, ![n0, n1, n2, n3]⟩ : Shape).Idx) : (j 2).val < n2 := (j 2).isLt
theorem idx4_lt3 {n0 n1 n2 n3 : Nat} (j : (⟨4, ![n0, n1, n2, n3]⟩ : Shape).Idx) : (j 3).val < n3 := (j 3).isLt

theorem eq_ix2' {n0 n1 : Nat} (j : (⟨2, ![n0, n1]⟩ : Shape).Idx) :
    j = ix2 (⟨(j 0).val, idx2_lt0 j⟩ : Fin n0) (⟨(j 1).val, idx2_lt1 j⟩ : Fin n1) := eq_ix2 j
theorem eq_ix3' {n0 n1 n2 : Nat} (j : (⟨3, ![n0, n1, n2]⟩ : Shape).Idx) :
    j = ix3 (⟨(j 0).val, idx3_lt0 j⟩ : Fin n0) (⟨(j 1).val, idx3_lt1 j⟩ : Fin n1) (⟨(j 2).val, idx3_lt2 j⟩ : Fin n2) := eq_ix3 j
theorem eq_ix4' {n0 n1 n2 n3 : Nat} (j : (⟨4, ![n0, n1, n2, n3]⟩ : Shape).Idx) :
    j = ix4 (⟨(j 0).val, idx4_lt0 j⟩ : Fin n0) (⟨(j 1).val, idx4_lt1 j⟩ : Fin n1) (⟨(j 2).val, idx4_lt2 j⟩ : Fin n2)
      (⟨(j 3).val, idx4_lt3 j⟩ : Fin n3) := eq_ix4 j

/-! ## The index array, transposed and flattened -/

/-- Entry `16384·f + b` of the flattened transpose is example `b`'s index in field `f`. -/
theorem cat_flat_apply (xc : S16384x26.Idx → α) (ht : S16384x26.Transposes [1, 0] S26x16384)
    (hc : S26x16384.ShapeCasts S425984) (f : Fin 26) (b : Fin 16384) (h : 16384 * f.val + b.val < 425984) :
    shapeCast S425984 (transpose S26x16384 [1, 0] xc ht) hc (ix1 ⟨16384 * f.val + b.val, h⟩) = xc (ix2 b f) := by
  refine (shapeCast_apply (transpose S26x16384 [1, 0] xc ht) hc _ (ix2 f b) ?_).trans (transpose_ix2_apply xc ht f b)
  rw [Shape.rowMajor_val_two, Shape.rowMajor_val_one]
  show f.val * 16384 + b.val = 16384 * f.val + b.val
  omega

/-- The flattened transpose as one function: entry `n` is example `n mod 16384`'s index in field `n / 16384`. -/
theorem cat_flat_eq (xc : S16384x26.Idx → α) (ht : S16384x26.Transposes [1, 0] S26x16384)
    (hc : S26x16384.ShapeCasts S425984) :
    shapeCast S425984 (transpose S26x16384 [1, 0] xc ht) hc
      = fun i => xc (ix2 (⟨(i 0).val % 16384, Nat.mod_lt _ (by norm_num)⟩ : Fin 16384)
          (⟨(i 0).val / 16384, by have := idx1_lt0 i; omega⟩ : Fin 26)) := by
  funext i
  have hi := idx1_lt0 i
  have e : i = ix1 (⟨16384 * ((i 0).val / 16384) + (i 0).val % 16384, by omega⟩ : Fin 425984) :=
    (eq_ix1 i).trans (congrArg (ix1 (n := 425984)) (Fin.ext (by show (i 0).val = 16384 * ((i 0).val / 16384) + (i 0).val % 16384; omega)))
  exact (congrArg (shapeCast S425984 (transpose S26x16384 [1, 0] xc ht) hc) e).trans
    (cat_flat_apply xc ht hc ⟨(i 0).val / 16384, by omega⟩ ⟨(i 0).val % 16384, Nat.mod_lt _ (by norm_num)⟩ _)

/-- Indices below the vocabulary size stay so through the transpose and the flattening. -/
theorem cat_flat_lt (xc : S16384x26.Idx → BitVec 32) (ht : S16384x26.Transposes [1, 0] S26x16384)
    (hc : S26x16384.ShapeCasts S425984) (hx : ∀ j, (xc j).toNat < 100000) (i : S425984.Idx) :
    (shapeCast S425984 (transpose S26x16384 [1, 0] xc ht) hc i).toNat < 100000 := by
  rw [cat_flat_eq xc ht hc]
  exact hx _

/-! ## The two embedding tables, vocabulary axis moved last -/

/-- The factor table transposed reads, at (field, component, row), the table at (field, row, component). -/
theorem fac_tr_apply (vc : S26x100000x16.Idx → α) (h : S26x100000x16.Transposes [0, 2, 1] S26x16x100000)
    (f : Fin 26) (k : Fin 16) (v : Fin 100000) :
    transpose S26x16x100000 [0, 2, 1] vc h (ix3 f k v) = vc (ix3 f v k) :=
  transpose_ix3_021_apply vc h f k v

theorem fac_tr_eq (vc : S26x100000x16.Idx → α) (h : S26x100000x16.Transposes [0, 2, 1] S26x16x100000) :
    transpose S26x16x100000 [0, 2, 1] vc h
      = fun j => vc (ix3 (⟨(j 0).val, idx3_lt0 j⟩ : Fin 26) (⟨(j 2).val, idx3_lt2 j⟩ : Fin 100000) (⟨(j 1).val, idx3_lt1 j⟩ : Fin 16)) := by
  funext j
  exact (congrArg (transpose S26x16x100000 [0, 2, 1] vc h) (eq_ix3' j)).trans (fac_tr_apply vc h _ _ _)

/-- The linear table transposed reads, at (field, 0, row), the table at (field, row, 0). -/
theorem lin_tr_apply (lin : S26x100000x1.Idx → α) (h : S26x100000x1.Transposes [0, 2, 1] S26x1x100000)
    (f : Fin 26) (u : Fin 1) (v : Fin 100000) :
    transpose S26x1x100000 [0, 2, 1] lin h (ix3 f u v) = lin (ix3 f v (0 : Fin 1)) := by
  have hu : u = 0 := Fin.ext (by have := u.isLt; show u.val = 0; omega)
  rw [hu]
  exact transpose_ix3_021_apply lin h f (0 : Fin 1) v

theorem lin_tr_eq (lin : S26x100000x1.Idx → α) (h : S26x100000x1.Transposes [0, 2, 1] S26x1x100000) :
    transpose S26x1x100000 [0, 2, 1] lin h
      = fun j => lin (ix3 (⟨(j 0).val, idx3_lt0 j⟩ : Fin 26) (⟨(j 2).val, idx3_lt2 j⟩ : Fin 100000) (0 : Fin 1)) := by
  funext j
  exact (congrArg (transpose S26x1x100000 [0, 2, 1] lin h) (eq_ix3' j)).trans (lin_tr_apply lin h _ _ _)

/-! ## The flat accumulator as planes, and the bias as a matrix -/

/-- Plane entry `(c, j, t, i)` is flat entry `393216·c + 131072·j + 8192·t + i`. -/
theorem planes_apply (v4 : S786432.Idx → α) (h : S786432.ShapeCasts S2x3x16x8192) (c : Fin 2) (j : Fin 3) (t : Fin 16)
    (i : Fin 8192) (hlt : 393216 * c.val + 131072 * j.val + 8192 * t.val + i.val < 786432) :
    shapeCast S2x3x16x8192 v4 h (ix4 c j t i) = v4 (ix1 ⟨393216 * c.val + 131072 * j.val + 8192 * t.val + i.val, hlt⟩) :=
  shapeCast_apply v4 h _ _ (by
    rw [Shape.rowMajor_val_one, Shape.rowMajor_val_four]
    show 393216 * c.val + 131072 * j.val + 8192 * t.val + i.val = ((c.val * 3 + j.val) * 16 + t.val) * 8192 + i.val
    omega)

theorem planes_eq (v4 : S786432.Idx → α) (h : S786432.ShapeCasts S2x3x16x8192) :
    shapeCast S2x3x16x8192 v4 h
      = fun j => v4 (ix1 (⟨393216 * (j 0).val + 131072 * (j 1).val + 8192 * (j 2).val + (j 3).val, by
          have := idx4_lt0 j; have := idx4_lt1 j; have := idx4_lt2 j; have := idx4_lt3 j; omega⟩ : Fin 786432)) := by
  funext j
  exact (congrArg (shapeCast S2x3x16x8192 v4 h) (eq_ix4' j)).trans (planes_apply v4 h _ _ _ _ _)

/-- The bias viewed as a [1, 1] array reads the bias. -/
theorem bias_apply (bias : S1.Idx → α) (h : S1.ShapeCasts S1x1) (u u' : Fin 1) :
    shapeCast S1x1 bias h (ix2 u u') = bias (ix1 (0 : Fin 1)) := by
  have hu : u' = 0 := Fin.ext (by have := u'.isLt; show u'.val = 0; omega)
  rw [hu]
  exact shapeCast_a_1a_apply bias h u (0 : Fin 1)

theorem bias_eq (bias : S1.Idx → α) (h : S1.ShapeCasts S1x1) :
    shapeCast S1x1 bias h = fun _ => bias (ix1 (0 : Fin 1)) := by
  funext j
  exact (congrArg (shapeCast S1x1 bias h) (eq_ix2' j)).trans (bias_apply bias h _ _)

end Cert.Proof.KernelIdeal
-- ==== Proof.KernelIdeal.ValsEq.lean ====
/-
  The arrays' contents along the host program, evaluated.  Each host operation writes one array, as a function of the
  arrays it reads, and leaves every other array as it was; so the contents after the program are read off operation by
  operation: the three inputs of the accumulation call are the transposed (and, for the indices, flattened) launch
  arrays; after the call and the two reshapes, the planes are the accumulated output viewed as [2, 3, 16, 8192], the
  bias matrix is the launch bias viewed as [1, 1], and the seven argument arrays still hold their launch contents.
-/
import proofs.«207209_g54674933678763_cont_9to1_m_278_38_alg».proof.Proof.KernelIdeal.Vals
import proofs.«207209_g54674933678763_cont_9to1_m_278_38_alg».proof.Proof.KernelIdeal.HostValue

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open Idealize.ShloMosaic.StableHlo (unary_result unary_result_ne reshape_result reshape_result_ne devRef_ne_of_ne)

variable {F : FTy → Type}

variable (m : (ℓ : Loc nD τ sig) → Buf (Elt F) ℓ)
variable [FloatOps F]

/-! ## Arrays no operation writes -/

/-- Before the call, an array that is none of the four results holds its launch contents. -/
theorem V4_keep (d : Dev nD) (b : Ref sig .tc) (h0 : b ≠ main_v0) (h1 : b ≠ main_v1) (h2 : b ≠ main_v2) (h3 : b ≠ main_v3) :
    V4 m d (r b) = m ((SparseCore.T d).loc b) := by
  unfold V4
  rw [unary_result_ne (h := h3), unary_result_ne (h := h2), reshape_result_ne (h := h1), unary_result_ne (h := h0)]
  rfl

/-- After the program, an array that is none of the seven results holds its launch contents. -/
theorem V6_keep (d : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) :
    V6 m d (r b) = m ((SparseCore.T d).loc b) := by
  unfold V6 Vc
  rw [reshape_result_ne (h := h6), reshape_result_ne (h := h5), Function.update_of_ne (devRef_ne_of_ne h4)]
  exact V4_keep m d b h0 h1 h2 h3

theorem V6_arg0 (d : Dev nD) : V6 m d (r main_arg0) = m ((SparseCore.T d).loc main_arg0) :=
  V6_keep m d main_arg0 (by decide) (by decide) (by decide) (by decide) (by decide) (by decide) (by decide)
theorem V6_arg1 (d : Dev nD) : V6 m d (r main_arg1) = m ((SparseCore.T d).loc main_arg1) :=
  V6_keep m d main_arg1 (by decide) (by decide) (by decide) (by decide) (by decide) (by decide) (by decide)
theorem V6_arg2 (d : Dev nD) : V6 m d (r main_arg2) = m ((SparseCore.T d).loc main_arg2) :=
  V6_keep m d main_arg2 (by decide) (by decide) (by decide) (by decide) (by decide) (by decide) (by decide)
theorem V6_arg3 (d : Dev nD) : V6 m d (r main_arg3) = m ((SparseCore.T d).loc main_arg3) :=
  V6_keep m d main_arg3 (by decide) (by decide) (by decide) (by decide) (by decide) (by decide) (by decide)
theorem V6_arg4 (d : Dev nD) : V6 m d (r main_arg4) = m ((SparseCore.T d).loc main_arg4) :=
  V6_keep m d main_arg4 (by decide) (by decide) (by decide) (by decide) (by decide) (by decide) (by decide)
theorem V6_arg5 (d : Dev nD) : V6 m d (r main_arg5) = m ((SparseCore.T d).loc main_arg5) :=
  V6_keep m d main_arg5 (by decide) (by decide) (by decide) (by decide) (by decide) (by decide) (by decide)
theorem V6_arg6 (d : Dev nD) : V6 m d (r main_arg6) = m ((SparseCore.T d).loc main_arg6) :=
  V6_keep m d main_arg6 (by decide) (by decide) (by decide) (by decide) (by decide) (by decide) (by decide)

/-! ## The call's three inputs -/

/-- The index words the call reads: the launch index matrix, transposed and flattened. -/
theorem A1_eq (d : Dev nD) :
    A1 m d = shapeCast S425984 (transpose S26x16384 [1, 0] (m ((SparseCore.T d).loc main_arg1)) transposes_S16384x26_S26x16384_1_0)
      shapeCasts_S26x16384_S425984 := by
  unfold A1 V4
  rw [unary_result_ne (h := by decide), unary_result_ne (h := by decide), reshape_result, unary_result]
  rfl

/-- The factor table the call reads: the launch table with the vocabulary axis moved last. -/
theorem A2_eq (d : Dev nD) :
    A2 m d = transpose S26x16x100000 [0, 2, 1] (m ((SparseCore.T d).loc main_arg6)) transposes_S26x100000x16_S26x16x100000_0_2_1 := by
  unfold A2 V4
  rw [unary_result_ne (h := by decide), unary_result, reshape_result_ne (h := by decide), unary_result_ne (h := by decide)]
  rfl

/-- The linear table the call reads: the launch table with the vocabulary axis moved last. -/
theorem A3_eq (d : Dev nD) :
    A3 m d = transpose S26x1x100000 [0, 2, 1] (m ((SparseCore.T d).loc main_arg4)) transposes_S26x100000x1_S26x1x100000_0_2_1 := by
  unfold A3 V4
  rw [unary_result, unary_result_ne (h := by decide), reshape_result_ne (h := by decide), unary_result_ne (h := by decide)]
  rfl

/-! ## The combining region's two reshaped inputs -/

/-- The planes: the accumulated output viewed as [2, 3, 16, 8192]. -/
theorem V6_v5 (d : Dev nD) :
    V6 m d (r main_v5) = shapeCast S2x3x16x8192 (outBuf (A1 m d) (A2 m d) (A3 m d)) shapeCasts_S786432_S2x3x16x8192 := by
  unfold V6 Vc
  rw [reshape_result_ne (h := by decide), reshape_result, Function.update_self]
  rfl

/-- The bias matrix: the launch bias viewed as [1, 1]. -/
theorem V6_v6 (d : Dev nD) :
    V6 m d (r main_v6) = shapeCast S1x1 (m ((SparseCore.T d).loc main_arg2)) shapeCasts_S1_S1x1 := by
  unfold V6 Vc
  rw [reshape_result, reshape_result_ne (h := by decide), Function.update_of_ne (devRef_ne_of_ne (by decide)),
    V4_keep m d main_arg2 (by decide) (by decide) (by decide) (by decide)]
  rfl

end Cert.Proof.KernelIdeal

end
-- ==== Proof.PreDomain.lean ====
/-
  The precondition, read back.  The input-domain predicate is a conjunction of seven tests; its last says that every
  categorical index, read as a signed 32-bit word, lies in [0, 99999].  Here that conjunct is extracted, at every index,
  in the forms the rest of the proof uses: as bounds on the word's signed and unsigned values, and as the outcome of the
  three signed comparisons a wrapped, range-checked lookup makes of such a word (below zero: no; at least zero: yes;
  at most 99999: yes).
-/
import Idealize.ShloMosaic.Lib.ReduceAll
import Idealize.ShloMosaic.Lib.ValueIdx
import proofs.«207209_g54674933678763_cont_9to1_m_278_38_alg».proof.Pre_input_domain

namespace Cert.PreDomain

open Idealize.ShloMosaic Cert.Pre_input_domain

/-- A rank-0 array has one index. -/
instance : Subsingleton S_.Idx := ⟨fun a b => funext fun d => d.elim0⟩

/-- A one-bit word that is not 1 is 0. -/
theorem eq_zero_of_ne_one {c : BitVec 1} (h : c ≠ 1#1) : c = 0#1 := by revert c; decide

/-- A 32-bit word whose signed value lies in [0, 99999] has that value as its unsigned value. -/
theorem toNat_of_toInt_range {w : BitVec 32} (h0 : 0 ≤ w.toInt) (h1 : w.toInt ≤ 99999) :
    w.toNat < 100000 ∧ w.toInt = (w.toNat : Int) := by
  have := w.isLt
  rw [BitVec.toInt_eq_toNat_cond] at h0 h1 ⊢
  split_ifs at h0 h1 ⊢ <;> omega

section
variable {F : FTy → Type} [FloatOps F] [Facts]
  (a0 : FVec F S16384x13 .f32) (a1 : IVec S16384x26 32) (a2 : FVec F S1 .f32) (a3 : FVec F S1x13 .f32)
  (a4 : FVec F S26x100000x1 .f32) (a5 : FVec F S13x16 .f32) (a6 : FVec F S26x100000x16 .f32)

/-- The last conjunct of the precondition, at index `j`: both comparisons of the word came out true. -/
theorem xcat_cmp (h : fn (F := F) a0 a1 a2 a3 a4 a5 a6 = fun _ => 1#1) (j : S16384x26.Idx) :
    IntOp.cmpi .sge (a1 j) 0#32 = 1#1 ∧ IntOp.cmpi .sle (a1 j) 99999#32 = 1#1 := by
  have h0 := congrFun h ValueIdx.ix0
  dsimp only [fn, fn_part1, fn_part2] at h0
  have h1 := (IntOp.andi_eq_one.1 h0).2
  have h2 := Host.reduce_andi_all _ _ _ _ _ h1 j
  exact IntOp.andi_eq_one.1 h2

/-- The word's signed value lies in [0, 99999]. -/
theorem xcat_toInt (h : fn (F := F) a0 a1 a2 a3 a4 a5 a6 = fun _ => 1#1) (j : S16384x26.Idx) :
    0 ≤ (a1 j).toInt ∧ (a1 j).toInt ≤ 99999 := by
  obtain ⟨h1, h2⟩ := xcat_cmp a0 a1 a2 a3 a4 a5 a6 h j
  have e0 : (0#32 : BitVec 32).toInt = 0 := by decide
  have e1 : (99999#32 : BitVec 32).toInt = 99999 := by decide
  rw [IntOp.cmpi_sge, e0] at h1
  rw [IntOp.cmpi_sle, e1] at h2
  exact ⟨h1, h2⟩

theorem xcat_nonneg (h : fn (F := F) a0 a1 a2 a3 a4 a5 a6 = fun _ => 1#1) : ∀ j, 0 ≤ (a1 j).toInt :=
  fun j => (xcat_toInt a0 a1 a2 a3 a4 a5 a6 h j).1

/-- The word's unsigned value is below the vocabulary size. -/
theorem xcat_lt (h : fn (F := F) a0 a1 a2 a3 a4 a5 a6 = fun _ => 1#1) : ∀ j, (a1 j).toNat < 100000 :=
  fun j => (toNat_of_toInt_range (xcat_toInt a0 a1 a2 a3 a4 a5 a6 h j).1 (xcat_toInt a0 a1 a2 a3 a4 a5 a6 h j).2).1

/-- The word's signed and unsigned values agree. -/
theorem xcat_toInt_eq (h : fn (F := F) a0 a1 a2 a3 a4 a5 a6 = fun _ => 1#1) : ∀ j, (a1 j).toInt = ((a1 j).toNat : Int) :=
  fun j => (toNat_of_toInt_range (xcat_toInt a0 a1 a2 a3 a4 a5 a6 h j).1 (xcat_toInt a0 a1 a2 a3 a4 a5 a6 h j).2).2

/-- "Is the index negative?": no. -/
theorem xcat_slt_zero (h : fn (F := F) a0 a1 a2 a3 a4 a5 a6 = fun _ => 1#1) : ∀ j, IntOp.cmpi .slt (a1 j) 0#32 = 0#1 := by
  intro j
  apply eq_zero_of_ne_one
  have e0 : (0#32 : BitVec 32).toInt = 0 := by decide
  rw [Ne, IntOp.cmpi_slt, e0]
  have := xcat_nonneg a0 a1 a2 a3 a4 a5 a6 h j
  omega

/-- "Is the index at least zero?": yes. -/
theorem xcat_sge_zero (h : fn (F := F) a0 a1 a2 a3 a4 a5 a6 = fun _ => 1#1) : ∀ j, IntOp.cmpi .sge (a1 j) 0#32 = 1#1 :=
  fun j => (xcat_cmp a0 a1 a2 a3 a4 a5 a6 h j).1

/-- "Is the index at most 99999?": yes. -/
theorem xcat_sle_max (h : fn (F := F) a0 a1 a2 a3 a4 a5 a6 = fun _ => 1#1) : ∀ j, IntOp.cmpi .sle (a1 j) 99999#32 = 1#1 :=
  fun j => (xcat_cmp a0 a1 a2 a3 a4 a5 a6 h j).2

end

end Cert.PreDomain
-- ==== Proof.KernelIdeal.PreIdx.lean ====
/-
  From the precondition to the index facts the accumulation kernel needs: every word of the flattened index array the
  subcores read is a word of the categorical index matrix, hence below the vocabulary size.
-/
import proofs.«207209_g54674933678763_cont_9to1_m_278_38_alg».proof.Proof.KernelIdeal.Common
import Idealize.ShloMosaic.Lib.Pipeline.Frame
import proofs.«207209_g54674933678763_cont_9to1_m_278_38_alg».proof.Proof.KernelIdeal.ValsEq
import proofs.«207209_g54674933678763_cont_9to1_m_278_38_alg».proof.Proof.PreDomain

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable (m : (ℓ : Loc nD τ sig) → Buf (Elt F) ℓ)
variable [FloatOps F]

theorem idx_lt_of_pre [Cert.Pre_input_domain.Facts] (d : Dev nD)
    (h : Cert.Pre_input_domain.fn (F := F) (m ((SparseCore.T d).loc main_arg0)) (m ((SparseCore.T d).loc main_arg1)) (m ((SparseCore.T d).loc main_arg2))
      (m ((SparseCore.T d).loc main_arg3)) (m ((SparseCore.T d).loc main_arg4)) (m ((SparseCore.T d).loc main_arg5)) (m ((SparseCore.T d).loc main_arg6)) = fun _ => 1#1) :
    ∀ j, (A1 m d j).toNat < 100000 := by
  rw [A1_eq]
  exact cat_flat_lt _ _ _ (Cert.PreDomain.xcat_lt _ _ _ _ _ _ _ h)

end Cert.Proof.KernelIdeal

end
-- ==== Proof.Spec.lean ====
/-
  The mathematics of the factorization-machine layer, stated once over the extended reals, with no program in sight.

  Inputs: dense features `xn` [B,13], categorical indices `xc` [B,26] (32-bit words), a bias [1], a linear weight row `W` [1,13],
  per-field linear embeddings `lin` [26,V,1], dense factors `vn` [13,16] and per-field factor embeddings `vc` [26,V,16]
  (B = 16384, V = 100000).  A word names the vocabulary row `row w` (its value, reduced mod V so that the function is
  total; for a word below V that is the word itself).

  * `embF b f k`, `embL b f` : the factor / linear embedding example `b` picks in field `f`.
  * `plane c j t i` : the three [16, 8192] planes each half `c` of the batch accumulates: for `j = 0` the sum over
    the fields of the factor embeddings' component `t`, for `j = 1` the sum of their squares, for `j = 2` the partial
    linear sum over the fields `t` and `t + 16` (the latter only when it is a field, `t < 10`).
  * `combine P b` : the layer's output for example `b` from any such planes `P` and the dense inputs.
  * `refOut b`   : the layer's output as the textbook formula: bias + x·Wᵀ + Σ_f lin + ½ Σ_k ((Σ_j v)² − Σ_j v²), the
    39 vectors `v` being the 13 dense ones x·vn followed by the 26 embeddings.
-/
import Idealize.ShloMosaic.Lib.ValueIdx
import Idealize.ShloMosaic.PureOps.Ideal

noncomputable section

namespace Cert.Spec

open Idealize.ShloMosaic Idealize.ShloMosaic.ValueIdx

/-- The vocabulary row a 32-bit word names. -/
def row (w : BitVec 32) : Fin 100000 := ⟨w.toNat % 100000, Nat.mod_lt _ (by norm_num)⟩

theorem row_val_of_lt {w : BitVec 32} (h : w.toNat < 100000) : (row w).val = w.toNat := Nat.mod_eq_of_lt h

/-- The literal one half, as the extended real it denotes. -/
def half : EReal := Ideal.ofBits .f32 0x3F000000#32

section
variable (xn : (⟨2, ![16384, 13]⟩ : Shape).Idx → EReal) (xc : (⟨2, ![16384, 26]⟩ : Shape).Idx → BitVec 32)
  (bias : (⟨1, ![1]⟩ : Shape).Idx → EReal) (W : (⟨2, ![1, 13]⟩ : Shape).Idx → EReal)
  (lin : (⟨3, ![26, 100000, 1]⟩ : Shape).Idx → EReal) (vn : (⟨2, ![13, 16]⟩ : Shape).Idx → EReal)
  (vc : (⟨3, ![26, 100000, 16]⟩ : Shape).Idx → EReal)

/-- Component `k` of the factor embedding example `b` picks in field `f`. -/
def embF (b : Fin 16384) (f : Fin 26) (k : Fin 16) : EReal := vc (ix3 f (row (xc (ix2 b f))) k)

/-- The linear embedding example `b` picks in field `f`. -/
def embL (b : Fin 16384) (f : Fin 26) : EReal := lin (ix3 f (row (xc (ix2 b f))) (0 : Fin 1))

/-- Example number `i` of half `c` of the batch. -/
def ex (c : Fin 2) (i : Fin 8192) : Fin 16384 := ⟨c.val * 8192 + i.val, by have := c.isLt; have := i.isLt; omega⟩

/-- The accumulated planes: per half `c`, plane `j`, component (or field residue) `t`, example `i`. -/
def plane (c : Fin 2) (j : Fin 3) (t : Fin 16) (i : Fin 8192) : EReal :=
  if j.val = 0 then ∑ f : Fin 26, embF xc vc (ex c i) f t
  else if j.val = 1 then ∑ f : Fin 26, embF xc vc (ex c i) f t * embF xc vc (ex c i) f t
  else embL xc lin (ex c i) ⟨t.val, by have := t.isLt; omega⟩
        + (if h : t.val + 16 < 26 then embL xc lin (ex c i) ⟨t.val + 16, h⟩ else 0)

/-- The layer's output for example `b`, from planes `P` and the dense inputs. -/
def combine (P : Fin 2 → Fin 3 → Fin 16 → Fin 8192 → EReal) (b : Fin 16384) : EReal :=
  let c : Fin 2 := ⟨b.val / 8192, by have := b.isLt; omega⟩
  let i : Fin 8192 := ⟨b.val % 8192, Nat.mod_lt _ (by norm_num)⟩
  let sv : Fin 16 → EReal := fun k => P c 0 k i + ∑ n : Fin 13, xn (ix2 b n) * vn (ix2 n k)
  let sq : Fin 16 → EReal := fun k => P c 1 k i + ∑ n : Fin 13, (xn (ix2 b n) * xn (ix2 b n)) * (vn (ix2 n k) * vn (ix2 n k))
  (((∑ t : Fin 16, P c 2 t i) + ∑ n : Fin 13, xn (ix2 b n) * W (ix2 (0 : Fin 1) n)) + bias (ix1 (0 : Fin 1)))
    + half * ∑ k : Fin 16, (sv k * sv k - sq k)

/-- The 39 vectors of example `b`: 13 dense ones, then the 26 embeddings. -/
def vec (b : Fin 16384) (j : Fin 39) (k : Fin 16) : EReal :=
  if h : j.val < 13 then xn (ix2 b ⟨j.val, h⟩) * vn (ix2 (⟨j.val, h⟩ : Fin 13) k)
  else embF xc vc b ⟨j.val - 13, by have := j.isLt; omega⟩ k

/-- The layer's output for example `b`, as the textbook formula. -/
def refOut (b : Fin 16384) : EReal :=
  ((bias (ix1 (0 : Fin 1)) + ∑ n : Fin 13, xn (ix2 b n) * W (ix2 (0 : Fin 1) n)) + ∑ f : Fin 26, embL xc lin b f)
    + half * ∑ k : Fin 16, ((∑ j : Fin 39, vec xn xc vn vc b j k) * (∑ j : Fin 39, vec xn xc vn vc b j k)
        - ∑ j : Fin 39, vec xn xc vn vc b j k * vec xn xc vn vc b j k)

/-- The layer's output as the [B, 1] array both programs return. -/
def outArr : (⟨2, ![16384, 1]⟩ : Shape).Idx → EReal :=
  fun j => refOut xn xc bias W lin vn vc ⟨(j 0).val, idx2_lt0 j⟩

/-- The planes as the [2, 3, 16, 8192] array the accumulation leaves. -/
def planeArr : (⟨4, ![2, 3, 16, 8192]⟩ : Shape).Idx → EReal :=
  fun j => plane xc lin vc ⟨(j 0).val, (j 0).isLt⟩ ⟨(j 1).val, (j 1).isLt⟩ ⟨(j 2).val, (j 2).isLt⟩ ⟨(j 3).val, (j 3).isLt⟩

end

end Cert.Spec

end
-- ==== Proof.Algebra.lean ====
/-
  The planes' layer is the textbook layer: pure algebra over the extended reals, with no program in sight.

  Only the laws of a commutative additive monoid and of a commutative multiplicative monoid are used (sums are
  regrouped and reordered, products of products are regrouped); no distributivity and no cancellation, which fail at
  the infinities.

  * Example `b` is example `b mod 8192` of half `b / 8192`.
  * A sum over the 39 vectors is the sum over the 13 dense ones plus the sum over the 26 embeddings; the same for their
    squares, where the square of a dense vector's component x·v is regrouped as (x·x)·(v·v).
  * The sixteen partial linear sums (field t, and field t + 16 when t < 10) add up to the sum over the 26 fields.
-/
import Mathlib.Algebra.BigOperators.Fin
import proofs.«207209_g54674933678763_cont_9to1_m_278_38_alg».proof.Proof.Spec

noncomputable section

namespace Cert.Spec

open Idealize.ShloMosaic Idealize.ShloMosaic.ValueIdx

/-- Example `b` is example `b mod 8192` of half `b / 8192`. -/
theorem ex_div_mod (b : Fin 16384) (h1 : b.val / 8192 < 2) (h2 : b.val % 8192 < 8192) :
    ex ⟨b.val / 8192, h1⟩ ⟨b.val % 8192, h2⟩ = b := by
  apply Fin.ext
  show b.val / 8192 * 8192 + b.val % 8192 = b.val
  omega

section sums
variable {M : Type*} [AddCommMonoid M]

/-- A sum over 39 terms is the sum of the first 13 plus the sum of the last 26. -/
theorem sum_fin39 (f : Fin 39 → M) :
    ∑ j : Fin 39, f j = ∑ n : Fin 13, f ⟨n.val, by have := n.isLt; omega⟩ + ∑ m : Fin 26, f ⟨13 + m.val, by have := m.isLt; omega⟩ :=
  Fin.sum_univ_add (a := 13) (b := 26) f

/-- Sixteen partial sums, term `t` plus term `t + 16` where there is one, add up to the sum of the 26 terms. -/
theorem sum_fold16 (g : Fin 26 → M) :
    ∑ t : Fin 16, (g ⟨t.val, by have := t.isLt; omega⟩ + (if h : t.val + 16 < 26 then g ⟨t.val + 16, h⟩ else 0)) = ∑ f : Fin 26, g f := by
  rw [Finset.sum_add_distrib]
  have hR : ∑ f : Fin 26, g f
      = ∑ t : Fin 16, g ⟨t.val, by have := t.isLt; omega⟩ + ∑ s : Fin 10, g ⟨16 + s.val, by have := s.isLt; omega⟩ :=
    Fin.sum_univ_add (a := 16) (b := 10) g
  have hD : ∑ t : Fin 16, (if h : t.val + 16 < 26 then g ⟨t.val + 16, h⟩ else 0)
      = ∑ s : Fin 10, g ⟨16 + s.val, by have := s.isLt; omega⟩ := by
    have hS : ∑ t : Fin 16, (if h : t.val + 16 < 26 then g ⟨t.val + 16, h⟩ else 0)
        = ∑ s : Fin 10, (if h : s.val + 16 < 26 then g ⟨s.val + 16, h⟩ else 0)
          + ∑ r : Fin 6, (if h : 10 + r.val + 16 < 26 then g ⟨10 + r.val + 16, h⟩ else 0) :=
      Fin.sum_univ_add (a := 10) (b := 6) (fun t : Fin 16 => if h : t.val + 16 < 26 then g ⟨t.val + 16, h⟩ else 0)
    have hZ : ∑ r : Fin 6, (if h : 10 + r.val + 16 < 26 then g ⟨10 + r.val + 16, h⟩ else 0) = 0 :=
      Finset.sum_eq_zero fun r _ => dif_neg (by omega)
    rw [hS, hZ, add_zero]
    refine Finset.sum_congr rfl fun s _ => ?_
    have hs : s.val + 16 < 26 := by have := s.isLt; omega
    rw [dif_pos hs]
    congr 1
    exact Fin.ext (by show s.val + 16 = 16 + s.val; omega)
  rw [hR, hD]

end sums

section
variable (xn : (⟨2, ![16384, 13]⟩ : Shape).Idx → EReal) (xc : (⟨2, ![16384, 26]⟩ : Shape).Idx → BitVec 32)
  (bias : (⟨1, ![1]⟩ : Shape).Idx → EReal) (W : (⟨2, ![1, 13]⟩ : Shape).Idx → EReal)
  (lin : (⟨3, ![26, 100000, 1]⟩ : Shape).Idx → EReal) (vn : (⟨2, ![13, 16]⟩ : Shape).Idx → EReal)
  (vc : (⟨3, ![26, 100000, 16]⟩ : Shape).Idx → EReal)

theorem plane_zero (c : Fin 2) (t : Fin 16) (i : Fin 8192) :
    plane xc lin vc c 0 t i = ∑ f : Fin 26, embF xc vc (ex c i) f t := by
  unfold plane; rw [if_pos (show (0 : Fin 3).val = 0 from rfl)]

theorem plane_one (c : Fin 2) (t : Fin 16) (i : Fin 8192) :
    plane xc lin vc c 1 t i = ∑ f : Fin 26, embF xc vc (ex c i) f t * embF xc vc (ex c i) f t := by
  unfold plane; rw [if_neg (show ¬ (1 : Fin 3).val = 0 by decide), if_pos (show (1 : Fin 3).val = 1 from rfl)]

theorem plane_two (c : Fin 2) (t : Fin 16) (i : Fin 8192) :
    plane xc lin vc c 2 t i = embL xc lin (ex c i) ⟨t.val, by have := t.isLt; omega⟩
        + (if h : t.val + 16 < 26 then embL xc lin (ex c i) ⟨t.val + 16, h⟩ else 0) := by
  unfold plane; rw [if_neg (show ¬ (2 : Fin 3).val = 0 by decide), if_neg (show ¬ (2 : Fin 3).val = 1 by decide)]

/-- The first 13 vectors are the dense ones. -/
theorem vec_lo (b : Fin 16384) (n : Fin 13) (k : Fin 16) (h : n.val < 39) :
    vec xn xc vn vc b ⟨n.val, h⟩ k = xn (ix2 b n) * vn (ix2 n k) := by
  unfold vec; rw [dif_pos (show (⟨n.val, h⟩ : Fin 39).val < 13 from n.isLt)]

/-- The last 26 vectors are the embeddings. -/
theorem vec_hi (b : Fin 16384) (m : Fin 26) (k : Fin 16) (h : 13 + m.val < 39) :
    vec xn xc vn vc b ⟨13 + m.val, h⟩ k = embF xc vc b m k := by
  unfold vec; rw [dif_neg (show ¬ (⟨13 + m.val, h⟩ : Fin 39).val < 13 by show ¬ (13 + m.val < 13); omega)]
  congr 1
  exact Fin.ext (by show 13 + m.val - 13 = m.val; omega)

/-- The sum of the 39 vectors: embeddings plus dense part. -/
theorem sum_vec (b : Fin 16384) (k : Fin 16) :
    ∑ j : Fin 39, vec xn xc vn vc b j k
      = (∑ f : Fin 26, embF xc vc b f k) + ∑ n : Fin 13, xn (ix2 b n) * vn (ix2 n k) := by
  have h := sum_fin39 (fun j => vec xn xc vn vc b j k)
  simp only [vec_lo, vec_hi] at h
  rw [h, add_comm]

/-- The sum of the 39 vectors' squares: embeddings plus dense part, the latter regrouped. -/
theorem sum_vec_sq (b : Fin 16384) (k : Fin 16) :
    ∑ j : Fin 39, vec xn xc vn vc b j k * vec xn xc vn vc b j k
      = (∑ f : Fin 26, embF xc vc b f k * embF xc vc b f k)
        + ∑ n : Fin 13, (xn (ix2 b n) * xn (ix2 b n)) * (vn (ix2 n k) * vn (ix2 n k)) := by
  have h := sum_fin39 (fun j => vec xn xc vn vc b j k * vec xn xc vn vc b j k)
  simp only [vec_lo, vec_hi] at h
  rw [h, add_comm]
  congr 1
  exact Finset.sum_congr rfl fun n _ => mul_mul_mul_comm _ _ _ _

/-- The layer computed from the accumulated planes is the textbook layer. -/
theorem combine_plane (b : Fin 16384) :
    combine xn bias W vn (plane xc lin vc) b = refOut xn xc bias W lin vn vc b := by
  unfold combine refOut
  simp only [plane_zero, plane_one, plane_two, ex_div_mod, sum_vec, sum_vec_sq]
  rw [sum_fold16 (embL xc lin b)]
  congr 1
  abel

end

end Cert.Spec

end
-- ==== Proof.KernelIdeal.FinalValue.lean ====
/-
  The result array, over the extended reals, is the textbook layer.

  The combining region computes, row by row, the layer's output from the planes it is given and the dense inputs; the
  planes it is given are the accumulated output viewed as [2, 3, 16, 8192]; word 393216·c + 131072·j + 8192·t + i of the
  accumulated output is what the task of half c, subcore t left at position i of its j-th slice (c is the quotient by
  393216, t the quotient by 8192 modulo 16, j the quotient by 131072 modulo 3, i the remainder modulo 8192), and over the
  extended reals that is the plane entry (c, j, t, i) of the specification, because the call's inputs are the launch
  arrays transposed (and flattened) and every index is below the vocabulary size.  The planes' layer is the textbook
  layer (pure algebra).  The two value statements about the region and about a task are taken as hypotheses here.
-/
import proofs.«207209_g54674933678763_cont_9to1_m_278_38_alg».proof.Proof.KernelIdeal.ValsEq
import proofs.«207209_g54674933678763_cont_9to1_m_278_38_alg».proof.Proof.Algebra

noncomputable section

namespace Cert.Proof.KernelIdeal

open Cert.KernelIdeal Cert.KernelIdeal.Gen

open Idealize.ShloMosaic Idealize.ShloMosaic.ValueIdx
open Idealize.ShloMosaic.SparseCore (S V T)

variable (m : (ℓ : Loc nD τ sig) → Buf (Elt Ideal) ℓ) (d : Dev nD)

/-! ## The seven launch arrays of device d, over the extended reals -/

abbrev xnOf : S16384x13.Idx → EReal := m ((SparseCore.T d).loc main_arg0)
abbrev xcOf : S16384x26.Idx → BitVec 32 := m ((SparseCore.T d).loc main_arg1)
abbrev biasOf : S1.Idx → EReal := m ((SparseCore.T d).loc main_arg2)
abbrev wOf : S1x13.Idx → EReal := m ((SparseCore.T d).loc main_arg3)
abbrev linOf : S26x100000x1.Idx → EReal := m ((SparseCore.T d).loc main_arg4)
abbrev vnOf : S13x16.Idx → EReal := m ((SparseCore.T d).loc main_arg5)
abbrev vcOf : S26x100000x16.Idx → EReal := m ((SparseCore.T d).loc main_arg6)

/-- What a task leaves, over the extended reals, is the specification's plane entry — the statement asked of the
    accumulation kernel's value proof. -/
def TileValueStmt : Prop :=
  ∀ (A1 : S425984.Idx → BitVec 32) (A2 : S26x16x100000.Idx → Ideal .f32) (A3 : S26x1x100000.Idx → Ideal .f32)
    (xc : S16384x26.Idx → BitVec 32) (lin : S26x100000x1.Idx → EReal) (vc : S26x100000x16.Idx → EReal),
    (∀ (f : Fin 26) (b : Fin 16384) (h : 16384 * f.val + b.val < 425984), A1 (ix1 ⟨16384 * f.val + b.val, h⟩) = xc (ix2 b f)) →
    (∀ j, (xc j).toNat < 100000) →
    (∀ (f : Fin 26) (k : Fin 16) (v : Fin 100000), A2 (ix3 f k v) = vc (ix3 f v k)) →
    (∀ (f : Fin 26) (v : Fin 100000), A3 (ix3 f (0 : Fin 1) v) = lin (ix3 f v (0 : Fin 1))) →
    ∀ (c t j : ℕ) (hc : c < 2) (ht : t < 16) (hj : j < 3) (y : S8192.Idx),
      tileOutN (F := Ideal) A1 A2 A3 c t j y = Cert.Spec.plane xc lin vc ⟨c, hc⟩ ⟨j, hj⟩ ⟨t, ht⟩ ⟨(y 0).val, idx1_lt0 y⟩

/-- The region's result, over the extended reals, is the layer computed from the planes — the statement asked of the
    combining region's value proof. -/
def RegionValueStmt : Prop :=
  ∀ (X5 : C5 Ideal) (X0 : C0 Ideal) (Xvn : Cvn Ideal) (XW : CW Ideal) (Xb : Cb Ideal) (bias : S1.Idx → EReal)
    (P : Fin 2 → Fin 3 → Fin 16 → Fin 8192 → EReal),
    (∀ (c : Fin 2) (k : Fin 3) (t : Fin 16) (i : Fin 8192), X5 (ix4 c k t i) = P c k t i) →
    Xb (ix2 (0 : Fin 1) (0 : Fin 1)) = bias (ix1 (0 : Fin 1)) →
    ∀ j : S16384x1.Idx, regionOut (F := Ideal) X5 X0 Xvn XW Xb j = Cert.Spec.combine X0 bias XW Xvn P ⟨(j 0).val, idx2_lt0 j⟩

/-- The planes the region is given are the specification's planes. -/
theorem planes_value (hx : ∀ j, (xcOf m d j).toNat < 100000) (hB : TileValueStmt)
    (c : Fin 2) (k : Fin 3) (t : Fin 16) (i : Fin 8192) :
    (V6 (F := Ideal) m d (r main_v5) : C5 Ideal) (ix4 c k t i) = Cert.Spec.plane (xcOf m d) (linOf m d) (vcOf m d) c k t i := by
  have hc := c.isLt
  have hk := k.isLt
  have ht := t.isLt
  have hi := i.isLt
  have hN : 393216 * c.val + 131072 * k.val + 8192 * t.val + i.val < 786432 := by omega
  rw [V6_v5, planes_apply _ _ c k t i hN]
  have h1 := hB (A1 (F := Ideal) m d) (A2 (F := Ideal) m d) (A3 (F := Ideal) m d) (xcOf m d) (linOf m d) (vcOf m d)
    (fun f b h => by rw [A1_eq]; exact cat_flat_apply _ _ _ f b h)
    hx
    (fun f k v => by rw [A2_eq]; exact fac_tr_apply _ _ f k v)
    (fun f v => by rw [A3_eq]; exact lin_tr_apply _ _ f (0 : Fin 1) v)
    ((393216 * c.val + 131072 * k.val + 8192 * t.val + i.val) / 393216)
    ((393216 * c.val + 131072 * k.val + 8192 * t.val + i.val) / 8192 % 16)
    ((393216 * c.val + 131072 * k.val + 8192 * t.val + i.val) / 131072 % 3)
    (by omega) (by omega) (by omega)
    (ix1 ⟨(393216 * c.val + 131072 * k.val + 8192 * t.val + i.val) % 8192, Nat.mod_lt _ (by norm_num)⟩)
  refine h1.trans ?_
  have a1 : (⟨(393216 * c.val + 131072 * k.val + 8192 * t.val + i.val) / 393216, by omega⟩ : Fin 2) = c := Fin.ext (by show _ / 393216 = c.val; omega)
  have a2 : (⟨(393216 * c.val + 131072 * k.val + 8192 * t.val + i.val) / 131072 % 3, by omega⟩ : Fin 3) = k := Fin.ext (by show _ / 131072 % 3 = k.val; omega)
  have a3 : (⟨(393216 * c.val + 131072 * k.val + 8192 * t.val + i.val) / 8192 % 16, by omega⟩ : Fin 16) = t := Fin.ext (by show _ / 8192 % 16 = t.val; omega)
  have a4 : (⟨(393216 * c.val + 131072 * k.val + 8192 * t.val + i.val) % 8192, Nat.mod_lt _ (by norm_num)⟩ : Fin 8192) = i := Fin.ext (by show _ % 8192 = i.val; omega)
  rw [a1, a2, a3]
  exact congrArg _ a4

/-- The result array is the textbook layer's output. -/
theorem OUT_eq (hx : ∀ j, (xcOf m d j).toNat < 100000) (hB : TileValueStmt) (hD : RegionValueStmt) :
    OUT (F := Ideal) m d
      = Cert.Spec.outArr (xnOf m d) (xcOf m d) (biasOf m d) (wOf m d) (linOf m d) (vnOf m d) (vcOf m d) := by
  funext j
  unfold OUT
  rw [hD _ _ _ _ _ (biasOf m d) (Cert.Spec.plane (xcOf m d) (linOf m d) (vcOf m d)) (planes_value m d hx hB)
    (by rw [V6_v6]; exact bias_apply _ _ _ _) j,
    V6_arg0, V6_arg3, V6_arg5, Cert.Spec.combine_plane]
  rfl

end Cert.Proof.KernelIdeal

end
-- ==== Proof.KernelIdeal.TileValue.lean ====
/-
  What a task of the accumulation kernel leaves, over the extended reals, is the specification's plane entry.

  The task of half c, subcore t reads, for example number y of its half and field f, the index word at position
  16384·f + 8192·c + y of the flattened index array — example 8192·c + y's index in field f —, takes the vocabulary row
  that word names, and gathers the factor component t (or the linear weight) of that row in field f.  Since every
  position 16384·f + 8192·c + y with f < 26, c < 2, y < 8192 is below 425984 and f < 26, t < 16, the reductions modulo
  the extents are the identity; since the embedding tables the call reads are the launch tables with the vocabulary axis
  moved last, the gathered values are the specification's embeddings.  Over the extended reals the float additions and
  multiplications are + and ·, and the float zero is 0: so the first accumulator after the 26 fields is the sum over the
  fields of the component, the second the sum of its squares, and the linear accumulator the field t's weight plus,
  when t + 16 < 26, field t + 16's.
-/
import proofs.«207209_g54674933678763_cont_9to1_m_278_38_alg».proof.Proof.KernelIdeal.FinalValue
import Idealize.ShloMosaic.PureOps.Ideal.Laws

noncomputable section

namespace Cert.Proof.KernelIdeal

open Cert.KernelIdeal Cert.KernelIdeal.Gen

open Idealize.ShloMosaic Idealize.ShloMosaic.ValueIdx

/-- How the call's three inputs relate to the launch arrays. -/
structure InFacts (A1 : S425984.Idx → BitVec 32) (A2 : S26x16x100000.Idx → Ideal .f32) (A3 : S26x1x100000.Idx → Ideal .f32)
    (xc : S16384x26.Idx → BitVec 32) (lin : S26x100000x1.Idx → EReal) (vc : S26x100000x16.Idx → EReal) : Prop where
  h1 : ∀ (f : Fin 26) (b : Fin 16384) (h : 16384 * f.val + b.val < 425984), A1 (ix1 ⟨16384 * f.val + b.val, h⟩) = xc (ix2 b f)
  h2 : ∀ (f : Fin 26) (k : Fin 16) (v : Fin 100000), A2 (ix3 f k v) = vc (ix3 f v k)
  h3 : ∀ (f : Fin 26) (v : Fin 100000), A3 (ix3 f (0 : Fin 1) v) = lin (ix3 f v (0 : Fin 1))

/-- Example number y of half c. -/
abbrev exOf (c : Fin 2) (y : S8192.Idx) : Fin 16384 := Cert.Spec.ex c ⟨(y 0).val, idx1_lt0 y⟩

/-- The float zero is 0. -/
theorem fzero_eq : (fzero : Ideal .f32) = 0 := by
  unfold fzero
  exact Ideal.ofBits_zero_f32

section
variable {A1 : S425984.Idx → BitVec 32} {A2 : S26x16x100000.Idx → Ideal .f32} {A3 : S26x1x100000.Idx → Ideal .f32}
  {xc : S16384x26.Idx → BitVec 32} {lin : S26x100000x1.Idx → EReal} {vc : S26x100000x16.Idx → EReal}

/-- The index word read for field f is the example's index in field f. -/
theorem idxW_eq (H : InFacts A1 A2 A3 xc lin vc) (c : Fin 2) (y : S8192.Idx) (f : Fin 26) :
    idxW A1 c.val f.val y = xc (ix2 (exOf c y) f) := by
  have hy := idx1_lt0 y
  have hc := c.isLt
  have hf := f.isLt
  have hb : (exOf c y).val = c.val * 8192 + (y 0).val := rfl
  have hlt : 16384 * f.val + (exOf c y).val < 425984 := by omega
  unfold idxW
  have e : (⟨(16384 * f.val + 8192 * c.val + (y 0).val) % 425984, Nat.mod_lt _ (by norm_num)⟩ : Fin 425984)
      = ⟨16384 * f.val + (exOf c y).val, hlt⟩ :=
    Fin.ext (by show (16384 * f.val + 8192 * c.val + (y 0).val) % 425984 = 16384 * f.val + (exOf c y).val; omega)
  rw [e]
  exact H.h1 f (exOf c y) hlt

/-- The vocabulary row gathered for field f is the row the example's index names. -/
theorem rowW_eq (H : InFacts A1 A2 A3 xc lin vc) (c : Fin 2) (y : S8192.Idx) (f : Fin 26) :
    rowW A1 c.val f.val y = Cert.Spec.row (xc (ix2 (exOf c y) f)) :=
  Fin.ext (by
    show (idxW A1 c.val f.val y).toNat % 100000 = (xc (ix2 (exOf c y) f)).toNat % 100000
    rw [idxW_eq H c y f])

/-- The gathered factor component is the specification's. -/
theorem gFac_eq (H : InFacts A1 A2 A3 xc lin vc) (c : Fin 2) (y : S8192.Idx) (t : Fin 16) (f : Fin 26) :
    gFac A1 A2 c.val t.val f.val y = Cert.Spec.embF xc vc (exOf c y) f t := by
  unfold gFac Cert.Spec.embF
  have ef : (⟨f.val % 26, Nat.mod_lt _ (by norm_num)⟩ : Fin 26) = f := Fin.ext (Nat.mod_eq_of_lt f.isLt)
  have et : (⟨t.val % 16, Nat.mod_lt _ (by norm_num)⟩ : Fin 16) = t := Fin.ext (Nat.mod_eq_of_lt t.isLt)
  rw [ef, et, rowW_eq H c y f, H.h2]

/-- The gathered linear weight is the specification's. -/
theorem gLin_eq (H : InFacts A1 A2 A3 xc lin vc) (c : Fin 2) (y : S8192.Idx) (f : Fin 26) :
    gLin A1 A3 c.val f.val y = Cert.Spec.embL xc lin (exOf c y) f := by
  unfold gLin Cert.Spec.embL
  have ef : (⟨f.val % 26, Nat.mod_lt _ (by norm_num)⟩ : Fin 26) = f := Fin.ext (Nat.mod_eq_of_lt f.isLt)
  rw [ef, rowW_eq H c y f, H.h3]

/-- The first accumulator after n fields is the sum of the component over them. -/
theorem accSum_eq (H : InFacts A1 A2 A3 xc lin vc) (c : Fin 2) (y : S8192.Idx) (t : Fin 16) :
    ∀ (n : ℕ) (hn : n ≤ 26), accSum A1 A2 c.val t.val n y
      = ∑ f : Fin n, Cert.Spec.embF xc vc (exOf c y) ⟨f.val, by have := f.isLt; omega⟩ t := by
  intro n
  induction n with
  | zero =>
    intro _
    show (fzero : Ideal .f32) = _
    rw [fzero_eq, Fin.sum_univ_zero]
  | succ n ih =>
    intro hn
    rw [Fin.sum_univ_castSucc]
    show FloatOps.addf (accSum A1 A2 c.val t.val n y) (gFac A1 A2 c.val t.val n y) = _
    rw [Ideal.addf_def, ih (by omega), gFac_eq H c y t ⟨n, by omega⟩]
    rfl

/-- The second accumulator after n fields is the sum of the component's squares over them. -/
theorem accSq_eq (H : InFacts A1 A2 A3 xc lin vc) (c : Fin 2) (y : S8192.Idx) (t : Fin 16) :
    ∀ (n : ℕ) (hn : n ≤ 26), accSq A1 A2 c.val t.val n y
      = ∑ f : Fin n, Cert.Spec.embF xc vc (exOf c y) ⟨f.val, by have := f.isLt; omega⟩ t
          * Cert.Spec.embF xc vc (exOf c y) ⟨f.val, by have := f.isLt; omega⟩ t := by
  intro n
  induction n with
  | zero =>
    intro _
    show (fzero : Ideal .f32) = _
    rw [fzero_eq, Fin.sum_univ_zero]
  | succ n ih =>
    intro hn
    rw [Fin.sum_univ_castSucc]
    show FloatOps.addf (accSq A1 A2 c.val t.val n y) (FloatOps.mulf (gFac A1 A2 c.val t.val n y) (gFac A1 A2 c.val t.val n y)) = _
    rw [Ideal.addf_def, Ideal.mulf_def, ih (by omega), gFac_eq H c y t ⟨n, by omega⟩]
    rfl

/-- The linear accumulator is field t's weight plus, when it is a field, field t + 16's. -/
theorem accLin_eq (H : InFacts A1 A2 A3 xc lin vc) (c : Fin 2) (y : S8192.Idx) (t : Fin 16) :
    accLin A1 A3 c.val t.val y
      = Cert.Spec.embL xc lin (exOf c y) ⟨t.val, by have := t.isLt; omega⟩
        + (if h : t.val + 16 < 26 then Cert.Spec.embL xc lin (exOf c y) ⟨t.val + 16, h⟩ else 0) := by
  have ht := t.isLt
  unfold accLin
  by_cases h : t.val + 16 < 26
  · rw [if_pos h, dif_pos h, Ideal.addf_def, Ideal.addf_def, fzero_eq, zero_add,
      gLin_eq H c y ⟨t.val, by omega⟩, gLin_eq H c y ⟨t.val + 16, h⟩]
  · rw [if_neg h, dif_neg h, Ideal.addf_def, fzero_eq, zero_add, add_zero, gLin_eq H c y ⟨t.val, by omega⟩]

end

/-- What a task leaves is the specification's plane entry. -/
theorem tileValue : TileValueStmt := by
  intro A1 A2 A3 xc lin vc hA1 _ hA2 hA3 c t j hc ht hj y
  have H : InFacts A1 A2 A3 xc lin vc := ⟨hA1, hA2, hA3⟩
  unfold tileOutN Cert.Spec.plane
  by_cases h0 : j = 0
  · rw [if_pos h0, if_pos (show (⟨j, hj⟩ : Fin 3).val = 0 from h0)]
    exact accSum_eq H ⟨c, hc⟩ y ⟨t, ht⟩ 26 (le_refl _)
  · rw [if_neg h0, if_neg (show ¬ (⟨j, hj⟩ : Fin 3).val = 0 from h0)]
    by_cases h1 : j = 1
    · rw [if_pos h1, if_pos (show (⟨j, hj⟩ : Fin 3).val = 1 from h1)]
      exact accSq_eq H ⟨c, hc⟩ y ⟨t, ht⟩ 26 (le_refl _)
    · rw [if_neg h1, if_neg (show ¬ (⟨j, hj⟩ : Fin 3).val = 1 from h1)]
      exact accLin_eq H ⟨c, hc⟩ y ⟨t, ht⟩

end Cert.Proof.KernelIdeal

end
-- ==== Proof.KernelIdeal.RegionValue.lean ====
/-
  The combining kernel's result over the extended reals: row b of `regionOut` is `Cert.Spec.combine` at b, when the planes array
  holds the planes P.
-/
import proofs.«207209_g54674933678763_cont_9to1_m_278_38_alg».proof.Proof.KernelIdeal.RegionFrame
import proofs.«207209_g54674933678763_cont_9to1_m_278_38_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KernelIdeal

open Cert.KernelIdeal Cert.KernelIdeal.Gen
open Idealize.ShloMosaic Idealize.ShloMosaic.TcCoe Idealize.ShloMosaic.ValueIdx

/-! ## The layout operations of the body, read at an index -/

/-- A column cast of a vector reads the vector. -/
theorem col_apply {α : Type} (x : S512.Idx → α) (r : Fin 512) :
    shapeCast S512x1 x shapeCasts_S512_S512x1 (ix2 r (0 : Fin 1)) = x (ix1 r) :=
  shapeCast_apply x _ _ _ (by rw [Shape.rowMajor_val_one, Shape.rowMajor_val_two]; show r.val = r.val * 1 + 0; omega)

/-- Plane `m` of the staged block, transposed: at (r, k) it is the block at (0, m, k, r). -/
theorem planeT_apply {α : Type} (x0 : S1x3x16x512.Idx → α) (m : Fin 3) (off : Fin 3 → Nat) (hs : S3x16x512.Slices off S1x16x512)
    (h0 : off 0 = m.val) (h1 : off 1 = 0) (h2 : off 2 = 0) (r : Fin 512) (k : Fin 16) :
    transpose S512x16 [1, 0] (shapeCast S16x512 (extractStridedSlice S1x16x512 off (shapeCast S3x16x512 x0 shapeCasts_S1x3x16x512_S3x16x512) hs)
        shapeCasts_S1x16x512_S16x512) transposes_S16x512_p1_0_S512x16 (ix2 r k) = x0 (ix4 (0 : Fin 1) m k r) := by
  refine (transpose_ix2_apply _ _ r k).trans ?_
  refine (shapeCast_1ab_ab_apply _ _ k r).trans ?_
  refine (extractStridedSlice_apply off _ hs (ix3 (0 : Fin 1) k r) (ix3 m k r) fun a => ?_).trans ?_
  · match a with
    | ⟨0, _⟩ => show m.val = off 0 + 0; omega
    | ⟨1, _⟩ => show k.val = off 1 + k.val; omega
    | ⟨2, _⟩ => show r.val = off 2 + r.val; omega
  · exact shapeCast_1abc_abc_apply _ _ m k r

/-- A lane sum over the 16 columns. -/
theorem laneSum16 (src : FVec Ideal S512x16 .f32) (hφ : FKind.Formats .f32) (hacc : (0x00000000#32 : BitVec 32) = 0x00000000#32) (r : Fin 512) :
    multiReduction (F := Ideal) .add [1] S512 src 0x00000000#32 reduces_S512x16_S512 hφ hacc (ix1 r) = ∑ k : Fin 16, src (ix2 r k) := by
  refine (Ideal.multiReduction_add_single src 0x00000000#32 reduces_S512x16_S512 hφ hacc (ix1 r)).trans ?_
  refine Finset.sum_congr rfl fun k _ => congrArg src (funext fun c => Fin.ext ?_)
  match c with
  | ⟨0, _⟩ => rfl
  | ⟨1, _⟩ => rfl

/-- A lane sum over the 13 columns. -/
theorem laneSum13 (src : FVec Ideal S512x13 .f32) (hφ : FKind.Formats .f32) (hacc : (0x00000000#32 : BitVec 32) = 0x00000000#32) (r : Fin 512) :
    multiReduction (F := Ideal) .add [1] S512 src 0x00000000#32 reduces_S512x13_S512 hφ hacc (ix1 r) = ∑ n : Fin 13, src (ix2 r n) := by
  refine (Ideal.multiReduction_add_single src 0x00000000#32 reduces_S512x13_S512 hφ hacc (ix1 r)).trans ?_
  refine Finset.sum_congr rfl fun k _ => congrArg src (funext fun c => Fin.ext ?_)
  match c with
  | ⟨0, _⟩ => rfl
  | ⟨1, _⟩ => rfl

/-- The body's matrix product into a zero accumulator, at (r, k). -/
theorem mm_apply (A : FVec Ideal S512x13 .f32) (B : FVec Ideal S13x16 .f32) (r : Fin 512) (k : Fin 16) :
    matmul dot_S512x13_S13x16_S512x16_1_0_0_1_n_n none A B (constant (F := Ideal) S512x16 .f32 0x00000000#32) (ix2 r k)
      = ∑ n : Fin 13, A (ix2 r n) * B (ix2 n k) := by
  show FloatOps.matmul dot_S512x13_S13x16_S512x16_1_0_0_1_n_n none A B (constant (F := Ideal) S512x16 .f32 0x00000000#32) (ix2 r k) = _
  rw [Ideal.matmul_constant_zero_apply, ← Equiv.sum_comp (contrEquiv1 dot_S512x13_S13x16_S512x16_1_0_0_1_n_n 13 rfl rfl).symm]
  refine Finset.sum_congr rfl fun c _ => ?_
  have c2 := contrEquiv1_symm_val dot_S512x13_S13x16_S512x16_1_0_0_1_n_n 13 rfl rfl c
  have l2 : dot_S512x13_S13x16_S512x16_1_0_0_1_n_n.lhsIdx (ix2 r k) ((contrEquiv1 dot_S512x13_S13x16_S512x16_1_0_0_1_n_n 13 rfl rfl).symm c) = ix2 r c := by
    funext ax; apply Fin.ext
    match ax with
    | ⟨0, _⟩ => simp [DotDims.lhsIdx, dot_S512x13_S13x16_S512x16_1_0_0_1_n_n]; rfl
    | ⟨1, _⟩ => simp [DotDims.lhsIdx, dot_S512x13_S13x16_S512x16_1_0_0_1_n_n]; exact c2
  have r2 : dot_S512x13_S13x16_S512x16_1_0_0_1_n_n.rhsIdx (ix2 r k) ((contrEquiv1 dot_S512x13_S13x16_S512x16_1_0_0_1_n_n 13 rfl rfl).symm c) = ix2 c k := by
    funext ax; apply Fin.ext
    match ax with
    | ⟨0, _⟩ => simp [DotDims.rhsIdx, dot_S512x13_S13x16_S512x16_1_0_0_1_n_n]; exact c2
    | ⟨1, _⟩ => simp [DotDims.rhsIdx, dot_S512x13_S13x16_S512x16_1_0_0_1_n_n]; rfl
  rw [l2, r2]

/-- The weight row laid along every row. -/
theorem wrow_apply {α : Type} (v : S1x13.Idx → α) (r : Fin 512) (n : Fin 13) :
    broadcastTo S512x13 v broadcasts_S1x13_S512x13 (ix2 r n) = v (ix2 (0 : Fin 1) n) :=
  broadcastTo_1b_ab_apply v _ r n

theorem planeT0 {α : Type} (x0 : S1x3x16x512.Idx → α) (r : Fin 512) (k : Fin 16) :
    transpose S512x16 [1, 0] (shapeCast S16x512 (extractStridedSlice S1x16x512 ![0, 0, 0] (shapeCast S3x16x512 x0 shapeCasts_S1x3x16x512_S3x16x512) slices_S3x16x512_o0_0_0_S1x16x512)
        shapeCasts_S1x16x512_S16x512) transposes_S16x512_p1_0_S512x16 (ix2 r k) = x0 (ix4 (0 : Fin 1) (0 : Fin 3) k r) :=
  planeT_apply x0 0 ![0, 0, 0] slices_S3x16x512_o0_0_0_S1x16x512 rfl rfl rfl r k
theorem planeT1 {α : Type} (x0 : S1x3x16x512.Idx → α) (r : Fin 512) (k : Fin 16) :
    transpose S512x16 [1, 0] (shapeCast S16x512 (extractStridedSlice S1x16x512 ![1, 0, 0] (shapeCast S3x16x512 x0 shapeCasts_S1x3x16x512_S3x16x512) slices_S3x16x512_o1_0_0_S1x16x512)
        shapeCasts_S1x16x512_S16x512) transposes_S16x512_p1_0_S512x16 (ix2 r k) = x0 (ix4 (0 : Fin 1) (1 : Fin 3) k r) :=
  planeT_apply x0 1 ![1, 0, 0] slices_S3x16x512_o1_0_0_S1x16x512 rfl rfl rfl r k
theorem planeT2 {α : Type} (x0 : S1x3x16x512.Idx → α) (r : Fin 512) (k : Fin 16) :
    transpose S512x16 [1, 0] (shapeCast S16x512 (extractStridedSlice S1x16x512 ![2, 0, 0] (shapeCast S3x16x512 x0 shapeCasts_S1x3x16x512_S3x16x512) slices_S3x16x512_o2_0_0_S1x16x512)
        shapeCasts_S1x16x512_S16x512) transposes_S16x512_p1_0_S512x16 (ix2 r k) = x0 (ix4 (0 : Fin 1) (2 : Fin 3) k r) :=
  planeT_apply x0 2 ![2, 0, 0] slices_S3x16x512_o2_0_0_S1x16x512 rfl rfl rfl r k

/-- The bias word. -/
theorem biasCell_apply {α : Type} (x4 : S1x1.Idx → α) : extractAt ![0, 0] x4 inpos_S1x1_p0_0 = x4 (ix2 (0 : Fin 1) (0 : Fin 1)) :=
  congrArg x4 (funext fun a => Fin.ext (by match a with | ⟨0, _⟩ => rfl | ⟨1, _⟩ => rfl))

/-! ## The body's arithmetic at a row -/

theorem pay_apply (x0 : Vec Ideal S1x3x16x512 .f32) (x1 : Vec Ideal S512x13 .f32) (x2 : Vec Ideal S13x16 .f32) (x3 : Vec Ideal S1x13 .f32)
    (x4 : Vec Ideal S1x1 .f32) (r : Fin 512) :
    k1_pay1 (F := Ideal) x0 x1 x2 x3 x4 (ix2 r (0 : Fin 1))
      = (((∑ t : Fin 16, x0 (ix4 (0 : Fin 1) (2 : Fin 3) t r)) + ∑ n : Fin 13, x1 (ix2 r n) * x3 (ix2 (0 : Fin 1) n)) + x4 (ix2 (0 : Fin 1) (0 : Fin 1)))
        + Cert.Spec.half * ∑ k : Fin 16,
            ((x0 (ix4 (0 : Fin 1) (0 : Fin 3) k r) + ∑ n : Fin 13, x1 (ix2 r n) * x2 (ix2 n k)) * (x0 (ix4 (0 : Fin 1) (0 : Fin 3) k r) + ∑ n : Fin 13, x1 (ix2 r n) * x2 (ix2 n k))
              - (x0 (ix4 (0 : Fin 1) (1 : Fin 3) k r) + ∑ n : Fin 13, (x1 (ix2 r n) * x1 (ix2 r n)) * (x2 (ix2 n k) * x2 (ix2 n k)))) := by
  unfold k1_pay1
  simp only [addf_apply, mulf_apply, broadcast_apply, col_apply, biasCell_apply]
  refine congrArg₂ (· + ·) (congrArg₂ (· + ·) (congrArg₂ (· + ·) ?_ ?_) rfl) (congrArg₂ (· * ·) rfl ?_)
  · exact (laneSum16 _ _ _ r).trans (Finset.sum_congr rfl fun t _ => planeT2 x0 r t)
  · refine (laneSum13 _ _ _ r).trans (Finset.sum_congr rfl fun n _ => ?_)
    rw [mulf_apply, wrow_apply]
  · refine (laneSum16 _ _ _ r).trans (Finset.sum_congr rfl fun k _ => ?_)
    rw [subf_apply, mulf_apply, addf_apply, addf_apply, planeT0, planeT1, mm_apply, mm_apply]
    rfl

/-! ## The staged blocks, read off the arrays -/

/-- The input windows' block indices at point `t`. -/
theorem idxIn : ∀ t : Fin cfg1.N, win1_0.index t (0 : Fin 4) = t.val / 16 ∧ win1_0.index t (1 : Fin 4) = 0 ∧ win1_0.index t (2 : Fin 4) = 0
    ∧ win1_0.index t (3 : Fin 4) = t.val % 16
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable {F : FTy → Type} [FloatOps F]

theorem blk5_apply (X5 : C5 F) (t : Fin cfg1.N) (a : Fin 1) (m : Fin 3) (k : Fin 16) (r : Fin 512) :
    blk5 X5 t (ix4 a m k r) = X5 (ix4 (⟨t.val / 16, by have := t.isLt; have h : t.val < 32 := this; omega⟩ : Fin 2) m k
      (⟨t.val % 16 * 512 + r.val, by have := r.isLt; omega⟩ : Fin 8192)) := by
  obtain ⟨e0, e1, e2, e3, -⟩ := idxIn t
  show X5 (((cfg1.win 0).blk t).view.emb (ix4 a m k r)) = _
  refine congrArg X5 (funext fun ax => Fin.ext ?_)
  have ha : a.val = 0 := by have := a.isLt; omega
  match ax with
  | ⟨0, _⟩ => show win1_0.index t (0 : Fin 4) * 1 + 1 * a.val = t.val / 16; rw [e0]; omega
  | ⟨1, _⟩ => show win1_0.index t (1 : Fin 4) * 3 + 1 * m.val = m.val; rw [e1]; omega
  | ⟨2, _⟩ => show win1_0.index t (2 : Fin 4) * 16 + 1 * k.val = k.val; rw [e2]; omega
  | ⟨3, _⟩ => show win1_0.index t (3 : Fin 4) * 512 + 1 * r.val = t.val % 16 * 512 + r.val; rw [e3]; omega

theorem blk0_apply (X0 : C0 F) (t : Fin cfg1.N) (r : Fin 512) (n : Fin 13) :
    blk0 X0 t (ix2 r n) = X0 (ix2 (⟨t.val * 512 + r.val, by have := t.isLt; have h : t.val < 32 := this; have := r.isLt; omega⟩ : Fin 16384) n) := by
  obtain ⟨-, -, -, -, e0, e1, -⟩ := idxIn t
  show X0 (((cfg1.win 1).blk t).view.emb (ix2 r n)) = _
  refine congrArg X0 (funext fun ax => Fin.ext ?_)
  match ax with
  | ⟨0, _⟩ => show win1_1.index t (0 : Fin 2) * 512 + 1 * r.val = t.val * 512 + r.val; rw [e0]; omega
  | ⟨1, _⟩ => show win1_1.index t (1 : Fin 2) * 13 + 1 * n.val = n.val; rw [e1]; omega

theorem blkvn_apply (Xvn : Cvn F) (t : Fin cfg1.N) (n : Fin 13) (k : Fin 16) : blkvn Xvn t (ix2 n k) = Xvn (ix2 n k) := by
  obtain ⟨-, -, -, -, -, -, e0, e1, -⟩ := idxIn t
  show Xvn (((cfg1.win 2).blk t).view.emb (ix2 n k)) = _
  refine congrArg Xvn (funext fun ax => Fin.ext ?_)
  match ax with
  | ⟨0, _⟩ => show win1_2.index t (0 : Fin 2) * 13 + 1 * n.val = n.val; rw [e0]; omega
  | ⟨1, _⟩ => show win1_2.index t (1 : Fin 2) * 16 + 1 * k.val = k.val; rw [e1]; omega

theorem blkW_apply (XW : CW F) (t : Fin cfg1.N) (a : Fin 1) (n : Fin 13) : blkW XW t (ix2 a n) = XW (ix2 a n) := by
  obtain ⟨-, -, -, -, -, -, -, -, e0, e1, -⟩ := idxIn t
  show XW (((cfg1.win 3).blk t).view.emb (ix2 a n)) = _
  refine congrArg XW (funext fun ax => Fin.ext ?_)
  match ax with
  | ⟨0, _⟩ => show win1_3.index t (0 : Fin 2) * 1 + 1 * a.val = a.val; rw [e0]; omega
  | ⟨1, _⟩ => show win1_3.index t (1 : Fin 2) * 13 + 1 * n.val = n.val; rw [e1]; omega

theorem blkb_apply (Xb : Cb F) (t : Fin cfg1.N) (a b : Fin 1) : blkb Xb t (ix2 a b) = Xb (ix2 a b) := by
  obtain ⟨-, -, -, -, -, -, -, -, -, -, e0, e1⟩ := idxIn t
  show Xb (((cfg1.win 4).blk t).view.emb (ix2 a b)) = _
  refine congrArg Xb (funext fun ax => Fin.ext ?_)
  match ax with
  | ⟨0, _⟩ => show win1_4.index t (0 : Fin 2) * 1 + 1 * a.val = a.val; rw [e0]; omega
  | ⟨1, _⟩ => show win1_4.index t (1 : Fin 2) * 1 + 1 * b.val = b.val; rw [e1]; omega

/-! ## The result, row by row -/

/-- The body's arithmetic at point `t`, row `r`, is the layer's output for example `t * 512 + r`, when the planes array holds `P`. -/
theorem payAt_value (X5 : C5 Ideal) (X0 : C0 Ideal) (Xvn : Cvn Ideal) (XW : CW Ideal) (Xb : Cb Ideal)
    (bias : (⟨1, ![1]⟩ : Shape).Idx → EReal) (P : Fin 2 → Fin 3 → Fin 16 → Fin 8192 → EReal)
    (hP : ∀ (c : Fin 2) (k : Fin 3) (t : Fin 16) (i : Fin 8192), X5 (ix4 c k t i) = P c k t i)
    (hb : Xb (ix2 (0 : Fin 1) (0 : Fin 1)) = bias (ix1 (0 : Fin 1)))
    (t : Fin cfg1.N) (r : Fin 512) (b : Fin 16384) (h : b.val = t.val * 512 + r.val) :
    payAt X5 X0 Xvn XW Xb t (ix2 r (0 : Fin 1)) = Cert.Spec.combine X0 bias XW Xvn P b := by
  have ht : t.val < 32 := t.isLt
  have hr : r.val < 512 := r.isLt
  have e1 : (⟨t.val / 16, by omega⟩ : Fin 2) = ⟨b.val / 8192, by have := b.isLt; omega⟩ := Fin.ext (by show t.val / 16 = b.val / 8192; omega)
  have e2 : (⟨t.val % 16 * 512 + r.val, by omega⟩ : Fin 8192) = ⟨b.val % 8192, Nat.mod_lt _ (by norm_num)⟩ :=
    Fin.ext (by show t.val % 16 * 512 + r.val = b.val % 8192; omega)
  have e3 : (⟨t.val * 512 + r.val, by omega⟩ : Fin 16384) = b := Fin.ext (by show t.val * 512 + r.val = b.val; omega)
  unfold payAt
  rw [pay_apply]
  simp only [blk5_apply, blk0_apply, blkvn_apply, blkW_apply, blkb_apply, hP, hb, e1, e2, e3]
  rfl

/-- THE RESULT over the extended reals: row `b` of `regionOut` is `Cert.Spec.combine` at `b`. -/
theorem regionOut_value (X5 : C5 Ideal) (X0 : C0 Ideal) (Xvn : Cvn Ideal) (XW : CW Ideal) (Xb : Cb Ideal)
    (bias : (⟨1, ![1]⟩ : Shape).Idx → EReal) (P : Fin 2 → Fin 3 → Fin 16 → Fin 8192 → EReal)
    (hP : ∀ (c : Fin 2) (k : Fin 3) (t : Fin 16) (i : Fin 8192), X5 (ix4 c k t i) = P c k t i)
    (hb : Xb (ix2 (0 : Fin 1) (0 : Fin 1)) = bias (ix1 (0 : Fin 1))) (j : S16384x1.Idx) :
    regionOut X5 X0 Xvn XW Xb j = Cert.Spec.combine X0 bias XW Xvn P ⟨(j 0).val, idx2_lt0 j⟩ := by
  have hj : (j 0).val < 16384 := (j 0).isLt
  rw [regionOut_at X5 X0 Xvn XW Xb ⟨(j 0).val / 512, by show (j 0).val / 512 < 32; omega⟩
    (ix2 (⟨(j 0).val % 512, Nat.mod_lt _ (by norm_num)⟩ : Fin 512) (0 : Fin 1)) j
    (by show (j 0).val = (j 0).val / 512 * 512 + (j 0).val % 512; omega)]
  exact payAt_value X5 X0 Xvn XW Xb bias P hP hb _ _ ⟨(j 0).val, idx2_lt0 j⟩ (by show (j 0).val = (j 0).val / 512 * 512 + (j 0).val % 512; omega)

end Cert.Proof.KernelIdeal

end
-- ==== Proof.KernelIdeal.TileSetup.lean ====
/-
  The vector subcore's own storage, taken apart: of the scoped semaphores the five the kernel uses and the rest, of the
  scoped buffers the four scratches and the rest; and the spellings of a held buffer the kernel's memrefs read it by.
-/
import proofs.«207209_g54674933678763_cont_9to1_m_278_38_alg».proof.Proof.KernelIdeal.TileRes

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-- The subcore's DMA semaphore of a one-element array, as a cell. -/
abbrev cellV (s : DmaSems sig S_) : GSem nD τ sig := (V d (cV L) (jV L), .dma s.sem)

theorem cellV_ne {a b : DmaSems sig S_} (h : a.sem ≠ b.sem) : cellV d L a ≠ cellV d L b :=
  fun e => h (SemLoc.dma.inj (Prod.mk.inj e).2)

theorem cellV_mem (s : DmaSems sig S_) (h : (SemLoc.dma s.sem : SemLoc sig).isScoped .scVector = true) :
    cellV d L s ∈ ownCells (V d (cV L) (jV L)) := (mem_ownCells (g := cellV d L s)).mpr ⟨rfl, h⟩

theorem ownSems0_V :
    (ownSems0 (V d (cV L) (jV L)) : sProp 𝕄)
      = iprop(semVal (cellV d L cc0_scratch4) 0 ∗ semVal (cellV d L cc0_scratch5) 0 ∗ semVal (cellV d L cc0_scoped0) 0
          ∗ semVal (cellV d L cc0_scoped1) 0 ∗ semVal (cellV d L cc0_scoped2) 0
          ∗ bigSep ((((((ownCells (V d (cV L) (jV L))).erase (cellV d L cc0_scratch4)).erase (cellV d L cc0_scratch5)).erase (cellV d L cc0_scoped0)).erase
              (cellV d L cc0_scoped1)).erase (cellV d L cc0_scoped2)) fun g => semVal g 0) := by
  unfold SparseCore.Cfg.ownSems0
  have m4 := cellV_mem d L cc0_scratch4 (by decide)
  have m5 := cellV_mem d L cc0_scratch5 (by decide)
  have m0 := cellV_mem d L cc0_scoped0 (by decide)
  have m1 := cellV_mem d L cc0_scoped1 (by decide)
  have m2 := cellV_mem d L cc0_scoped2 (by decide)
  rw [SparseCore.bigSep_erase' m4,
    SparseCore.bigSep_erase' (Finset.mem_erase.mpr ⟨cellV_ne d L (by decide), m5⟩),
    SparseCore.bigSep_erase' (Finset.mem_erase.mpr ⟨cellV_ne d L (by decide), Finset.mem_erase.mpr ⟨cellV_ne d L (by decide), m0⟩⟩),
    SparseCore.bigSep_erase' (Finset.mem_erase.mpr ⟨cellV_ne d L (by decide), Finset.mem_erase.mpr ⟨cellV_ne d L (by decide),
      Finset.mem_erase.mpr ⟨cellV_ne d L (by decide), m1⟩⟩⟩),
    SparseCore.bigSep_erase' (Finset.mem_erase.mpr ⟨cellV_ne d L (by decide), Finset.mem_erase.mpr ⟨cellV_ne d L (by decide),
      Finset.mem_erase.mpr ⟨cellV_ne d L (by decide), Finset.mem_erase.mpr ⟨cellV_ne d L (by decide), m2⟩⟩⟩⟩)]

abbrev refV (b : Ref sig .scVector) : DevRef τ sig := (Proc.scVector (cV L) (jV L)).devRef b

theorem refV_ne {a b : Ref sig .scVector} (h : a ≠ b) : refV L a ≠ refV L b := fun e => h (Proc.devRef_injective _ e)
theorem refV_mem (b : Ref sig .scVector) (h : (refV L b).owner = .proc (Proc.scVector (cV L) (jV L))) :
    refV L b ∈ ownRefs (τ := τ) (sig := sig) (.scVector (cV L) (jV L)) :=
  SparseCore.Cfg.mem_ownRefs_of_owner (p := Proc.scVector (cV L) (jV L)) (b := refV L b) h

/-- The four scratches are among the subcore's own buffers: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (refV L cc0_scratch0)).erase (refV L cc0_scratch1)).erase
              (refV L cc0_scratch2)).erase (refV L cc0_scratch3))
              fun b => iprop(∃ f, ((d, b) : Loc nD τ sig) ↦{fullShare} f)) := by
  unfold SparseCore.Cfg.ownBufs
  refine (SparseCore.bigSep_erase' (refV_mem L cc0_scratch0 rfl)).trans ?_
  rw [SparseCore.bigSep_erase' (Finset.mem_erase.mpr ⟨refV_ne L (by decide), refV_mem L cc0_scratch1 rfl⟩),
    SparseCore.bigSep_erase' (Finset.mem_erase.mpr ⟨refV_ne L (by decide), Finset.mem_erase.mpr ⟨refV_ne L (by decide), refV_mem L cc0_scratch2 rfl⟩⟩),
    SparseCore.bigSep_erase' (Finset.mem_erase.mpr ⟨refV_ne L (by decide), Finset.mem_erase.mpr ⟨refV_ne L (by decide),
      Finset.mem_erase.mpr ⟨refV_ne L (by decide), refV_mem L cc0_scratch3 rfl⟩⟩⟩)]

end Cert.Proof.KernelIdeal

end
-- ==== Proof.KernelIdeal.TileTripF.lean ====
/-
  One trip of each of the accumulation kernel's counted loops, footprint only: what the trip needs of the subcore's
  scratches and that it gives them back.  The gathered rows are in range because every index word held in the index
  scratch is below the vocabulary size.
-/
import proofs.«207209_g54674933678763_cont_9to1_m_278_38_alg».proof.Proof.KernelIdeal.TileSetup

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "v2W" => (Memref.whole Cert.KernelIdeal.main_v2_scv : Memref Cert.KernelIdeal.sig Kind.scVector Space.hbm Cert.KernelIdeal.S26x16x100000 EltTy.f32)
local notation "v3W" => (Memref.whole Cert.KernelIdeal.main_v3_scv : Memref Cert.KernelIdeal.sig Kind.scVector Space.hbm Cert.KernelIdeal.S26x1x100000 EltTy.f32)
local notation "v1W" => (Memref.whole Cert.KernelIdeal.main_v1_scv : Memref Cert.KernelIdeal.sig Kind.scVector Space.hbm Cert.KernelIdeal.S425984 EltTy.i32)
local notation "v4W" => (Memref.whole Cert.KernelIdeal.main_v4_scv : Memref Cert.KernelIdeal.sig Kind.scVector Space.hbm Cert.KernelIdeal.S786432 EltTy.f32)
local notation "s0W" => (Memref.whole Cert.KernelIdeal.cc0_scratch0 : Memref Cert.KernelIdeal.sig Kind.scVector Space.vmem Cert.KernelIdeal.S100000 EltTy.f32)
local notation "s1W" => (Memref.whole Cert.KernelIdeal.cc0_scratch1 : Memref Cert.KernelIdeal.sig Kind.scVector Space.vmem Cert.KernelIdeal.S8192 EltTy.i32)
local notation "s2W" => (Memref.whole Cert.KernelIdeal.cc0_scratch2 : Memref Cert.KernelIdeal.sig Kind.scVector Space.vmem Cert.KernelIdeal.S8192 EltTy.f32)
local notation "s3W" => (Memref.whole Cert.KernelIdeal.cc0_scratch3 : Memref Cert.KernelIdeal.sig Kind.scVector Space.vmem Cert.KernelIdeal.S8192 EltTy.f32)

abbrev thrV : Thread nD τ := V d (cV L) (jV L)

abbrev s0At (f : Buf (Elt F) ((thrV d L).loc cc0_scratch0)) : sProp 𝕄 := (s0W).view.loc (thrV d L) ↦{fullShare} f
abbrev s1At (f : Buf (Elt F) ((thrV d L).loc cc0_scratch1)) : sProp 𝕄 := (s1W).view.loc (thrV d L) ↦{fullShare} f
abbrev s2At (f : Buf (Elt F) ((thrV d L).loc cc0_scratch2)) : sProp 𝕄 := (s2W).view.loc (thrV d L) ↦{fullShare} f
abbrev s3At (f : Buf (Elt F) ((thrV d L).loc cc0_scratch3)) : sProp 𝕄 := (s3W).view.loc (thrV d L) ↦{fullShare} f

/-- A trip of the zeroing loop over both accumulators. -/
theorem trip1F (k : Fin k0_t1_loop.trips)
    (a : Buf (Elt F) ((thrV d L).loc cc0_scratch2)) (b : Buf (Elt F) ((thrV d L).loc cc0_scratch3)) :
    iprop(s2At d L a ∗ s3At d L b)
      ⊢ wp frame (wpE (defs₀ (F := F)) 𝒱₀ (thrV d L) none) Set.univ
          (k0_t1_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop((∃ a', s2At d L a') ∗ ∃ b', s3At d L b') := by
  unfold k0_t1_body
  iintro ⟨H2, H3⟩
  sl_exec
  sl_step
  isplitl [H2]
  · iexists _; iexact H2
  · iexists _; iexact H3

/-- A trip of the zeroing loop over the first accumulator. -/
theorem trip4F (k : Fin k0_t4_loop.trips) (a : Buf (Elt F) ((thrV d L).loc cc0_scratch2)) :
    s2At d L a
      ⊢ wp frame (wpE (defs₀ (F := F)) 𝒱₀ (thrV d L) none) Set.univ
          (k0_t4_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(∃ a', s2At d L a') := by
  unfold k0_t4_body
  iintro H2
  sl_exec
  sl_step
  iexists _; iexact H2

/-- A trip of the factor loop: four chunks of sixteen lanes gathered from the row scratch at the index scratch's
    words and added into both accumulators. -/
theorem trip3F (Pf : Buf (Elt F) ((thrV d L).loc cc0_scratch0)) (If : Buf (Elt F) ((thrV d L).loc cc0_scratch1))
    (hI : ∀ y, (If y).toNat < 100000) (k : Fin k0_t3_loop.trips)
    (a : Buf (Elt F) ((thrV d L).loc cc0_scratch2)) (b : Buf (Elt F) ((thrV d L).loc cc0_scratch3)) :
    iprop(s0At d L Pf ∗ s1At d L If ∗ s2At d L a ∗ s3At d L b)
      ⊢ wp frame (wpE (defs₀ (F := F)) 𝒱₀ (thrV d L) none) Set.univ
          (k0_t3_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ (∃ a', s2At d L a') ∗ ∃ b', s3At d L b') := by
  unfold k0_t3_body
  simp only [k0_part1_eq_skeleton]; unfold k0_part1_skel
  unfold SparseCore.vectorLoadIdx
  iintro ⟨H0, H1, H2, H3⟩
  sl_exec (disch := (intro a x; obtain rfl : a = 0 := Subsingleton.elim _ _; exact hI _))
  sl_step
  isplitl [H0]; · iexact H0
  isplitl [H1]; · iexact H1
  isplitl [H2]
  · iexists _; iexact H2
  · iexists _; iexact H3

/-- A trip of the first linear loop. -/
theorem trip5F (Pf : Buf (Elt F) ((thrV d L).loc cc0_scratch0)) (If : Buf (Elt F) ((thrV d L).loc cc0_scratch1))
    (hI : ∀ y, (If y).toNat < 100000) (k : Fin k0_t5_loop.trips)
    (a : Buf (Elt F) ((thrV d L).loc cc0_scratch2)) :
    iprop(s0At d L Pf ∗ s1At d L If ∗ s2At d L a)
      ⊢ wp frame (wpE (defs₀ (F := F)) 𝒱₀ (thrV d L) none) Set.univ
          (k0_t5_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ ∃ a', s2At d L a') := by
  unfold k0_t5_body
  unfold SparseCore.vectorLoadIdx
  iintro ⟨H0, H1, H2⟩
  sl_exec (disch := (intro a x; obtain rfl : a = 0 := Subsingleton.elim _ _; exact hI _))
  sl_step
  isplitl [H0]; · iexact H0
  isplitl [H1]; · iexact H1
  iexists _; iexact H2

/-- A trip of the second linear loop (run when the subcore has a second field). -/
theorem trip6F (h1 : k0_cond1 L = 1#1) (Pf : Buf (Elt F) ((thrV d L).loc cc0_scratch0)) (If : Buf (Elt F) ((thrV d L).loc cc0_scratch1))
    (hI : ∀ y, (If y).toNat < 100000) (k : Fin k0_t6_loop.trips)
    (a : Buf (Elt F) ((thrV d L).loc cc0_scratch2)) :
    iprop(s0At d L Pf ∗ s1At d L If ∗ s2At d L a)
      ⊢ wp frame (wpE (defs₀ (F := F)) 𝒱₀ (thrV d L) none) Set.univ
          (k0_t6_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 h1 k ⟨⟩)
          fun _ => iprop(s0At d L Pf ∗ s1At d L If ∗ ∃ a', s2At d L a') := by
  unfold k0_t6_body
  unfold SparseCore.vectorLoadIdx
  iintro ⟨H0, H1, H2⟩
  sl_exec (disch := first | (intro _ a x; obtain rfl : a = 0 := Subsingleton.elim _ _; exact hI _) | (intro a x; obtain rfl : a = 0 := Subsingleton.elim _ _; exact hI _))
  sl_step
  isplitl [H0]; · iexact H0
  isplitl [H1]; · iexact H1
  iexists _; iexact H2

end Cert.Proof.KernelIdeal

end
-- ==== Proof.KernelIdeal.TileFieldF.lean ====
/-
  One field of the factor loop, and the whole first part of the kernel, footprint only.
-/
import proofs.«207209_g54674933678763_cont_9to1_m_278_38_alg».proof.Proof.KernelIdeal.TileTripF

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "v2W" => (Memref.whole Cert.KernelIdeal.main_v2_scv : Memref Cert.KernelIdeal.sig Kind.scVector Space.hbm Cert.KernelIdeal.S26x16x100000 EltTy.f32)
local notation "v3W" => (Memref.whole Cert.KernelIdeal.main_v3_scv : Memref Cert.KernelIdeal.sig Kind.scVector Space.hbm Cert.KernelIdeal.S26x1x100000 EltTy.f32)
local notation "v1W" => (Memref.whole Cert.KernelIdeal.main_v1_scv : Memref Cert.KernelIdeal.sig Kind.scVector Space.hbm Cert.KernelIdeal.S425984 EltTy.i32)
local notation "v4W" => (Memref.whole Cert.KernelIdeal.main_v4_scv : Memref Cert.KernelIdeal.sig Kind.scVector Space.hbm Cert.KernelIdeal.S786432 EltTy.f32)
local notation "s0W" => (Memref.whole Cert.KernelIdeal.cc0_scratch0 : Memref Cert.KernelIdeal.sig Kind.scVector Space.vmem Cert.KernelIdeal.S100000 EltTy.f32)
local notation "s1W" => (Memref.whole Cert.KernelIdeal.cc0_scratch1 : Memref Cert.KernelIdeal.sig Kind.scVector Space.vmem Cert.KernelIdeal.S8192 EltTy.i32)
local notation "s2W" => (Memref.whole Cert.KernelIdeal.cc0_scratch2 : Memref Cert.KernelIdeal.sig Kind.scVector Space.vmem Cert.KernelIdeal.S8192 EltTy.f32)
local notation "s3W" => (Memref.whole Cert.KernelIdeal.cc0_scratch3 : Memref Cert.KernelIdeal.sig Kind.scVector Space.vmem Cert.KernelIdeal.S8192 EltTy.f32)

/-- The inner loop's invariant: the row and index scratches as the copies left them, the accumulators at some contents. -/
def inv3F (Pf : Buf (Elt F) ((thrV d L).loc cc0_scratch0)) (If : Buf (Elt F) ((thrV d L).loc cc0_scratch1)) (_ : Nat) (_ : PUnit) : sProp 𝕄 :=
  iprop(s0At d L Pf ∗ s1At d L If ∗ (∃ a', s2At d L a') ∗ ∃ b', s3At d L b')

/-- The field loop's invariant: the two tables at their read shares, the four scratches at some contents, the two
    semaphores' counters at zero, and what the subcore owes with only its own waits added. -/
def inv2F (q : PosShare TreeShare) (A1 : Buf (Elt F) (v1Loc d)) (A2 : Buf (Elt F) (v2Loc d))
    (O : CellTallies nD τ sig (HIx 1)) (W : Waits sig (HIx 1)) (_ : Nat) (_ : PUnit) : sProp 𝕄 :=
  iprop(Transfers.MayWaits (thrV d L) (none : HIx 1) O
    ∗ ((v2W).view.loc (thrV d L) ↦{q} A2) ∗ ((v1W).view.loc (thrV d L) ↦{q} A1)
    ∗ (∃ f0, s0At d L f0) ∗ (∃ f1, s1At d L f1) ∗ (∃ a, s2At d L a) ∗ (∃ b, s3At d L b)
    ∗ semVal (cellV d L cc0_scratch4) 0 ∗ semVal (cellV d L cc0_scratch5) 0
    ∗ ∃ W', ⌜∀ p ∈ W', p ∈ W ∨ p.2 = none⌝ ∗ owes (thrV d L) O W')

theorem fieldF (q : PosShare TreeShare) (A1 : Buf (Elt F) (v1Loc d)) (A2 : Buf (Elt F) (v2Loc d))
    (hidx : ∀ j, (A1 j).toNat < 100000)
    (O : CellTallies nD τ sig (HIx 1)) (W : Waits sig (HIx 1)) (f : Fin k0_t2_loop.trips) :
    inv2F d L q A1 A2 O W f.val ⟨⟩
      ⊢ wp frame (wpE (defs₀ (F := F)) 𝒱₀ (thrV d L) none) Set.univ
          (k0_t2_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 f ⟨⟩)
          (inv2F d L q A1 A2 O W (f.val + 1)) := by
  unfold k0_t2_body inv2F
  iintro ⟨Hmw, H2, H1, ⟨%f0, Hs0⟩, ⟨%f1, Hs1⟩, ⟨%a, Hs2⟩, ⟨%b, Hs3⟩, Hm4, Hm5, %W', %hW', HO⟩
  sl_exec
  have e0 : View.write (Elt F) (s0W).view f0 (fieldF.sl.dma0 d L A2 f) Finset.univ = fieldF.sl.dma0 d L A2 f := View.write_whole_univ _ _ _
  have e1 : View.write (Elt F) (s1W).view f1 (fieldF.sl.dma0_1 d L A1 f) Finset.univ = fieldF.sl.dma0_1 d L A1 f := View.write_whole_univ _ _ _
  rw [e0, e1]
  have hI : ∀ y, ((fieldF.sl.dma0_1 d L A1 f) y).toNat < 100000 := fun y => hidx _
  sl_for (inv3F d L (fieldF.sl.dma0 d L A2 f) (fieldF.sl.dma0_1 d L A1 f)) $$ [Hs0 Hs1 Hs2 Hs3]
  case region =>
    intro k _
    unfold inv3F
    iintro ⟨H0, H1, ⟨%a', H2⟩, ⟨%b', H3⟩⟩
    iapply (trip3F d L _ _ hI k a' b')
    isplitl [H0]; · iexact H0
    isplitl [H1]; · iexact H1
    isplitl [H2]; · iexact H2
    iexact H3
  · unfold inv3F
    isplitl [Hs0]; · iexact Hs0
    isplitl [Hs1]; · iexact Hs1
    isplitl [Hs2]
    · iexists _; iexact Hs2
    · iexists _; iexact Hs3
  iintro %_ HI
  unfold inv3F
  icases HI with ⟨Hs0, Hs1, ⟨%a', Hs2⟩, ⟨%b', Hs3⟩⟩
  sl_exec
  sl_step
  isplitl [Hmw]; · iexact Hmw
  isplitl [H2]; · iexact H2
  isplitl [H1]; · iexact H1
  isplitl [Hs0]; · iexists _; iexact Hs0
  isplitl [Hs1]; · iexists _; iexact Hs1
  isplitl [Hs2]; · iexists _; iexact Hs2
  isplitl [Hs3]; · iexists _; iexact Hs3
  isplitl [Hm4]; · iexact Hm4
  isplitl [Hm5]; · iexact Hm5
  iexists (insert (SemLoc.dma cc0_scratch5.sem, (default : HIx 1)) (insert (SemLoc.dma cc0_scratch4.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KernelIdeal

end
-- ==== Proof.KernelIdeal.TileBodyF.lean ====
/-
  The whole task of one vector subcore, footprint only: it reads the three inputs, writes its three output slices and
  gives its own storage back.
-/
import proofs.«207209_g54674933678763_cont_9to1_m_278_38_alg».proof.Proof.KernelIdeal.TileFieldF

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "v2W" => (Memref.whole Cert.KernelIdeal.main_v2_scv : Memref Cert.KernelIdeal.sig Kind.scVector Space.hbm Cert.KernelIdeal.S26x16x100000 EltTy.f32)
local notation "v3W" => (Memref.whole Cert.KernelIdeal.main_v3_scv : Memref Cert.KernelIdeal.sig Kind.scVector Space.hbm Cert.KernelIdeal.S26x1x100000 EltTy.f32)
local notation "v1W" => (Memref.whole Cert.KernelIdeal.main_v1_scv : Memref Cert.KernelIdeal.sig Kind.scVector Space.hbm Cert.KernelIdeal.S425984 EltTy.i32)
local notation "v4W" => (Memref.whole Cert.KernelIdeal.main_v4_scv : Memref Cert.KernelIdeal.sig Kind.scVector Space.hbm Cert.KernelIdeal.S786432 EltTy.f32)
local notation "s0W" => (Memref.whole Cert.KernelIdeal.cc0_scratch0 : Memref Cert.KernelIdeal.sig Kind.scVector Space.vmem Cert.KernelIdeal.S100000 EltTy.f32)
local notation "s1W" => (Memref.whole Cert.KernelIdeal.cc0_scratch1 : Memref Cert.KernelIdeal.sig Kind.scVector Space.vmem Cert.KernelIdeal.S8192 EltTy.i32)
local notation "s2W" => (Memref.whole Cert.KernelIdeal.cc0_scratch2 : Memref Cert.KernelIdeal.sig Kind.scVector Space.vmem Cert.KernelIdeal.S8192 EltTy.f32)
local notation "s3W" => (Memref.whole Cert.KernelIdeal.cc0_scratch3 : Memref Cert.KernelIdeal.sig Kind.scVector Space.vmem Cert.KernelIdeal.S8192 EltTy.f32)

def inv1F (_ : Nat) (_ : PUnit) : sProp 𝕄 := iprop((∃ a, s2At d L a) ∗ ∃ b, s3At d L b)
def inv4F (_ : Nat) (_ : PUnit) : sProp 𝕄 := iprop(∃ a, s2At d L a)
def inv5F (Pf : Buf (Elt F) ((thrV d L).loc cc0_scratch0)) (If : Buf (Elt F) ((thrV d L).loc cc0_scratch1)) (_ : Nat) (_ : PUnit) : sProp 𝕄 :=
  iprop(s0At d L Pf ∗ s1At d L If ∗ ∃ a', s2At d L a')

/-- The three output slices, as the kernel slices them. -/
abbrev outK0 : Memref sig .scVector .hbm S8192 .f32 := (v4W).slice (Rect.unit (s := S786432) (k0_off9 L 0#32) S8192.size (k0_off9_inb L 0)) (fun _ => rfl)
abbrev outK1 : Memref sig .scVector .hbm S8192 .f32 := (v4W).slice (Rect.unit (s := S786432) (k0_off9 L 1#32) S8192.size (k0_off9_inb L 1)) (fun _ => rfl)
abbrev outK2 : Memref sig .scVector .hbm S8192 .f32 := (v4W).slice (Rect.unit (s := S786432) (k0_off9 L 2#32) S8192.size (k0_off9_inb L 2)) (fun _ => rfl)

theorem tile_bodyF (hF : (K (F := F)).Facts) (q : PosShare TreeShare)
    (A1 : Buf (Elt F) (v1Loc d)) (A2 : Buf (Elt F) (v2Loc d)) (A3 : Buf (Elt F) (v3Loc d)) (B4 : Buf (Elt F) (v4Loc d))
    (hidx : ∀ j, (A1 j).toNat < 100000)
    (O : CellTallies nD τ sig (HIx 1)) (W : Waits sig (HIx 1)) (hO : ∀ g, O g none = 0) :
    iprop(levAts (K (F := F)).L (K (F := F)).lev ∗ emp ∗ goRes d L q A1 A2 A3 B4
        ∗ scopedBufs (thrV d L) ∗ scopedSems0 (thrV d L) ∗ owes (thrV d L) O W)
      ⊢ wp frame (wpE (defs₀ (F := F)) 𝒱₀ (thrV d L) none) Set.univ
          (cc0_k L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2)
          fun _ => iprop(tdResF d L q A1 A2 A3 ∗ scopedBufs (thrV d L) ∗ scopedSems0 (thrV d L)
            ∗ ∃ W', ⌜∀ p ∈ W', p ∈ W ∨ p.2 = none⌝ ∗ owes (thrV d L) O W') := by
  simp only [cc0_k_eq_skeleton]; unfold cc0_k_skel
  simp only [k0_part2_eq_skeleton]; unfold k0_part2_skel
  simp only [Prog.bind_assoc]
  rw [(K (F := F)).scopedBufs_V hF d (cV L) (jV L), SparseCore.Cfg.scopedSems0_V (Val := Elt F) d (cV L) (jV L), ownSems0_V, ownBufs_V]
  unfold goRes inRes outRes
  iintro ⟨#Hlv, -, ⟨⟨H2, H3, H1⟩, Ho0, Ho1, Ho2⟩, ⟨⟨%f0, Hs0⟩, ⟨%f1, Hs1⟩, ⟨%f2, Hs2⟩, ⟨%f3, Hs3⟩, Hbufs⟩, ⟨Hm4, Hm5, Hc0, Hc1, Hc2, Hsems⟩, HO⟩
  ihave Hmw := ((K (F := F)).mayWaits_none (thr := thrV d L) hO) $$ Hlv
  ihave H2' := (Entails.of_eq (show ((v2W).view.loc (thrV d L) ↦{q} A2 : sProp 𝕄) = (v2Loc d ↦{q} A2) from rfl).symm) $$ H2
  ihave H3' := (Entails.of_eq (show ((v3W).view.loc (thrV d L) ↦{q} A3 : sProp 𝕄) = (v3Loc d ↦{q} A3) from rfl).symm) $$ H3
  ihave H1' := (Entails.of_eq (show ((v1W).view.loc (thrV d L) ↦{q} A1 : sProp 𝕄) = (v1Loc d ↦{q} A1) from rfl).symm) $$ H1
  ihave Ho0 := (Entails.of_eq (show ((outK0 L).view.loc (thrV d L) ↦[(outK0 L).view.set]{fullShare} B4 : sProp 𝕄) = (v4Loc d ↦[outSet L 0]{fullShare} B4) from rfl).symm) $$ Ho0
  ihave Ho1 := (Entails.of_eq (show ((outK1 L).view.loc (thrV d L) ↦[(outK1 L).view.set]{fullShare} B4 : sProp 𝕄) = (v4Loc d ↦[outSet L 1]{fullShare} B4) from rfl).symm) $$ Ho1
  ihave Ho2 := (Entails.of_eq (show ((outK2 L).view.loc (thrV d L) ↦[(outK2 L).view.set]{fullShare} B4 : sProp 𝕄) = (v4Loc d ↦[outSet L 2]{fullShare} B4) from rfl).symm) $$ Ho2
  ihave Hs0 := (Entails.of_eq (show (s0At d L f0 : sProp 𝕄) = ((thrV d L).loc cc0_scratch0 ↦{fullShare} f0) from rfl).symm) $$ Hs0
  ihave Hs1 := (Entails.of_eq (show (s1At d L f1 : sProp 𝕄) = ((thrV d L).loc cc0_scratch1 ↦{fullShare} f1) from rfl).symm) $$ Hs1
  ihave Hs2 := (Entails.of_eq (show (s2At d L f2 : sProp 𝕄) = ((thrV d L).loc cc0_scratch2 ↦{fullShare} f2) from rfl).symm) $$ Hs2
  ihave Hs3 := (Entails.of_eq (show (s3At d L f3 : sProp 𝕄) = ((thrV d L).loc cc0_scratch3 ↦{fullShare} f3) from rfl).symm) $$ Hs3
  sl_exec
  -- the accumulators zeroed
  sl_for (inv1F (F := F) d L) $$ [Hs2 Hs3]
  case region =>
    intro k _
    unfold inv1F
    iintro ⟨⟨%a, Ha⟩, ⟨%b, Hb⟩⟩
    iapply (trip1F d L k a b)
    isplitl [Ha]; · iexact Ha
    iexact Hb
  · unfold inv1F
    isplitl [Hs2]
    · iexists _; iexact Hs2
    · iexists _; iexact Hs3
  iintro %_ HI
  unfold inv1F
  icases HI with ⟨⟨%a1, Hs2⟩, ⟨%b1, Hs3⟩⟩
  sl_exec
  -- the twenty-six fields
  sl_for (inv2F d L q A1 A2 O W) $$ [Hmw H2' H1' Hs0 Hs1 Hs2 Hs3 Hm4 Hm5 HO]
  case region =>
    intro k _
    exact fieldF d L q A1 A2 hidx O W k
  · unfold inv2F
    isplitl [Hmw]; · iexact Hmw
    isplitl [H2']; · iexact H2'
    isplitl [H1']; · iexact H1'
    isplitl [Hs0]; · iexists _; iexact Hs0
    isplitl [Hs1]; · iexists _; iexact Hs1
    isplitl [Hs2]; · iexists _; iexact Hs2
    isplitl [Hs3]; · iexists _; iexact Hs3
    isplitl [Hm4]; · iexact Hm4
    isplitl [Hm5]; · iexact Hm5
    iexists W; isplitr
    · ipureintro; exact fun p hp => .inl hp
    · iexact HO
  iintro %_ HI
  unfold inv2F
  icases HI with ⟨Hmw, H2', H1', ⟨%g0, Hs0⟩, ⟨%g1, Hs1⟩, ⟨%a2, Hs2⟩, ⟨%b2, Hs3⟩, Hm4, Hm5, %W', %hW', HO⟩
  -- the two accumulators written out, the first zeroed again
  sl_exec
  sl_for (inv4F (F := F) d L) $$ [Hs2]
  case region =>
    intro k _
    unfold inv4F
    iintro ⟨%a, Ha⟩
    iapply (trip4F d L k a)
    iexact Ha
  · unfold inv4F
    iexists _; iexact Hs2
  iintro %_ HI
  unfold inv4F
  icases HI with ⟨%a3, Hs2⟩
  -- the subcore's own linear field
  sl_exec
  have e0 : View.write (Elt F) (s0W).view g0 (tile_bodyF.sl.dma0_2 d L A3) Finset.univ = tile_bodyF.sl.dma0_2 d L A3 := View.write_whole_univ _ _ _
  have e1 : View.write (Elt F) (s1W).view g1 (tile_bodyF.sl.dma0_3 d L A1) Finset.univ = tile_bodyF.sl.dma0_3 d L A1 := View.write_whole_univ _ _ _
  rw [e0, e1]
  have hI : ∀ y, ((tile_bodyF.sl.dma0_3 d L A1) y).toNat < 100000 := fun y => hidx _
  sl_for (inv5F d L (tile_bodyF.sl.dma0_2 d L A3) (tile_bodyF.sl.dma0_3 d L A1)) $$ [Hs0 Hs1 Hs2]
  case region =>
    intro k _
    unfold inv5F
    iintro ⟨H0, H1, ⟨%a', H2⟩⟩
    iapply (trip5F d L _ _ hI k a')
    isplitl [H0]; · iexact H0
    isplitl [H1]; · iexact H1
    iexact H2
  · unfold inv5F
    isplitl [Hs0]; · iexact Hs0
    isplitl [Hs1]; · iexact Hs1
    iexists _; iexact Hs2
  iintro %_ HI
  unfold inv5F
  icases HI with ⟨Hs0, Hs1, ⟨%a4, Hs2⟩⟩
  by_cases h1 : k0_cond1 L = 1#1
  · -- the subcore's second linear field
    sl_exec
    have e0' : View.write (Elt F) (s0W).view (tile_bodyF.sl.dma0_2 d L A3) (tile_bodyF.sl.dma0_4 d L A3 h1) Finset.univ = tile_bodyF.sl.dma0_4 d L A3 h1 := View.write_whole_univ _ _ _
    have e1' : View.write (Elt F) (s1W).view (tile_bodyF.sl.dma0_3 d L A1) (tile_bodyF.sl.dma0_5 d L A1 h1) Finset.univ = tile_bodyF.sl.dma0_5 d L A1 h1 := View.write_whole_univ _ _ _
    rw [e0', e1']
    have hI' : ∀ y, ((tile_bodyF.sl.dma0_5 d L A1 h1) y).toNat < 100000 := fun y => hidx _
    sl_for (inv5F d L (tile_bodyF.sl.dma0_4 d L A3 h1) (tile_bodyF.sl.dma0_5 d L A1 h1)) $$ [Hs0 Hs1 Hs2]
    case region =>
      intro k _
      unfold inv5F
      iintro ⟨H0, H1, ⟨%a', H2⟩⟩
      iapply (trip6F d L h1 _ _ hI' k a')
      isplitl [H0]; · iexact H0
      isplitl [H1]; · iexact H1
      iexact H2
    · unfold inv5F
      isplitl [Hs0]; · iexact Hs0
      isplitl [Hs1]; · iexact Hs1
      iexists _; iexact Hs2
    iintro %_ HI
    unfold inv5F
    icases HI with ⟨Hs0, Hs1, ⟨%a5, Hs2⟩⟩
    sl_exec
    sl_step
    unfold tdResF inRes
    isplitl [H2' H3' H1' Ho0 Ho1 Ho2]
    · isplitl [H2' H3' H1']
      · isplitl [H2']; · iexact H2'
        isplitl [H3']; · iexact H3'
        iexact H1'
      isplitl [Ho0]; · iexists _; iexact Ho0
      isplitl [Ho1]; · iexists _; iexact Ho1
      iexists _; iexact Ho2
    isplitl [Hs0 Hs1 Hs2 Hs3 Hbufs]
    · isplitl [Hs0]; · iexists _; iexact Hs0
      isplitl [Hs1]; · iexists _; iexact Hs1
      isplitl [Hs2]; · iexists _; iexact Hs2
      isplitl [Hs3]; · iexists _; iexact Hs3
      iexact Hbufs
    isplitl [Hm4 Hm5 Hc0 Hc1 Hc2 Hsems]
    · isplitl [Hm4]; · iexact Hm4
      isplitl [Hm5]; · iexact Hm5
      isplitl [Hc0]; · iexact Hc0
      isplitl [Hc1]; · iexact Hc1
      isplitl [Hc2]; · iexact Hc2
      iexact Hsems
    iexists (insert (SemLoc.dma cc0_scoped2.sem, (default : HIx 1)) (insert (SemLoc.dma cc0_scratch5.sem, (default : HIx 1)) (insert (SemLoc.dma cc0_scratch4.sem, (default : HIx 1)) (insert (SemLoc.dma cc0_scratch5.sem, (default : HIx 1)) (insert (SemLoc.dma cc0_scratch4.sem, (default : HIx 1)) (insert (SemLoc.dma cc0_scoped1.sem, (default : HIx 1)) (insert (SemLoc.dma cc0_scoped0.sem, (default : HIx 1)) W'))))))); isplitr
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      · exact hW' p hp
    · iexact HO
  · sl_exec
    sl_step
    unfold tdResF inRes
    isplitl [H2' H3' H1' Ho0 Ho1 Ho2]
    · isplitl [H2' H3' H1']
      · isplitl [H2']; · iexact H2'
        isplitl [H3']; · iexact H3'
        iexact H1'
      isplitl [Ho0]; · iexists _; iexact Ho0
      isplitl [Ho1]; · iexists _; iexact Ho1
      iexists _; iexact Ho2
    isplitl [Hs0 Hs1 Hs2 Hs3 Hbufs]
    · isplitl [Hs0]; · iexists _; iexact Hs0
      isplitl [Hs1]; · iexists _; iexact Hs1
      isplitl [Hs2]; · iexists _; iexact Hs2
      isplitl [Hs3]; · iexists _; iexact Hs3
      iexact Hbufs
    isplitl [Hm4 Hm5 Hc0 Hc1 Hc2 Hsems]
    · isplitl [Hm4]; · iexact Hm4
      isplitl [Hm5]; · iexact Hm5
      isplitl [Hc0]; · iexact Hc0
      isplitl [Hc1]; · iexact Hc1
      isplitl [Hc2]; · iexact Hc2
      iexact Hsems
    iexists (insert (SemLoc.dma cc0_scoped2.sem, (default : HIx 1)) (insert (SemLoc.dma cc0_scratch5.sem, (default : HIx 1)) (insert (SemLoc.dma cc0_scratch4.sem, (default : HIx 1)) (insert (SemLoc.dma cc0_scoped1.sem, (default : HIx 1)) (insert (SemLoc.dma cc0_scoped0.sem, (default : HIx 1)) W'))))); isplitr
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      · exact hW' p hp
    · iexact HO

end Cert.Proof.KernelIdeal

end
-- ==== Proof.WritesClosed.lean ====
/-
  A run of stores through rectangles of a buffer read whole, in closed form: where some store's rectangle covers an index
  the contents are the one function all the payloads are pieces of, elsewhere they are what they were.
-/
import Idealize.ShloMosaic.Lib.Writes

noncomputable section

namespace Cert.Proof.Writes

open Idealize.ShloMosaic

variable {sig : RefSig} {κ : Kind} {sp : Space} {s : Shape} {e : EltTy} {Val : EltTy → Type}

/-- The contents after the stores L over contents a, read through the view: the common function G of the stores' payloads
    where a store covers (decided by C), a's reading elsewhere. -/
theorem read_writes_closed (v : View sig κ sp s e) (a : v.ty.Contents Val) (G : s.Idx → Val e) (L : List (View.Piece Val s e))
    (hG : ∀ p ∈ L, ∀ x : p.1.shape.Idx, p.2 x = G (p.1.emb x)) (C : s.Idx → Prop) [DecidablePred C]
    (hC : ∀ y : s.Idx, C y ↔ ∃ p ∈ L, y ∈ p.1.set) (y : s.Idx) :
    v.read Val (v.writes Val a L) y = if C y then G y else v.read Val a y := by
  by_cases h : C y
  · rw [if_pos h]; exact View.read_writes_apply_of_pieces v a G L hG y ((hC y).mp h)
  · rw [if_neg h]
    exact View.read_writes_apply_of_forall_not_mem v a y L fun p hp hy => h ((hC y).mpr ⟨p, hp, hy⟩)

end Cert.Proof.Writes

end
-- ==== Proof.KernelIdeal.TileArith.lean ====
/-
  The contents the kernel's loops leave in the accumulators, in closed form: a zero fill sixteen lanes a trip, a
  gather-and-add sixty-four lanes a trip.
-/
import proofs.«207209_g54674933678763_cont_9to1_m_278_38_alg».proof.Proof.KernelIdeal.TileRes
import proofs.«207209_g54674933678763_cont_9to1_m_278_38_alg».proof.Proof.WritesClosed
import Idealize.ShloMosaic.Lib.SparseCore.Ops

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

local notation "v2W" => (Memref.whole Cert.KernelIdeal.main_v2_scv : Memref Cert.KernelIdeal.sig Kind.scVector Space.hbm Cert.KernelIdeal.S26x16x100000 EltTy.f32)
local notation "v3W" => (Memref.whole Cert.KernelIdeal.main_v3_scv : Memref Cert.KernelIdeal.sig Kind.scVector Space.hbm Cert.KernelIdeal.S26x1x100000 EltTy.f32)
local notation "v1W" => (Memref.whole Cert.KernelIdeal.main_v1_scv : Memref Cert.KernelIdeal.sig Kind.scVector Space.hbm Cert.KernelIdeal.S425984 EltTy.i32)
local notation "v4W" => (Memref.whole Cert.KernelIdeal.main_v4_scv : Memref Cert.KernelIdeal.sig Kind.scVector Space.hbm Cert.KernelIdeal.S786432 EltTy.f32)
local notation "s0W" => (Memref.whole Cert.KernelIdeal.cc0_scratch0 : Memref Cert.KernelIdeal.sig Kind.scVector Space.vmem Cert.KernelIdeal.S100000 EltTy.f32)
local notation "s1W" => (Memref.whole Cert.KernelIdeal.cc0_scratch1 : Memref Cert.KernelIdeal.sig Kind.scVector Space.vmem Cert.KernelIdeal.S8192 EltTy.i32)
local notation "s2W" => (Memref.whole Cert.KernelIdeal.cc0_scratch2 : Memref Cert.KernelIdeal.sig Kind.scVector Space.vmem Cert.KernelIdeal.S8192 EltTy.f32)
local notation "s3W" => (Memref.whole Cert.KernelIdeal.cc0_scratch3 : Memref Cert.KernelIdeal.sig Kind.scVector Space.vmem Cert.KernelIdeal.S8192 EltTy.f32)

/-- Lanes below 16·n zeroed. -/
def zeroUpTo (n : ℕ) (a : S8192.Idx → F .f32) : S8192.Idx → F .f32 := fun y => if (y 0).val < 16 * n then fzero else a y

/-- g added onto the lanes below 64·n. -/
def addUpTo (g : S8192.Idx → F .f32) (n : ℕ) (a : S8192.Idx → F .f32) : S8192.Idx → F .f32 :=
  fun y => if (y 0).val < 64 * n then FloatOps.addf (a y) (g y) else a y

/-- The square of a lane function. -/
def sqr (g : S8192.Idx → F .f32) : S8192.Idx → F .f32 := fun y => FloatOps.mulf (g y) (g y)

/-- What the indexed load reads for example y: the row scratch at the word the index scratch holds for y. -/
def gath (Pf : S100000.Idx → F .f32) (If : S8192.Idx → BitVec 32) (y : S8192.Idx) : F .f32 :=
  Pf (ix1 ⟨(If y).toNat % 100000, Nat.mod_lt _ (by norm_num)⟩)

theorem readAt_s2 (a : S8192.Idx → F .f32) (o : Fin 1 → ℕ) (sz : Fin 1 → ℕ) (inb : ∀ a, o a + sz a ≤ S8192.size a)
    (x : (Rect.unit (s := S8192) o sz inb).shape.Idx) :
    View.readAt (Elt F) (s2W).view (Rect.unit (s := S8192) o sz inb).toLoadRect a x = a ((Rect.unit (s := S8192) o sz inb).emb x) := rfl

theorem readAt_s3 (a : S8192.Idx → F .f32) (o : Fin 1 → ℕ) (sz : Fin 1 → ℕ) (inb : ∀ a, o a + sz a ≤ S8192.size a)
    (x : (Rect.unit (s := S8192) o sz inb).shape.Idx) :
    View.readAt (Elt F) (s3W).view (Rect.unit (s := S8192) o sz inb).toLoadRect a x = a ((Rect.unit (s := S8192) o sz inb).emb x) := rfl

theorem gath_piece (Pf : S100000.Idx → F .f32) (If : S8192.Idx → BitVec 32) (hI : ∀ y, (If y).toNat < 100000)
    (oI oA : Fin 1 → ℕ) (szI szA : Fin 1 → ℕ) (inbI : ∀ a, oI a + szI a ≤ S8192.size a) (inbA : ∀ a, oA a + szA a ≤ S8192.size a)
    (ho : oI = oA) (hsz : szI = szA)
    (h : ∀ a x, ((![View.readAt (Elt F) (s1W).view (Rect.unit (s := S8192) oI szI inbI).toLoadRect If] : Fin 1 → IVec _ 32) a x).toNat < S100000.size a)
    (x : (Rect.unit (s := S8192) oI szI inbI).shape.Idx) (x' : (Rect.unit (s := S8192) oA szA inbA).shape.Idx) (hx : (x 0).val = (x' 0).val) :
    loadIdx (View.readAt (Elt F) (s0W).view (LoadRect.whole S100000) Pf) ![View.readAt (Elt F) (s1W).view (Rect.unit (s := S8192) oI szI inbI).toLoadRect If] h x
      = gath Pf If ((Rect.unit (s := S8192) oA szA inbA).emb x') := by
  subst ho; subst hsz
  have hx' : x = x' := by funext a; obtain rfl : a = 0 := Subsingleton.elim _ _; exact Fin.ext hx
  subst hx'
  show Pf _ = Pf _
  congr 1
  funext a
  rcases a with ⟨_ | n, hn⟩
  swap
  · exact absurd hn (Nat.not_lt.2 (Nat.le_add_left 1 n))
  apply Fin.ext
  show 0 + 1 * (If ((Rect.unit (s := S8192) oI szI inbI).emb x)).toNat = (If ((Rect.unit (s := S8192) oI szI inbI).emb x)).toNat % 100000
  rw [Nat.mod_eq_of_lt (hI _)]; omega

theorem pay9_apply (v60 v62 : Vec F S16 .f32) (x : S16.Idx) : k0_pay9 v60 v62 x = FloatOps.addf (v62 x) (v60 x) := rfl
theorem pay10_apply (v60 v67 : Vec F S16 .f32) (x : S16.Idx) : k0_pay10 v60 v67 x = FloatOps.addf (v67 x) (FloatOps.mulf (v60 x) (v60 x)) := rfl
theorem pay15_apply (x : S16.Idx) : k0_pay15 (F := F) x = fzero := rfl

end Cert.Proof.KernelIdeal

end
-- ==== Proof.KernelIdeal.TileWrites.lean ====
/-
  A run of sixteen-lane stores into an 8192-word scratch, in closed form.

  One trip of an accumulation loop stores four consecutive chunks of sixteen lanes, from 64·k on; one trip of a zeroing
  loop one chunk, from 16·k on.  If every chunk's payload is the restriction of one function G to the chunk, the
  contents after the trip are G on the words [o, o + 64) (or [o, o + 16)) and what they were elsewhere.  Iterated from
  k = 0: after k trips the contents are G below 64·k (16·k) and the initial contents from there on; after the last
  trip they are G everywhere.
-/
import proofs.«207209_g54674933678763_cont_9to1_m_278_38_alg».proof.Proof.KernelIdeal.TileRes
import proofs.«207209_g54674933678763_cont_9to1_m_278_38_alg».proof.Proof.WritesClosed
import proofs.«207209_g54674933678763_cont_9to1_m_278_38_alg».proof.Proof.KernelIdeal.TileArith
import proofs.«207209_g54674933678763_cont_9to1_m_278_38_alg».proof.Proof.Gen.KernelIdeal

noncomputable section

namespace Cert.Proof.KernelIdeal

open Cert.KernelIdeal Cert.KernelIdeal.Gen

open Idealize.ShloMosaic Idealize.ShloMosaic.ValueIdx

/-! ## Generic: unit rectangles of a rank-one shape -/

section Generic
variable {sig : RefSig} {κ : Kind} {sp : Space} {e : EltTy} {Val : EltTy → Type} {n : ℕ}

/-- A word lies in the unit rectangle from o of length z iff it lies in [o, o + z). -/
theorem mem_unit1 (off size : Fin 1 → ℕ) (inb : ∀ a, off a + size a ≤ (⟨1, ![n]⟩ : Shape).size a) (o z : ℕ)
    (ho : off = ![o]) (hz : size 0 = z) (y : (⟨1, ![n]⟩ : Shape).Idx) :
    y ∈ (Rect.unit (s := ⟨1, ![n]⟩) off size inb).set ↔ o ≤ (y 0).val ∧ (y 0).val < o + z := by
  rw [Rect.mem_set_unit]
  subst ho
  constructor
  · intro h
    have := h 0
    rw [hz] at this
    exact this
  · intro h a
    obtain rfl : a = 0 := Subsingleton.elim _ _
    rw [hz]
    exact h

/-- One chunk stored: G on [o, o + z), the old contents elsewhere. -/
theorem read_writes1 (v : View sig κ sp ⟨1, ![n]⟩ e) (a : v.ty.Contents Val) (G : (⟨1, ![n]⟩ : Shape).Idx → Val e) (o z : ℕ)
    (off0 sz0 : Fin 1 → ℕ) (inb0 : ∀ a, off0 a + sz0 a ≤ (⟨1, ![n]⟩ : Shape).size a)
    (w0 : (Rect.unit (s := ⟨1, ![n]⟩) off0 sz0 inb0).shape.Idx → Val e)
    (h0 : off0 = ![o]) (hs0 : sz0 0 = z)
    (hw0 : ∀ x, w0 x = G ((Rect.unit (s := ⟨1, ![n]⟩) off0 sz0 inb0).emb x)) (y : (⟨1, ![n]⟩ : Shape).Idx) :
    v.read Val (v.writes Val a [⟨Rect.unit (s := ⟨1, ![n]⟩) off0 sz0 inb0, w0⟩]) y
      = if o ≤ (y 0).val ∧ (y 0).val < o + z then G y else v.read Val a y := by
  refine Cert.Proof.Writes.read_writes_closed v a G _ ?_ (fun y => o ≤ (y 0).val ∧ (y 0).val < o + z) ?_ y
  · intro p hp
    obtain rfl : p = ⟨Rect.unit (s := ⟨1, ![n]⟩) off0 sz0 inb0, w0⟩ := List.mem_singleton.mp hp
    exact hw0
  · intro y
    constructor
    · intro h
      exact ⟨_, List.mem_singleton.mpr rfl, (mem_unit1 off0 sz0 inb0 o z h0 hs0 y).mpr h⟩
    · rintro ⟨p, hp, hy⟩
      obtain rfl : p = ⟨Rect.unit (s := ⟨1, ![n]⟩) off0 sz0 inb0, w0⟩ := List.mem_singleton.mp hp
      exact (mem_unit1 off0 sz0 inb0 o z h0 hs0 y).mp hy

/-- Four consecutive chunks of sixteen stored (the last store first in the list): G on [o, o + 64), the old contents
    elsewhere. -/
theorem read_writes4 (v : View sig κ sp ⟨1, ![n]⟩ e) (a : v.ty.Contents Val) (G : (⟨1, ![n]⟩ : Shape).Idx → Val e) (o : ℕ)
    (off0 off1 off2 off3 sz0 sz1 sz2 sz3 : Fin 1 → ℕ)
    (inb0 : ∀ a, off0 a + sz0 a ≤ (⟨1, ![n]⟩ : Shape).size a) (inb1 : ∀ a, off1 a + sz1 a ≤ (⟨1, ![n]⟩ : Shape).size a)
    (inb2 : ∀ a, off2 a + sz2 a ≤ (⟨1, ![n]⟩ : Shape).size a) (inb3 : ∀ a, off3 a + sz3 a ≤ (⟨1, ![n]⟩ : Shape).size a)
    (w0 : (Rect.unit (s := ⟨1, ![n]⟩) off0 sz0 inb0).shape.Idx → Val e) (w1 : (Rect.unit (s := ⟨1, ![n]⟩) off1 sz1 inb1).shape.Idx → Val e)
    (w2 : (Rect.unit (s := ⟨1, ![n]⟩) off2 sz2 inb2).shape.Idx → Val e) (w3 : (Rect.unit (s := ⟨1, ![n]⟩) off3 sz3 inb3).shape.Idx → Val e)
    (h0 : off0 = ![o]) (h1 : off1 = ![o + 16]) (h2 : off2 = ![o + 32]) (h3 : off3 = ![o + 48])
    (hs0 : sz0 0 = 16) (hs1 : sz1 0 = 16) (hs2 : sz2 0 = 16) (hs3 : sz3 0 = 16)
    (hw0 : ∀ x, w0 x = G ((Rect.unit (s := ⟨1, ![n]⟩) off0 sz0 inb0).emb x))
    (hw1 : ∀ x, w1 x = G ((Rect.unit (s := ⟨1, ![n]⟩) off1 sz1 inb1).emb x))
    (hw2 : ∀ x, w2 x = G ((Rect.unit (s := ⟨1, ![n]⟩) off2 sz2 inb2).emb x))
    (hw3 : ∀ x, w3 x = G ((Rect.unit (s := ⟨1, ![n]⟩) off3 sz3 inb3).emb x)) (y : (⟨1, ![n]⟩ : Shape).Idx) :
    v.read Val (v.writes Val a [⟨Rect.unit (s := ⟨1, ![n]⟩) off3 sz3 inb3, w3⟩, ⟨Rect.unit (s := ⟨1, ![n]⟩) off2 sz2 inb2, w2⟩,
        ⟨Rect.unit (s := ⟨1, ![n]⟩) off1 sz1 inb1, w1⟩, ⟨Rect.unit (s := ⟨1, ![n]⟩) off0 sz0 inb0, w0⟩]) y
      = if o ≤ (y 0).val ∧ (y 0).val < o + 64 then G y else v.read Val a y := by
  have m0 := mem_unit1 off0 sz0 inb0 o 16 h0 hs0
  have m1 := mem_unit1 off1 sz1 inb1 (o + 16) 16 h1 hs1
  have m2 := mem_unit1 off2 sz2 inb2 (o + 32) 16 h2 hs2
  have m3 := mem_unit1 off3 sz3 inb3 (o + 48) 16 h3 hs3
  refine Cert.Proof.Writes.read_writes_closed v a G _ ?_ (fun y => o ≤ (y 0).val ∧ (y 0).val < o + 64) ?_ y
  · intro p hp
    simp only [List.mem_cons, List.not_mem_nil, or_false] at hp
    rcases hp with rfl | rfl | rfl | rfl
    · exact hw3
    · exact hw2
    · exact hw1
    · exact hw0
  · intro y
    constructor
    · intro h
      by_cases c1 : (y 0).val < o + 16
      · exact ⟨⟨Rect.unit (s := ⟨1, ![n]⟩) off0 sz0 inb0, w0⟩, .tail _ (.tail _ (.tail _ (.head _))), (m0 y).mpr ⟨h.1, by omega⟩⟩
      · by_cases c2 : (y 0).val < o + 32
        · exact ⟨⟨Rect.unit (s := ⟨1, ![n]⟩) off1 sz1 inb1, w1⟩, .tail _ (.tail _ (.head _)), (m1 y).mpr ⟨by omega, by omega⟩⟩
        · by_cases c3 : (y 0).val < o + 48
          · exact ⟨⟨Rect.unit (s := ⟨1, ![n]⟩) off2 sz2 inb2, w2⟩, .tail _ (.head _), (m2 y).mpr ⟨by omega, by omega⟩⟩
          · exact ⟨⟨Rect.unit (s := ⟨1, ![n]⟩) off3 sz3 inb3, w3⟩, .head _, (m3 y).mpr ⟨by omega, by omega⟩⟩
    · rintro ⟨p, hp, hy⟩
      simp only [List.mem_cons, List.not_mem_nil, or_false] at hp
      rcases hp with rfl | rfl | rfl | rfl
      · have := (m3 y).mp hy; constructor <;> omega
      · have := (m2 y).mp hy; constructor <;> omega
      · have := (m1 y).mp hy; constructor <;> omega
      · have := (m0 y).mp hy; constructor <;> omega

end Generic

/-- A chunk's lane x is the word o + x. -/
theorem emb_unit1_val {n : ℕ} (off size : Fin 1 → ℕ) (inb : ∀ a, off a + size a ≤ (⟨1, ![n]⟩ : Shape).size a) (o : ℕ)
    (ho : off = ![o]) (x : (Rect.unit (s := ⟨1, ![n]⟩) off size inb).shape.Idx) :
    (((Rect.unit (s := ⟨1, ![n]⟩) off size inb).emb x) 0).val = o + (x 0).val := by
  subst ho
  show (![o] : Fin 1 → ℕ) 0 + 1 * (x 0).val = o + (x 0).val
  rw [Nat.one_mul]
  rfl

/-! ## The loops' trips, with the rectangles as the kernel spells them (any in-bounds evidence) -/

section Trips
variable {sig' : RefSig} {κ : Kind} {sp : Space} {e : EltTy} {Val : EltTy → Type}
variable (v : View sig' κ sp S8192 e) (a : v.ty.Contents Val) (G : S8192.Idx → Val e)

/-- A trip of the zeroing loop over both accumulators: one chunk from 16·k. -/
theorem t1_read_writes (k : Fin k0_t1_loop.trips) (i0 : ∀ a, k0_off1 k a + S16.size a ≤ S8192.size a)
    (w0 : (Rect.unit (s := S8192) (k0_off1 k) S16.size i0).shape.Idx → Val e)
    (hw0 : ∀ x, w0 x = G ((Rect.unit (s := S8192) (k0_off1 k) S16.size i0).emb x)) (y : S8192.Idx) :
    v.read Val (v.writes Val a [⟨Rect.unit (s := S8192) (k0_off1 k) S16.size i0, w0⟩]) y
      = if 16 * k.val ≤ (y 0).val ∧ (y 0).val < 16 * k.val + 16 then G y else v.read Val a y :=
  read_writes1 v a G (16 * k.val) 16 _ _ i0 w0 (k0_off1_eq k) rfl hw0 y

/-- A trip of the zeroing loop over the first accumulator: one chunk from 16·k. -/
theorem t4_read_writes (k : Fin k0_t4_loop.trips) (i0 : ∀ a, k0_off10 k a + S16.size a ≤ S8192.size a)
    (w0 : (Rect.unit (s := S8192) (k0_off10 k) S16.size i0).shape.Idx → Val e)
    (hw0 : ∀ x, w0 x = G ((Rect.unit (s := S8192) (k0_off10 k) S16.size i0).emb x)) (y : S8192.Idx) :
    v.read Val (v.writes Val a [⟨Rect.unit (s := S8192) (k0_off10 k) S16.size i0, w0⟩]) y
      = if 16 * k.val ≤ (y 0).val ∧ (y 0).val < 16 * k.val + 16 then G y else v.read Val a y :=
  read_writes1 v a G (16 * k.val) 16 _ _ i0 w0 (k0_off10_eq k) rfl hw0 y

/-- A trip of the factor loop: four chunks from 64·k. -/
theorem t3_read_writes (k : Fin k0_t3_loop.trips)
    (i0 : ∀ a, k0_off5 k 0#32 a + S16.size a ≤ S8192.size a) (i1 : ∀ a, k0_off6 k 16#32 a + S16.size a ≤ S8192.size a)
    (i2 : ∀ a, k0_off7 k 32#32 a + S16.size a ≤ S8192.size a) (i3 : ∀ a, k0_off8 k a + S16.size a ≤ S8192.size a)
    (w0 : (Rect.unit (s := S8192) (k0_off5 k 0#32) S16.size i0).shape.Idx → Val e)
    (w1 : (Rect.unit (s := S8192) (k0_off6 k 16#32) S16.size i1).shape.Idx → Val e)
    (w2 : (Rect.unit (s := S8192) (k0_off7 k 32#32) S16.size i2).shape.Idx → Val e)
    (w3 : (Rect.unit (s := S8192) (k0_off8 k) S16.size i3).shape.Idx → Val e)
    (hw0 : ∀ x, w0 x = G ((Rect.unit (s := S8192) (k0_off5 k 0#32) S16.size i0).emb x))
    (hw1 : ∀ x, w1 x = G ((Rect.unit (s := S8192) (k0_off6 k 16#32) S16.size i1).emb x))
    (hw2 : ∀ x, w2 x = G ((Rect.unit (s := S8192) (k0_off7 k 32#32) S16.size i2).emb x))
    (hw3 : ∀ x, w3 x = G ((Rect.unit (s := S8192) (k0_off8 k) S16.size i3).emb x)) (y : S8192.Idx) :
    v.read Val (v.writes Val a [⟨Rect.unit (s := S8192) (k0_off8 k) S16.size i3, w3⟩, ⟨Rect.unit (s := S8192) (k0_off7 k 32#32) S16.size i2, w2⟩,
        ⟨Rect.unit (s := S8192) (k0_off6 k 16#32) S16.size i1, w1⟩, ⟨Rect.unit (s := S8192) (k0_off5 k 0#32) S16.size i0, w0⟩]) y
      = if 64 * k.val ≤ (y 0).val ∧ (y 0).val < 64 * k.val + 64 then G y else v.read Val a y :=
  read_writes4 v a G (64 * k.val) _ _ _ _ _ _ _ _ i0 i1 i2 i3 w0 w1 w2 w3
    (k0_off5_eq k 0) (k0_off6_eq k 0) (k0_off7_eq k 0) (k0_off8_eq k) rfl rfl rfl rfl hw0 hw1 hw2 hw3 y

/-- A trip of the first linear loop: four chunks from 64·k. -/
theorem t5_read_writes (k : Fin k0_t5_loop.trips)
    (i0 : ∀ a, k0_off14 k 0#32 a + S16.size a ≤ S8192.size a) (i1 : ∀ a, k0_off15 k 16#32 a + S16.size a ≤ S8192.size a)
    (i2 : ∀ a, k0_off16 k 32#32 a + S16.size a ≤ S8192.size a) (i3 : ∀ a, k0_off17 k a + S16.size a ≤ S8192.size a)
    (w0 : (Rect.unit (s := S8192) (k0_off14 k 0#32) S16.size i0).shape.Idx → Val e)
    (w1 : (Rect.unit (s := S8192) (k0_off15 k 16#32) S16.size i1).shape.Idx → Val e)
    (w2 : (Rect.unit (s := S8192) (k0_off16 k 32#32) S16.size i2).shape.Idx → Val e)
    (w3 : (Rect.unit (s := S8192) (k0_off17 k) S16.size i3).shape.Idx → Val e)
    (hw0 : ∀ x, w0 x = G ((Rect.unit (s := S8192) (k0_off14 k 0#32) S16.size i0).emb x))
    (hw1 : ∀ x, w1 x = G ((Rect.unit (s := S8192) (k0_off15 k 16#32) S16.size i1).emb x))
    (hw2 : ∀ x, w2 x = G ((Rect.unit (s := S8192) (k0_off16 k 32#32) S16.size i2).emb x))
    (hw3 : ∀ x, w3 x = G ((Rect.unit (s := S8192) (k0_off17 k) S16.size i3).emb x)) (y : S8192.Idx) :
    v.read Val (v.writes Val a [⟨Rect.unit (s := S8192) (k0_off17 k) S16.size i3, w3⟩, ⟨Rect.unit (s := S8192) (k0_off16 k 32#32) S16.size i2, w2⟩,
        ⟨Rect.unit (s := S8192) (k0_off15 k 16#32) S16.size i1, w1⟩, ⟨Rect.unit (s := S8192) (k0_off14 k 0#32) S16.size i0, w0⟩]) y
      = if 64 * k.val ≤ (y 0).val ∧ (y 0).val < 64 * k.val + 64 then G y else v.read Val a y :=
  read_writes4 v a G (64 * k.val) _ _ _ _ _ _ _ _ i0 i1 i2 i3 w0 w1 w2 w3
    (k0_off14_eq k 0) (k0_off15_eq k 0) (k0_off16_eq k 0) (k0_off17_eq k) rfl rfl rfl rfl hw0 hw1 hw2 hw3 y

/-- A trip of the second linear loop: four chunks from 64·k. -/
theorem t6_read_writes (k : Fin k0_t6_loop.trips)
    (i0 : ∀ a, k0_off21 k 0#32 a + S16.size a ≤ S8192.size a) (i1 : ∀ a, k0_off22 k 16#32 a + S16.size a ≤ S8192.size a)
    (i2 : ∀ a, k0_off23 k 32#32 a + S16.size a ≤ S8192.size a) (i3 : ∀ a, k0_off24 k a + S16.size a ≤ S8192.size a)
    (w0 : (Rect.unit (s := S8192) (k0_off21 k 0#32) S16.size i0).shape.Idx → Val e)
    (w1 : (Rect.unit (s := S8192) (k0_off22 k 16#32) S16.size i1).shape.Idx → Val e)
    (w2 : (Rect.unit (s := S8192) (k0_off23 k 32#32) S16.size i2).shape.Idx → Val e)
    (w3 : (Rect.unit (s := S8192) (k0_off24 k) S16.size i3).shape.Idx → Val e)
    (hw0 : ∀ x, w0 x = G ((Rect.unit (s := S8192) (k0_off21 k 0#32) S16.size i0).emb x))
    (hw1 : ∀ x, w1 x = G ((Rect.unit (s := S8192) (k0_off22 k 16#32) S16.size i1).emb x))
    (hw2 : ∀ x, w2 x = G ((Rect.unit (s := S8192) (k0_off23 k 32#32) S16.size i2).emb x))
    (hw3 : ∀ x, w3 x = G ((Rect.unit (s := S8192) (k0_off24 k) S16.size i3).emb x)) (y : S8192.Idx) :
    v.read Val (v.writes Val a [⟨Rect.unit (s := S8192) (k0_off24 k) S16.size i3, w3⟩, ⟨Rect.unit (s := S8192) (k0_off23 k 32#32) S16.size i2, w2⟩,
        ⟨Rect.unit (s := S8192) (k0_off22 k 16#32) S16.size i1, w1⟩, ⟨Rect.unit (s := S8192) (k0_off21 k 0#32) S16.size i0, w0⟩]) y
      = if 64 * k.val ≤ (y 0).val ∧ (y 0).val < 64 * k.val + 64 then G y else v.read Val a y :=
  read_writes4 v a G (64 * k.val) _ _ _ _ _ _ _ _ i0 i1 i2 i3 w0 w1 w2 w3
    (k0_off21_eq k 0) (k0_off22_eq k 0) (k0_off23_eq k 0) (k0_off24_eq k) rfl rfl rfl rfl hw0 hw1 hw2 hw3 y

end Trips

/-! ## The loop invariant's algebra -/

section Acc
variable {α : Type}

/-- The contents after the trips that cover the words below m: the new values below m, the old ones from m on. -/
def accUpTo (NEW OLD : S8192.Idx → α) (m : ℕ) : S8192.Idx → α := fun y => if (y 0).val < m then NEW y else OLD y

theorem accUpTo_zero (NEW OLD : S8192.Idx → α) : accUpTo NEW OLD 0 = OLD := by
  funext y; unfold accUpTo; rw [if_neg (Nat.not_lt_zero _)]

theorem accUpTo_full (NEW OLD : S8192.Idx → α) (m : ℕ) (h : 8192 ≤ m) : accUpTo NEW OLD m = NEW := by
  funext y; unfold accUpTo
  have : (y 0).val < 8192 := (y 0).isLt
  rw [if_pos (by omega)]

theorem accUpTo_of_lt (NEW OLD : S8192.Idx → α) (m : ℕ) (y : S8192.Idx) (h : (y 0).val < m) : accUpTo NEW OLD m y = NEW y := by
  unfold accUpTo; rw [if_pos h]

theorem accUpTo_of_ge (NEW OLD : S8192.Idx → α) (m : ℕ) (y : S8192.Idx) (h : m ≤ (y 0).val) : accUpTo NEW OLD m y = OLD y := by
  unfold accUpTo; rw [if_neg (by omega)]

/-- One more trip: the new values on [o, o + z) over the contents up to o are the contents up to o + z. -/
theorem accUpTo_step (NEW OLD : S8192.Idx → α) (o z : ℕ) :
    (fun y : S8192.Idx => if o ≤ (y 0).val ∧ (y 0).val < o + z then NEW y else accUpTo NEW OLD o y) = accUpTo NEW OLD (o + z) := by
  funext y
  unfold accUpTo
  by_cases h1 : (y 0).val < o
  · rw [if_neg (by omega), if_pos h1, if_pos (by omega)]
  · by_cases h2 : (y 0).val < o + z
    · rw [if_pos ⟨by omega, h2⟩, if_pos h2]
    · rw [if_neg (by omega), if_neg h1, if_neg h2]

/-- The same with the trip counter: 64 words a trip. -/
theorem accUpTo_step64 (NEW OLD : S8192.Idx → α) (k : ℕ) :
    (fun y : S8192.Idx => if 64 * k ≤ (y 0).val ∧ (y 0).val < 64 * k + 64 then NEW y else accUpTo NEW OLD (64 * k) y)
      = accUpTo NEW OLD (64 * (k + 1)) := by
  rw [accUpTo_step, Nat.mul_succ]

/-- The same with the trip counter: 16 words a trip. -/
theorem accUpTo_step16 (NEW OLD : S8192.Idx → α) (k : ℕ) :
    (fun y : S8192.Idx => if 16 * k ≤ (y 0).val ∧ (y 0).val < 16 * k + 16 then NEW y else accUpTo NEW OLD (16 * k) y)
      = accUpTo NEW OLD (16 * (k + 1)) := by
  rw [accUpTo_step, Nat.mul_succ]

end Acc

/-! ## The same for the two accumulator scratches read whole: equalities of whole arrays -/

section Whole
variable {F : FTy → Type}

local notation "s2W" => (Memref.whole Cert.KernelIdeal.cc0_scratch2 : Memref Cert.KernelIdeal.sig Kind.scVector Space.vmem Cert.KernelIdeal.S8192 EltTy.f32)
local notation "s3W" => (Memref.whole Cert.KernelIdeal.cc0_scratch3 : Memref Cert.KernelIdeal.sig Kind.scVector Space.vmem Cert.KernelIdeal.S8192 EltTy.f32)

theorem t1_writes_s2 (k : Fin k0_t1_loop.trips) (a : (s2W).view.ty.Contents (Elt F)) (G : S8192.Idx → Elt F .f32)
    (i0 : ∀ a, k0_off1 k a + S16.size a ≤ S8192.size a)
    (w0 : (Rect.unit (s := S8192) (k0_off1 k) S16.size i0).shape.Idx → Elt F .f32)
    (hw0 : ∀ x, w0 x = G ((Rect.unit (s := S8192) (k0_off1 k) S16.size i0).emb x)) :
    (s2W).view.writes (Elt F) a [⟨Rect.unit (s := S8192) (k0_off1 k) S16.size i0, w0⟩]
      = fun y => if 16 * k.val ≤ (y 0).val ∧ (y 0).val < 16 * k.val + 16 then G y else a y :=
  funext fun y => t1_read_writes (s2W).view a G k i0 w0 hw0 y

theorem t1_writes_s3 (k : Fin k0_t1_loop.trips) (a : (s3W).view.ty.Contents (Elt F)) (G : S8192.Idx → Elt F .f32)
    (i0 : ∀ a, k0_off1 k a + S16.size a ≤ S8192.size a)
    (w0 : (Rect.unit (s := S8192) (k0_off1 k) S16.size i0).shape.Idx → Elt F .f32)
    (hw0 : ∀ x, w0 x = G ((Rect.unit (s := S8192) (k0_off1 k) S16.size i0).emb x)) :
    (s3W).view.writes (Elt F) a [⟨Rect.unit (s := S8192) (k0_off1 k) S16.size i0, w0⟩]
      = fun y => if 16 * k.val ≤ (y 0).val ∧ (y 0).val < 16 * k.val + 16 then G y else a y :=
  funext fun y => t1_read_writes (s3W).view a G k i0 w0 hw0 y

theorem t4_writes_s2 (k : Fin k0_t4_loop.trips) (a : (s2W).view.ty.Contents (Elt F)) (G : S8192.Idx → Elt F .f32)
    (i0 : ∀ a, k0_off10 k a + S16.size a ≤ S8192.size a)
    (w0 : (Rect.unit (s := S8192) (k0_off10 k) S16.size i0).shape.Idx → Elt F .f32)
    (hw0 : ∀ x, w0 x = G ((Rect.unit (s := S8192) (k0_off10 k) S16.size i0).emb x)) :
    (s2W).view.writes (Elt F) a [⟨Rect.unit (s := S8192) (k0_off10 k) S16.size i0, w0⟩]
      = fun y => if 16 * k.val ≤ (y 0).val ∧ (y 0).val < 16 * k.val + 16 then G y else a y :=
  funext fun y => t4_read_writes (s2W).view a G k i0 w0 hw0 y

theorem t3_writes_s2 (k : Fin k0_t3_loop.trips) (a : (s2W).view.ty.Contents (Elt F)) (G : S8192.Idx → Elt F .f32)
    (i0 : ∀ a, k0_off5 k 0#32 a + S16.size a ≤ S8192.size a) (i1 : ∀ a, k0_off6 k 16#32 a + S16.size a ≤ S8192.size a)
    (i2 : ∀ a, k0_off7 k 32#32 a + S16.size a ≤ S8192.size a) (i3 : ∀ a, k0_off8 k a + S16.size a ≤ S8192.size a)
    (w0 : (Rect.unit (s := S8192) (k0_off5 k 0#32) S16.size i0).shape.Idx → Elt F .f32)
    (w1 : (Rect.unit (s := S8192) (k0_off6 k 16#32) S16.size i1).shape.Idx → Elt F .f32)
    (w2 : (Rect.unit (s := S8192) (k0_off7 k 32#32) S16.size i2).shape.Idx → Elt F .f32)
    (w3 : (Rect.unit (s := S8192) (k0_off8 k) S16.size i3).shape.Idx → Elt F .f32)
    (hw0 : ∀ x, w0 x = G ((Rect.unit (s := S8192) (k0_off5 k 0#32) S16.size i0).emb x))
    (hw1 : ∀ x, w1 x = G ((Rect.unit (s := S8192) (k0_off6 k 16#32) S16.size i1).emb x))
    (hw2 : ∀ x, w2 x = G ((Rect.unit (s := S8192) (k0_off7 k 32#32) S16.size i2).emb x))
    (hw3 : ∀ x, w3 x = G ((Rect.unit (s := S8192) (k0_off8 k) S16.size i3).emb x)) :
    (s2W).view.writes (Elt F) a [⟨Rect.unit (s := S8192) (k0_off8 k) S16.size i3, w3⟩, ⟨Rect.unit (s := S8192) (k0_off7 k 32#32) S16.size i2, w2⟩,
        ⟨Rect.unit (s := S8192) (k0_off6 k 16#32) S16.size i1, w1⟩, ⟨Rect.unit (s := S8192) (k0_off5 k 0#32) S16.size i0, w0⟩]
      = fun y => if 64 * k.val ≤ (y 0).val ∧ (y 0).val < 64 * k.val + 64 then G y else a y :=
  funext fun y => t3_read_writes (s2W).view a G k i0 i1 i2 i3 w0 w1 w2 w3 hw0 hw1 hw2 hw3 y

theorem t3_writes_s3 (k : Fin k0_t3_loop.trips) (a : (s3W).view.ty.Contents (Elt F)) (G : S8192.Idx → Elt F .f32)
    (i0 : ∀ a, k0_off5 k 0#32 a + S16.size a ≤ S8192.size a) (i1 : ∀ a, k0_off6 k 16#32 a + S16.size a ≤ S8192.size a)
    (i2 : ∀ a, k0_off7 k 32#32 a + S16.size a ≤ S8192.size a) (i3 : ∀ a, k0_off8 k a + S16.size a ≤ S8192.size a)
    (w0 : (Rect.unit (s := S8192) (k0_off5 k 0#32) S16.size i0).shape.Idx → Elt F .f32)
    (w1 : (Rect.unit (s := S8192) (k0_off6 k 16#32) S16.size i1).shape.Idx → Elt F .f32)
    (w2 : (Rect.unit (s := S8192) (k0_off7 k 32#32) S16.size i2).shape.Idx → Elt F .f32)
    (w3 : (Rect.unit (s := S8192) (k0_off8 k) S16.size i3).shape.Idx → Elt F .f32)
    (hw0 : ∀ x, w0 x = G ((Rect.unit (s := S8192) (k0_off5 k 0#32) S16.size i0).emb x))
    (hw1 : ∀ x, w1 x = G ((Rect.unit (s := S8192) (k0_off6 k 16#32) S16.size i1).emb x))
    (hw2 : ∀ x, w2 x = G ((Rect.unit (s := S8192) (k0_off7 k 32#32) S16.size i2).emb x))
    (hw3 : ∀ x, w3 x = G ((Rect.unit (s := S8192) (k0_off8 k) S16.size i3).emb x)) :
    (s3W).view.writes (Elt F) a [⟨Rect.unit (s := S8192) (k0_off8 k) S16.size i3, w3⟩, ⟨Rect.unit (s := S8192) (k0_off7 k 32#32) S16.size i2, w2⟩,
        ⟨Rect.unit (s := S8192) (k0_off6 k 16#32) S16.size i1, w1⟩, ⟨Rect.unit (s := S8192) (k0_off5 k 0#32) S16.size i0, w0⟩]
      = fun y => if 64 * k.val ≤ (y 0).val ∧ (y 0).val < 64 * k.val + 64 then G y else a y :=
  funext fun y => t3_read_writes (s3W).view a G k i0 i1 i2 i3 w0 w1 w2 w3 hw0 hw1 hw2 hw3 y

theorem t5_writes_s2 (k : Fin k0_t5_loop.trips) (a : (s2W).view.ty.Contents (Elt F)) (G : S8192.Idx → Elt F .f32)
    (i0 : ∀ a, k0_off14 k 0#32 a + S16.size a ≤ S8192.size a) (i1 : ∀ a, k0_off15 k 16#32 a + S16.size a ≤ S8192.size a)
    (i2 : ∀ a, k0_off16 k 32#32 a + S16.size a ≤ S8192.size a) (i3 : ∀ a, k0_off17 k a + S16.size a ≤ S8192.size a)
    (w0 : (Rect.unit (s := S8192) (k0_off14 k 0#32) S16.size i0).shape.Idx → Elt F .f32)
    (w1 : (Rect.unit (s := S8192) (k0_off15 k 16#32) S16.size i1).shape.Idx → Elt F .f32)
    (w2 : (Rect.unit (s := S8192) (k0_off16 k 32#32) S16.size i2).shape.Idx → Elt F .f32)
    (w3 : (Rect.unit (s := S8192) (k0_off17 k) S16.size i3).shape.Idx → Elt F .f32)
    (hw0 : ∀ x, w0 x = G ((Rect.unit (s := S8192) (k0_off14 k 0#32) S16.size i0).emb x))
    (hw1 : ∀ x, w1 x = G ((Rect.unit (s := S8192) (k0_off15 k 16#32) S16.size i1).emb x))
    (hw2 : ∀ x, w2 x = G ((Rect.unit (s := S8192) (k0_off16 k 32#32) S16.size i2).emb x))
    (hw3 : ∀ x, w3 x = G ((Rect.unit (s := S8192) (k0_off17 k) S16.size i3).emb x)) :
    (s2W).view.writes (Elt F) a [⟨Rect.unit (s := S8192) (k0_off17 k) S16.size i3, w3⟩, ⟨Rect.unit (s := S8192) (k0_off16 k 32#32) S16.size i2, w2⟩,
        ⟨Rect.unit (s := S8192) (k0_off15 k 16#32) S16.size i1, w1⟩, ⟨Rect.unit (s := S8192) (k0_off14 k 0#32) S16.size i0, w0⟩]
      = fun y => if 64 * k.val ≤ (y 0).val ∧ (y 0).val < 64 * k.val + 64 then G y else a y :=
  funext fun y => t5_read_writes (s2W).view a G k i0 i1 i2 i3 w0 w1 w2 w3 hw0 hw1 hw2 hw3 y

theorem t6_writes_s2 (k : Fin k0_t6_loop.trips) (a : (s2W).view.ty.Contents (Elt F)) (G : S8192.Idx → Elt F .f32)
    (i0 : ∀ a, k0_off21 k 0#32 a + S16.size a ≤ S8192.size a) (i1 : ∀ a, k0_off22 k 16#32 a + S16.size a ≤ S8192.size a)
    (i2 : ∀ a, k0_off23 k 32#32 a + S16.size a ≤ S8192.size a) (i3 : ∀ a, k0_off24 k a + S16.size a ≤ S8192.size a)
    (w0 : (Rect.unit (s := S8192) (k0_off21 k 0#32) S16.size i0).shape.Idx → Elt F .f32)
    (w1 : (Rect.unit (s := S8192) (k0_off22 k 16#32) S16.size i1).shape.Idx → Elt F .f32)
    (w2 : (Rect.unit (s := S8192) (k0_off23 k 32#32) S16.size i2).shape.Idx → Elt F .f32)
    (w3 : (Rect.unit (s := S8192) (k0_off24 k) S16.size i3).shape.Idx → Elt F .f32)
    (hw0 : ∀ x, w0 x = G ((Rect.unit (s := S8192) (k0_off21 k 0#32) S16.size i0).emb x))
    (hw1 : ∀ x, w1 x = G ((Rect.unit (s := S8192) (k0_off22 k 16#32) S16.size i1).emb x))
    (hw2 : ∀ x, w2 x = G ((Rect.unit (s := S8192) (k0_off23 k 32#32) S16.size i2).emb x))
    (hw3 : ∀ x, w3 x = G ((Rect.unit (s := S8192) (k0_off24 k) S16.size i3).emb x)) :
    (s2W).view.writes (Elt F) a [⟨Rect.unit (s := S8192) (k0_off24 k) S16.size i3, w3⟩, ⟨Rect.unit (s := S8192) (k0_off23 k 32#32) S16.size i2, w2⟩,
        ⟨Rect.unit (s := S8192) (k0_off22 k 16#32) S16.size i1, w1⟩, ⟨Rect.unit (s := S8192) (k0_off21 k 0#32) S16.size i0, w0⟩]
      = fun y => if 64 * k.val ≤ (y 0).val ∧ (y 0).val < 64 * k.val + 64 then G y else a y :=
  funext fun y => t6_read_writes (s2W).view a G k i0 i1 i2 i3 w0 w1 w2 w3 hw0 hw1 hw2 hw3 y

end Whole

/-! ## The same with only the offsets' and sizes' values on the one axis given -/

section GenericAt
variable {sig : RefSig} {κ : Kind} {sp : Space} {e : EltTy} {Val : EltTy → Type} {n : ℕ}

theorem mem_unit1' (off size : Fin 1 → ℕ) (inb : ∀ a, off a + size a ≤ (⟨1, ![n]⟩ : Shape).size a) (o z : ℕ)
    (ho : off 0 = o) (hz : size 0 = z) (y : (⟨1, ![n]⟩ : Shape).Idx) :
    y ∈ (Rect.unit (s := ⟨1, ![n]⟩) off size inb).set ↔ o ≤ (y 0).val ∧ (y 0).val < o + z := by
  rw [Rect.mem_set_unit]
  constructor
  · intro h
    have := h 0
    rw [ho, hz] at this
    exact this
  · intro h a
    obtain rfl : a = 0 := Subsingleton.elim _ _
    rw [ho, hz]
    exact h

theorem emb_unit1_val' (off size : Fin 1 → ℕ) (inb : ∀ a, off a + size a ≤ (⟨1, ![n]⟩ : Shape).size a) (o : ℕ)
    (ho : off 0 = o) (x : (Rect.unit (s := ⟨1, ![n]⟩) off size inb).shape.Idx) :
    (((Rect.unit (s := ⟨1, ![n]⟩) off size inb).emb x) 0).val = o + (x 0).val := by
  show off 0 + 1 * (x 0).val = o + (x 0).val
  rw [Nat.one_mul, ho]

theorem read_writes1' (v : View sig κ sp ⟨1, ![n]⟩ e) (a : v.ty.Contents Val) (G : (⟨1, ![n]⟩ : Shape).Idx → Val e) (o z : ℕ)
    (off0 sz0 : Fin 1 → ℕ) (inb0 : ∀ a, off0 a + sz0 a ≤ (⟨1, ![n]⟩ : Shape).size a)
    (w0 : (Rect.unit (s := ⟨1, ![n]⟩) off0 sz0 inb0).shape.Idx → Val e)
    (h0 : off0 0 = o) (hs0 : sz0 0 = z)
    (hw0 : ∀ x, w0 x = G ((Rect.unit (s := ⟨1, ![n]⟩) off0 sz0 inb0).emb x)) (y : (⟨1, ![n]⟩ : Shape).Idx) :
    v.read Val (v.writes Val a [⟨Rect.unit (s := ⟨1, ![n]⟩) off0 sz0 inb0, w0⟩]) y
      = if o ≤ (y 0).val ∧ (y 0).val < o + z then G y else v.read Val a y := by
  refine Cert.Proof.Writes.read_writes_closed v a G _ ?_ (fun y => o ≤ (y 0).val ∧ (y 0).val < o + z) ?_ y
  · intro p hp
    obtain rfl : p = ⟨Rect.unit (s := ⟨1, ![n]⟩) off0 sz0 inb0, w0⟩ := List.mem_singleton.mp hp
    exact hw0
  · intro y
    constructor
    · intro h
      exact ⟨_, List.mem_singleton.mpr rfl, (mem_unit1' off0 sz0 inb0 o z h0 hs0 y).mpr h⟩
    · rintro ⟨p, hp, hy⟩
      obtain rfl : p = ⟨Rect.unit (s := ⟨1, ![n]⟩) off0 sz0 inb0, w0⟩ := List.mem_singleton.mp hp
      exact (mem_unit1' off0 sz0 inb0 o z h0 hs0 y).mp hy

theorem read_writes4' (v : View sig κ sp ⟨1, ![n]⟩ e) (a : v.ty.Contents Val) (G : (⟨1, ![n]⟩ : Shape).Idx → Val e) (o : ℕ)
    (off0 off1 off2 off3 sz0 sz1 sz2 sz3 : Fin 1 → ℕ)
    (inb0 : ∀ a, off0 a + sz0 a ≤ (⟨1, ![n]⟩ : Shape).size a) (inb1 : ∀ a, off1 a + sz1 a ≤ (⟨1, ![n]⟩ : Shape).size a)
    (inb2 : ∀ a, off2 a + sz2 a ≤ (⟨1, ![n]⟩ : Shape).size a) (inb3 : ∀ a, off3 a + sz3 a ≤ (⟨1, ![n]⟩ : Shape).size a)
    (w0 : (Rect.unit (s := ⟨1, ![n]⟩) off0 sz0 inb0).shape.Idx → Val e) (w1 : (Rect.unit (s := ⟨1, ![n]⟩) off1 sz1 inb1).shape.Idx → Val e)
    (w2 : (Rect.unit (s := ⟨1, ![n]⟩) off2 sz2 inb2).shape.Idx → Val e) (w3 : (Rect.unit (s := ⟨1, ![n]⟩) off3 sz3 inb3).shape.Idx → Val e)
    (h0 : off0 0 = o) (h1 : off1 0 = o + 16) (h2 : off2 0 = o + 32) (h3 : off3 0 = o + 48)
    (hs0 : sz0 0 = 16) (hs1 : sz1 0 = 16) (hs2 : sz2 0 = 16) (hs3 : sz3 0 = 16)
    (hw0 : ∀ x, w0 x = G ((Rect.unit (s := ⟨1, ![n]⟩) off0 sz0 inb0).emb x))
    (hw1 : ∀ x, w1 x = G ((Rect.unit (s := ⟨1, ![n]⟩) off1 sz1 inb1).emb x))
    (hw2 : ∀ x, w2 x = G ((Rect.unit (s := ⟨1, ![n]⟩) off2 sz2 inb2).emb x))
    (hw3 : ∀ x, w3 x = G ((Rect.unit (s := ⟨1, ![n]⟩) off3 sz3 inb3).emb x)) (y : (⟨1, ![n]⟩ : Shape).Idx) :
    v.read Val (v.writes Val a [⟨Rect.unit (s := ⟨1, ![n]⟩) off3 sz3 inb3, w3⟩, ⟨Rect.unit (s := ⟨1, ![n]⟩) off2 sz2 inb2, w2⟩,
        ⟨Rect.unit (s := ⟨1, ![n]⟩) off1 sz1 inb1, w1⟩, ⟨Rect.unit (s := ⟨1, ![n]⟩) off0 sz0 inb0, w0⟩]) y
      = if o ≤ (y 0).val ∧ (y 0).val < o + 64 then G y else v.read Val a y := by
  have m0 := mem_unit1' off0 sz0 inb0 o 16 h0 hs0
  have m1 := mem_unit1' off1 sz1 inb1 (o + 16) 16 h1 hs1
  have m2 := mem_unit1' off2 sz2 inb2 (o + 32) 16 h2 hs2
  have m3 := mem_unit1' off3 sz3 inb3 (o + 48) 16 h3 hs3
  refine Cert.Proof.Writes.read_writes_closed v a G _ ?_ (fun y => o ≤ (y 0).val ∧ (y 0).val < o + 64) ?_ y
  · intro p hp
    simp only [List.mem_cons, List.not_mem_nil, or_false] at hp
    rcases hp with rfl | rfl | rfl | rfl
    · exact hw3
    · exact hw2
    · exact hw1
    · exact hw0
  · intro y
    constructor
    · intro h
      by_cases c1 : (y 0).val < o + 16
      · exact ⟨⟨Rect.unit (s := ⟨1, ![n]⟩) off0 sz0 inb0, w0⟩, .tail _ (.tail _ (.tail _ (.head _))), (m0 y).mpr ⟨h.1, by omega⟩⟩
      · by_cases c2 : (y 0).val < o + 32
        · exact ⟨⟨Rect.unit (s := ⟨1, ![n]⟩) off1 sz1 inb1, w1⟩, .tail _ (.tail _ (.head _)), (m1 y).mpr ⟨by omega, by omega⟩⟩
        · by_cases c3 : (y 0).val < o + 48
          · exact ⟨⟨Rect.unit (s := ⟨1, ![n]⟩) off2 sz2 inb2, w2⟩, .tail _ (.head _), (m2 y).mpr ⟨by omega, by omega⟩⟩
          · exact ⟨⟨Rect.unit (s := ⟨1, ![n]⟩) off3 sz3 inb3, w3⟩, .head _, (m3 y).mpr ⟨by omega, by omega⟩⟩
    · rintro ⟨p, hp, hy⟩
      simp only [List.mem_cons, List.not_mem_nil, or_false] at hp
      rcases hp with rfl | rfl | rfl | rfl
      · have := (m3 y).mp hy; constructor <;> omega
      · have := (m2 y).mp hy; constructor <;> omega
      · have := (m1 y).mp hy; constructor <;> omega
      · have := (m0 y).mp hy; constructor <;> omega

end GenericAt

/-! ## Pointwise, for the two accumulator scratches read whole; offsets, sizes and in-bounds evidence all free -/

section Scratch
variable {F : FTy → Type}

local notation "s2W" => (Memref.whole Cert.KernelIdeal.cc0_scratch2 : Memref Cert.KernelIdeal.sig Kind.scVector Space.vmem Cert.KernelIdeal.S8192 EltTy.f32)
local notation "s3W" => (Memref.whole Cert.KernelIdeal.cc0_scratch3 : Memref Cert.KernelIdeal.sig Kind.scVector Space.vmem Cert.KernelIdeal.S8192 EltTy.f32)

theorem s2_writes1 (a G : S8192.Idx → F .f32) (o z : ℕ) (off0 sz0 : Fin 1 → ℕ) (inb0 : ∀ a, off0 a + sz0 a ≤ S8192.size a)
    (w0 : (Rect.unit (s := S8192) off0 sz0 inb0).shape.Idx → F .f32) (h0 : off0 0 = o) (hs0 : sz0 0 = z)
    (hw0 : ∀ x, w0 x = G ((Rect.unit (s := S8192) off0 sz0 inb0).emb x)) (y : S8192.Idx) :
    (s2W).view.writes (Elt F) a [⟨Rect.unit (s := S8192) off0 sz0 inb0, w0⟩] y
      = if o ≤ (y 0).val ∧ (y 0).val < o + z then G y else a y :=
  read_writes1' (Val := Elt F) (s2W).view a G o z off0 sz0 inb0 w0 h0 hs0 hw0 y

theorem s2_writes4 (a G : S8192.Idx → F .f32) (o : ℕ) (off0 off1 off2 off3 sz0 sz1 sz2 sz3 : Fin 1 → ℕ)
    (inb0 : ∀ a, off0 a + sz0 a ≤ S8192.size a) (inb1 : ∀ a, off1 a + sz1 a ≤ S8192.size a)
    (inb2 : ∀ a, off2 a + sz2 a ≤ S8192.size a) (inb3 : ∀ a, off3 a + sz3 a ≤ S8192.size a)
    (w0 : (Rect.unit (s := S8192) off0 sz0 inb0).shape.Idx → F .f32) (w1 : (Rect.unit (s := S8192) off1 sz1 inb1).shape.Idx → F .f32)
    (w2 : (Rect.unit (s := S8192) off2 sz2 inb2).shape.Idx → F .f32) (w3 : (Rect.unit (s := S8192) off3 sz3 inb3).shape.Idx → F .f32)
    (h0 : off0 0 = o) (h1 : off1 0 = o + 16) (h2 : off2 0 = o + 32) (h3 : off3 0 = o + 48)
    (hs0 : sz0 0 = 16) (hs1 : sz1 0 = 16) (hs2 : sz2 0 = 16) (hs3 : sz3 0 = 16)
    (hw0 : ∀ x, w0 x = G ((Rect.unit (s := S8192) off0 sz0 inb0).emb x))
    (hw1 : ∀ x, w1 x = G ((Rect.unit (s := S8192) off1 sz1 inb1).emb x))
    (hw2 : ∀ x, w2 x = G ((Rect.unit (s := S8192) off2 sz2 inb2).emb x))
    (hw3 : ∀ x, w3 x = G ((Rect.unit (s := S8192) off3 sz3 inb3).emb x)) (y : S8192.Idx) :
    (s2W).view.writes (Elt F) a [⟨Rect.unit (s := S8192) off3 sz3 inb3, w3⟩, ⟨Rect.unit (s := S8192) off2 sz2 inb2, w2⟩,
        ⟨Rect.unit (s := S8192) off1 sz1 inb1, w1⟩, ⟨Rect.unit (s := S8192) off0 sz0 inb0, w0⟩] y
      = if o ≤ (y 0).val ∧ (y 0).val < o + 64 then G y else a y :=
  read_writes4' (Val := Elt F) (s2W).view a G o off0 off1 off2 off3 sz0 sz1 sz2 sz3 inb0 inb1 inb2 inb3 w0 w1 w2 w3
    h0 h1 h2 h3 hs0 hs1 hs2 hs3 hw0 hw1 hw2 hw3 y

theorem s3_writes1 (a G : S8192.Idx → F .f32) (o z : ℕ) (off0 sz0 : Fin 1 → ℕ) (inb0 : ∀ a, off0 a + sz0 a ≤ S8192.size a)
    (w0 : (Rect.unit (s := S8192) off0 sz0 inb0).shape.Idx → F .f32) (h0 : off0 0 = o) (hs0 : sz0 0 = z)
    (hw0 : ∀ x, w0 x = G ((Rect.unit (s := S8192) off0 sz0 inb0).emb x)) (y : S8192.Idx) :
    (s3W).view.writes (Elt F) a [⟨Rect.unit (s := S8192) off0 sz0 inb0, w0⟩] y
      = if o ≤ (y 0).val ∧ (y 0).val < o + z then G y else a y :=
  read_writes1' (Val := Elt F) (s3W).view a G o z off0 sz0 inb0 w0 h0 hs0 hw0 y

theorem s3_writes4 (a G : S8192.Idx → F .f32) (o : ℕ) (off0 off1 off2 off3 sz0 sz1 sz2 sz3 : Fin 1 → ℕ)
    (inb0 : ∀ a, off0 a + sz0 a ≤ S8192.size a) (inb1 : ∀ a, off1 a + sz1 a ≤ S8192.size a)
    (inb2 : ∀ a, off2 a + sz2 a ≤ S8192.size a) (inb3 : ∀ a, off3 a + sz3 a ≤ S8192.size a)
    (w0 : (Rect.unit (s := S8192) off0 sz0 inb0).shape.Idx → F .f32) (w1 : (Rect.unit (s := S8192) off1 sz1 inb1).shape.Idx → F .f32)
    (w2 : (Rect.unit (s := S8192) off2 sz2 inb2).shape.Idx → F .f32) (w3 : (Rect.unit (s := S8192) off3 sz3 inb3).shape.Idx → F .f32)
    (h0 : off0 0 = o) (h1 : off1 0 = o + 16) (h2 : off2 0 = o + 32) (h3 : off3 0 = o + 48)
    (hs0 : sz0 0 = 16) (hs1 : sz1 0 = 16) (hs2 : sz2 0 = 16) (hs3 : sz3 0 = 16)
    (hw0 : ∀ x, w0 x = G ((Rect.unit (s := S8192) off0 sz0 inb0).emb x))
    (hw1 : ∀ x, w1 x = G ((Rect.unit (s := S8192) off1 sz1 inb1).emb x))
    (hw2 : ∀ x, w2 x = G ((Rect.unit (s := S8192) off2 sz2 inb2).emb x))
    (hw3 : ∀ x, w3 x = G ((Rect.unit (s := S8192) off3 sz3 inb3).emb x)) (y : S8192.Idx) :
    (s3W).view.writes (Elt F) a [⟨Rect.unit (s := S8192) off3 sz3 inb3, w3⟩, ⟨Rect.unit (s := S8192) off2 sz2 inb2, w2⟩,
        ⟨Rect.unit (s := S8192) off1 sz1 inb1, w1⟩, ⟨Rect.unit (s := S8192) off0 sz0 inb0, w0⟩] y
      = if o ≤ (y 0).val ∧ (y 0).val < o + 64 then G y else a y :=
  read_writes4' (Val := Elt F) (s3W).view a G o off0 off1 off2 off3 sz0 sz1 sz2 sz3 inb0 inb1 inb2 inb3 w0 w1 w2 w3
    h0 h1 h2 h3 hs0 hs1 hs2 hs3 hw0 hw1 hw2 hw3 y

end Scratch

/-! ## The loops' closed forms, a trip at a time -/

section Arith
variable {F : FTy → Type} [FloatOps F]

/-- A trip of a gather-and-add loop: the sum on [64·k, 64·k + 64) over the contents after k trips is the contents after k + 1. -/
theorem addUpTo_step (g a : S8192.Idx → F .f32) (k : ℕ) (y : S8192.Idx) :
    (if 64 * k ≤ (y 0).val ∧ (y 0).val < 64 * k + 64 then FloatOps.addf (addUpTo g k a y) (g y) else addUpTo g k a y)
      = addUpTo g (k + 1) a y := by
  unfold addUpTo
  by_cases h1 : (y 0).val < 64 * k
  · rw [if_neg (by omega), if_pos h1, if_pos (by omega)]
  · by_cases h2 : (y 0).val < 64 * k + 64
    · rw [if_pos ⟨by omega, h2⟩, if_neg h1, if_pos (by omega)]
    · rw [if_neg (by omega), if_neg h1, if_neg (by omega)]

/-- A trip of a zeroing loop. -/
theorem zeroUpTo_step (a : S8192.Idx → F .f32) (k : ℕ) (y : S8192.Idx) :
    (if 16 * k ≤ (y 0).val ∧ (y 0).val < 16 * k + 16 then (fzero : F .f32) else zeroUpTo k a y) = zeroUpTo (k + 1) a y := by
  unfold zeroUpTo
  by_cases h1 : (y 0).val < 16 * k
  · rw [if_neg (by omega), if_pos h1, if_pos (by omega)]
  · by_cases h2 : (y 0).val < 16 * k + 16
    · rw [if_pos ⟨by omega, h2⟩, if_pos (by omega)]
    · rw [if_neg (by omega), if_neg h1, if_neg (by omega)]

end Arith

end Cert.Proof.KernelIdeal

end
-- ==== Proof.KernelIdeal.TileTripV.lean ====
/-
  One trip of each of the accumulation kernel's counted loops, with values: a trip of a zeroing loop zeroes sixteen more
  lanes; a trip of a gather loop adds, on sixty-four more lanes, the row scratch's word at the index scratch's word (and, in
  the factor loop, its square into the second accumulator).
-/
import proofs.«207209_g54674933678763_cont_9to1_m_278_38_alg».proof.Proof.KernelIdeal.TileTripF
import proofs.«207209_g54674933678763_cont_9to1_m_278_38_alg».proof.Proof.KernelIdeal.TileArith
import proofs.«207209_g54674933678763_cont_9to1_m_278_38_alg».proof.Proof.KernelIdeal.TileWrites

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "v2W" => (Memref.whole Cert.KernelIdeal.main_v2_scv : Memref Cert.KernelIdeal.sig Kind.scVector Space.hbm Cert.KernelIdeal.S26x16x100000 EltTy.f32)
local notation "v3W" => (Memref.whole Cert.KernelIdeal.main_v3_scv : Memref Cert.KernelIdeal.sig Kind.scVector Space.hbm Cert.KernelIdeal.S26x1x100000 EltTy.f32)
local notation "v1W" => (Memref.whole Cert.KernelIdeal.main_v1_scv : Memref Cert.KernelIdeal.sig Kind.scVector Space.hbm Cert.KernelIdeal.S425984 EltTy.i32)
local notation "v4W" => (Memref.whole Cert.KernelIdeal.main_v4_scv : Memref Cert.KernelIdeal.sig Kind.scVector Space.hbm Cert.KernelIdeal.S786432 EltTy.f32)
local notation "s0W" => (Memref.whole Cert.KernelIdeal.cc0_scratch0 : Memref Cert.KernelIdeal.sig Kind.scVector Space.vmem Cert.KernelIdeal.S100000 EltTy.f32)
local notation "s1W" => (Memref.whole Cert.KernelIdeal.cc0_scratch1 : Memref Cert.KernelIdeal.sig Kind.scVector Space.vmem Cert.KernelIdeal.S8192 EltTy.i32)
local notation "s2W" => (Memref.whole Cert.KernelIdeal.cc0_scratch2 : Memref Cert.KernelIdeal.sig Kind.scVector Space.vmem Cert.KernelIdeal.S8192 EltTy.f32)
local notation "s3W" => (Memref.whole Cert.KernelIdeal.cc0_scratch3 : Memref Cert.KernelIdeal.sig Kind.scVector Space.vmem Cert.KernelIdeal.S8192 EltTy.f32)

/-- A buffer held at contents equal to others is held at those. -/
theorem s2At_of_eq {X Y : Buf (Elt F) ((thrV d L).loc cc0_scratch2)} (h : X = Y) : s2At d L X ⊢ (s2At d L Y : sProp 𝕄) := h ▸ .rfl
theorem s3At_of_eq {X Y : Buf (Elt F) ((thrV d L).loc cc0_scratch3)} (h : X = Y) : s3At d L X ⊢ (s3At d L Y : sProp 𝕄) := h ▸ .rfl

/-! ## The zeroing loops -/

/-- A trip of the zeroing loop over both accumulators. -/
theorem trip1V (k : Fin k0_t1_loop.trips)
    (a0 : Buf (Elt F) ((thrV d L).loc cc0_scratch2)) (b0 : Buf (Elt F) ((thrV d L).loc cc0_scratch3)) :
    iprop(s2At d L (zeroUpTo k.val a0) ∗ s3At d L (zeroUpTo k.val b0))
      ⊢ wp frame (wpE (defs₀ (F := F)) 𝒱₀ (thrV d L) none) Set.univ
          (k0_t1_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s2At d L (zeroUpTo (k.val + 1) a0) ∗ s3At d L (zeroUpTo (k.val + 1) b0)) := by
  unfold k0_t1_body
  iintro ⟨H2, H3⟩
  sl_exec
  sl_step
  isplitl [H2]
  · iapply (s2At_of_eq d L ?_)
    swap
    · iexact H2
    exact (t1_writes_s2 k _ (fun _ => fzero) _ _ (fun x => rfl)).trans (funext fun y => zeroUpTo_step a0 k.val y)
  · iapply (s3At_of_eq d L ?_)
    swap
    · iexact H3
    exact (t1_writes_s3 k _ (fun _ => fzero) _ _ (fun x => rfl)).trans (funext fun y => zeroUpTo_step b0 k.val y)

/-- A trip of the zeroing loop over the first accumulator. -/
theorem trip4V (k : Fin k0_t4_loop.trips) (a0 : Buf (Elt F) ((thrV d L).loc cc0_scratch2)) :
    s2At d L (zeroUpTo k.val a0)
      ⊢ wp frame (wpE (defs₀ (F := F)) 𝒱₀ (thrV d L) none) Set.univ
          (k0_t4_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => s2At d L (zeroUpTo (k.val + 1) a0) := by
  unfold k0_t4_body
  iintro H2
  sl_exec
  sl_step
  iapply (s2At_of_eq d L ?_)
  swap
  · iexact H2
  exact (t4_writes_s2 k _ (fun _ => fzero) _ _ (fun x => rfl)).trans (funext fun y => zeroUpTo_step a0 k.val y)

/-! ## The gather loops -/

/-- A trip of the factor loop: on sixty-four more lanes the gathered word is added into the first accumulator and its square
    into the second. -/
theorem trip3V (Pf : Buf (Elt F) ((thrV d L).loc cc0_scratch0)) (If : Buf (Elt F) ((thrV d L).loc cc0_scratch1))
    (hI : ∀ y, (If y).toNat < 100000) (k : Fin k0_t3_loop.trips)
    (a0 : Buf (Elt F) ((thrV d L).loc cc0_scratch2)) (b0 : Buf (Elt F) ((thrV d L).loc cc0_scratch3)) :
    iprop(s0At d L Pf ∗ s1At d L If ∗ s2At d L (addUpTo (gath Pf If) k.val a0) ∗ s3At d L (addUpTo (sqr (gath Pf If)) k.val b0))
      ⊢ wp frame (wpE (defs₀ (F := F)) 𝒱₀ (thrV d L) none) Set.univ
          (k0_t3_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ s2At d L (addUpTo (gath Pf If) (k.val + 1) a0) ∗ s3At d L (addUpTo (sqr (gath Pf If)) (k.val + 1) b0)) := by
  have o0 : k0_off4 k = k0_off5 k 0#32 := (k0_off4_eq k).trans (k0_off5_eq k 0).symm
  have o1 : k0_off5 k 16#32 = k0_off6 k 16#32 := (k0_off5_eq k 1).trans (k0_off6_eq k 0).symm
  have o2 : k0_off6 k 32#32 = k0_off7 k 32#32 := (k0_off6_eq k 1).trans (k0_off7_eq k 0).symm
  have o3 : k0_off7 k 48#32 = k0_off8 k := (k0_off7_eq k 1).trans (k0_off8_eq k).symm
  unfold k0_t3_body
  simp only [k0_part1_eq_skeleton]; unfold k0_part1_skel
  unfold SparseCore.vectorLoadIdx
  iintro ⟨H0, H1, H2, H3⟩
  sl_exec (disch := (intro a x; obtain rfl : a = 0 := Subsingleton.elim _ _; exact hI _))
  sl_step
  isplitl [H0]; · iexact H0
  isplitl [H1]; · iexact H1
  isplitl [H2]
  · iapply (s2At_of_eq d L ?_)
    swap
    · iexact H2
    refine (t3_writes_s2 k _ (fun y => FloatOps.addf (addUpTo (gath Pf If) k.val a0 y) (gath Pf If y)) _ _ _ _ _ _ _ _
      (fun x => ?_) (fun x => ?_) (fun x => ?_) (fun x => ?_)).trans (funext fun y => addUpTo_step (gath Pf If) a0 k.val y)
    · exact congrArg₂ FloatOps.addf rfl (gath_piece Pf If hI _ _ _ _ _ _ o0 rfl _ x x rfl)
    · exact congrArg₂ FloatOps.addf rfl (gath_piece Pf If hI _ _ _ _ _ _ o1 rfl _ x x rfl)
    · exact congrArg₂ FloatOps.addf rfl (gath_piece Pf If hI _ _ _ _ _ _ o2 rfl _ x x rfl)
    · exact congrArg₂ FloatOps.addf rfl (gath_piece Pf If hI _ _ _ _ _ _ o3 rfl _ x x rfl)
  · iapply (s3At_of_eq d L ?_)
    swap
    · iexact H3
    refine (t3_writes_s3 k _ (fun y => FloatOps.addf (addUpTo (sqr (gath Pf If)) k.val b0 y) (sqr (gath Pf If) y)) _ _ _ _ _ _ _ _
      (fun x => ?_) (fun x => ?_) (fun x => ?_) (fun x => ?_)).trans (funext fun y => addUpTo_step (sqr (gath Pf If)) b0 k.val y)
    · have e := gath_piece Pf If hI _ _ _ _ _ _ o0 rfl (fun a x' => by obtain rfl : a = 0 := Subsingleton.elim _ _; exact hI _) x x rfl
      exact congrArg₂ FloatOps.addf rfl (congrArg₂ FloatOps.mulf e e)
    · have e := gath_piece Pf If hI _ _ _ _ _ _ o1 rfl (fun a x' => by obtain rfl : a = 0 := Subsingleton.elim _ _; exact hI _) x x rfl
      exact congrArg₂ FloatOps.addf rfl (congrArg₂ FloatOps.mulf e e)
    · have e := gath_piece Pf If hI _ _ _ _ _ _ o2 rfl (fun a x' => by obtain rfl : a = 0 := Subsingleton.elim _ _; exact hI _) x x rfl
      exact congrArg₂ FloatOps.addf rfl (congrArg₂ FloatOps.mulf e e)
    · have e := gath_piece Pf If hI _ _ _ _ _ _ o3 rfl (fun a x' => by obtain rfl : a = 0 := Subsingleton.elim _ _; exact hI _) x x rfl
      exact congrArg₂ FloatOps.addf rfl (congrArg₂ FloatOps.mulf e e)

/-- A trip of the first linear loop: on sixty-four more lanes the gathered word is added into the accumulator. -/
theorem trip5V (Pf : Buf (Elt F) ((thrV d L).loc cc0_scratch0)) (If : Buf (Elt F) ((thrV d L).loc cc0_scratch1))
    (hI : ∀ y, (If y).toNat < 100000) (k : Fin k0_t5_loop.trips) (a0 : Buf (Elt F) ((thrV d L).loc cc0_scratch2)) :
    iprop(s0At d L Pf ∗ s1At d L If ∗ s2At d L (addUpTo (gath Pf If) k.val a0))
      ⊢ wp frame (wpE (defs₀ (F := F)) 𝒱₀ (thrV d L) none) Set.univ
          (k0_t5_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ s2At d L (addUpTo (gath Pf If) (k.val + 1) a0)) := by
  have o0 : k0_off13 k = k0_off14 k 0#32 := (k0_off13_eq k).trans (k0_off14_eq k 0).symm
  have o1 : k0_off14 k 16#32 = k0_off15 k 16#32 := (k0_off14_eq k 1).trans (k0_off15_eq k 0).symm
  have o2 : k0_off15 k 32#32 = k0_off16 k 32#32 := (k0_off15_eq k 1).trans (k0_off16_eq k 0).symm
  have o3 : k0_off16 k 48#32 = k0_off17 k := (k0_off16_eq k 1).trans (k0_off17_eq k).symm
  unfold k0_t5_body
  unfold SparseCore.vectorLoadIdx
  iintro ⟨H0, H1, H2⟩
  sl_exec (disch := (intro a x; obtain rfl : a = 0 := Subsingleton.elim _ _; exact hI _))
  sl_step
  isplitl [H0]; · iexact H0
  isplitl [H1]; · iexact H1
  iapply (s2At_of_eq d L ?_)
  swap
  · iexact H2
  refine (t5_writes_s2 k _ (fun y => FloatOps.addf (addUpTo (gath Pf If) k.val a0 y) (gath Pf If y)) _ _ _ _ _ _ _ _
    (fun x => ?_) (fun x => ?_) (fun x => ?_) (fun x => ?_)).trans (funext fun y => addUpTo_step (gath Pf If) a0 k.val y)
  · exact congrArg₂ FloatOps.addf rfl (gath_piece Pf If hI _ _ _ _ _ _ o0 rfl _ x x rfl)
  · exact congrArg₂ FloatOps.addf rfl (gath_piece Pf If hI _ _ _ _ _ _ o1 rfl _ x x rfl)
  · exact congrArg₂ FloatOps.addf rfl (gath_piece Pf If hI _ _ _ _ _ _ o2 rfl _ x x rfl)
  · exact congrArg₂ FloatOps.addf rfl (gath_piece Pf If hI _ _ _ _ _ _ o3 rfl _ x x rfl)

/-- A trip of the second linear loop (run when the subcore has a second field). -/
theorem trip6V (h1 : k0_cond1 L = 1#1) (Pf : Buf (Elt F) ((thrV d L).loc cc0_scratch0)) (If : Buf (Elt F) ((thrV d L).loc cc0_scratch1))
    (hI : ∀ y, (If y).toNat < 100000) (k : Fin k0_t6_loop.trips) (a0 : Buf (Elt F) ((thrV d L).loc cc0_scratch2)) :
    iprop(s0At d L Pf ∗ s1At d L If ∗ s2At d L (addUpTo (gath Pf If) k.val a0))
      ⊢ wp frame (wpE (defs₀ (F := F)) 𝒱₀ (thrV d L) none) Set.univ
          (k0_t6_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 h1 k ⟨⟩)
          fun _ => iprop(s0At d L Pf ∗ s1At d L If ∗ s2At d L (addUpTo (gath Pf If) (k.val + 1) a0)) := by
  have o0 : k0_off20 k = k0_off21 k 0#32 := (k0_off20_eq k).trans (k0_off21_eq k 0).symm
  have o1 : k0_off21 k 16#32 = k0_off22 k 16#32 := (k0_off21_eq k 1).trans (k0_off22_eq k 0).symm
  have o2 : k0_off22 k 32#32 = k0_off23 k 32#32 := (k0_off22_eq k 1).trans (k0_off23_eq k 0).symm
  have o3 : k0_off23 k 48#32 = k0_off24 k := (k0_off23_eq k 1).trans (k0_off24_eq k).symm
  unfold k0_t6_body
  unfold SparseCore.vectorLoadIdx
  iintro ⟨H0, H1, H2⟩
  sl_exec (disch := first | (intro _ a x; obtain rfl : a = 0 := Subsingleton.elim _ _; exact hI _) | (intro a x; obtain rfl : a = 0 := Subsingleton.elim _ _; exact hI _))
  sl_step
  isplitl [H0]; · iexact H0
  isplitl [H1]; · iexact H1
  iapply (s2At_of_eq d L ?_)
  swap
  · iexact H2
  refine (t6_writes_s2 k _ (fun y => FloatOps.addf (addUpTo (gath Pf If) k.val a0 y) (gath Pf If y)) _ _ _ _ _ _ _ _
    (fun x => ?_) (fun x => ?_) (fun x => ?_) (fun x => ?_)).trans (funext fun y => addUpTo_step (gath Pf If) a0 k.val y)
  · exact congrArg₂ FloatOps.addf rfl (gath_piece Pf If hI _ _ _ _ _ _ o0 rfl _ x x rfl)
  · exact congrArg₂ FloatOps.addf rfl (gath_piece Pf If hI _ _ _ _ _ _ o1 rfl _ x x rfl)
  · exact congrArg₂ FloatOps.addf rfl (gath_piece Pf If hI _ _ _ _ _ _ o2 rfl _ x x rfl)
  · exact congrArg₂ FloatOps.addf rfl (gath_piece Pf If hI _ _ _ _ _ _ o3 rfl _ x x rfl)

end Cert.Proof.KernelIdeal

end
-- ==== Proof.KernelIdeal.TileFacts.lean ====
/-
  Pure facts about the accumulation kernel's task at a grid point: what its copies bring in, when it has a second linear
  field, and what its output copies leave.

  * The row copied for field f is row (f, t) of the transposed factor table, and the index words copied are the
    flattened index array from 16384·f + 8192·c on: so the indexed load of the row at the copied word for example y reads
    the factor component the task's value is defined by.  The same for the linear table at field t, and at field t + 16.
  * The task has a second linear field exactly when t + 16 < 26.
  * The j-th output copy writes its 8192 words at 393216·c + 131072·j + 8192·t; a word there is the task's j-th value at
    the word's position in the slice, which is what the whole accumulated output holds at that word.
-/
import proofs.«207209_g54674933678763_cont_9to1_m_278_38_alg».proof.Proof.KernelIdeal.TileArith
import proofs.«207209_g54674933678763_cont_9to1_m_278_38_alg».proof.Proof.Gen.KernelIdeal
import Idealize.ShloMosaic.Lib.Pipeline.Value
import Idealize.ShloMosaic.Lib.Writes

noncomputable section

namespace Cert.Proof.KernelIdeal

open Cert.KernelIdeal Cert.KernelIdeal.Gen

open Idealize.ShloMosaic Idealize.ShloMosaic.ValueIdx

variable {F : FTy → Type} [FloatOps F]

local notation "v2W" => (Memref.whole Cert.KernelIdeal.main_v2_scv : Memref Cert.KernelIdeal.sig Kind.scVector Space.hbm Cert.KernelIdeal.S26x16x100000 EltTy.f32)
local notation "v3W" => (Memref.whole Cert.KernelIdeal.main_v3_scv : Memref Cert.KernelIdeal.sig Kind.scVector Space.hbm Cert.KernelIdeal.S26x1x100000 EltTy.f32)
local notation "v1W" => (Memref.whole Cert.KernelIdeal.main_v1_scv : Memref Cert.KernelIdeal.sig Kind.scVector Space.hbm Cert.KernelIdeal.S425984 EltTy.i32)
local notation "v4W" => (Memref.whole Cert.KernelIdeal.main_v4_scv : Memref Cert.KernelIdeal.sig Kind.scVector Space.hbm Cert.KernelIdeal.S786432 EltTy.f32)

/-! ## The grid point's coordinates and the field counter, bounded -/

theorem L0_lt (L : grid0.Coords) : (L 0).val < 2 := (L 0).isLt
theorem L1_lt (L : grid0.Coords) : (L 1).val < 16 := (L 1).isLt
theorem t2_lt (f : Fin k0_t2_loop.trips) : f.val < 26 := lt_of_lt_of_le f.isLt k0_t2_abs.2.1

/-- The task has a second linear field exactly when t + 16 is a field. -/
theorem cond1_iff : ∀ L : grid0.Coords, k0_cond1 L = 1#1 ↔ (L 1).val + 16 < 26 := by decide +kernel

/-! ## A row of a table, copied -/

/-- The row the factor loop copies for field f: row (f, t) of the transposed factor table. -/
theorem rowFac_read (L : grid0.Coords) (f : Fin k0_t2_loop.trips) (A2 : S26x16x100000.Idx → F .f32) (v : Fin 100000) :
    (((v2W).slice (Rect.unit (s := S26x16x100000) (k0_off2 L f) S1x1x100000.size (k0_off2_inb L f)) (fun _ => rfl)).squeeze S100000
        squeezes_S1x1x100000_S100000).view.read (Elt F) A2 (ix1 v)
      = A2 (ix3 (⟨f.val, t2_lt f⟩ : Fin 26) (⟨(L 1).val, L1_lt L⟩ : Fin 16) v) := by
  have hc : (Rect.unit (s := S26x16x100000) (k0_off2 L f) S1x1x100000.size (k0_off2_inb L f)).shape.ShapeCasts S100000 :=
    squeezes_S1x1x100000_S100000.numel_eq
  refine (congrFun (Memref.read_squeeze_slice (Val := Elt F) (v2W) _ (fun _ => rfl) squeezes_S1x1x100000_S100000 hc A2) (ix1 v)).trans ?_
  refine (shapeCast_apply _ hc (ix1 v) (ix3 (0 : Fin 1) (0 : Fin 1) v) ?_).trans ?_
  · rw [Shape.rowMajor_val_three, Shape.rowMajor_val_one]
    show (0 * 1 + 0) * 100000 + v.val = v.val
    omega
  · show A2 _ = A2 _
    congr 1
    funext a
    apply Fin.ext
    have ho := k0_off2_eq L f
    match a with
    | ⟨0, _⟩ => show k0_off2 L f 0 + 1 * 0 = f.val; rw [ho]; rfl
    | ⟨1, _⟩ => show k0_off2 L f 1 + 1 * 0 = (L 1).val; rw [ho]; rfl
    | ⟨2, _⟩ => show k0_off2 L f 2 + 1 * v.val = v.val; rw [ho]; show 0 + 1 * v.val = v.val; omega

/-- The row the first linear loop copies: row t of the transposed linear table. -/
theorem rowLin_read (L : grid0.Coords) (A3 : S26x1x100000.Idx → F .f32) (v : Fin 100000) :
    (((v3W).slice (Rect.unit (s := S26x1x100000) (k0_off11 L) S1x1x100000.size (k0_off11_inb L)) (fun _ => rfl)).squeeze S100000
        squeezes_S1x1x100000_S100000).view.read (Elt F) A3 (ix1 v)
      = A3 (ix3 (⟨(L 1).val, by have := L1_lt L; omega⟩ : Fin 26) (0 : Fin 1) v) := by
  have hc : (Rect.unit (s := S26x1x100000) (k0_off11 L) S1x1x100000.size (k0_off11_inb L)).shape.ShapeCasts S100000 :=
    squeezes_S1x1x100000_S100000.numel_eq
  refine (congrFun (Memref.read_squeeze_slice (Val := Elt F) (v3W) _ (fun _ => rfl) squeezes_S1x1x100000_S100000 hc A3) (ix1 v)).trans ?_
  refine (shapeCast_apply _ hc (ix1 v) (ix3 (0 : Fin 1) (0 : Fin 1) v) ?_).trans ?_
  · rw [Shape.rowMajor_val_three, Shape.rowMajor_val_one]
    show (0 * 1 + 0) * 100000 + v.val = v.val
    omega
  · show A3 _ = A3 _
    congr 1
    funext a
    apply Fin.ext
    have ho := k0_off11_eq L
    match a with
    | ⟨0, _⟩ => show k0_off11 L 0 + 1 * 0 = (L 1).val; rw [ho]; rfl
    | ⟨1, _⟩ => show k0_off11 L 1 + 1 * 0 = 0; rw [ho]; rfl
    | ⟨2, _⟩ => show k0_off11 L 2 + 1 * v.val = v.val; rw [ho]; show 0 + 1 * v.val = v.val; omega

/-- The row the second linear loop copies: row t + 16 of the transposed linear table. -/
theorem rowLin'_read (L : grid0.Coords) (h1 : k0_cond1 L = 1#1) (A3 : S26x1x100000.Idx → F .f32) (v : Fin 100000) :
    (((v3W).slice (Rect.unit (s := S26x1x100000) (k0_off18 L) S1x1x100000.size (k0_off18_inb L h1)) (fun _ => rfl)).squeeze S100000
        squeezes_S1x1x100000_S100000).view.read (Elt F) A3 (ix1 v)
      = A3 (ix3 (⟨(L 1).val + 16, (cond1_iff L).mp h1⟩ : Fin 26) (0 : Fin 1) v) := by
  have hc : (Rect.unit (s := S26x1x100000) (k0_off18 L) S1x1x100000.size (k0_off18_inb L h1)).shape.ShapeCasts S100000 :=
    squeezes_S1x1x100000_S100000.numel_eq
  refine (congrFun (Memref.read_squeeze_slice (Val := Elt F) (v3W) _ (fun _ => rfl) squeezes_S1x1x100000_S100000 hc A3) (ix1 v)).trans ?_
  refine (shapeCast_apply _ hc (ix1 v) (ix3 (0 : Fin 1) (0 : Fin 1) v) ?_).trans ?_
  · rw [Shape.rowMajor_val_three, Shape.rowMajor_val_one]
    show (0 * 1 + 0) * 100000 + v.val = v.val
    omega
  · show A3 _ = A3 _
    congr 1
    funext a
    apply Fin.ext
    have ho := k0_off18_eq L
    match a with
    | ⟨0, _⟩ => show k0_off18 L 0 + 1 * 0 = (L 1).val + 16; rw [ho]; rfl
    | ⟨1, _⟩ => show k0_off18 L 1 + 1 * 0 = 0; rw [ho]; rfl
    | ⟨2, _⟩ => show k0_off18 L 2 + 1 * v.val = v.val; rw [ho]; show 0 + 1 * v.val = v.val; omega

/-! ## The index words, copied -/

/-- A slice of the flattened index array from word o on reads the array at o + y. -/
theorem idx_read (off : Fin 1 → ℕ) (inb : ∀ a, off a + S8192.size a ≤ S425984.size a) (o : ℕ) (ho : off = ![o])
    (A1 : S425984.Idx → BitVec 32) (y : S8192.Idx) (h : o + (y 0).val < 425984) :
    ((v1W).slice (Rect.unit (s := S425984) off S8192.size inb) (fun _ => rfl)).view.read (Elt F) A1 y = A1 (ix1 ⟨o + (y 0).val, h⟩) := by
  subst ho
  show A1 _ = A1 _
  congr 1
  funext a
  rcases a with ⟨_ | n, hn⟩
  swap
  · exact absurd hn (Nat.not_lt.2 (Nat.le_add_left 1 n))
  apply Fin.ext
  show (![o] : Fin 1 → ℕ) 0 + 1 * (y 0).val = o + (y 0).val
  rw [Nat.one_mul]
  rfl

/-- The same as the index word the task's value is defined by, for field number n. -/
theorem idx_read_idxW (L : grid0.Coords) (n : ℕ) (hn : n < 26) (off : Fin 1 → ℕ) (inb : ∀ a, off a + S8192.size a ≤ S425984.size a)
    (ho : off = ![16384 * n + 8192 * (L 0).val]) (A1 : S425984.Idx → BitVec 32) (y : S8192.Idx) :
    ((v1W).slice (Rect.unit (s := S425984) off S8192.size inb) (fun _ => rfl)).view.read (Elt F) A1 y = idxW A1 (L 0).val n y := by
  have hc := L0_lt L
  have hy : (y 0).val < 8192 := (y 0).isLt
  have hlt : 16384 * n + 8192 * (L 0).val + (y 0).val < 425984 := by omega
  rw [idx_read (F := F) off inb _ ho A1 y hlt]
  unfold idxW
  exact congrArg A1 (congrArg (ix1 (n := 425984)) (Fin.ext (Nat.mod_eq_of_lt hlt).symm))

/-! ## What the indexed loads read -/

/-- The factor loop's gather for field f reads the factor component the task's value is defined by. -/
theorem gathFac (L : grid0.Coords) : ∀ (A1 : S425984.Idx → BitVec 32) (A2 : S26x16x100000.Idx → F .f32) (f : Fin k0_t2_loop.trips) (y : S8192.Idx),
    gath ((((v2W).slice (Rect.unit (s := S26x16x100000) (k0_off2 L f) S1x1x100000.size (k0_off2_inb L f)) (fun _ => rfl)).squeeze S100000
            squeezes_S1x1x100000_S100000).view.read (Elt F) A2)
        (((v1W).slice (Rect.unit (s := S425984) (k0_off3 L f) S8192.size (k0_off3_inb L f)) (fun _ => rfl)).view.read (Elt F) A1) y
      = gFac A1 A2 (L 0).val (L 1).val f.val y := by
  intro A1 A2 f y
  have hf := t2_lt f
  have ht := L1_lt L
  unfold gath
  rw [rowFac_read L f A2]
  unfold gFac
  have ef : (⟨f.val, hf⟩ : Fin 26) = ⟨f.val % 26, Nat.mod_lt _ (by norm_num)⟩ := Fin.ext (Nat.mod_eq_of_lt hf).symm
  have et : (⟨(L 1).val, ht⟩ : Fin 16) = ⟨(L 1).val % 16, Nat.mod_lt _ (by norm_num)⟩ := Fin.ext (Nat.mod_eq_of_lt ht).symm
  have er : (⟨(((v1W).slice (Rect.unit (s := S425984) (k0_off3 L f) S8192.size (k0_off3_inb L f)) (fun _ => rfl)).view.read (Elt F) A1 y).toNat % 100000,
      Nat.mod_lt _ (by norm_num)⟩ : Fin 100000) = rowW A1 (L 0).val f.val y :=
    Fin.ext (by
      show _ % 100000 = (idxW A1 (L 0).val f.val y).toNat % 100000
      rw [idx_read_idxW (F := F) L f.val hf _ _ (k0_off3_eq L f) A1 y])
  rw [ef, et, er]

/-- The first linear loop's gather reads field t's linear weight. -/
theorem gathLin (L : grid0.Coords) : ∀ (A1 : S425984.Idx → BitVec 32) (A3 : S26x1x100000.Idx → F .f32) (y : S8192.Idx),
    gath ((((v3W).slice (Rect.unit (s := S26x1x100000) (k0_off11 L) S1x1x100000.size (k0_off11_inb L)) (fun _ => rfl)).squeeze S100000
            squeezes_S1x1x100000_S100000).view.read (Elt F) A3)
        (((v1W).slice (Rect.unit (s := S425984) (k0_off12 L) S8192.size (k0_off12_inb L)) (fun _ => rfl)).view.read (Elt F) A1) y
      = gLin A1 A3 (L 0).val (L 1).val y := by
  intro A1 A3 y
  have ht := L1_lt L
  have ht' : (L 1).val < 26 := by omega
  unfold gath
  rw [rowLin_read L A3]
  unfold gLin
  have et : (⟨(L 1).val, ht'⟩ : Fin 26) = ⟨(L 1).val % 26, Nat.mod_lt _ (by norm_num)⟩ := Fin.ext (Nat.mod_eq_of_lt ht').symm
  have er : (⟨(((v1W).slice (Rect.unit (s := S425984) (k0_off12 L) S8192.size (k0_off12_inb L)) (fun _ => rfl)).view.read (Elt F) A1 y).toNat % 100000,
      Nat.mod_lt _ (by norm_num)⟩ : Fin 100000) = rowW A1 (L 0).val (L 1).val y :=
    Fin.ext (by
      show _ % 100000 = (idxW A1 (L 0).val (L 1).val y).toNat % 100000
      rw [idx_read_idxW (F := F) L (L 1).val ht' _ _ (k0_off12_eq L) A1 y])
  rw [et, er]

/-- The second linear loop's gather reads field t + 16's linear weight. -/
theorem gathLin' (L : grid0.Coords) : ∀ (h1 : k0_cond1 L = 1#1) (A1 : S425984.Idx → BitVec 32) (A3 : S26x1x100000.Idx → F .f32) (y : S8192.Idx),
    gath ((((v3W).slice (Rect.unit (s := S26x1x100000) (k0_off18 L) S1x1x100000.size (k0_off18_inb L h1)) (fun _ => rfl)).squeeze S100000
            squeezes_S1x1x100000_S100000).view.read (Elt F) A3)
        (((v1W).slice (Rect.unit (s := S425984) (k0_off19 L) S8192.size (k0_off19_inb L h1)) (fun _ => rfl)).view.read (Elt F) A1) y
      = gLin A1 A3 (L 0).val ((L 1).val + 16) y := by
  intro h1 A1 A3 y
  have ht' : (L 1).val + 16 < 26 := (cond1_iff L).mp h1
  have ho : k0_off19 L = ![16384 * ((L 1).val + 16) + 8192 * (L 0).val] := by
    rw [k0_off19_eq]
    congr 1
    omega
  unfold gath
  rw [rowLin'_read L h1 A3]
  unfold gLin
  have et : (⟨(L 1).val + 16, ht'⟩ : Fin 26) = ⟨((L 1).val + 16) % 26, Nat.mod_lt _ (by norm_num)⟩ := Fin.ext (Nat.mod_eq_of_lt ht').symm
  have er : (⟨(((v1W).slice (Rect.unit (s := S425984) (k0_off19 L) S8192.size (k0_off19_inb L h1)) (fun _ => rfl)).view.read (Elt F) A1 y).toNat % 100000,
      Nat.mod_lt _ (by norm_num)⟩ : Fin 100000) = rowW A1 (L 0).val ((L 1).val + 16) y :=
    Fin.ext (by
      show _ % 100000 = (idxW A1 (L 0).val ((L 1).val + 16) y).toNat % 100000
      rw [idx_read_idxW (F := F) L ((L 1).val + 16) ht' _ _ ho A1 y])
  rw [et, er]

/-! ## What an output copy leaves -/

/-- A copy onto a whole slice of a buffer leaves, at the slice's word x, the payload's word x. -/
theorem slice_whole_writes_emb {sig' : RefSig} {κ : Kind} {Val : EltTy → Type} (b : Ref sig' κ) (r : Rect b.ty.shape)
    (g0 : b.ty.Contents Val) (w : r.shape.Idx → Val b.ty.elt) (x : r.shape.Idx) :
    ((View.whole b).slice r).writes Val g0 [⟨Rect.whole r.shape, w⟩] (r.emb x) = w x := by
  have h := View.read_writes_cons_emb (Val := Val) ((View.whole b).slice r) g0 (Rect.whole r.shape) w [] x
  rw [Rect.emb_whole_apply] at h
  exact h

/-- A word of the j-th output slice after the copy is what the whole accumulated output holds there. -/
theorem outClosed (L : grid0.Coords) : ∀ (j : Fin 3) (g0 : S786432.Idx → F .f32) (w : S8192.Idx → F .f32)
    (A1 : S425984.Idx → BitVec 32) (A2 : S26x16x100000.Idx → F .f32) (A3 : S26x1x100000.Idx → F .f32),
    (∀ y, w y = tileOutN A1 A2 A3 (L 0).val (L 1).val j.val y) →
    ∀ i ∈ (outM L j).view.set, (outM L j).view.writes (Elt F) g0 [⟨Rect.whole S8192, w⟩] i = outBuf A1 A2 A3 i := by
  intro j g0 w A1 A2 A3 hw i hi
  have hc := L0_lt L
  have ht := L1_lt L
  have hj := j.isLt
  obtain ⟨x, -, rfl⟩ := Finset.mem_map.mp hi
  have hx : (x 0).val < 8192 := (x 0).isLt
  have h1 : (outM L j).view.writes (Elt F) g0 [⟨Rect.whole S8192, w⟩] ((outM L j).view.emb x) = w x :=
    slice_whole_writes_emb (Val := Elt F) main_v4_scv (outR L j) g0 w x
  have e0 : (((outM L j).view.emb x) 0).val = 393216 * (L 0).val + 131072 * j.val + 8192 * (L 1).val + (x 0).val := by
    show k0_off9 L (BitVec.ofNat 32 j.val) 0 + 1 * (x 0).val = _
    rw [k0_off9_eq]
    show (393216 * (L 0).val + 131072 * j.val + 8192 * (L 1).val) + 1 * (x 0).val = _
    omega
  rw [h1, hw x]
  unfold outBuf
  beta_reduce
  have a1 : (((outM L j).view.emb x) 0).val / 393216 = (L 0).val := by rw [e0]; omega
  have a2 : (((outM L j).view.emb x) 0).val / 8192 % 16 = (L 1).val := by rw [e0]; omega
  have a3 : (((outM L j).view.emb x) 0).val / 131072 % 3 = j.val := by rw [e0]; omega
  have a4 : (ix1 (⟨(((outM L j).view.emb x) 0).val % 8192, Nat.mod_lt _ (by norm_num)⟩ : Fin 8192) : S8192.Idx) = x := by
    funext a
    obtain rfl : a = 0 := Subsingleton.elim _ _
    exact Fin.ext (by show (((outM L j).view.emb x) 0).val % 8192 = (x 0).val; rw [e0]; omega)
  rw [a1, a2, a3, a4]

end Cert.Proof.KernelIdeal

end
-- ==== Proof.KernelIdeal.TileBody.lean ====
/-
  The whole task of one vector subcore with the values it leaves: its three output slices hold the accumulated planes.
-/
import proofs.«207209_g54674933678763_cont_9to1_m_278_38_alg».proof.Proof.KernelIdeal.TileBodyF
import proofs.«207209_g54674933678763_cont_9to1_m_278_38_alg».proof.Proof.KernelIdeal.TileArith
import proofs.«207209_g54674933678763_cont_9to1_m_278_38_alg».proof.Proof.KernelIdeal.TileTripV
import proofs.«207209_g54674933678763_cont_9to1_m_278_38_alg».proof.Proof.KernelIdeal.TileFacts

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "v2W" => (Memref.whole Cert.KernelIdeal.main_v2_scv : Memref Cert.KernelIdeal.sig Kind.scVector Space.hbm Cert.KernelIdeal.S26x16x100000 EltTy.f32)
local notation "v3W" => (Memref.whole Cert.KernelIdeal.main_v3_scv : Memref Cert.KernelIdeal.sig Kind.scVector Space.hbm Cert.KernelIdeal.S26x1x100000 EltTy.f32)
local notation "v1W" => (Memref.whole Cert.KernelIdeal.main_v1_scv : Memref Cert.KernelIdeal.sig Kind.scVector Space.hbm Cert.KernelIdeal.S425984 EltTy.i32)
local notation "v4W" => (Memref.whole Cert.KernelIdeal.main_v4_scv : Memref Cert.KernelIdeal.sig Kind.scVector Space.hbm Cert.KernelIdeal.S786432 EltTy.f32)
local notation "s0W" => (Memref.whole Cert.KernelIdeal.cc0_scratch0 : Memref Cert.KernelIdeal.sig Kind.scVector Space.vmem Cert.KernelIdeal.S100000 EltTy.f32)
local notation "s1W" => (Memref.whole Cert.KernelIdeal.cc0_scratch1 : Memref Cert.KernelIdeal.sig Kind.scVector Space.vmem Cert.KernelIdeal.S8192 EltTy.i32)
local notation "s2W" => (Memref.whole Cert.KernelIdeal.cc0_scratch2 : Memref Cert.KernelIdeal.sig Kind.scVector Space.vmem Cert.KernelIdeal.S8192 EltTy.f32)
local notation "s3W" => (Memref.whole Cert.KernelIdeal.cc0_scratch3 : Memref Cert.KernelIdeal.sig Kind.scVector Space.vmem Cert.KernelIdeal.S8192 EltTy.f32)

/-! ## The source memrefs of the kernel's copies, as it slices them -/

abbrev rowM2 (f : Fin k0_t2_loop.trips) : Memref sig .scVector .hbm S100000 .f32 :=
  ((v2W).slice (Rect.unit (s := S26x16x100000) (k0_off2 L f) S1x1x100000.size (k0_off2_inb L f)) (fun _ => rfl)).squeeze S100000 squeezes_S1x1x100000_S100000
abbrev idxM2 (f : Fin k0_t2_loop.trips) : Memref sig .scVector .hbm S8192 .i32 :=
  (v1W).slice (Rect.unit (s := S425984) (k0_off3 L f) S8192.size (k0_off3_inb L f)) (fun _ => rfl)
abbrev rowM3 : Memref sig .scVector .hbm S100000 .f32 :=
  ((v3W).slice (Rect.unit (s := S26x1x100000) (k0_off11 L) S1x1x100000.size (k0_off11_inb L)) (fun _ => rfl)).squeeze S100000 squeezes_S1x1x100000_S100000
abbrev idxM3 : Memref sig .scVector .hbm S8192 .i32 :=
  (v1W).slice (Rect.unit (s := S425984) (k0_off12 L) S8192.size (k0_off12_inb L)) (fun _ => rfl)
abbrev rowM3' (h1 : k0_cond1 L = 1#1) : Memref sig .scVector .hbm S100000 .f32 :=
  ((v3W).slice (Rect.unit (s := S26x1x100000) (k0_off18 L) S1x1x100000.size (k0_off18_inb L h1)) (fun _ => rfl)).squeeze S100000 squeezes_S1x1x100000_S100000
abbrev idxM3' (h1 : k0_cond1 L = 1#1) : Memref sig .scVector .hbm S8192 .i32 :=
  (v1W).slice (Rect.unit (s := S425984) (k0_off19 L) S8192.size (k0_off19_inb L h1)) (fun _ => rfl)

/-! ## What the pure side supplies -/

/-- The factor gather reads the table entry the specification names. -/
def GathFac : Prop := ∀ (A1 : S425984.Idx → BitVec 32) (A2 : S26x16x100000.Idx → F .f32) (f : Fin k0_t2_loop.trips) (y : S8192.Idx),
  gath ((rowM2 L f).view.read (Elt F) A2) ((idxM2 L f).view.read (Elt F) A1) y = gFac A1 A2 (L 0).val (L 1).val f.val y
def GathLin : Prop := ∀ (A1 : S425984.Idx → BitVec 32) (A3 : S26x1x100000.Idx → F .f32) (y : S8192.Idx),
  gath ((rowM3 L).view.read (Elt F) A3) ((idxM3 L).view.read (Elt F) A1) y = gLin A1 A3 (L 0).val (L 1).val y
def GathLin' : Prop := ∀ (h1 : k0_cond1 L = 1#1) (A1 : S425984.Idx → BitVec 32) (A3 : S26x1x100000.Idx → F .f32) (y : S8192.Idx),
  gath ((rowM3' L h1).view.read (Elt F) A3) ((idxM3' L h1).view.read (Elt F) A1) y = gLin A1 A3 (L 0).val ((L 1).val + 16) y
def Cond1Iff : Prop := k0_cond1 L = 1#1 ↔ (L 1).val + 16 < 26
/-- A slice of the output written whole with the task's values holds the output array's values. -/
def OutClosed : Prop := ∀ (j : Fin 3) (g0 : S786432.Idx → F .f32) (w : S8192.Idx → F .f32) (A1 : S425984.Idx → BitVec 32) (A2 : S26x16x100000.Idx → F .f32)
    (A3 : S26x1x100000.Idx → F .f32), (∀ y, w y = tileOutN A1 A2 A3 (L 0).val (L 1).val j.val y) →
  ∀ i ∈ (outM L j).view.set, (outM L j).view.writes (Elt F) g0 [⟨Rect.whole S8192, w⟩] i = outBuf A1 A2 A3 i

/-! ## What the trips supply -/

def Trip1V : Prop := ∀ (k : Fin k0_t1_loop.trips) (a0 : Buf (Elt F) ((thrV d L).loc cc0_scratch2)) (b0 : Buf (Elt F) ((thrV d L).loc cc0_scratch3)),
  iprop(s2At d L (zeroUpTo k.val a0) ∗ s3At d L (zeroUpTo k.val b0))
    ⊢ wp frame (wpE (defs₀ (F := F)) 𝒱₀ (thrV d L) none) Set.univ
          (k0_t1_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s2At d L (zeroUpTo (k.val + 1) a0) ∗ s3At d L (zeroUpTo (k.val + 1) b0))
def Trip4V : Prop := ∀ (k : Fin k0_t4_loop.trips) (a0 : Buf (Elt F) ((thrV d L).loc cc0_scratch2)),
  s2At d L (zeroUpTo k.val a0)
    ⊢ wp frame (wpE (defs₀ (F := F)) 𝒱₀ (thrV d L) none) Set.univ
          (k0_t4_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => s2At d L (zeroUpTo (k.val + 1) a0)
def Trip3V : Prop := ∀ (Pf : Buf (Elt F) ((thrV d L).loc cc0_scratch0)) (If : Buf (Elt F) ((thrV d L).loc cc0_scratch1))
    (_ : ∀ y, (If y).toNat < 100000) (k : Fin k0_t3_loop.trips)
    (a0 : Buf (Elt F) ((thrV d L).loc cc0_scratch2)) (b0 : Buf (Elt F) ((thrV d L).loc cc0_scratch3)),
  iprop(s0At d L Pf ∗ s1At d L If ∗ s2At d L (addUpTo (gath Pf If) k.val a0) ∗ s3At d L (addUpTo (sqr (gath Pf If)) k.val b0))
    ⊢ wp frame (wpE (defs₀ (F := F)) 𝒱₀ (thrV d L) none) Set.univ
          (k0_t3_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ s2At d L (addUpTo (gath Pf If) (k.val + 1) a0) ∗ s3At d L (addUpTo (sqr (gath Pf If)) (k.val + 1) b0))
def Trip5V : Prop := ∀ (Pf : Buf (Elt F) ((thrV d L).loc cc0_scratch0)) (If : Buf (Elt F) ((thrV d L).loc cc0_scratch1))
    (_ : ∀ y, (If y).toNat < 100000) (k : Fin k0_t5_loop.trips) (a0 : Buf (Elt F) ((thrV d L).loc cc0_scratch2)),
  iprop(s0At d L Pf ∗ s1At d L If ∗ s2At d L (addUpTo (gath Pf If) k.val a0))
    ⊢ wp frame (wpE (defs₀ (F := F)) 𝒱₀ (thrV d L) none) Set.univ
          (k0_t5_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ s2At d L (addUpTo (gath Pf If) (k.val + 1) a0))
def Trip6V : Prop := ∀ (h1 : k0_cond1 L = 1#1) (Pf : Buf (Elt F) ((thrV d L).loc cc0_scratch0)) (If : Buf (Elt F) ((thrV d L).loc cc0_scratch1))
    (_ : ∀ y, (If y).toNat < 100000) (k : Fin k0_t6_loop.trips) (a0 : Buf (Elt F) ((thrV d L).loc cc0_scratch2)),
  iprop(s0At d L Pf ∗ s1At d L If ∗ s2At d L (addUpTo (gath Pf If) k.val a0))
    ⊢ wp frame (wpE (defs₀ (F := F)) 𝒱₀ (thrV d L) none) Set.univ
          (k0_t6_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 h1 k ⟨⟩)
          fun _ => iprop(s0At d L Pf ∗ s1At d L If ∗ s2At d L (addUpTo (gath Pf If) (k.val + 1) a0))

/-! ## The arithmetic of the invariants -/

theorem zeroUpTo_zero_b (a : S8192.Idx → F .f32) : zeroUpTo 0 a = a := by
  funext y; simp [zeroUpTo]
theorem addUpTo_zero_b (g a : S8192.Idx → F .f32) : addUpTo g 0 a = a := by
  funext y; simp [addUpTo]
theorem zeroUpTo_full_b (a : S8192.Idx → F .f32) : zeroUpTo 512 a = fun _ => fzero := by
  funext y; have := (y 0).isLt; simp only [zeroUpTo]; rw [if_pos]; exact this
theorem addUpTo_full_b (g a : S8192.Idx → F .f32) : addUpTo g 128 a = fun y => FloatOps.addf (a y) (g y) := by
  funext y; have := (y 0).isLt; simp only [addUpTo]; rw [if_pos]; exact this

/-! ## One field of the factor loop -/

/-- The inner loop's invariant: the row and index scratches as the copies left them, the accumulators at the entry
    contents with the gathered values added over the lanes done. -/
def inv3V (Pf : Buf (Elt F) ((thrV d L).loc cc0_scratch0)) (If : Buf (Elt F) ((thrV d L).loc cc0_scratch1))
    (a0 : Buf (Elt F) ((thrV d L).loc cc0_scratch2)) (b0 : Buf (Elt F) ((thrV d L).loc cc0_scratch3)) (k : Nat) (_ : PUnit) : sProp 𝕄 :=
  iprop(s0At d L Pf ∗ s1At d L If ∗ s2At d L (addUpTo (gath Pf If) k a0) ∗ s3At d L (addUpTo (sqr (gath Pf If)) k b0))

/-- The field loop's invariant: as the footprint one, the accumulators at the sums over the fields done. -/
def inv2V (q : PosShare TreeShare) (A1 : Buf (Elt F) (v1Loc d)) (A2 : Buf (Elt F) (v2Loc d))
    (O : CellTallies nD τ sig (HIx 1)) (W : Waits sig (HIx 1)) (n : Nat) (_ : PUnit) : sProp 𝕄 :=
  iprop(Transfers.MayWaits (thrV d L) (none : HIx 1) O
    ∗ ((v2W).view.loc (thrV d L) ↦{q} A2) ∗ ((v1W).view.loc (thrV d L) ↦{q} A1)
    ∗ (∃ f0, s0At d L f0) ∗ (∃ f1, s1At d L f1)
    ∗ s2At d L (accSum A1 A2 (L 0).val (L 1).val n) ∗ s3At d L (accSq A1 A2 (L 0).val (L 1).val n)
    ∗ semVal (cellV d L cc0_scratch4) 0 ∗ semVal (cellV d L cc0_scratch5) 0
    ∗ ∃ W', ⌜∀ p ∈ W', p ∈ W ∨ p.2 = none⌝ ∗ owes (thrV d L) O W')

theorem accSum_succ (A1 : S425984.Idx → BitVec 32) (A2 : S26x16x100000.Idx → F .f32) (c t n : ℕ) (g : S8192.Idx → F .f32)
    (hg : ∀ y, g y = gFac A1 A2 c t n y) : addUpTo g 128 (accSum A1 A2 c t n) = accSum A1 A2 c t (n + 1) := by
  rw [addUpTo_full_b]; funext y; rw [hg]; rfl
theorem accSq_succ (A1 : S425984.Idx → BitVec 32) (A2 : S26x16x100000.Idx → F .f32) (c t n : ℕ) (g : S8192.Idx → F .f32)
    (hg : ∀ y, g y = gFac A1 A2 c t n y) : addUpTo (sqr g) 128 (accSq A1 A2 c t n) = accSq A1 A2 c t (n + 1) := by
  rw [addUpTo_full_b]; funext y; simp only [sqr]; rw [hg]; rfl

theorem fieldV (h3 : Trip3V (F := F) d L) (hgf : GathFac (F := F) L) (q : PosShare TreeShare) (A1 : Buf (Elt F) (v1Loc d)) (A2 : Buf (Elt F) (v2Loc d))
    (hidx : ∀ j, (A1 j).toNat < 100000)
    (O : CellTallies nD τ sig (HIx 1)) (W : Waits sig (HIx 1)) (f : Fin k0_t2_loop.trips) :
    inv2V d L q A1 A2 O W f.val ⟨⟩
      ⊢ wp frame (wpE (defs₀ (F := F)) 𝒱₀ (thrV d L) none) Set.univ
          (k0_t2_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 f ⟨⟩)
          (inv2V d L q A1 A2 O W (f.val + 1)) := by
  unfold k0_t2_body inv2V
  iintro ⟨Hmw, H2, H1, ⟨%f0, Hs0⟩, ⟨%f1, Hs1⟩, Hs2, Hs3, Hm4, Hm5, %W', %hW', HO⟩
  sl_exec
  have e0 : View.write (Elt F) (s0W).view f0 (fieldV.sl.dma0 d L A2 f) Finset.univ = fieldV.sl.dma0 d L A2 f := View.write_whole_univ _ _ _
  have e1 : View.write (Elt F) (s1W).view f1 (fieldV.sl.dma0_1 d L A1 f) Finset.univ = fieldV.sl.dma0_1 d L A1 f := View.write_whole_univ _ _ _
  rw [e0, e1]
  have hI : ∀ y, ((fieldV.sl.dma0_1 d L A1 f) y).toNat < 100000 := fun y => hidx _
  have hg : ∀ y, gath (fieldV.sl.dma0 d L A2 f) (fieldV.sl.dma0_1 d L A1 f) y = gFac A1 A2 (L 0).val (L 1).val f.val y := hgf A1 A2 f
  ihave Hs2 := (Entails.of_eq (congrArg (s2At d L) (addUpTo_zero_b (gath (fieldV.sl.dma0 d L A2 f) (fieldV.sl.dma0_1 d L A1 f)) (accSum A1 A2 (L 0).val (L 1).val f.val)).symm)) $$ Hs2
  ihave Hs3 := (Entails.of_eq (congrArg (s3At d L) (addUpTo_zero_b (sqr (gath (fieldV.sl.dma0 d L A2 f) (fieldV.sl.dma0_1 d L A1 f))) (accSq A1 A2 (L 0).val (L 1).val f.val)).symm)) $$ Hs3
  sl_for (inv3V d L (fieldV.sl.dma0 d L A2 f) (fieldV.sl.dma0_1 d L A1 f) (accSum A1 A2 (L 0).val (L 1).val f.val) (accSq A1 A2 (L 0).val (L 1).val f.val)) $$ [Hs0 Hs1 Hs2 Hs3]
  case region =>
    intro k _
    unfold inv3V
    exact h3 _ _ hI k _ _
  · unfold inv3V
    isplitl [Hs0]; · iexact Hs0
    isplitl [Hs1]; · iexact Hs1
    isplitl [Hs2]; · iexact Hs2
    iexact Hs3
  iintro %_ HI
  unfold inv3V
  rw [show Scf.trips k0_t3_loop.lb k0_t3_loop.ub k0_t3_loop.st = 128 from by decide]
  icases HI with ⟨Hs0, Hs1, Hs2, Hs3⟩
  ihave Hs2 := (Entails.of_eq (congrArg (s2At d L) (accSum_succ A1 A2 (L 0).val (L 1).val f.val _ hg))) $$ Hs2
  ihave Hs3 := (Entails.of_eq (congrArg (s3At d L) (accSq_succ A1 A2 (L 0).val (L 1).val f.val _ hg))) $$ Hs3
  sl_exec
  sl_step
  isplitl [Hmw]; · iexact Hmw
  isplitl [H2]; · iexact H2
  isplitl [H1]; · iexact H1
  isplitl [Hs0]; · iexists _; iexact Hs0
  isplitl [Hs1]; · iexists _; iexact Hs1
  isplitl [Hs2]; · iexact Hs2
  isplitl [Hs3]; · iexact Hs3
  isplitl [Hm4]; · iexact Hm4
  isplitl [Hm5]; · iexact Hm5
  iexists (insert (SemLoc.dma cc0_scratch5.sem, (default : HIx 1)) (insert (SemLoc.dma cc0_scratch4.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

/-! ## The whole task -/

def inv1V (a0 : Buf (Elt F) ((thrV d L).loc cc0_scratch2)) (b0 : Buf (Elt F) ((thrV d L).loc cc0_scratch3)) (k : Nat) (_ : PUnit) : sProp 𝕄 :=
  iprop(s2At d L (zeroUpTo k a0) ∗ s3At d L (zeroUpTo k b0))
def inv4V (a0 : Buf (Elt F) ((thrV d L).loc cc0_scratch2)) (k : Nat) (_ : PUnit) : sProp 𝕄 := s2At d L (zeroUpTo k a0)
def inv5V (Pf : Buf (Elt F) ((thrV d L).loc cc0_scratch0)) (If : Buf (Elt F) ((thrV d L).loc cc0_scratch1))
    (a0 : Buf (Elt F) ((thrV d L).loc cc0_scratch2)) (k : Nat) (_ : PUnit) : sProp 𝕄 :=
  iprop(s0At d L Pf ∗ s1At d L If ∗ s2At d L (addUpTo (gath Pf If) k a0))

theorem tileOutN_zero (A1 : S425984.Idx → BitVec 32) (A2 : S26x16x100000.Idx → F .f32) (A3 : S26x1x100000.Idx → F .f32) (c t : ℕ) (y : S8192.Idx) :
    tileOutN A1 A2 A3 c t 0 y = accSum A1 A2 c t 26 y := if_pos rfl
theorem tileOutN_one (A1 : S425984.Idx → BitVec 32) (A2 : S26x16x100000.Idx → F .f32) (A3 : S26x1x100000.Idx → F .f32) (c t : ℕ) (y : S8192.Idx) :
    tileOutN A1 A2 A3 c t 1 y = accSq A1 A2 c t 26 y := by unfold tileOutN; rw [if_neg (by decide), if_pos rfl]
theorem tileOutN_two (A1 : S425984.Idx → BitVec 32) (A2 : S26x16x100000.Idx → F .f32) (A3 : S26x1x100000.Idx → F .f32) (c t : ℕ) (y : S8192.Idx) :
    tileOutN A1 A2 A3 c t 2 y = accLin A1 A3 c t y := by unfold tileOutN; rw [if_neg (by decide), if_neg (by decide)]

theorem lin_first (A1 : S425984.Idx → BitVec 32) (A3 : S26x1x100000.Idx → F .f32) (c t : ℕ) (g : S8192.Idx → F .f32)
    (hg : ∀ y, g y = gLin A1 A3 c t y) :
    addUpTo g 128 (fun _ => fzero) = fun y => FloatOps.addf fzero (gLin A1 A3 c t y) := by
  rw [addUpTo_full_b]; funext y; rw [hg]
theorem lin_second (A1 : S425984.Idx → BitVec 32) (A3 : S26x1x100000.Idx → F .f32) (c t : ℕ) (g : S8192.Idx → F .f32)
    (hg : ∀ y, g y = gLin A1 A3 c (t + 16) y) (ht : t + 16 < 26) :
    addUpTo g 128 (fun y => FloatOps.addf fzero (gLin A1 A3 c t y)) = accLin A1 A3 c t := by
  rw [addUpTo_full_b]; funext y; rw [hg]; unfold accLin; rw [if_pos ht]
theorem lin_only (A1 : S425984.Idx → BitVec 32) (A3 : S26x1x100000.Idx → F .f32) (c t : ℕ) (ht : ¬ t + 16 < 26) :
    (fun y => FloatOps.addf fzero (gLin A1 A3 c t y)) = accLin A1 A3 c t := by
  funext y; unfold accLin; rw [if_neg ht]

set_option maxHeartbeats 2000000 in
theorem tile_body_of (h1V : Trip1V (F := F) d L) (h4V : Trip4V (F := F) d L) (h3V : Trip3V (F := F) d L) (h5V : Trip5V (F := F) d L) (h6V : Trip6V (F := F) d L)
    (hgf : GathFac (F := F) L) (hgl : GathLin (F := F) L) (hgl' : GathLin' (F := F) L) (hc1 : Cond1Iff L) (hout : OutClosed (F := F) L)
    (hF : (K (F := F)).Facts) (q : PosShare TreeShare)
    (A1 : Buf (Elt F) (v1Loc d)) (A2 : Buf (Elt F) (v2Loc d)) (A3 : Buf (Elt F) (v3Loc d)) (B4 : Buf (Elt F) (v4Loc d))
    (hidx : ∀ j, (A1 j).toNat < 100000)
    (O : CellTallies nD τ sig (HIx 1)) (W : Waits sig (HIx 1)) (hO : ∀ g, O g none = 0) :
    iprop(levAts (K (F := F)).L (K (F := F)).lev ∗ emp ∗ goRes d L q A1 A2 A3 B4
        ∗ scopedBufs (thrV d L) ∗ scopedSems0 (thrV d L) ∗ owes (thrV d L) O W)
      ⊢ wp frame (wpE (defs₀ (F := F)) 𝒱₀ (thrV d L) none) Set.univ
          (cc0_k L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2)
          fun _ => iprop(tdRes d L q A1 A2 A3 ∗ scopedBufs (thrV d L) ∗ scopedSems0 (thrV d L)
            ∗ ∃ W', ⌜∀ p ∈ W', p ∈ W ∨ p.2 = none⌝ ∗ owes (thrV d L) O W') := by
  simp only [cc0_k_eq_skeleton]; unfold cc0_k_skel
  simp only [k0_part2_eq_skeleton]; unfold k0_part2_skel
  simp only [Prog.bind_assoc]
  rw [(K (F := F)).scopedBufs_V hF d (cV L) (jV L), SparseCore.Cfg.scopedSems0_V (Val := Elt F) d (cV L) (jV L), ownSems0_V, ownBufs_V]
  unfold goRes inRes outRes
  iintro ⟨#Hlv, -, ⟨⟨H2, H3, H1⟩, Ho0, Ho1, Ho2⟩, ⟨⟨%f0, Hs0⟩, ⟨%f1, Hs1⟩, ⟨%f2, Hs2⟩, ⟨%f3, Hs3⟩, Hbufs⟩, ⟨Hm4, Hm5, Hc0, Hc1, Hc2, Hsems⟩, HO⟩
  ihave Hmw := ((K (F := F)).mayWaits_none (thr := thrV d L) hO) $$ Hlv
  ihave H2' := (Entails.of_eq (show ((v2W).view.loc (thrV d L) ↦{q} A2 : sProp 𝕄) = (v2Loc d ↦{q} A2) from rfl).symm) $$ H2
  ihave H3' := (Entails.of_eq (show ((v3W).view.loc (thrV d L) ↦{q} A3 : sProp 𝕄) = (v3Loc d ↦{q} A3) from rfl).symm) $$ H3
  ihave H1' := (Entails.of_eq (show ((v1W).view.loc (thrV d L) ↦{q} A1 : sProp 𝕄) = (v1Loc d ↦{q} A1) from rfl).symm) $$ H1
  ihave Ho0 := (Entails.of_eq (show ((outK0 L).view.loc (thrV d L) ↦[(outK0 L).view.set]{fullShare} B4 : sProp 𝕄) = (v4Loc d ↦[outSet L 0]{fullShare} B4) from rfl).symm) $$ Ho0
  ihave Ho1 := (Entails.of_eq (show ((outK1 L).view.loc (thrV d L) ↦[(outK1 L).view.set]{fullShare} B4 : sProp 𝕄) = (v4Loc d ↦[outSet L 1]{fullShare} B4) from rfl).symm) $$ Ho1
  ihave Ho2 := (Entails.of_eq (show ((outK2 L).view.loc (thrV d L) ↦[(outK2 L).view.set]{fullShare} B4 : sProp 𝕄) = (v4Loc d ↦[outSet L 2]{fullShare} B4) from rfl).symm) $$ Ho2
  ihave Hs0 := (Entails.of_eq (show (s0At d L f0 : sProp 𝕄) = ((thrV d L).loc cc0_scratch0 ↦{fullShare} f0) from rfl).symm) $$ Hs0
  ihave Hs1 := (Entails.of_eq (show (s1At d L f1 : sProp 𝕄) = ((thrV d L).loc cc0_scratch1 ↦{fullShare} f1) from rfl).symm) $$ Hs1
  ihave Hs2 := (Entails.of_eq (show (s2At d L (zeroUpTo 0 f2) : sProp 𝕄) = ((thrV d L).loc cc0_scratch2 ↦{fullShare} f2) from by rw [zeroUpTo_zero_b]).symm) $$ Hs2
  ihave Hs3 := (Entails.of_eq (show (s3At d L (zeroUpTo 0 f3) : sProp 𝕄) = ((thrV d L).loc cc0_scratch3 ↦{fullShare} f3) from by rw [zeroUpTo_zero_b]).symm) $$ Hs3
  sl_exec
  -- the accumulators zeroed
  sl_for (inv1V d L f2 f3) $$ [Hs2 Hs3]
  case region =>
    intro k _
    unfold inv1V
    exact h1V k f2 f3
  · unfold inv1V
    isplitl [Hs2]; · iexact Hs2
    iexact Hs3
  iintro %_ HI
  unfold inv1V
  rw [show Scf.trips k0_t1_loop.lb k0_t1_loop.ub k0_t1_loop.st = 512 from by decide, zeroUpTo_full_b, zeroUpTo_full_b]
  icases HI with ⟨Hs2, Hs3⟩
  sl_exec
  -- the twenty-six fields
  sl_for (inv2V d L q A1 A2 O W) $$ [Hmw H2' H1' Hs0 Hs1 Hs2 Hs3 Hm4 Hm5 HO]
  case region =>
    intro k _
    exact fieldV d L h3V hgf q A1 A2 hidx O W k
  · unfold inv2V
    isplitl [Hmw]; · iexact Hmw
    isplitl [H2']; · iexact H2'
    isplitl [H1']; · iexact H1'
    isplitl [Hs0]; · iexists _; iexact Hs0
    isplitl [Hs1]; · iexists _; iexact Hs1
    isplitl [Hs2]; · iexact Hs2
    isplitl [Hs3]; · iexact Hs3
    isplitl [Hm4]; · iexact Hm4
    isplitl [Hm5]; · iexact Hm5
    iexists W; isplitr
    · ipureintro; exact fun p hp => .inl hp
    · iexact HO
  iintro %_ HI
  unfold inv2V
  rw [show Scf.trips k0_t2_loop.lb k0_t2_loop.ub k0_t2_loop.st = 26 from by decide]
  icases HI with ⟨Hmw, H2', H1', ⟨%g0, Hs0⟩, ⟨%g1, Hs1⟩, Hs2, Hs3, Hm4, Hm5, %W', %hW', HO⟩
  -- the two accumulators written out, the first zeroed again
  sl_exec
  ihave Ho0 := (Entails.of_eq (pointsTo_congr (hout 0 _ _ A1 A2 A3 fun y => (tileOutN_zero A1 A2 A3 (L 0).val (L 1).val y).symm))) $$ Ho0
  ihave Ho1 := (Entails.of_eq (pointsTo_congr (hout 1 _ _ A1 A2 A3 fun y => (tileOutN_one A1 A2 A3 (L 0).val (L 1).val y).symm))) $$ Ho1
  ihave Hs2 := (Entails.of_eq (congrArg (s2At d L) (zeroUpTo_zero_b (accSum A1 A2 (L 0).val (L 1).val 26)).symm)) $$ Hs2
  sl_for (inv4V d L (accSum A1 A2 (L 0).val (L 1).val 26)) $$ [Hs2]
  case region =>
    intro k _
    unfold inv4V
    exact h4V k _
  · unfold inv4V
    iexact Hs2
  iintro %_ HI
  unfold inv4V
  rw [show Scf.trips k0_t4_loop.lb k0_t4_loop.ub k0_t4_loop.st = 512 from by decide, zeroUpTo_full_b]
  icases HI with Hs2
  -- the subcore's own linear field
  sl_exec
  have e0 : View.write (Elt F) (s0W).view g0 (tile_body_of.sl.dma0_2 d L A3) Finset.univ = tile_body_of.sl.dma0_2 d L A3 := View.write_whole_univ _ _ _
  have e1 : View.write (Elt F) (s1W).view g1 (tile_body_of.sl.dma0_3 d L A1) Finset.univ = tile_body_of.sl.dma0_3 d L A1 := View.write_whole_univ _ _ _
  rw [e0, e1]
  have hI : ∀ y, ((tile_body_of.sl.dma0_3 d L A1) y).toNat < 100000 := fun y => hidx _
  have hg : ∀ y, gath (tile_body_of.sl.dma0_2 d L A3) (tile_body_of.sl.dma0_3 d L A1) y = gLin A1 A3 (L 0).val (L 1).val y := hgl A1 A3
  ihave Hs2 := (Entails.of_eq (congrArg (s2At d L) (addUpTo_zero_b (gath (tile_body_of.sl.dma0_2 d L A3) (tile_body_of.sl.dma0_3 d L A1)) (fun _ => fzero)).symm)) $$ Hs2
  sl_for (inv5V d L (tile_body_of.sl.dma0_2 d L A3) (tile_body_of.sl.dma0_3 d L A1) (fun _ => fzero)) $$ [Hs0 Hs1 Hs2]
  case region =>
    intro k _
    unfold inv5V
    exact h5V _ _ hI k _
  · unfold inv5V
    isplitl [Hs0]; · iexact Hs0
    isplitl [Hs1]; · iexact Hs1
    iexact Hs2
  iintro %_ HI
  unfold inv5V
  rw [show Scf.trips k0_t5_loop.lb k0_t5_loop.ub k0_t5_loop.st = 128 from by decide]
  icases HI with ⟨Hs0, Hs1, Hs2⟩
  ihave Hs2 := (Entails.of_eq (congrArg (s2At d L) (lin_first A1 A3 (L 0).val (L 1).val _ hg))) $$ Hs2
  by_cases h1 : k0_cond1 L = 1#1
  · -- the subcore's second linear field
    sl_exec
    have e0' : View.write (Elt F) (s0W).view (tile_body_of.sl.dma0_2 d L A3) (tile_body_of.sl.dma0_4 d L A3 h1) Finset.univ = tile_body_of.sl.dma0_4 d L A3 h1 := View.write_whole_univ _ _ _
    have e1' : View.write (Elt F) (s1W).view (tile_body_of.sl.dma0_3 d L A1) (tile_body_of.sl.dma0_5 d L A1 h1) Finset.univ = tile_body_of.sl.dma0_5 d L A1 h1 := View.write_whole_univ _ _ _
    rw [e0', e1']
    have hI' : ∀ y, ((tile_body_of.sl.dma0_5 d L A1 h1) y).toNat < 100000 := fun y => hidx _
    have hg' : ∀ y, gath (tile_body_of.sl.dma0_4 d L A3 h1) (tile_body_of.sl.dma0_5 d L A1 h1) y = gLin A1 A3 (L 0).val ((L 1).val + 16) y := hgl' h1 A1 A3
    ihave Hs2 := (Entails.of_eq (congrArg (s2At d L) (addUpTo_zero_b (gath (tile_body_of.sl.dma0_4 d L A3 h1) (tile_body_of.sl.dma0_5 d L A1 h1)) (fun y => FloatOps.addf fzero (gLin A1 A3 (L 0).val (L 1).val y))).symm)) $$ Hs2
    sl_for (inv5V d L (tile_body_of.sl.dma0_4 d L A3 h1) (tile_body_of.sl.dma0_5 d L A1 h1) (fun y => FloatOps.addf fzero (gLin A1 A3 (L 0).val (L 1).val y))) $$ [Hs0 Hs1 Hs2]
    case region =>
      intro k _
      unfold inv5V
      exact h6V h1 _ _ hI' k _
    · unfold inv5V
      isplitl [Hs0]; · iexact Hs0
      isplitl [Hs1]; · iexact Hs1
      iexact Hs2
    iintro %_ HI
    unfold inv5V
    rw [show Scf.trips k0_t6_loop.lb k0_t6_loop.ub k0_t6_loop.st = 128 from by decide]
    icases HI with ⟨Hs0, Hs1, Hs2⟩
    ihave Hs2 := (Entails.of_eq (congrArg (s2At d L) (lin_second A1 A3 (L 0).val (L 1).val _ hg' (hc1.mp h1)))) $$ Hs2
    sl_exec
    ihave Ho2 := (Entails.of_eq (pointsTo_congr (hout 2 _ _ A1 A2 A3 fun y => (tileOutN_two A1 A2 A3 (L 0).val (L 1).val y).symm))) $$ Ho2
    sl_step
    unfold tdRes inRes outRes
    isplitl [H2' H3' H1' Ho0 Ho1 Ho2]
    · isplitl [H2' H3' H1']
      · isplitl [H2']; · iexact H2'
        isplitl [H3']; · iexact H3'
        iexact H1'
      isplitl [Ho0]; · iexact Ho0
      isplitl [Ho1]; · iexact Ho1
      iexact Ho2
    isplitl [Hs0 Hs1 Hs2 Hs3 Hbufs]
    · isplitl [Hs0]; · iexists _; iexact Hs0
      isplitl [Hs1]; · iexists _; iexact Hs1
      isplitl [Hs2]; · iexists _; iexact Hs2
      isplitl [Hs3]; · iexists _; iexact Hs3
      iexact Hbufs
    isplitl [Hm4 Hm5 Hc0 Hc1 Hc2 Hsems]
    · isplitl [Hm4]; · iexact Hm4
      isplitl [Hm5]; · iexact Hm5
      isplitl [Hc0]; · iexact Hc0
      isplitl [Hc1]; · iexact Hc1
      isplitl [Hc2]; · iexact Hc2
      iexact Hsems
    iexists (insert (SemLoc.dma cc0_scoped2.sem, (default : HIx 1)) (insert (SemLoc.dma cc0_scratch5.sem, (default : HIx 1)) (insert (SemLoc.dma cc0_scratch4.sem, (default : HIx 1)) (insert (SemLoc.dma cc0_scratch5.sem, (default : HIx 1)) (insert (SemLoc.dma cc0_scratch4.sem, (default : HIx 1)) (insert (SemLoc.dma cc0_scoped1.sem, (default : HIx 1)) (insert (SemLoc.dma cc0_scoped0.sem, (default : HIx 1)) W'))))))); isplitr
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      · exact hW' p hp
    · iexact HO
  · ihave Hs2 := (Entails.of_eq (congrArg (s2At d L) (lin_only A1 A3 (L 0).val (L 1).val (fun h => h1 (hc1.mpr h))))) $$ Hs2
    sl_exec
    ihave Ho2 := (Entails.of_eq (pointsTo_congr (hout 2 _ _ A1 A2 A3 fun y => (tileOutN_two A1 A2 A3 (L 0).val (L 1).val y).symm))) $$ Ho2
    sl_step
    unfold tdRes inRes outRes
    isplitl [H2' H3' H1' Ho0 Ho1 Ho2]
    · isplitl [H2' H3' H1']
      · isplitl [H2']; · iexact H2'
        isplitl [H3']; · iexact H3'
        iexact H1'
      isplitl [Ho0]; · iexact Ho0
      isplitl [Ho1]; · iexact Ho1
      iexact Ho2
    isplitl [Hs0 Hs1 Hs2 Hs3 Hbufs]
    · isplitl [Hs0]; · iexists _; iexact Hs0
      isplitl [Hs1]; · iexists _; iexact Hs1
      isplitl [Hs2]; · iexists _; iexact Hs2
      isplitl [Hs3]; · iexists _; iexact Hs3
      iexact Hbufs
    isplitl [Hm4 Hm5 Hc0 Hc1 Hc2 Hsems]
    · isplitl [Hm4]; · iexact Hm4
      isplitl [Hm5]; · iexact Hm5
      isplitl [Hc0]; · iexact Hc0
      isplitl [Hc1]; · iexact Hc1
      isplitl [Hc2]; · iexact Hc2
      iexact Hsems
    iexists (insert (SemLoc.dma cc0_scoped2.sem, (default : HIx 1)) (insert (SemLoc.dma cc0_scratch5.sem, (default : HIx 1)) (insert (SemLoc.dma cc0_scratch4.sem, (default : HIx 1)) (insert (SemLoc.dma cc0_scoped1.sem, (default : HIx 1)) (insert (SemLoc.dma cc0_scoped0.sem, (default : HIx 1)) W'))))); isplitr
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      · exact hW' p hp
    · iexact HO

/-- The task on the vector subcore of grid point L of device d: from the three inputs at read shares and its three
    output slices, it leaves the slices holding the accumulated planes and gives everything else back. -/
theorem tile_body (hF : (K (F := F)).Facts) (q : PosShare TreeShare)
    (A1 : Buf (Elt F) (v1Loc d)) (A2 : Buf (Elt F) (v2Loc d)) (A3 : Buf (Elt F) (v3Loc d)) (B4 : Buf (Elt F) (v4Loc d))
    (hidx : ∀ j, (A1 j).toNat < 100000)
    (O : CellTallies nD τ sig (HIx 1)) (W : Waits sig (HIx 1)) (hO : ∀ g, O g none = 0) :
    iprop(levAts (K (F := F)).L (K (F := F)).lev ∗ emp ∗ goRes d L q A1 A2 A3 B4
        ∗ scopedBufs (thrV d L) ∗ scopedSems0 (thrV d L) ∗ owes (thrV d L) O W)
      ⊢ wp frame (wpE (defs₀ (F := F)) 𝒱₀ (thrV d L) none) Set.univ
          (cc0_k L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2)
          fun _ => iprop(tdRes d L q A1 A2 A3 ∗ scopedBufs (thrV d L) ∗ scopedSems0 (thrV d L)
            ∗ ∃ W', ⌜∀ p ∈ W', p ∈ W ∨ p.2 = none⌝ ∗ owes (thrV d L) O W') :=
  tile_body_of d L (trip1V d L) (trip4V d L) (trip3V d L) (trip5V d L) (trip6V d L)
    (gathFac L) (gathLin L) (gathLin' L) (cond1_iff L) (outClosed L) hF q A1 A2 A3 B4 hidx O W hO

end Cert.Proof.KernelIdeal

end
-- ==== Proof.Kernel.Common.lean ====
/-
  The program as the launch theorem reads it, and the ghost state its proof runs over.

  The device has one TensorCore, which runs the host program, and two SparseCores of sixteen vector subcores each; the
  accumulation kernel runs once on every one of those thirty-two subcores, the combining kernel afterwards on the
  TensorCore as a pipelined region.  The ghost state has three summands: the rounds of the launch handshakes, the rounds of
  the pipelined region's staging cells, and the counters of the subcores' own copies (which need no schedule: every copy
  is waited for before its buffers are touched again).
-/
import proofs.«207209_g54674933678763_cont_9to1_m_278_38_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207209_g54674933678763_cont_9to1_m_278_38_alg».proof.Proof.Gen.Kernel
import proofs.«207209_g54674933678763_cont_9to1_m_278_38_alg».proof.Proof.Gen.Kernel.Skeleton
import proofs.«207209_g54674933678763_cont_9to1_m_278_38_alg».proof.Proof.Gen.Kernel.Launch
import proofs.«207209_g54674933678763_cont_9to1_m_278_38_alg».proof.Proof.Gen.Kernel.Points

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelined region's staging cells' rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

end Cert.Proof.Kernel

end
-- ==== Proof.Kernel.TileRes.lean ====
/-
  What one vector subcore's task of the accumulation kernel is handed and what it hands back.

  The task at the grid point (c, t) reads the three inputs (the factor table transposed to [26, 16, V], the linear
  table transposed to [26, 1, V], the index words laid out field by field) and writes three slices of 8192 words of
  the output: for j = 0 the sum over the 26 fields of the gathered factor component t, for j = 1 the sum of their
  squares, for j = 2 the partial linear sum over the fields t and t + 16.  The values are stated with the float
  operations of the instance, in the order the loops apply them.
-/
import proofs.«207209_g54674933678763_cont_9to1_m_278_38_alg».proof.Proof.Kernel.Common
import Idealize.ShloMosaic.Lib.ValueIdx

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The processor of a grid point -/

abbrev cV (L : grid0.Coords) : Fin τ.nSC := (L 0).castLE hcore0
abbrev jV (L : grid0.Coords) : Fin τ.nSub := (L 1).castLE hsub0

/-! ## The four arrays, as locations of device d -/

abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

/-! ## The values -/

section Values
variable [FloatOps F]
variable (A1 : S425984.Idx → BitVec 32) (A2 : S26x16x100000.Idx → F .f32) (A3 : S26x1x100000.Idx → F .f32)

/-- The index word of example y of half c in field f. -/
def idxW (c f : ℕ) (y : S8192.Idx) : BitVec 32 :=
  A1 (ix1 ⟨(16384 * f + 8192 * c + (y 0).val) % 425984, Nat.mod_lt _ (by norm_num)⟩)

/-- The vocabulary row that word names (the word itself when it is below the vocabulary size). -/
def rowW (c f : ℕ) (y : S8192.Idx) : Fin 100000 := ⟨(idxW A1 c f y).toNat % 100000, Nat.mod_lt _ (by norm_num)⟩

/-- Component t of the factor embedding example y of half c picks in field f. -/
def gFac (c t f : ℕ) (y : S8192.Idx) : F .f32 :=
  A2 (ix3 ⟨f % 26, Nat.mod_lt _ (by norm_num)⟩ ⟨t % 16, Nat.mod_lt _ (by norm_num)⟩ (rowW A1 c f y))

/-- The linear embedding example y of half c picks in field f. -/
def gLin (c f : ℕ) (y : S8192.Idx) : F .f32 :=
  A3 (ix3 ⟨f % 26, Nat.mod_lt _ (by norm_num)⟩ (0 : Fin 1) (rowW A1 c f y))

/-- The float zero the accumulators start from. -/
def fzero : F .f32 := FloatOps.ofBits .f32 0x00000000#32

/-- The first accumulator after n fields: zero, then each field's component added in order. -/
def accSum (c t : ℕ) : ℕ → S8192.Idx → F .f32
  | 0, _ => fzero
  | n + 1, y => FloatOps.addf (accSum c t n y) (gFac A1 A2 c t n y)

/-- The second accumulator after n fields: zero, then each field's squared component added in order. -/
def accSq (c t : ℕ) : ℕ → S8192.Idx → F .f32
  | 0, _ => fzero
  | n + 1, y => FloatOps.addf (accSq c t n y) (FloatOps.mulf (gFac A1 A2 c t n y) (gFac A1 A2 c t n y))

/-- The linear accumulator: zero plus field t, plus field t + 16 when that is a field. -/
def accLin (c t : ℕ) (y : S8192.Idx) : F .f32 :=
  if t + 16 < 26 then FloatOps.addf (FloatOps.addf fzero (gLin A1 A3 c t y)) (gLin A1 A3 c (t + 16) y)
  else FloatOps.addf fzero (gLin A1 A3 c t y)

/-- What the task of half c, subcore t leaves in its j-th output slice. -/
def tileOutN (c t j : ℕ) (y : S8192.Idx) : F .f32 :=
  if j = 0 then accSum A1 A2 c t 26 y else if j = 1 then accSq A1 A2 c t 26 y else accLin A1 A3 c t y

/-- The same at a grid point. -/
def tileOut (L : grid0.Coords) (j : Fin 3) (y : S8192.Idx) : F .f32 := tileOutN A1 A2 A3 (L 0).val (L 1).val j.val y

/-- The whole output array all the tasks leave: word 393216·c + 131072·j + 8192·t + y is task (c, t)'s j-th value at y. -/
def outBuf : S786432.Idx → F .f32 := fun x =>
  tileOutN A1 A2 A3 ((x 0).val / 393216) ((x 0).val / 8192 % 16) ((x 0).val / 131072 % 3)
    (ix1 ⟨(x 0).val % 8192, Nat.mod_lt _ (by norm_num)⟩)

end Values

/-! ## The output slices -/

abbrev outR (L : grid0.Coords) (j : Fin 3) : Rect S786432 :=
  Rect.unit (s := S786432) (k0_off9 L (BitVec.ofNat 32 j.val)) S8192.size (k0_off9_inb L j)
abbrev outM (L : grid0.Coords) (j : Fin 3) : Memref sig .scVector .hbm S8192 .f32 :=
  (Memref.whole main_v4_scv).slice (outR L j) (fun _ => rfl)
/-- The words of the output the task at L writes as its j-th slice. -/
def outSet (L : grid0.Coords) (j : Fin 3) : Finset S786432.Idx := (outM L j).view.set

/-! ## What the task holds -/

section Res
variable (d : Dev nD) (L : grid0.Coords) (q : PosShare TreeShare)
variable (A1 : Buf (Elt F) (v1Loc d)) (A2 : Buf (Elt F) (v2Loc d)) (A3 : Buf (Elt F) (v3Loc d))

/-- The three inputs, whole, at a read share. -/
def inRes : sProp 𝕄 := iprop((v2Loc d ↦{q} A2) ∗ (v3Loc d ↦{q} A3) ∗ (v1Loc d ↦{q} A1))

/-- The task's three output slices at contents f. -/
def outRes (f : Buf (Elt F) (v4Loc d)) : sProp 𝕄 :=
  iprop((v4Loc d ↦[outSet L 0]{fullShare} f) ∗ (v4Loc d ↦[outSet L 1]{fullShare} f) ∗ (v4Loc d ↦[outSet L 2]{fullShare} f))

/-- What the task is handed: the inputs to read, its output slices at the launch contents B4. -/
def goRes (B4 : Buf (Elt F) (v4Loc d)) : sProp 𝕄 := iprop(inRes d q A1 A2 A3 ∗ outRes d L B4)

/-- What the task hands back: the inputs, its output slices at the accumulated values. -/
def tdRes [FloatOps F] : sProp 𝕄 := iprop(inRes d q A1 A2 A3 ∗ outRes d L (outBuf A1 A2 A3))

/-- What the task hands back when only the footprint is stated. -/
def tdResF : sProp 𝕄 := iprop(inRes d q A1 A2 A3 ∗ (∃ f0, v4Loc d ↦[outSet L 0]{fullShare} f0) ∗ (∃ f1, v4Loc d ↦[outSet L 1]{fullShare} f1) ∗ (∃ f2, v4Loc d ↦[outSet L 2]{fullShare} f2))

end Res

end Cert.Proof.Kernel

end
-- ==== Proof.Kernel.Coords.lean ====
/-
  The grid point of a vector subcore: SparseCore c, subcore s.
-/
import proofs.«207209_g54674933678763_cont_9to1_m_278_38_alg».proof.Proof.Kernel.Common
import Idealize.ShloMosaic.Lib.Pipeline.Frame
import proofs.«207209_g54674933678763_cont_9to1_m_278_38_alg».proof.Proof.Kernel.TileRes

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

/-- The grid point (c, s) of the accumulation kernel. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

end Cert.Proof.Kernel

end
-- ==== Proof.Kernel.Host.lean ====
/-
  The host program on the TensorCore around the accumulation call: six layout operations (two transposes of the
  embedding tables, the transposed-and-flattened index matrix, and three reshapes), each run over the device's arrays
  held whole; and the contents they leave.
-/
import proofs.«207209_g54674933678763_cont_9to1_m_278_38_alg».proof.Proof.Kernel.Common
import Idealize.ShloMosaic.Lib.Pipeline.Frame

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The six host operations -/

abbrev op0 : HloOp τ sig (Elt F) := StableHlo.unary main_arg1 main_v0 ((transpose S26x16384 [1, 0] · transposes_S16384x26_S26x16384_1_0) : (⟨S16384x26, .i32⟩ : BufTy).Contents (Elt F) → (⟨S26x16384, .i32⟩ : BufTy).Contents (Elt F))
abbrev op1 : HloOp τ sig (Elt F) := StableHlo.reshape main_v0 main_v1 rfl shapeCasts_S26x16384_S425984
abbrev op2 : HloOp τ sig (Elt F) := StableHlo.unary main_arg6 main_v2 ((transpose S26x16x100000 [0, 2, 1] · transposes_S26x100000x16_S26x16x100000_0_2_1) : (⟨S26x100000x16, .f32⟩ : BufTy).Contents (Elt F) → (⟨S26x16x100000, .f32⟩ : BufTy).Contents (Elt F))
abbrev op3 : HloOp τ sig (Elt F) := StableHlo.unary main_arg4 main_v3 ((transpose S26x1x100000 [0, 2, 1] · transposes_S26x100000x1_S26x1x100000_0_2_1) : (⟨S26x100000x1, .f32⟩ : BufTy).Contents (Elt F) → (⟨S26x1x100000, .f32⟩ : BufTy).Contents (Elt F))
abbrev op4 : HloOp τ sig (Elt F) := StableHlo.reshape main_v4 main_v5 rfl shapeCasts_S786432_S2x3x16x8192
abbrev op5 : HloOp τ sig (Elt F) := StableHlo.reshape main_arg2 main_v6 rfl shapeCasts_S1_S1x1

abbrev r (b : Ref sig .tc) : DevRef τ sig := Proc.devRef .tc b

/-- The TensorCore's arrays (all of them unscoped). -/
abbrev SA : Finset (DevRef τ sig) := Pipeline.ucRefs τ sig

/-- The launch valuation. -/
def V0 (d : Dev nD) : Valuation τ sig (Elt F) := fun b => m (d, b)

theorem hop0 : (op0 (F := F)).bufs ⊆ SA := show ({r main_arg1, r main_v0} : Finset (DevRef τ sig)) ⊆ SA by decide
theorem hop1 : (op1 (F := F)).bufs ⊆ SA := show ({r main_v0, r main_v1} : Finset (DevRef τ sig)) ⊆ SA by decide
theorem hop2 : (op2 (F := F)).bufs ⊆ SA := show ({r main_arg6, r main_v2} : Finset (DevRef τ sig)) ⊆ SA by decide
theorem hop3 : (op3 (F := F)).bufs ⊆ SA := show ({r main_arg4, r main_v3} : Finset (DevRef τ sig)) ⊆ SA by decide
theorem hop4 : (op4 (F := F)).bufs ⊆ SA := show ({r main_v4, r main_v5} : Finset (DevRef τ sig)) ⊆ SA by decide
theorem hop5 : (op5 (F := F)).bufs ⊆ SA := show ({r main_arg2, r main_v6} : Finset (DevRef τ sig)) ⊆ SA by decide

/-- The contents after the four operations before the call. -/
def V4 (d : Dev nD) : Valuation τ sig (Elt F) := (op3 (F := F)).result ((op2 (F := F)).result ((op1 (F := F)).result ((op0 (F := F)).result (V0 m d))))

/-- The four operations before the call, from the launch contents. -/
theorem pre_call (d : Dev nD) {α : Type} (k : Prog (TpuEff nD τ sig (Elt F) (SparseCore.Sig (ΛP (F := F)) 1) .tc) α) (Φ : α → sProp 𝕄) :
    iprop(boundary (SparseCore.T d) ∗ (held (SparseCore.T d) SA (V0 m d) : sProp 𝕄)
        ∗ ((boundary (SparseCore.T d) ∗ (held (SparseCore.T d) SA (V4 m d) : sProp 𝕄)) -∗ wp frame (wpE ((K (F := F)).defs (D (F := F))) 𝒱 (SparseCore.T d) none) Set.univ k Φ))
      ⊢ wp frame (wpE ((K (F := F)).defs (D (F := F))) 𝒱 (SparseCore.T d) none) Set.univ
          (hlo rfl (op0 (F := F)) (fun _ => hlo rfl (op1 (F := F)) (fun _ => hlo rfl (op2 (F := F)) (fun _ => hlo rfl (op3 (F := F)) (fun _ => k))))) Φ := by
  iintro ⟨Hb, Hh, Hk⟩
  iapply (wp_hlo_within 𝒱 (SparseCore.T d) none Set.univ (op := op0) (S := SA) hop0 (V := V0 m d)) $$ [Hb Hh]
  · isplitl [Hb] <;> iassumption
  iintro ⟨Hb, Hh⟩
  iapply (wp_hlo_within 𝒱 (SparseCore.T d) none Set.univ (op := op1) (S := SA) hop1) $$ [Hb Hh]
  · isplitl [Hb] <;> iassumption
  iintro ⟨Hb, Hh⟩
  iapply (wp_hlo_within 𝒱 (SparseCore.T d) none Set.univ (op := op2) (S := SA) hop2) $$ [Hb Hh]
  · isplitl [Hb] <;> iassumption
  iintro ⟨Hb, Hh⟩
  iapply (wp_hlo_within 𝒱 (SparseCore.T d) none Set.univ (op := op3) (S := SA) hop3) $$ [Hb Hh]
  · isplitl [Hb] <;> iassumption
  iintro ⟨Hb, Hh⟩
  iapply Hk
  isplitl [Hb]; · iexact Hb
  iexact Hh

/-- The two reshapes after the call, over any set of arrays that holds theirs. -/
theorem post_call (d : Dev nD) (SB : Finset (DevRef τ sig)) (h4 : (op4 (F := F)).bufs ⊆ SB) (h5 : (op5 (F := F)).bufs ⊆ SB) (Vc : Valuation τ sig (Elt F))
    {α : Type} (k : Prog (TpuEff nD τ sig (Elt F) (SparseCore.Sig (ΛP (F := F)) 1) .tc) α) (Φ : α → sProp 𝕄) :
    iprop(boundary (SparseCore.T d) ∗ (held (SparseCore.T d) SB Vc : sProp 𝕄)
        ∗ ((boundary (SparseCore.T d) ∗ (held (SparseCore.T d) SB ((op5 (F := F)).result ((op4 (F := F)).result Vc)) : sProp 𝕄))
            -∗ wp frame (wpE ((K (F := F)).defs (D (F := F))) 𝒱 (SparseCore.T d) none) Set.univ k Φ))
      ⊢ wp frame (wpE ((K (F := F)).defs (D (F := F))) 𝒱 (SparseCore.T d) none) Set.univ
          (hlo rfl (op4 (F := F)) (fun _ => hlo rfl (op5 (F := F)) (fun _ => k))) Φ := by
  iintro ⟨Hb, Hh, Hk⟩
  iapply (wp_hlo_within 𝒱 (SparseCore.T d) none Set.univ (op := op4) (S := SB) h4 (V := Vc)) $$ [Hb Hh]
  · isplitl [Hb] <;> iassumption
  iintro ⟨Hb, Hh⟩
  iapply (wp_hlo_within 𝒱 (SparseCore.T d) none Set.univ (op := op5) (S := SB) h5) $$ [Hb Hh]
  · isplitl [Hb] <;> iassumption
  iintro ⟨Hb, Hh⟩
  iapply Hk
  isplitl [Hb]; · iexact Hb
  iexact Hh

omit [FloatOps F] in
/-- An array held whole is what the final memory holds there. -/
theorem agree_whole (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

end Cert.Proof.Kernel

end
-- ==== Proof.Kernel.Pay.lean ====
/-
  What the launch handshakes carry.  The TensorCore's start hands each SparseCore a read share of the three inputs and
  the output slices of its sixteen subcores; the sequencer's go hands each subcore a read share of the inputs and its
  three slices; taskDone and done bring the slices back at the accumulated values (the read shares are not needed
  again and are let go).
-/
import proofs.«207209_g54674933678763_cont_9to1_m_278_38_alg».proof.Proof.Kernel.Common
import Idealize.ShloMosaic.Lib.Pipeline.Frame
import proofs.«207209_g54674933678763_cont_9to1_m_278_38_alg».proof.Proof.Kernel.Coords
import proofs.«207209_g54674933678763_cont_9to1_m_278_38_alg».proof.Proof.Kernel.Host

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

open Idealize.ShloMosaic.Transfers (shareTok shareDrop pointsTo_toks)

variable (m : (ℓ : Loc nD τ sig) → Buf (Elt F) ℓ) (ρ : Dev nD → PrngReg)
variable [FloatOps F]

/-! ## The arrays' contents when the call is made -/

def A1 (d : Dev nD) : Buf (Elt F) (v1Loc d) := V4 m d (r main_v1)
def A2 (d : Dev nD) : Buf (Elt F) (v2Loc d) := V4 m d (r main_v2)
def A3 (d : Dev nD) : Buf (Elt F) (v3Loc d) := V4 m d (r main_v3)
def B4 (d : Dev nD) : Buf (Elt F) (v4Loc d) := V4 m d (r main_v4)

/-- A SparseCore's read share, and a subcore's. -/
abbrev qC (c : Fin 2) : PosShare TreeShare := shareTok fullShare 2 c
abbrev qT (c : Fin 2) (i : Fin 16) : PosShare TreeShare := shareTok (qC c) 16 i

abbrev c2 (c : Fin ((K (F := F)).nCore 0)) : Fin 2 := Fin.cast nCore_zero c
abbrev i16 (i : Fin ((K (F := F)).nSub 0)) : Fin 16 := Fin.cast nSub_zero i

/-- The grid point of subcore i of SparseCore c of the call's grid. -/
abbrev LV (c : Fin ((K (F := F)).nCore 0)) (i : Fin ((K (F := F)).nSub 0)) : grid0.Coords :=
  coordsV (Fin.cast (nCore_zero.trans bound_zero.symm) c) (Fin.cast (nSub_zero.trans bound_one.symm) i)

def stRes (d : Dev nD) (c : Fin ((K (F := F)).nCore 0)) : sProp 𝕄 :=
  iprop(inRes d (qC (c2 c)) (A1 m d) (A2 m d) (A3 m d) ∗ bigSep Finset.univ fun i : Fin ((K (F := F)).nSub 0) => outRes d (LV c i) (B4 m d))
def dnRes (d : Dev nD) (c : Fin ((K (F := F)).nCore 0)) : sProp 𝕄 :=
  bigSep Finset.univ fun i : Fin ((K (F := F)).nSub 0) => outRes d (LV c i) (outBuf (A1 m d) (A2 m d) (A3 m d))

def P : (K (F := F)).Pay (nD := nD) (Val := Elt F) (Name := ℕ) (U := UU) where
  st := fun q d c => match q with | 0 => stRes m d c
  dn := fun q d c => match q with | 0 => dnRes m d c
  go := fun q d c i => match q with | 0 => goRes d (LV c i) (qT (c2 c) (i16 i)) (A1 m d) (A2 m d) (A3 m d) (B4 m d)
  td := fun q d c i => match q with | 0 => tdRes d (LV c i) (qT (c2 c) (i16 i)) (A1 m d) (A2 m d) (A3 m d)
  x := fun _ _ => iprop(emp)

instance stRes_storable (d : Dev nD) (c : Fin ((K (F := F)).nCore 0)) : BI.Storable (upEmb : UEmb _ 𝕄) (stRes m d c) := by
  unfold stRes inRes outRes; infer_instance
instance dnRes_storable (d : Dev nD) (c : Fin ((K (F := F)).nCore 0)) : BI.Storable (upEmb : UEmb _ 𝕄) (dnRes m d c) := by
  unfold dnRes outRes; infer_instance
omit [FloatOps F] in
instance goRes_storable (d : Dev nD) (L : grid0.Coords) (q : PosShare TreeShare) (a1 : Buf (Elt F) (v1Loc d)) (a2 : Buf (Elt F) (v2Loc d)) (a3 : Buf (Elt F) (v3Loc d))
    (b4 : Buf (Elt F) (v4Loc d)) : BI.Storable (upEmb : UEmb _ 𝕄) (goRes d L q a1 a2 a3 b4) := by
  unfold goRes inRes outRes; infer_instance
instance tdRes_storable (d : Dev nD) (L : grid0.Coords) (q : PosShare TreeShare) (a1 : Buf (Elt F) (v1Loc d)) (a2 : Buf (Elt F) (v2Loc d)) (a3 : Buf (Elt F) (v3Loc d)) :
    BI.Storable (upEmb : UEmb _ 𝕄) (tdRes d L q a1 a2 a3) := by
  unfold tdRes inRes outRes; infer_instance

instance P_storable : (P (F := F) m).IsStorable where
  st q d c := match q with | 0 => stRes_storable m d c
  dn q d c := match q with | 0 => dnRes_storable m d c
  go q d c i := match q with | 0 => goRes_storable d _ _ _ _ _ _
  td q d c i := match q with | 0 => tdRes_storable d _ _ _ _ _

end Cert.Proof.Kernel

end
-- ==== Proof.Kernel.Launch1.lean ====
/-
  The launch theorem's obligations for the accumulation call: a subcore's task (from the body's run at a symbolic grid
  point) and the split of a SparseCore's operands among its sixteen subcores.
-/
import proofs.«207209_g54674933678763_cont_9to1_m_278_38_alg».proof.Proof.Kernel.Common
import Idealize.ShloMosaic.Lib.Pipeline.Frame
import proofs.«207209_g54674933678763_cont_9to1_m_278_38_alg».proof.Proof.Kernel.Pay

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

open Idealize.ShloMosaic.Transfers (shareTok shareDrop pointsTo_toks)

variable (m : (ℓ : Loc nD τ sig) → Buf (Elt F) ℓ) (ρ : Dev nD → PrngReg)
variable [FloatOps F]

/-- The run of one subcore's task at a symbolic grid point, as the launch uses it: from the inputs at a read share and
    the task's three output slices, and the subcore's own scoped storage, to the slices at the accumulated values. -/
def TileBody : Prop :=
  ∀ (d : Dev nD) (L : grid0.Coords) (q : PosShare TreeShare) (O : CellTallies nD τ sig (HIx 1)) (W : Waits sig (HIx 1)), (∀ g, O g none = 0) →
    iprop(levAts (K (F := F)).L (K (F := F)).lev ∗ emp ∗ goRes d L q (A1 m d) (A2 m d) (A3 m d) (B4 m d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_v2_scv) (Memref.isWhole_whole _) (Memref.whole main_v3_scv) (Memref.isWhole_whole _)
            (Memref.whole main_v1_scv) (Memref.isWhole_whole _) (Memref.whole main_v4_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scoped0 cc0_scoped1 cc0_scoped2)
          fun _ => iprop(tdRes d L q (A1 m d) (A2 m d) (A3 m d) ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 0 ()
      = SparseCore.onTile hcore0 hsub0 (fun c s => cc0_k (coordsV c s) (Memref.whole main_v2_scv) (Memref.isWhole_whole _) (Memref.whole main_v3_scv) (Memref.isWhole_whole _)
            (Memref.whole main_v1_scv) (Memref.isWhole_whole _) (Memref.whole main_v4_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) _ O W hO).trans (wp_mono frame _ _ fun _ => obl_post)

omit [FloatOps F] in
/-- A read share of the three inputs splits into n smaller ones (the remainder is let go). -/
theorem inRes_split (d : Dev nD) (q : PosShare TreeShare) (n : ℕ) (a1 : Buf (Elt F) (v1Loc d)) (a2 : Buf (Elt F) (v2Loc d)) (a3 : Buf (Elt F) (v3Loc d)) :
    (inRes d q a1 a2 a3 : sProp 𝕄) ⊢ bigSep Finset.univ fun i : Fin n => inRes d (shareTok q n i) a1 a2 a3 := by
  unfold inRes
  simp only [bigSep_sep']
  iintro ⟨H2, H3, H1⟩
  ihave H2' := (pointsTo_toks (ℓ := v2Loc d) (S := Finset.univ) (f := a2) q n).1 $$ H2
  icases H2' with ⟨-, H2⟩
  ihave H3' := (pointsTo_toks (ℓ := v3Loc d) (S := Finset.univ) (f := a3) q n).1 $$ H3
  icases H3' with ⟨-, H3⟩
  ihave H1' := (pointsTo_toks (ℓ := v1Loc d) (S := Finset.univ) (f := a1) q n).1 $$ H1
  icases H1' with ⟨-, H1⟩
  isplitl [H2]; · iexact H2
  isplitl [H3]; · iexact H3
  iexact H1

theorem vecSplit : (K (F := F)).VecSplit' (P m) 0 := by
  intro d c
  show stRes m d c ⊢ |={Set.univ}=> iprop(
      (bigSep Finset.univ fun i : Fin ((K (F := F)).nSub 0) => goRes d (LV c i) (qT (c2 c) (i16 i)) (A1 m d) (A2 m d) (A3 m d) (B4 m d))
      ∗ ((bigSep Finset.univ fun i : Fin ((K (F := F)).nSub 0) => tdRes d (LV c i) (qT (c2 c) (i16 i)) (A1 m d) (A2 m d) (A3 m d)) -∗ dnRes m d c))
  unfold stRes dnRes goRes tdRes
  simp only [bigSep_sep']
  iintro ⟨Hin, Hout⟩
  ihave Hin' := (inRes_split d (qC (c2 c)) 16 (A1 m d) (A2 m d) (A3 m d)) $$ Hin
  imodintro
  isplitl [Hin' Hout]
  · isplitl [Hin']; · iexact Hin'
    iexact Hout
  iintro ⟨-, Hout⟩
  iexact Hout

end Cert.Proof.Kernel

end
-- ==== Proof.Kernel.RegionData.lean ====
/-
  The combining kernel as a pipelined region: what it computes, array by array.

  The region walks 32 points.  At point t it stages, of the accumulated planes [2, 3, 16, 8192], the block
  [t / 16, :, :, (t % 16) * 512 .. + 512); of the dense features rows t * 512 .. + 512; the dense factors, the linear weight
  row and the bias whole; and writes rows t * 512 .. + 512 of the result from the body's arithmetic on those blocks.
  So row r of the result is the body's arithmetic at point r / 512, read at row r % 512.
-/
import proofs.«207209_g54674933678763_cont_9to1_m_278_38_alg».proof.Proof.Kernel.Common
import Idealize.ShloMosaic.Lib.Pipeline.FrameBody

noncomputable section

namespace Cert.Proof.Kernel

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-- The region has no prefetched table. -/
abbrev adm : (p : Fin 1) → (pcfgs (F := F) p).Adm := fun p => (cfgs p).toPCfg_adm

/-! ## The arrays' contents when the region is entered, and the blocks the points stage -/

abbrev C5 (F : FTy → Type) : Type := (⟨S2x3x16x8192, .f32⟩ : BufTy).Contents (Elt F)
abbrev C0 (F : FTy → Type) : Type := (⟨S16384x13, .f32⟩ : BufTy).Contents (Elt F)
abbrev Cvn (F : FTy → Type) : Type := (⟨S13x16, .f32⟩ : BufTy).Contents (Elt F)
abbrev CW (F : FTy → Type) : Type := (⟨S1x13, .f32⟩ : BufTy).Contents (Elt F)
abbrev Cb (F : FTy → Type) : Type := (⟨S1x1, .f32⟩ : BufTy).Contents (Elt F)
abbrev C7 (F : FTy → Type) : Type := (⟨S16384x1, .f32⟩ : BufTy).Contents (Elt F)

/-- The blocks the pipeline stages at point `t`, read off the arrays. -/
def blk5 (X5 : C5 F) (t : Fin cfg1.N) : Vec F S1x3x16x512 .f32 := ((cfg1.win 0).blk t).view.read (Elt F) X5
def blk0 (X0 : C0 F) (t : Fin cfg1.N) : Vec F S512x13 .f32 := ((cfg1.win 1).blk t).view.read (Elt F) X0
def blkvn (Xvn : Cvn F) (t : Fin cfg1.N) : Vec F S13x16 .f32 := ((cfg1.win 2).blk t).view.read (Elt F) Xvn
def blkW (XW : CW F) (t : Fin cfg1.N) : Vec F S1x13 .f32 := ((cfg1.win 3).blk t).view.read (Elt F) XW
def blkb (Xb : Cb F) (t : Fin cfg1.N) : Vec F S1x1 .f32 := ((cfg1.win 4).blk t).view.read (Elt F) Xb

/-- What the body computes at point `t`: its arithmetic on the five staged blocks, 512 rows of the result. -/
def payAt (X5 : C5 F) (X0 : C0 F) (Xvn : Cvn F) (XW : CW F) (Xb : Cb F) (t : Fin cfg1.N) : Vec F S512x1 .f32 :=
  k1_pay1 (blk5 X5 t) (blk0 X0 t) (blkvn Xvn t) (blkW XW t) (blkb Xb t)

/-- THE RESULT, whole: row `r` is the body's arithmetic at point `r / 512`, read at row `r % 512`. -/
def regionOut (X5 : C5 F) (X0 : C0 F) (Xvn : Cvn F) (XW : CW F) (Xb : Cb F) : C7 F := fun j =>
  payAt X5 X0 Xvn XW Xb ⟨(j 0).val / 512, by have h : (j 0).val < 16384 := (j 0).isLt; show (j 0).val / 512 < 32; omega⟩
    (fun a => match a with
      | ⟨0, _⟩ => ⟨(j 0).val % 512, Nat.mod_lt _ (by norm_num)⟩
      | ⟨1, _⟩ => ⟨0, by norm_num⟩)

/-! ## The pipeline's proof data -/

/-- The six arrays at region entry, by window. -/
def arrs (d : Dev nD) (X5 : C5 F) (X0 : C0 F) (Xvn : Cvn F) (XW : CW F) (Xb : Cb F) (X7 : C7 F) :
    (w : Fin cfg1.W) → Buf (Elt F) ((cfg1.win w).arr.view.loc (d : Thread nD τ))
  | ⟨0, _⟩ => X5
  | ⟨1, _⟩ => X0
  | ⟨2, _⟩ => Xvn
  | ⟨3, _⟩ => XW
  | ⟨4, _⟩ => Xb
  | ⟨5, _⟩ => X7

/-- The proof data on core `d`: the arrays as the region finds them; after the body at point `t` each input's buffer at its
    block and the result's at the body's arithmetic on them; as invariant the scoped buffers no window stages (none); nothing
    owed; full shares. -/
def dats (X5 : C5 F) (X0 : C0 F) (Xvn : Cvn F) (XW : CW F) (Xb : Cb F) (X7 : C7 F) (_ : Fin 1) (d : Dev nD) :
    Dat τ (Elt F) (HIx 1) ℕ UU ℕ cfg1 d where
  A := arrs d X5 X0 Xvn XW Xb X7
  after w t := match w with
    | ⟨0, _⟩ => blk5 X5 t
    | ⟨1, _⟩ => blk0 X0 t
    | ⟨2, _⟩ => blkvn Xvn t
    | ⟨3, _⟩ => blkW XW t
    | ⟨4, _⟩ => blkb Xb t
    | ⟨5, _⟩ => payAt X5 X0 Xvn XW Xb t
  Φ _ := Pipeline.scopedRest (Ix := HIx 1) (Name := ℕ) (U := UU) (Lvl := ℕ) (Val := Elt F) spec1 d
  q _ := fullShare
  owed _ := 0

end Cert.Proof.Kernel

end
-- ==== Proof.Kernel.Vals.lean ====
/-
  The arrays' contents along the host program: after the accumulation call, after the two reshapes; and the result
  array the combining region leaves.
-/
import proofs.«207209_g54674933678763_cont_9to1_m_278_38_alg».proof.Proof.Kernel.Common
import Idealize.ShloMosaic.Lib.Pipeline.Frame
import proofs.«207209_g54674933678763_cont_9to1_m_278_38_alg».proof.Proof.Kernel.Pay
import proofs.«207209_g54674933678763_cont_9to1_m_278_38_alg».proof.Proof.Kernel.RegionData

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## The valuations along the program -/

/-- After the call: the output array at the accumulated values. -/
def Vc (d : Dev nD) : Valuation τ sig (Elt F) := Function.update (V4 m d) (r main_v4) (outBuf (A1 m d) (A2 m d) (A3 m d))
/-- After the two reshapes. -/
def V6 (d : Dev nD) : Valuation τ sig (Elt F) := (op5 (F := F)).result ((op4 (F := F)).result (Vc m d))

/-- The result array. -/
def OUT (d : Dev nD) : C7 F :=
  regionOut (V6 m d (r main_v5)) (V6 m d (r main_arg0)) (V6 m d (r main_arg5)) (V6 m d (r main_arg3)) (V6 m d (r main_v6))

end Cert.Proof.Kernel

end
-- ==== Proof.Kernel.OutCover.lean ====
/-
  The output slices of the accumulation kernel's thirty-two tasks tile the output array.

  The array has 786432 = 96 · 8192 words.  The task at the grid point (c, t) writes, as its j-th slice (j = 0, 1, 2), the
  8192 consecutive words from 393216·c + 131072·j + 8192·t: block number 48·c + 16·j + t of the 96 blocks of 8192 words.
  The map (c, t, j) ↦ 48·c + 16·j + t is a bijection from [0,2) × [0,16) × [0,3) onto [0,96) (c is the quotient by 48,
  j the quotient by 16 modulo 3, t the remainder modulo 16), so the slices are pairwise disjoint and cover the array, and
  holding the whole array is holding every task's three slices.
-/
import proofs.«207209_g54674933678763_cont_9to1_m_278_38_alg».proof.Proof.Kernel.Coords

noncomputable section

namespace Cert.Proof.Kernel

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The ninety-six blocks -/

theorem hdiv96 : 96 ∣ S786432.size 0 := ⟨8192, rfl⟩

/-- The block number of the j-th slice of the task at L. -/
def blk (L : grid0.Coords) (j : Fin 3) : Fin 96 :=
  ⟨48 * (L 0).val + 16 * j.val + (L 1).val, by
    have h0 : (L 0).val < 2 := (L 0).isLt
    have h1 : (L 1).val < 16 := (L 1).isLt
    have := j.isLt
    omega⟩

/-- The slice's rectangle is that block. -/
theorem outR_eq (L : grid0.Coords) (j : Fin 3) :
    outR L j = Rect.part (s := S786432) (a₀ := 0) hdiv96 (blk L j) := by
  unfold outR Rect.part Rect.block
  congr 1 <;> funext a
  · rw [k0_off9_eq]
    have ha : a = 0 := Subsingleton.elim _ _
    subst ha
    show 393216 * (L 0).val + 131072 * j.val + 8192 * (L 1).val
      = (48 * (L 0).val + 16 * j.val + (L 1).val) * (786432 / 96)
    omega
  · have ha : a = 0 := Subsingleton.elim _ _
    subst ha
    show 8192 = 786432 / 96
    rfl

/-- The slice's words are that block's. -/
theorem outSet_eq (L : grid0.Coords) (j : Fin 3) :
    outSet L j = (Rect.part (s := S786432) (a₀ := 0) hdiv96 (blk L j)).set := by
  unfold outSet
  show ((View.whole (main_v4_scv : Ref sig .scVector)).slice (outR L j)).set = _
  rw [View.set_slice_whole, outR_eq]

/-! ## The slices, indexed by (c, t, j) -/

abbrev TT : Type := Fin (grid0.bound 0) × Fin (grid0.bound 1) × Fin 3

/-- The words of the slice (c, t, j). -/
def KK (x : TT) : Finset S786432.Idx := outSet (coordsV x.1 x.2.1) x.2.2

/-- Different slices are different blocks. -/
theorem blk_inj (x x' : TT) (h : blk (coordsV x.1 x.2.1) x.2.2 = blk (coordsV x'.1 x'.2.1) x'.2.2) : x = x' := by
  obtain ⟨c, i, j⟩ := x
  obtain ⟨c', i', j'⟩ := x'
  have h' : 48 * c.val + 16 * j.val + i.val = 48 * c'.val + 16 * j'.val + i'.val := congrArg Fin.val h
  have hc : c.val < 2 := c.isLt
  have hc' : c'.val < 2 := c'.isLt
  have hi : i.val < 16 := i.isLt
  have hi' : i'.val < 16 := i'.isLt
  have hj := j.isLt
  have hj' := j'.isLt
  have e1 : c = c' := Fin.ext (by omega)
  have e2 : i = i' := Fin.ext (by omega)
  have e3 : j = j' := Fin.ext (by omega)
  rw [e1, e2, e3]

theorem KK_disjoint : ∀ x ∈ (Finset.univ : Finset TT), ∀ x' ∈ (Finset.univ : Finset TT), x ≠ x' → Disjoint (KK x) (KK x') :=
  fun x _ x' _ h => by
    unfold KK
    rw [outSet_eq, outSet_eq]
    exact Rect.part_disjoint hdiv96 fun e => h (blk_inj x x' e)

theorem KK_cover : (Finset.univ : Finset TT).biUnion KK = Finset.univ := by
  ext x
  simp only [Finset.mem_biUnion, Finset.mem_univ, true_and, iff_true]
  obtain ⟨n, hn⟩ := Rect.exists_mem_part hdiv96 x
  have hn' := n.isLt
  refine ⟨(⟨n.val / 48, show n.val / 48 < 2 by omega⟩, ⟨n.val % 16, show n.val % 16 < 16 by omega⟩,
    ⟨n.val / 16 % 3, by omega⟩), ?_⟩
  unfold KK
  rw [outSet_eq]
  have e : blk (coordsV ⟨n.val / 48, show n.val / 48 < 2 by omega⟩ ⟨n.val % 16, show n.val % 16 < 16 by omega⟩)
      ⟨n.val / 16 % 3, by omega⟩ = n :=
    Fin.ext (by show 48 * (n.val / 48) + 16 * (n.val / 16 % 3) + n.val % 16 = n.val; omega)
  rw [e]
  exact hn

/-! ## The whole array is the tasks' slices -/

theorem bigSep_three (Φ : Fin 3 → sProp 𝕄) : bigSep Finset.univ Φ = iprop(Φ 0 ∗ Φ 1 ∗ Φ 2) := by
  rw [show (Finset.univ : Finset (Fin 3)) = {0, 1, 2} from by decide, bigSep_insert (by decide),
    bigSep_insert (by decide), bigSep_singleton]
  rfl

/-- Holding the whole output array at contents f is holding every task's three slices at f. -/
theorem v4_split (d : Dev nD) (f : Buf (Elt F) (v4Loc d)) :
    (v4Loc d ↦{fullShare} f : sProp 𝕄)
      = bigSep Finset.univ fun c : Fin (grid0.bound 0) => bigSep Finset.univ fun i : Fin (grid0.bound 1) =>
          outRes d (coordsV c i) f := by
  have h1 : (v4Loc d ↦{fullShare} f : sProp 𝕄)
      = bigSep (Finset.univ : Finset TT) fun x => v4Loc d ↦[KK x]{fullShare} f := by
    rw [← pointsTo_biUnion Finset.univ (ℓ := v4Loc d) KK KK_disjoint, KK_cover]; try rfl
  rw [h1, bigSep_univ_prod]
  refine bigSep_congr fun c _ => ?_
  rw [bigSep_univ_prod]
  refine bigSep_congr fun i _ => ?_
  rw [bigSep_three]
  rfl

end Cert.Proof.Kernel

end
-- ==== Proof.Kernel.RegionBody.lean ====
/-
  The combining kernel's body at one point: it loads its five input blocks, computes, and stores the 512 rows of the result;
  the inputs' staging buffers are left as found.
-/
import proofs.«207209_g54674933678763_cont_9to1_m_278_38_alg».proof.Proof.Kernel.RegionData
import Idealize.ShloMosaic.Lib.Tactic
import Idealize.ShloMosaic.Lib.Pipeline.Value

noncomputable section

namespace Cert.Proof.Kernel

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

theorem hz2 : (![0, 0] : Fin 2 → Nat) = fun _ => 0 := funext fun a => by fin_cases a <;> rfl
theorem hz4 : (![0, 0, 0, 0] : Fin 4 → Nat) = fun _ => 0 := funext fun a => by fin_cases a <;> rfl

abbrev r5 : Rect S512x1 := Rect.unit (s := S512x1) ![0, 0] S512x1.size inb_S512x1_S512x1_0_0

theorem cover5 (p0 : Vec F S512x1 .f32) (y : S512x1.Idx) :
    ∃ pc ∈ ([⟨r5, p0⟩] : List (View.Piece (Elt F) S512x1 .f32)), y ∈ pc.1.set :=
  View.cover_of_tiled [⟨r5, p0⟩] S512x1.size (by rfl) y

set_option maxHeartbeats 1000000 in
/-- The body on whole staging memrefs, the inputs' at read contents and the result's at anything, runs to the continuation
    holding the inputs' as they were and the result's at the body's arithmetic on them. -/
theorem sound_kernel (c : Dev nD) (E : Set ℕ) (i : grid1.Coords)
    (arg1 : Memref sig .tc .vmem S1x3x16x512 .f32) (harg1 : arg1.IsWhole) (arg2 : Memref sig .tc .vmem S512x13 .f32) (harg2 : arg2.IsWhole)
    (arg3 : Memref sig .tc .vmem S13x16 .f32) (harg3 : arg3.IsWhole) (arg4 : Memref sig .tc .vmem S1x13 .f32) (harg4 : arg4.IsWhole)
    (arg5 : Memref sig .tc .vmem S1x1 .f32) (harg5 : arg5.IsWhole) (arg6 : Memref sig .tc .vmem S512x1 .f32) (harg6 : arg6.IsWhole)
    (x0 : Vec F S1x3x16x512 .f32) (x1 : Vec F S512x13 .f32) (x2 : Vec F S13x16 .f32) (x3 : Vec F S1x13 .f32) (x4 : Vec F S1x1 .f32)
    (Kk : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ Kk ⟨⟩))
      ⊢ wp frame (wpE (defs₀ (F := F)) 𝒱₀ c none) E (cc1_body i arg1 harg1 arg2 harg2 arg3 harg3 arg4 harg4 arg5 harg5 arg6 harg6) Kk := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover5 _)).trans ?_
  rw [View.canon_unit_zero hz2]
  show k1_pay1 (View.ld (View.read (Elt F) arg1.view f0) (Rect.unit (s := S1x3x16x512) ![0, 0, 0, 0] S1x3x16x512.size inb_S1x3x16x512_S1x3x16x512_0_0_0_0))
      (View.ld (View.read (Elt F) arg2.view f1) (Rect.unit (s := S512x13) ![0, 0] S512x13.size inb_S512x13_S512x13_0_0))
      (View.ld (View.read (Elt F) arg3.view f2) (Rect.unit (s := S13x16) ![0, 0] S13x16.size inb_S13x16_S13x16_0_0))
      (View.ld (View.read (Elt F) arg4.view f3) (Rect.unit (s := S1x13) ![0, 0] S1x13.size inb_S1x13_S1x13_0_0))
      (View.ld (View.read (Elt F) arg5.view f4) (Rect.unit (s := S1x1) ![0, 0] S1x1.size inb_S1x1_S1x1_0_0)) = _
  rw [View.ld_unit_zero (S := S1x3x16x512) hz4, View.ld_unit_zero (S := S512x13) hz2, View.ld_unit_zero (S := S13x16) hz2,
    View.ld_unit_zero (S := S1x13) hz2, View.ld_unit_zero (S := S1x1) hz2]

/-! ## What the body is handed and what it leaves, window by window -/

section Obligation

variable (X5 : C5 F) (X0 : C0 F) (Xvn : Cvn F) (XW : CW F) (Xb : Cb F) (X7 : C7 F) (d : Dev nD)

theorem A1_0 : (dats X5 X0 Xvn XW Xb X7 0 d).A 0 = X5 := by dsimp only [dats, arrs]
theorem A1_1 : (dats X5 X0 Xvn XW Xb X7 0 d).A 1 = X0 := by dsimp only [dats, arrs]
theorem A1_2 : (dats X5 X0 Xvn XW Xb X7 0 d).A 2 = Xvn := by dsimp only [dats, arrs]
theorem A1_3 : (dats X5 X0 Xvn XW Xb X7 0 d).A 3 = XW := by dsimp only [dats, arrs]
theorem A1_4 : (dats X5 X0 Xvn XW Xb X7 0 d).A 4 = Xb := by dsimp only [dats, arrs]
theorem A1_5 : (dats X5 X0 Xvn XW Xb X7 0 d).A 5 = X7 := by dsimp only [dats, arrs]

theorem after1_0 (t : Fin cfg1.N) : (dats X5 X0 Xvn XW Xb X7 0 d).after 0 t = blk5 X5 t := by dsimp only [dats]
theorem after1_1 (t : Fin cfg1.N) : (dats X5 X0 Xvn XW Xb X7 0 d).after 1 t = blk0 X0 t := by dsimp only [dats]
theorem after1_2 (t : Fin cfg1.N) : (dats X5 X0 Xvn XW Xb X7 0 d).after 2 t = blkvn Xvn t := by dsimp only [dats]
theorem after1_3 (t : Fin cfg1.N) : (dats X5 X0 Xvn XW Xb X7 0 d).after 3 t = blkW XW t := by dsimp only [dats]
theorem after1_4 (t : Fin cfg1.N) : (dats X5 X0 Xvn XW Xb X7 0 d).after 4 t = blkb Xb t := by dsimp only [dats]
theorem after1_5 (t : Fin cfg1.N) : (dats X5 X0 Xvn XW Xb X7 0 d).after 5 t = payAt X5 X0 Xvn XW Xb t := by dsimp only [dats]

/-- Each input's current staging buffer holds its block at every point, fetched there or not: unfetched, the block index
    has not moved and the body left the block in place. -/
theorem before1_0 (t : Fin cfg1.N) (dd) : (dats X5 X0 Xvn XW Xb X7 0 d).before 0 t dd = blk5 X5 t :=
  ((dats X5 X0 Xvn XW Xb X7 0 d).before_in_eq_fetched 0 rfl (fun _ => rfl) (fun _ _ _ => rfl)
      (fun t => by rw [after1_0]; unfold Dat.blockOf blk5; rw [A1_0]; try rfl) t dd).trans
    (by unfold Dat.fetched Dat.blockOf blk5; rw [A1_0]; try rfl)
theorem before1_1 (t : Fin cfg1.N) (dd) : (dats X5 X0 Xvn XW Xb X7 0 d).before 1 t dd = blk0 X0 t :=
  ((dats X5 X0 Xvn XW Xb X7 0 d).before_in_eq_fetched 1 rfl (fun _ => rfl) (fun _ _ _ => rfl)
      (fun t => by rw [after1_1]; unfold Dat.blockOf blk0; rw [A1_1]; try rfl) t dd).trans
    (by unfold Dat.fetched Dat.blockOf blk0; rw [A1_1]; try rfl)
theorem before1_2 (t : Fin cfg1.N) (dd) : (dats X5 X0 Xvn XW Xb X7 0 d).before 2 t dd = blkvn Xvn t :=
  ((dats X5 X0 Xvn XW Xb X7 0 d).before_in_eq_fetched 2 rfl (fun _ => rfl) (fun _ _ _ => rfl)
      (fun t => by rw [after1_2]; unfold Dat.blockOf blkvn; rw [A1_2]; try rfl) t dd).trans
    (by unfold Dat.fetched Dat.blockOf blkvn; rw [A1_2]; try rfl)
theorem before1_3 (t : Fin cfg1.N) (dd) : (dats X5 X0 Xvn XW Xb X7 0 d).before 3 t dd = blkW XW t :=
  ((dats X5 X0 Xvn XW Xb X7 0 d).before_in_eq_fetched 3 rfl (fun _ => rfl) (fun _ _ _ => rfl)
      (fun t => by rw [after1_3]; unfold Dat.blockOf blkW; rw [A1_3]; try rfl) t dd).trans
    (by unfold Dat.fetched Dat.blockOf blkW; rw [A1_3]; try rfl)
theorem before1_4 (t : Fin cfg1.N) (dd) : (dats X5 X0 Xvn XW Xb X7 0 d).before 4 t dd = blkb Xb t :=
  ((dats X5 X0 Xvn XW Xb X7 0 d).before_in_eq_fetched 4 rfl (fun _ => rfl) (fun _ _ _ => rfl)
      (fun t => by rw [after1_4]; unfold Dat.blockOf blkb; rw [A1_4]; try rfl) t dd).trans
    (by unfold Dat.fetched Dat.blockOf blkb; rw [A1_4]; try rfl)

/-- What the body is called with at point `t`, the windows one by one, -/
def bodyPre (t : Fin cfg1.N) : sProp 𝕄 :=
  iprop((dats X5 X0 Xvn XW Xb X7 0 d).Φ t.castSucc ∗ (dats X5 X0 Xvn XW Xb X7 0 d).owesAt none t.castSucc
    ∗ (∃ dd, owns (d : Thread nD τ) (st1_0 t) fullShare ((dats X5 X0 Xvn XW Xb X7 0 d).before 0 t dd))
    ∗ (∃ dd, owns (d : Thread nD τ) (st1_1 t) fullShare ((dats X5 X0 Xvn XW Xb X7 0 d).before 1 t dd))
    ∗ (∃ dd, owns (d : Thread nD τ) (st1_2 t) fullShare ((dats X5 X0 Xvn XW Xb X7 0 d).before 2 t dd))
    ∗ (∃ dd, owns (d : Thread nD τ) (st1_3 t) fullShare ((dats X5 X0 Xvn XW Xb X7 0 d).before 3 t dd))
    ∗ (∃ dd, owns (d : Thread nD τ) (st1_4 t) fullShare ((dats X5 X0 Xvn XW Xb X7 0 d).before 4 t dd))
    ∗ (∃ dd, owns (d : Thread nD τ) (st1_5 t) fullShare ((dats X5 X0 Xvn XW Xb X7 0 d).before 5 t dd)))

/-- and what it returns. -/
def bodyPost (t : Fin cfg1.N) : sProp 𝕄 :=
  iprop((dats X5 X0 Xvn XW Xb X7 0 d).Φ t.succ ∗ (dats X5 X0 Xvn XW Xb X7 0 d).owesAt none t.succ
    ∗ owns (d : Thread nD τ) (st1_0 t) fullShare ((dats X5 X0 Xvn XW Xb X7 0 d).after 0 t)
    ∗ owns (d : Thread nD τ) (st1_1 t) fullShare ((dats X5 X0 Xvn XW Xb X7 0 d).after 1 t)
    ∗ owns (d : Thread nD τ) (st1_2 t) fullShare ((dats X5 X0 Xvn XW Xb X7 0 d).after 2 t)
    ∗ owns (d : Thread nD τ) (st1_3 t) fullShare ((dats X5 X0 Xvn XW Xb X7 0 d).after 3 t)
    ∗ owns (d : Thread nD τ) (st1_4 t) fullShare ((dats X5 X0 Xvn XW Xb X7 0 d).after 4 t)
    ∗ owns (d : Thread nD τ) (st1_5 t) fullShare ((dats X5 X0 Xvn XW Xb X7 0 d).after 5 t))

/-- The body at any point: the inputs' memrefs hold their blocks, so `sound_kernel` applies; the invariant and the core's
    `owes` pass through unread. -/
theorem sound_body (t : Fin cfg1.N) :
    bodyPre X5 X0 Xvn XW Xb X7 d t ⊢ wp frame (wpE (defs₀ (F := F)) 𝒱₀ d none) Set.univ (bodyAt1 t) (fun _ => bodyPost X5 X0 Xvn XW Xb X7 d t) := by
  unfold bodyPre bodyPost bodyAt1
  simp only [before1_0, before1_1, before1_2, before1_3, before1_4]
  rw [show (dats X5 X0 Xvn XW Xb X7 0 d).Φ t.succ = (dats X5 X0 Xvn XW Xb X7 0 d).Φ t.castSucc from rfl,
    show (dats X5 X0 Xvn XW Xb X7 0 d).owesAt none t.succ = (dats X5 X0 Xvn XW Xb X7 0 d).owesAt none t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel d Set.univ (grid1.coords t) _ _ _ _ _ _ _ _ _ _ _ _ (blk5 X5 t) (blk0 X0 t) (blkvn Xvn t) (blkW XW t) (blkb Xb t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold payAt
  iexact H5

/-- The library's body obligation, at every point. -/
theorem body_obligation : BodyObligation (dats X5 X0 Xvn XW Xb X7 0 d) (defs₀ (F := F)) 𝒱₀ none Set.univ := fun t => by
  rw [bigSep_W1, bigSep_W1]
  exact sound_body X5 X0 Xvn XW Xb X7 d t

end Obligation

end Cert.Proof.Kernel

end
-- ==== Proof.Kernel.RegionFrame.lean ====
/-
  From blocks to the array: the result array after the region is `regionOut` of the inputs, since point t writes rows
  t * 512 .. + 512 back and those blocks tile the array.
-/
import proofs.«207209_g54674933678763_cont_9to1_m_278_38_alg».proof.Proof.Kernel.RegionBody
import Idealize.ShloMosaic.Lib.Pipeline.Value

noncomputable section

namespace Cert.Proof.Kernel

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

set_option maxRecDepth 16384

section Final

variable (X5 : C5 F) (X0 : C0 F) (Xvn : Cvn F) (XW : CW F) (Xb : Cb F) (X7 : C7 F) (d : Dev nD)

/-- The result window's block index at point `t`: `t` along the rows, 0 along the one column. -/
theorem idx5 : ∀ t : Fin cfg1.N, win1_5.index t (0 : Fin 2) = t.val ∧ win1_5.index t (1 : Fin 2) = 0 :=
  (by decide +kernel : ∀ t : Fin grid1.N, _)

/-- `regionOut` at row `t * 512 + y` is the body's arithmetic at point `t`, row `y`. -/
theorem regionOut_at (t : Fin cfg1.N) (y : S512x1.Idx) (j : S16384x1.Idx) (h0 : (j 0).val = t.val * 512 + (y 0).val) :
    regionOut X5 X0 Xvn XW Xb j = payAt X5 X0 Xvn XW Xb t y := by
  have hy0 : (y 0).val < 512 := (y 0).isLt
  have hy1 : (y 1).val < 1 := (y 1).isLt
  unfold regionOut
  refine congr (congrArg (payAt X5 X0 Xvn XW Xb) (Fin.ext ?_)) (funext fun a => ?_)
  · show (j 0).val / 512 = t.val
    omega
  · match a with
    | ⟨0, _⟩ => exact Fin.ext (by show (j 0).val % 512 = (y 0).val; omega)
    | ⟨1, _⟩ => exact Fin.ext (by show 0 = (y 1).val; omega)

/-- WHAT POINT `t` WRITES BACK is block `t` of `regionOut`. -/
theorem flushed5_eq (t : Fin cfg1.N) :
    (dats X5 X0 Xvn XW Xb X7 0 d).flushed 5 t = ((cfg1.win 5).blk t).view.read (Elt F) (regionOut X5 X0 Xvn XW Xb) := by
  show (cfg1.win 5).cut (grid1.coords t) ((dats X5 X0 Xvn XW Xb X7 0 d).after 5 t) = _
  rw [after1_5]
  obtain ⟨e0, e1⟩ := idx5 t
  funext y
  show payAt X5 X0 Xvn XW Xb t y = regionOut X5 X0 Xvn XW Xb (((cfg1.win 5).blk t).view.emb y)
  refine (regionOut_at X5 X0 Xvn XW Xb t y _ ?_).symm
  show win1_5.index t (0 : Fin 2) * 512 + 1 * (y 0).val = _
  rw [e0]; omega

/-- An index of the result array is in point `t`'s block iff each coordinate is in the block's range on its axis. -/
theorem mem_blk5 (t : Fin cfg1.N) (i : S16384x1.Idx) :
    i ∈ ((cfg1.win 5).blk t).view.set ↔ ∀ a : Fin 2, win1_5.index t a * S512x1.size a ≤ (i a).val ∧ (i a).val < win1_5.index t a * S512x1.size a + S512x1.size a := by
  show i ∈ ((View.whole main_v7).slice (win1_5.rect t)).set ↔ _
  rw [View.set_slice_whole, Rect.mem_set_unit]
  exact Iff.rfl

/-- Every row of the result is in the block of the point that is its number over 512. -/
theorem covered5 (i : S16384x1.Idx) : ∃ t : Fin cfg1.N, (cfg1.win 5).flush t = true ∧ i ∈ ((cfg1.win 5).blk t).view.set := by
  have hi0 : (i 0).val < 16384 := (i 0).isLt
  have hi1 : (i 1).val < 1 := (i 1).isLt
  have hlt : (i 0).val / 512 < cfg1.N := by show _ < 32; omega
  obtain ⟨e0, e1⟩ := idx5 ⟨(i 0).val / 512, hlt⟩
  refine ⟨⟨(i 0).val / 512, hlt⟩, flush1_5 _, ?_⟩
  rw [mem_blk5]
  intro a
  match a with
  | ⟨0, _⟩ =>
    show win1_5.index ⟨(i 0).val / 512, hlt⟩ (0 : Fin 2) * 512 ≤ (i 0).val ∧ (i 0).val < win1_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win1_5.index ⟨(i 0).val / 512, hlt⟩ (1 : Fin 2) * 1 ≤ (i 1).val ∧ (i 1).val < win1_5.index ⟨(i 0).val / 512, hlt⟩ (1 : Fin 2) * 1 + 1
    rw [e1]; omega

/-- THE RESULT ARRAY after the region. -/
theorem final5 : (dats X5 X0 Xvn XW Xb X7 0 d).arrAt 5 cfg1.N = regionOut X5 X0 Xvn XW Xb :=
  (dats X5 X0 Xvn XW Xb X7 0 d).arrAt_eq_of_cover 5 (regionOut X5 X0 Xvn XW Xb) (fun t _ => flushed5_eq X5 X0 Xvn XW Xb X7 d t)
    (covered5)

end Final

end Cert.Proof.Kernel

end
-- ==== Proof.Kernel.RegionStmt.lean ====
/-
  The combining kernel's region as @main uses it: entered with the six arrays whole, the region boundary, the core's
  handshake state after the one accelerator call and the staging cells' launch ghost state, it returns with the five inputs
  unchanged and the result array at `regionOut` of them.
-/
import proofs.«207209_g54674933678763_cont_9to1_m_278_38_alg».proof.Proof.Kernel.RegionData
import proofs.«207209_g54674933678763_cont_9to1_m_278_38_alg».proof.Proof.Kernel.RegionFrame

noncomputable section

namespace Cert.Proof.Kernel

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The region as the regions library takes it -/

section Seg

variable (lv : GSem nD τ sig → HIx 1 → ℕ) (X5 : C5 F) (X0 : C0 F) (Xvn : Cvn F) (XW : CW F) (Xb : Cb F) (X7 : C7 F)

/-- The six arrays whole at the full share on core `c`, the result's at `Y7`. -/
def six (c : Dev nD) (Y7 : C7 F) : sProp 𝕄 :=
  iprop((((c : Thread nD τ).loc main_v5) ↦{fullShare} X5) ∗ (((c : Thread nD τ).loc main_arg0) ↦{fullShare} X0)
    ∗ (((c : Thread nD τ).loc main_arg5) ↦{fullShare} Xvn) ∗ (((c : Thread nD τ).loc main_arg3) ↦{fullShare} XW)
    ∗ (((c : Thread nD τ).loc main_v6) ↦{fullShare} Xb) ∗ (((c : Thread nD τ).loc main_v7) ↦{fullShare} Y7))

theorem share1 (c : Dev nD) (w : Fin cfg1.W) : (dats X5 X0 Xvn XW Xb X7 0 c).share w = fullShare :=
  (dats X5 X0 Xvn XW Xb X7 0 c).share_full (fun _ => rfl) w

/-- The windows' arrays at given contents are the six arrays. -/
theorem arrays_six (c : Dev nD) (G : (w : Fin cfg1.W) → Buf (Elt F) ((cfg1.win w).arr.view.loc (c : Thread nD τ))) :
    (dats X5 X0 Xvn XW Xb X7 0 c).arrays G
      = iprop((((c : Thread nD τ).loc main_v5) ↦{fullShare} G 0) ∗ (((c : Thread nD τ).loc main_arg0) ↦{fullShare} G 1)
        ∗ (((c : Thread nD τ).loc main_arg5) ↦{fullShare} G 2) ∗ (((c : Thread nD τ).loc main_arg3) ↦{fullShare} G 3)
        ∗ (((c : Thread nD τ).loc main_v6) ↦{fullShare} G 4) ∗ (((c : Thread nD τ).loc main_v7) ↦{fullShare} G 5)) := by
  rw [Pipeline.arrays_eq (Pipeline.pin (pcfgs (F := F)) adm) (dats X5 X0 Xvn XW Xb X7) 0 c launch1.arr_whole (share1 X5 X0 Xvn XW Xb X7 c) G, bigSep_W1]

set_option backward.isDefEq.respectTransparency.types false in
/-- THE REGION: the decided layout, no semaphore of its own, the body obligation; entered with the six arrays and the core
    owing nothing, left with the result at `regionOut`. -/
def reg : Pipeline.RegionSeg (pcfgs (F := F)) adm (dats X5 X0 Xvn XW Xb X7) none defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation X5 X0 Xvn XW Xb X7 c).loose
  hwaits := Pipeline.hwaits_of_owed_zero _ _ _ _ _ lv 0 fun _ _ => rfl
  pre c := iprop(six X5 X0 Xvn XW Xb c X7 ∗ ∃ W, owes (c : Thread nD τ) (0 : CellTallies nD τ sig (HIx 1)) W)
  post c := iprop(six X5 X0 Xvn XW Xb c (regionOut X5 X0 Xvn XW Xb) ∗ ∃ W, owes (c : Thread nD τ) (0 : CellTallies nD τ sig (HIx 1)) W)
  X _ := iprop(emp)
  Y _ := iprop(emp)
  Z _ := iprop(emp)
  hentry c := by
    rw [arrays_six]
    unfold six
    iintro ⟨⟨⟨H5, H0, Hvn, HW, Hb, H7⟩, HO⟩, -, -⟩
    imodintro
    isplitl [H5 H0 Hvn HW Hb H7]
    · isplitl [H5]; · iexact H5
      isplitl [H0]; · iexact H0
      isplitl [Hvn]; · iexact Hvn
      isplitl [HW]; · iexact HW
      isplitl [Hb]; · iexact Hb
      iexact H7
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl <;> iempintro
  hin c := by
    rw [show (dats X5 X0 Xvn XW Xb X7 0 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (dats X5 X0 Xvn XW Xb X7 0 c).Φ (Fin.last cfg1.N) = Pipeline.scopedRest (Ix := HIx 1) (Name := ℕ) (U := UU) (Lvl := ℕ) (Val := Elt F) spec1 c from rfl]
    iintro Hr
    isplitr; · iempintro
    isplitr; · iempintro
    iexact Hr
  hexit c := by
    rw [arrays_six]
    unfold six
    iintro ⟨⟨H5, H0, Hvn, HW, Hb, H7⟩, HO, -, -⟩
    imodintro
    isplitr [HO]
    · rw [(dats X5 X0 Xvn XW Xb X7 0 c).arrAt_in 0 rfl, (dats X5 X0 Xvn XW Xb X7 0 c).arrAt_in 1 rfl, (dats X5 X0 Xvn XW Xb X7 0 c).arrAt_in 2 rfl,
        (dats X5 X0 Xvn XW Xb X7 0 c).arrAt_in 3 rfl, (dats X5 X0 Xvn XW Xb X7 0 c).arrAt_in 4 rfl, final5 X5 X0 Xvn XW Xb X7 c,
        A1_0, A1_1, A1_2, A1_3, A1_4]
      isplitl [H5]; · iexact H5
      isplitl [H0]; · iexact H0
      isplitl [Hvn]; · iexact Hvn
      isplitl [HW]; · iexact HW
      isplitl [Hb]; · iexact Hb
      iexact H7
    · unfold Pipeline.Dat.owesAt Pipeline.owesWithin
      icases HO with ⟨%W, -, HO⟩; iexists W; iexact HO

end Seg

/-- What the region takes besides the handshake state and the level facts: the region boundary, the staging cells' launch
    ghost state and duty tokens, and the six arrays whole at the full share. -/
def regionPre (d : Dev nD) (X5 : C5 F) (X0 : C0 F) (Xvn : Cvn F) (XW : CW F) (Xb : Cb F) (X7 : C7 F) : sProp 𝕄 :=
  iprop(boundary (T d)
    ∗ Pipeline.cellsGhost (Pipeline.pin (pcfgs (F := F)) adm) EP 0 d ∗ Pipeline.toksInit (Pipeline.pin (pcfgs (F := F)) adm) EP 0 d
    ∗ (((T d : Thread nD τ).loc main_v5) ↦{fullShare} X5) ∗ (((T d : Thread nD τ).loc main_arg0) ↦{fullShare} X0)
    ∗ (((T d : Thread nD τ).loc main_arg5) ↦{fullShare} Xvn) ∗ (((T d : Thread nD τ).loc main_arg3) ↦{fullShare} XW)
    ∗ (((T d : Thread nD τ).loc main_v6) ↦{fullShare} Xb) ∗ (((T d : Thread nD τ).loc main_v7) ↦{fullShare} X7))

/-- What it gives back: the boundary, the five inputs as they were, the result at `regionOut` of them. -/
def regionPost (d : Dev nD) (X5 : C5 F) (X0 : C0 F) (Xvn : Cvn F) (XW : CW F) (Xb : Cb F) : sProp 𝕄 :=
  iprop(boundary (T d)
    ∗ (((T d : Thread nD τ).loc main_v5) ↦{fullShare} X5) ∗ (((T d : Thread nD τ).loc main_arg0) ↦{fullShare} X0)
    ∗ (((T d : Thread nD τ).loc main_arg5) ↦{fullShare} Xvn) ∗ (((T d : Thread nD τ).loc main_arg3) ↦{fullShare} XW)
    ∗ (((T d : Thread nD τ).loc main_v6) ↦{fullShare} Xb) ∗ (((T d : Thread nD τ).loc main_v7) ↦{fullShare} regionOut X5 X0 Xvn XW Xb))

/-- THE REGION, as @main's proof uses it on core `d`'s TensorCore after the one accelerator call. -/
theorem region_wp (lv : GSem nD τ sig → HIx 1 → ℕ) (d : Dev nD)
    (X5 : C5 F) (X0 : C0 F) (Xvn : Cvn F) (XW : CW F) (Xb : Cb F) (X7 : C7 F) :
    iprop(levAts (K (F := F)).L lv ∗ (K (F := F)).tcSt EH d 1 ∗ regionPre d X5 X0 Xvn XW Xb X7)
      ⊢ wp frame (wpE ((K (F := F)).defs D) 𝒱 (T d) none) Set.univ
          (Prog.lift (.customCall (SparseCore.inner (Pipeline.entry 0)) ()))
          (fun _ => iprop((K (F := F)).tcSt EH d 1 ∗ regionPost d X5 X0 Xvn XW Xb)) := by
  unfold regionPre regionPost SparseCore.Cfg.tcSt
  rw [show (K (F := F)).Otc d 1 = 0 from (K (F := F)).Otc_end d le_rfl]
  iintro ⟨#Hlev, ⟨⟨%W, %hW, HO⟩, Hrest⟩, Hb, Hg, Ht, H5, H0, Hvn, HW, Hbb, H7⟩
  iapply ((K (F := F)).wp_liftProg D 𝒱 (T d) Set.univ none (.op (.customCall (Pipeline.entry 0) ()) .ret) _)
  iapply (Pipeline.RegionSeg.wp (pcfgs (F := F)) adm (dats X5 X0 Xvn XW Xb X7) none cellOf_inj EP defs₀ 𝒱₀ (K (F := F)).L lv
    (reg lv X5 X0 Xvn XW Xb X7) d none (fun _ h => nomatch h) .ret _)
  rw [show (reg lv X5 X0 Xvn XW Xb X7).post d = iprop(six X5 X0 Xvn XW Xb d (regionOut X5 X0 Xvn XW Xb) ∗ ∃ W, owes (d : Thread nD τ) (0 : CellTallies nD τ sig (HIx 1)) W) from rfl,
    show (reg lv X5 X0 Xvn XW Xb X7).pre d = iprop(six X5 X0 Xvn XW Xb d X7 ∗ ∃ W, owes (d : Thread nD τ) (0 : CellTallies nD τ sig (HIx 1)) W) from rfl]
  isplitl [Hrest]
  · iintro ⟨Hb, ⟨H6, ⟨%W', HO⟩⟩⟩
    rw [wp_ret]
    imodintro
    unfold six
    icases H6 with ⟨H5, H0, Hvn, HW, Hbb, H7⟩
    isplitl [HO Hrest]
    · isplitl [HO]
      · iexists W'; isplitr
        · ipureintro
          intro p _
          rcases p with ⟨sm, _ | q⟩
          · exact Nat.zero_le _
          · exact ((K (F := F)).lev_some_le _ q).trans (by have := q.isLt; omega)
        iexact HO
      iexact Hrest
    isplitl [Hb]; · iexact Hb
    isplitl [H5]; · iexact H5
    isplitl [H0]; · iexact H0
    isplitl [Hvn]; · iexact Hvn
    isplitl [HW]; · iexact HW
    isplitl [Hbb]; · iexact Hbb
    iexact H7
  isplitl [Hb]; · iexact Hb
  isplitl [H5 H0 Hvn HW Hbb H7 HO]
  · unfold six
    isplitl [H5 H0 Hvn HW Hbb H7]
    · isplitl [H5]; · iexact H5
      isplitl [H0]; · iexact H0
      isplitl [Hvn]; · iexact Hvn
      isplitl [HW]; · iexact HW
      isplitl [Hbb]; · iexact Hbb
      iexact H7
    iexists W; iexact HO
  isplitr; · iexact Hlev
  isplitl [Hg]; · iexact Hg
  iexact Ht

end Cert.Proof.Kernel

end
-- ==== Proof.Kernel.RegionGhost.lean ====
/-
  The launch ghost state of the pipelined region's staging cells on one core: what the host program's proof carries from
  the launch to the region's entry.
-/
import proofs.«207209_g54674933678763_cont_9to1_m_278_38_alg».proof.Proof.Kernel.Common
import Idealize.ShloMosaic.Lib.Pipeline.Frame
import proofs.«207209_g54674933678763_cont_9to1_m_278_38_alg».proof.Proof.Kernel.RegionData

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable [FloatOps F]

/-- The one pipelined region's configuration (it has no prefetched table). -/
abbrev pc : Fin 1 → Pipeline.Cfg sig Λ₀ := Pipeline.pin (pcfgs (F := F)) adm

/-- The staging cells' launch state and the loop's duty tokens on core d. -/
def G (d : Dev nD) : sProp 𝕄 := iprop(Pipeline.cellsGhost (Pipeline.pin (pcfgs (F := F)) adm) EP 0 d ∗ Pipeline.toksInit (Pipeline.pin (pcfgs (F := F)) adm) EP 0 d)

end Cert.Proof.Kernel

end
-- ==== Proof.Kernel.Main.lean ====
/-
  The host program on the TensorCore, start to end: the four layout operations, the accumulation call (the inputs lent
  to the two SparseCores at read shares, the output array dealt out slice by slice and taken back at the accumulated
  values), the two reshapes, the combining region; the seven arguments are kept and the result array is named.
-/
import proofs.«207209_g54674933678763_cont_9to1_m_278_38_alg».proof.Proof.Kernel.Common
import Idealize.ShloMosaic.Lib.Pipeline.Frame
import proofs.«207209_g54674933678763_cont_9to1_m_278_38_alg».proof.Proof.Kernel.Launch1
import proofs.«207209_g54674933678763_cont_9to1_m_278_38_alg».proof.Proof.Kernel.Vals
import proofs.«207209_g54674933678763_cont_9to1_m_278_38_alg».proof.Proof.Kernel.OutCover
import proofs.«207209_g54674933678763_cont_9to1_m_278_38_alg».proof.Proof.Kernel.RegionStmt
import proofs.«207209_g54674933678763_cont_9to1_m_278_38_alg».proof.Proof.Kernel.RegionGhost

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

open Idealize.ShloMosaic.Transfers (shareTok shareDrop pointsTo_toks)

variable (m : (ℓ : Loc nD τ sig) → Buf (Elt F) ℓ) (ρ : Dev nD → PrngReg)
variable [FloatOps F]

/-- The region rule, as the host program's proof uses it. -/
def RegionRule : Prop :=
  ∀ (lv : GSem nD τ sig → HIx 1 → ℕ) (d : Dev nD) (X5 : C5 F) (X0 : C0 F) (Xvn : Cvn F) (XW : CW F) (Xb : Cb F) (X7 : C7 F),
    iprop(levAts (K (F := F)).L lv ∗ (K (F := F)).tcSt EH d 1 ∗ regionPre d X5 X0 Xvn XW Xb X7)
      ⊢ wp frame (wpE ((K (F := F)).defs D) 𝒱 (T d) none) Set.univ
          (Prog.lift (.customCall (SparseCore.inner (Pipeline.entry 0)) ()))
          (fun _ => iprop((K (F := F)).tcSt EH d 1 ∗ regionPost d X5 X0 Xvn XW Xb))

/-- One host operation whose continuation is a return. -/
theorem hlo_step (d : Dev nD) (op : HloOp τ sig (Elt F)) (S' : Finset (DevRef τ sig)) (hS : op.bufs ⊆ S') (Vv : Valuation τ sig (Elt F))
    (hf : op.fresh = ∅) (Ψ : PUnit → sProp 𝕄) :
    iprop(boundary (SparseCore.T d) ∗ (held (SparseCore.T d) S' Vv : sProp 𝕄)
        ∗ ((boundary (SparseCore.T d) ∗ (held (SparseCore.T d) S' (op.result Vv) : sProp 𝕄)) -∗ Ψ ⟨⟩))
      ⊢ wp frame (wpE ((K (F := F)).defs (D (F := F))) 𝒱 (SparseCore.T d) none) Set.univ (hlo rfl op (fun _ => Prog.ret PUnit.unit)) Ψ := by
  iintro ⟨Hb, Hh, Hk⟩
  iapply (wp_hlo_within 𝒱 (SparseCore.T d) none Set.univ (op := op) (S := S') hS (V := Vv) hf) $$ [Hb Hh]
  · isplitl [Hb] <;> iassumption
  iintro ⟨Hb, Hh⟩
  rw [wp_ret]; imodintro
  iapply Hk
  isplitl [Hb]; · iexact Hb
  iexact Hh

/-- What @main leaves the claim: the seven arguments at their launch contents, the result at `OUT`. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ ((SparseCore.T d).loc main_arg5 ↦{fullShare} m ((SparseCore.T d).loc main_arg5))
    ∗ ((SparseCore.T d).loc main_arg6 ↦{fullShare} m ((SparseCore.T d).loc main_arg6))
    ∗ ((SparseCore.T d).loc main_v7 ↦{fullShare} OUT m d))

/-! ## The held sets along the program -/

/-- The call's four arrays. -/
abbrev S4 : Finset (DevRef τ sig) := {r main_v1, r main_v2, r main_v3, r main_v4}
/-- Every array but the call's three inputs, which are not needed after it. -/
abbrev SB : Finset (DevRef τ sig) := SA \ {r main_v1, r main_v2, r main_v3}
/-- The region's six arrays and the four other arguments. -/
abbrev SF : Finset (DevRef τ sig) :=
  {r main_v5, r main_arg0, r main_arg5, r main_arg3, r main_v6, r main_v7, r main_arg1, r main_arg2, r main_arg4, r main_arg6}

omit [FloatOps F] in
theorem held_S4 (d : Dev nD) (W : Valuation τ sig (Elt F)) :
    (held (SparseCore.T d) S4 W : sProp 𝕄) = iprop((v1Loc d ↦{fullShare} W (r main_v1)) ∗ (v2Loc d ↦{fullShare} W (r main_v2))
        ∗ (v3Loc d ↦{fullShare} W (r main_v3)) ∗ (v4Loc d ↦{fullShare} W (r main_v4))) := by
  unfold held S4
  rw [SparseCore.bigSep_insert' (by decide), SparseCore.bigSep_insert' (by decide), SparseCore.bigSep_insert' (by decide), bigSep_singleton]

omit [FloatOps F] in
theorem held_SF (d : Dev nD) (W : Valuation τ sig (Elt F)) :
    (held (SparseCore.T d) SF W : sProp 𝕄) = iprop(((SparseCore.T d).loc main_v5 ↦{fullShare} W (r main_v5)) ∗ ((SparseCore.T d).loc main_arg0 ↦{fullShare} W (r main_arg0))
        ∗ ((SparseCore.T d).loc main_arg5 ↦{fullShare} W (r main_arg5)) ∗ ((SparseCore.T d).loc main_arg3 ↦{fullShare} W (r main_arg3))
        ∗ ((SparseCore.T d).loc main_v6 ↦{fullShare} W (r main_v6)) ∗ ((SparseCore.T d).loc main_v7 ↦{fullShare} W (r main_v7))
        ∗ ((SparseCore.T d).loc main_arg1 ↦{fullShare} W (r main_arg1)) ∗ ((SparseCore.T d).loc main_arg2 ↦{fullShare} W (r main_arg2))
        ∗ ((SparseCore.T d).loc main_arg4 ↦{fullShare} W (r main_arg4)) ∗ ((SparseCore.T d).loc main_arg6 ↦{fullShare} W (r main_arg6))) := by
  unfold held SF
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem hop4' : (op4 (F := F)).bufs ⊆ SB := show ({r main_v4, r main_v5} : Finset (DevRef τ sig)) ⊆ SB by decide
theorem hop5' : (op5 (F := F)).bufs ⊆ SB := show ({r main_arg2, r main_v6} : Finset (DevRef τ sig)) ⊆ SB by decide

/-- The call's operands, from the four arrays whole. -/
theorem st0_intro (d : Dev nD) :
    iprop(inRes d fullShare (A1 m d) (A2 m d) (A3 m d) ∗ (v4Loc d ↦{fullShare} B4 m d))
      ⊢ bigSep Finset.univ fun c : Fin ((K (F := F)).nCore 0) => (P m).st 0 d c := by
  show _ ⊢ bigSep Finset.univ fun c : Fin ((K (F := F)).nCore 0) => stRes m d c
  unfold stRes
  rw [bigSep_sep', v4_split]
  iintro ⟨Hin, Hout⟩
  isplitl [Hin]
  · iapply (inRes_split d fullShare 2 _ _ _); iexact Hin
  · iexact Hout

/-- The call's results: the output array whole at the accumulated values. -/
theorem dn0_elim (d : Dev nD) :
    (bigSep Finset.univ fun c : Fin ((K (F := F)).nCore 0) => (P m).dn 0 d c)
      ⊢ (v4Loc d ↦{fullShare} outBuf (A1 m d) (A2 m d) (A3 m d) : sProp 𝕄) := by
  show (bigSep Finset.univ fun c : Fin ((K (F := F)).nCore 0) => dnRes m d c) ⊢ _
  unfold dnRes
  rw [v4_split]
  exact Entails.refl _

/-- After the call: the output array and the arrays kept aside, as one held set. -/
theorem held_SB_intro (d : Dev nD) :
    iprop((v4Loc d ↦{fullShare} outBuf (A1 m d) (A2 m d) (A3 m d)) ∗ (held (SparseCore.T d) (SA \ S4) (V4 m d) : sProp 𝕄))
      ⊢ (held (SparseCore.T d) SB (Vc m d) : sProp 𝕄) := by
  rw [held_sub_split (SparseCore.T d) (show ({r main_v4} : Finset (DevRef τ sig)) ⊆ SB by decide) (Vc m d),
    show SB \ ({r main_v4} : Finset (DevRef τ sig)) = SA \ S4 by decide,
    held_congr (SparseCore.T d) (V := Vc m d) (V' := V4 m d) (S := SA \ S4)
      (fun b hb => Function.update_of_ne (fun e => absurd (e ▸ hb) (by decide)) _ _)]
  unfold held
  rw [bigSep_singleton]
  unfold Vc
  rw [Function.update_self]

/-- The program writes none of its seven arguments: each still holds its launch contents at the end. -/
theorem V6_unwritten (d : Dev nD) (b : DevRef τ sig) (h0 : b ∉ ({r main_v0} : Finset (DevRef τ sig))) (h1 : b ∉ ({r main_v1} : Finset (DevRef τ sig)))
    (h2 : b ∉ ({r main_v2} : Finset (DevRef τ sig))) (h3 : b ∉ ({r main_v3} : Finset (DevRef τ sig))) (h4 : b ≠ r main_v4)
    (h5 : b ∉ ({r main_v5} : Finset (DevRef τ sig))) (h6 : b ∉ ({r main_v6} : Finset (DevRef τ sig))) : V6 m d b = V0 m d b := by
  unfold V6 Vc V4
  rw [(op5 (F := F)).result_of_not_mem _ h6, (op4 (F := F)).result_of_not_mem _ h5, Function.update_of_ne h4,
    (op3 (F := F)).result_of_not_mem _ h3, (op2 (F := F)).result_of_not_mem _ h2, (op1 (F := F)).result_of_not_mem _ h1,
    (op0 (F := F)).result_of_not_mem _ h0]

theorem hmain (hreg : RegionRule (F := F)) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) SA (V0 m d) from Pipeline.unscopedBufs_held d (V0 m d)]
  simp only [main, wp_bind, wp_pure]
  iintro ⟨#Hctx, Hst, ⟨Hb, Hheld, -, -⟩, HG⟩
  iapply (hlo_step d op0 SA hop0 (V0 m d) rfl _) $$ [Hb Hheld Hst HG]
  isplitl [Hb]; · iexact Hb
  isplitl [Hheld]; · iexact Hheld
  iintro ⟨Hb, Hheld⟩
  iapply (hlo_step d op1 SA hop1 _ rfl _) $$ [Hb Hheld Hst HG]
  isplitl [Hb]; · iexact Hb
  isplitl [Hheld]; · iexact Hheld
  iintro ⟨Hb, Hheld⟩
  iapply (hlo_step d op2 SA hop2 _ rfl _) $$ [Hb Hheld Hst HG]
  isplitl [Hb]; · iexact Hb
  isplitl [Hheld]; · iexact Hheld
  iintro ⟨Hb, Hheld⟩
  iapply (hlo_step d op3 SA hop3 _ rfl _) $$ [Hb Hheld Hst HG]
  isplitl [Hb]; · iexact Hb
  isplitl [Hheld]; · iexact Hheld
  iintro ⟨Hb, Hheld⟩
  -- the call: the three inputs lent at read shares, the output dealt out slice by slice
  ihave Hheld := (Entails.of_eq (show (held (SparseCore.T d) SA ((op3 (F := F)).result ((op2 (F := F)).result ((op1 (F := F)).result ((op0 (F := F)).result (V0 m d))))) : sProp 𝕄)
      = held (SparseCore.T d) SA (V4 m d) from rfl)) $$ Hheld
  ihave Hh := (Entails.of_eq (held_sub_split (SparseCore.T d) (show S4 ⊆ SA by decide) (V4 m d))) $$ Hheld
  icases Hh with ⟨H4, Hrest⟩
  ihave H4' := (Entails.of_eq (held_S4 (F := F) d (V4 m d))) $$ H4
  icases H4' with ⟨H1, H2, H3, Hv4⟩
  iapply ((K (F := F)).wp_run (D (F := F)) 𝒱 (EH := EH) (P := P m) κ d 0) $$ [Hst H1 H2 H3 Hv4 Hb Hrest HG]
  isplitr; · iexact Hctx
  isplitl [Hst]; · iexact Hst
  isplitl [H1 H2 H3 Hv4]
  · iapply (st0_intro m d)
    isplitl [H1 H2 H3]
    · unfold inRes
      isplitl [H2]; · iexact H2
      isplitl [H3]; · iexact H3
      iexact H1
    · iexact Hv4
  iintro ⟨Hst, Hdn⟩
  ihave Hv4 := (dn0_elim m d) $$ Hdn
  ihave Hheld := (held_SB_intro m d) $$ [Hv4 Hrest]
  · isplitl [Hv4]; · iexact Hv4
    iexact Hrest
  -- the two reshapes
  iapply (hlo_step d op4 SB hop4' (Vc m d) rfl _) $$ [Hb Hheld Hst HG]
  isplitl [Hb]; · iexact Hb
  isplitl [Hheld]; · iexact Hheld
  iintro ⟨Hb, Hheld⟩
  iapply (hlo_step d op5 SB hop5' _ rfl _) $$ [Hb Hheld Hst HG]
  isplitl [Hb]; · iexact Hb
  isplitl [Hheld]; · iexact Hheld
  iintro ⟨Hb, Hheld⟩
  ihave Hheld := (Entails.of_eq (show (held (SparseCore.T d) SB ((op5 (F := F)).result ((op4 (F := F)).result (Vc m d))) : sProp 𝕄)
      = held (SparseCore.T d) SB (V6 m d) from rfl)) $$ Hheld
  ihave Hh := (Entails.of_eq (held_sub_split (SparseCore.T d) (show SF ⊆ SB by decide) (V6 m d))) $$ Hheld
  icases Hh with ⟨HF, -⟩
  ihave HF' := (Entails.of_eq (held_SF (F := F) d (V6 m d))) $$ HF
  icases HF' with ⟨H5, Ha0, Ha5, Ha3, H6, H7, Ha1, Ha2, Ha4, Ha6⟩
  -- the combining region
  ihave Hlev := ((K (F := F)).ctx_levAts (EH := EH) (P := P m) κ) $$ Hctx
  unfold G
  icases HG with ⟨Hcg, Htk⟩
  ihave Hwp := (hreg (K (F := F)).lev d (V6 m d (r main_v5)) (V6 m d (r main_arg0)) (V6 m d (r main_arg5)) (V6 m d (r main_arg3)) (V6 m d (r main_v6)) (V6 m d (r main_v7)))
      $$ [Hlev Hst Hb Hcg Htk H5 Ha0 Ha5 Ha3 H6 H7]
  · isplitl [Hlev]; · iexact Hlev
    isplitl [Hst]; · iexact Hst
    unfold regionPre
    isplitl [Hb]; · iexact Hb
    isplitl [Hcg]; · iexact Hcg
    isplitl [Htk]; · iexact Htk
    isplitl [H5]; · iexact H5
    isplitl [Ha0]; · iexact Ha0
    isplitl [Ha5]; · iexact Ha5
    isplitl [Ha3]; · iexact Ha3
    isplitl [H6]; · iexact H6
    iexact H7
  iapply (wp_wand_r frame _ Set.univ)
  isplitl [Hwp]; · iexact Hwp
  iintro %_ ⟨Hst, Hpost⟩
  unfold regionPost
  icases Hpost with ⟨-, -, Ha0, Ha5, Ha3, -, H7⟩
  imodintro
  isplitl [Hst]; · iexact Hst
  unfold FIN OUT
  rw [V6_unwritten m d (r main_arg0) (by decide) (by decide) (by decide) (by decide) (by decide) (by decide) (by decide),
    V6_unwritten m d (r main_arg1) (by decide) (by decide) (by decide) (by decide) (by decide) (by decide) (by decide),
    V6_unwritten m d (r main_arg2) (by decide) (by decide) (by decide) (by decide) (by decide) (by decide) (by decide),
    V6_unwritten m d (r main_arg3) (by decide) (by decide) (by decide) (by decide) (by decide) (by decide) (by decide),
    V6_unwritten m d (r main_arg4) (by decide) (by decide) (by decide) (by decide) (by decide) (by decide) (by decide),
    V6_unwritten m d (r main_arg5) (by decide) (by decide) (by decide) (by decide) (by decide) (by decide) (by decide),
    V6_unwritten m d (r main_arg6) (by decide) (by decide) (by decide) (by decide) (by decide) (by decide) (by decide)]
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  iexact H7

end Cert.Proof.Kernel

end
-- ==== Proof.Kernel.LaunchElem.lean ====
/-
  The launch element: the ghost state the run starts from, and what it funds.

  The ghost state has three components: the rounds of the launch handshakes, the rounds of the pipelined region's
  staging cells, and the counters of the subcores' own copies.  Owning the initial element of the product is owning
  each component's initial element.  The handshakes' is passed on whole; the staging cells' funds, on every core, the
  cells' launch state and the loop's duty tokens; the counters' unit is dropped; and no thread is handed anything of
  a protocol of the kernel's own, there being none.
-/
import proofs.«207209_g54674933678763_cont_9to1_m_278_38_alg».proof.Proof.Kernel.Pay
import proofs.«207209_g54674933678763_cont_9to1_m_278_38_alg».proof.Proof.Kernel.RegionData
import proofs.«207209_g54674933678763_cont_9to1_m_278_38_alg».proof.Proof.Kernel.RegionGhost
import Idealize.ShloMosaic.Lib.Pipeline.Sound
import Idealize.ShloMosaic.Lib.Pipeline.Kit

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-- The region's staging cells are pairwise distinct. -/
theorem cellOf_inj' : Function.Injective (Pipeline.cellOf (nD := nD) (τ := τ) (pc (F := F))) := cellOf_inj

/-- The initial ghost state: the handshakes' rounds, the staging cells' rounds, the counters' unit. -/
def u₀ : UU :=
  (initOf (K (F := F)).hsCells (K (F := F)).hsToks,
    (initOf (Pipeline.cells (pc (F := F)) cellOf_inj') (Pipeline.launchToks (pc (F := F)) cellOf_inj'), 1))

theorem bigSep_emp' {I : Type} (s : Finset I) : (bigSep s fun _ => iprop(emp)) = (iprop(emp) : sProp 𝕄) := bigSep_emp_const s

/-- Owning the initial product element is owning the handshakes' and the staging cells' components, each through its
    embedding (the counters' component is let go). -/
theorem ownU_split3 (a : UH) (b : UP) (c : Counters) :
    (ownU ((a, (b, c)) : UU) : sProp 𝕄) ⊢ iprop(BI.own (EH a) ∗ BI.own (EP b)) := by
  have h : (ownU ((a, (b, c)) : UU) : sProp 𝕄)
      ⊢ iprop(BI.own (embL a) ∗ BI.own (((Emb.inl : Emb UP (UP × Counters)).trans embR) b)) := by
    iintro Hu
    ihave H := (ownU_pair _ _) $$ Hu
    icases H with ⟨HH, HR⟩
    ihave H2 := (own_pair_emb _ _ _) $$ HR
    icases H2 with ⟨HP, -⟩
    isplitl [HH]; · iexact HH
    iexact HP
  exact h

/-- The staging cells' initial element funds every core's launch state of the cells and duty tokens. -/
theorem G_intro :
    (BI.own (EP (initOf (Pipeline.cells (pc (F := F)) cellOf_inj') (Pipeline.launchToks (pc (F := F)) cellOf_inj'))) : sProp 𝕄)
      ⊢ iprop(|==> bigSep Finset.univ fun d : Dev nD => G (F := F) d) := by
  have eA : (bigSep Finset.univ fun c : Dev nD => bigSep Finset.univ fun p : Fin 1 => Pipeline.cellsGhost (pc (F := F)) EP p c : sProp 𝕄)
      = bigSep Finset.univ fun c : Dev nD => Pipeline.cellsGhost (pc (F := F)) EP 0 c :=
    bigSep_congr fun c _ => bigSep_univ_of_subsingleton (0 : Fin 1)
  have eB : (bigSep Finset.univ fun c : Dev nD => bigSep Finset.univ fun p : Fin 1 => (Pipeline.toksInit (pc (F := F)) EP p c : sProp 𝕄))
      = bigSep Finset.univ fun c : Dev nD => (Pipeline.toksInit (pc (F := F)) EP 0 c : sProp 𝕄) :=
    bigSep_congr fun c _ => bigSep_univ_of_subsingleton (0 : Fin 1)
  have h := Pipeline.fund_ghost (Val := Elt F) (pc (F := F)) (EP (F := F)) cellOf_inj'
  rw [eA, eB] at h
  unfold G
  rw [bigSep_sep']
  exact h

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split3 _ _ _) $$ Hu
  icases H with ⟨HH, HP⟩
  imod (G_intro (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Kernel

end
-- ==== Proof.Kernel.Run.lean ====
/-
  The program's run: from the launch memory every weakly fair execution of the thirty-five threads terminates, nothing
  faulting, with the seven arguments unchanged and the result array at the value the host program's proof names.
-/
import proofs.«207209_g54674933678763_cont_9to1_m_278_38_alg».proof.Proof.Kernel.Common
import Idealize.ShloMosaic.Lib.Pipeline.Frame
import proofs.«207209_g54674933678763_cont_9to1_m_278_38_alg».proof.Proof.Kernel.Main
import proofs.«207209_g54674933678763_cont_9to1_m_278_38_alg».proof.Proof.Kernel.LaunchElem

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- What the final memory of device d holds: the result and the seven arguments. -/
def fq (d : Dev nD) (s' : Phys nD τ sig (Elt F)) : Prop :=
  s'.mem.mem ((SparseCore.T d).loc main_v7) = OUT m d
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7⟩, HSI⟩
  ihave H := (agree_whole _ _ s') $$ [H0 HSI]
  · isplitl [H0] <;> iassumption
  icases H with ⟨%h0, HSI⟩
  ihave H := (agree_whole _ _ s') $$ [H1 HSI]
  · isplitl [H1] <;> iassumption
  icases H with ⟨%h1, HSI⟩
  ihave H := (agree_whole _ _ s') $$ [H2 HSI]
  · isplitl [H2] <;> iassumption
  icases H with ⟨%h2, HSI⟩
  ihave H := (agree_whole _ _ s') $$ [H3 HSI]
  · isplitl [H3] <;> iassumption
  icases H with ⟨%h3, HSI⟩
  ihave H := (agree_whole _ _ s') $$ [H4 HSI]
  · isplitl [H4] <;> iassumption
  icases H with ⟨%h4, HSI⟩
  ihave H := (agree_whole _ _ s') $$ [H5 HSI]
  · isplitl [H5] <;> iassumption
  icases H with ⟨%h5, HSI⟩
  ihave H := (agree_whole _ _ s') $$ [H6 HSI]
  · isplitl [H6] <;> iassumption
  icases H with ⟨%h6, HSI⟩
  ihave H := (agree_whole _ _ s') $$ [H7 HSI]
  · isplitl [H7] <;> iassumption
  icases H with ⟨%h7, HSI⟩
  ipureintro
  exact ⟨h7, h0, h1, h2, h3, h4, h5, h6⟩

/-- The run's post: on every device the result array and the unchanged arguments. -/
def QC : PUnit × MemSt nD τ sig (Elt F) → Prop := fun r => ∀ c : Dev nD,
  r.2.mem ((SparseCore.T c).loc main_v7) = OUT m c
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ r.2.mem ((SparseCore.T c).loc main_arg6) = m ((SparseCore.T c).loc main_arg6)

theorem run_main [∀ e, Nonempty (Elt F e)] (hbody : TileBody (F := F) m) (hreg : RegionRule (F := F)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (G (F := F)) (FIN m) (u₀ (F := F)) (sep_elim_left.trans (hu₀ m)) (hmain m ρ hreg) (fq m) (hfin m) (QC m) (fun _ h => h)

end Cert.Proof.Kernel

end
-- ==== Proof.Kernel.HostValue.lean ====
/-
  The host's data movement around the two kernels, read at an index.  Before the first kernel the host transposes the
  index array and flattens it (entry 16384·f + b of the flat array is example b's index in field f) and moves the
  vocabulary axis of both embedding tables last; between the kernels it views the flat accumulator as the
  [2, 3, 16, 8192] planes (entry (c, j, t, i) is flat entry 393216·c + 131072·j + 8192·t + i) and the bias as a [1, 1] array.
  Each statement is over an arbitrary operand and an arbitrary element type; each comes once at an index given by
  coordinates and once as an equality of whole arrays.
-/
import proofs.«207209_g54674933678763_cont_9to1_m_278_38_alg».proof.Kernel
import proofs.«207209_g54674933678763_cont_9to1_m_278_38_alg».proof.Proof.Gen.Kernel
import Idealize.ShloMosaic.Lib.Pipeline.Value
import Idealize.ShloMosaic.Lib.ValueLayout
import Idealize.ShloMosaic.Lib.ValueIdx

namespace Cert.Proof.Kernel

open Idealize.ShloMosaic Idealize.ShloMosaic.ValueIdx Cert.Kernel

variable {α : Type}

/-! ## Coordinates below their extents, and indices from coordinates given as numbers -/

theorem idx1_lt0 {n : Nat} (j : (⟨1, ![n]⟩ : Shape).Idx) : (j 0).val < n := (j 0).isLt
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt
theorem idx4_lt0 {n0 n1 n2 n3 : Nat} (j : (⟨4, ![n0, n1, n2, n3]⟩ : Shape).Idx) : (j 0).val < n0 := (j 0).isLt
theorem idx4_lt1 {n0 n1 n2 n3 : Nat} (j : (⟨4, ![n0, n1, n2, n3]⟩ : Shape).Idx) : (j 1).val < n1 := (j 1).isLt
theorem idx4_lt2 {n0 n1 n2 n3 : Nat} (j : (⟨4, ![n0, n1, n2, n3]⟩ : Shape).Idx) : (j 2).val < n2 := (j 2).isLt
theorem idx4_lt3 {n0 n1 n2 n3 : Nat} (j : (⟨4, ![n0, n1, n2, n3]⟩ : Shape).Idx) : (j 3).val < n3 := (j 3).isLt

theorem eq_ix2' {n0 n1 : Nat} (j : (⟨2, ![n0, n1]⟩ : Shape).Idx) :
    j = ix2 (⟨(j 0).val, idx2_lt0 j⟩ : Fin n0) (⟨(j 1).val, idx2_lt1 j⟩ : Fin n1) := eq_ix2 j
theorem eq_ix3' {n0 n1 n2 : Nat} (j : (⟨3, ![n0, n1, n2]⟩ : Shape).Idx) :
    j = ix3 (⟨(j 0).val, idx3_lt0 j⟩ : Fin n0) (⟨(j 1).val, idx3_lt1 j⟩ : Fin n1) (⟨(j 2).val, idx3_lt2 j⟩ : Fin n2) := eq_ix3 j
theorem eq_ix4' {n0 n1 n2 n3 : Nat} (j : (⟨4, ![n0, n1, n2, n3]⟩ : Shape).Idx) :
    j = ix4 (⟨(j 0).val, idx4_lt0 j⟩ : Fin n0) (⟨(j 1).val, idx4_lt1 j⟩ : Fin n1) (⟨(j 2).val, idx4_lt2 j⟩ : Fin n2)
      (⟨(j 3).val, idx4_lt3 j⟩ : Fin n3) := eq_ix4 j

/-! ## The index array, transposed and flattened -/

/-- Entry `16384·f + b` of the flattened transpose is example `b`'s index in field `f`. -/
theorem cat_flat_apply (xc : S16384x26.Idx → α) (ht : S16384x26.Transposes [1, 0] S26x16384)
    (hc : S26x16384.ShapeCasts S425984) (f : Fin 26) (b : Fin 16384) (h : 16384 * f.val + b.val < 425984) :
    shapeCast S425984 (transpose S26x16384 [1, 0] xc ht) hc (ix1 ⟨16384 * f.val + b.val, h⟩) = xc (ix2 b f) := by
  refine (shapeCast_apply (transpose S26x16384 [1, 0] xc ht) hc _ (ix2 f b) ?_).trans (transpose_ix2_apply xc ht f b)
  rw [Shape.rowMajor_val_two, Shape.rowMajor_val_one]
  show f.val * 16384 + b.val = 16384 * f.val + b.val
  omega

/-- The flattened transpose as one function: entry `n` is example `n mod 16384`'s index in field `n / 16384`. -/
theorem cat_flat_eq (xc : S16384x26.Idx → α) (ht : S16384x26.Transposes [1, 0] S26x16384)
    (hc : S26x16384.ShapeCasts S425984) :
    shapeCast S425984 (transpose S26x16384 [1, 0] xc ht) hc
      = fun i => xc (ix2 (⟨(i 0).val % 16384, Nat.mod_lt _ (by norm_num)⟩ : Fin 16384)
          (⟨(i 0).val / 16384, by have := idx1_lt0 i; omega⟩ : Fin 26)) := by
  funext i
  have hi := idx1_lt0 i
  have e : i = ix1 (⟨16384 * ((i 0).val / 16384) + (i 0).val % 16384, by omega⟩ : Fin 425984) :=
    (eq_ix1 i).trans (congrArg (ix1 (n := 425984)) (Fin.ext (by show (i 0).val = 16384 * ((i 0).val / 16384) + (i 0).val % 16384; omega)))
  exact (congrArg (shapeCast S425984 (transpose S26x16384 [1, 0] xc ht) hc) e).trans
    (cat_flat_apply xc ht hc ⟨(i 0).val / 16384, by omega⟩ ⟨(i 0).val % 16384, Nat.mod_lt _ (by norm_num)⟩ _)

/-- Indices below the vocabulary size stay so through the transpose and the flattening. -/
theorem cat_flat_lt (xc : S16384x26.Idx → BitVec 32) (ht : S16384x26.Transposes [1, 0] S26x16384)
    (hc : S26x16384.ShapeCasts S425984) (hx : ∀ j, (xc j).toNat < 100000) (i : S425984.Idx) :
    (shapeCast S425984 (transpose S26x16384 [1, 0] xc ht) hc i).toNat < 100000 := by
  rw [cat_flat_eq xc ht hc]
  exact hx _

/-! ## The two embedding tables, vocabulary axis moved last -/

/-- The factor table transposed reads, at (field, component, row), the table at (field, row, component). -/
theorem fac_tr_apply (vc : S26x100000x16.Idx → α) (h : S26x100000x16.Transposes [0, 2, 1] S26x16x100000)
    (f : Fin 26) (k : Fin 16) (v : Fin 100000) :
    transpose S26x16x100000 [0, 2, 1] vc h (ix3 f k v) = vc (ix3 f v k) :=
  transpose_ix3_021_apply vc h f k v

theorem fac_tr_eq (vc : S26x100000x16.Idx → α) (h : S26x100000x16.Transposes [0, 2, 1] S26x16x100000) :
    transpose S26x16x100000 [0, 2, 1] vc h
      = fun j => vc (ix3 (⟨(j 0).val, idx3_lt0 j⟩ : Fin 26) (⟨(j 2).val, idx3_lt2 j⟩ : Fin 100000) (⟨(j 1).val, idx3_lt1 j⟩ : Fin 16)) := by
  funext j
  exact (congrArg (transpose S26x16x100000 [0, 2, 1] vc h) (eq_ix3' j)).trans (fac_tr_apply vc h _ _ _)

/-- The linear table transposed reads, at (field, 0, row), the table at (field, row, 0). -/
theorem lin_tr_apply (lin : S26x100000x1.Idx → α) (h : S26x100000x1.Transposes [0, 2, 1] S26x1x100000)
    (f : Fin 26) (u : Fin 1) (v : Fin 100000) :
    transpose S26x1x100000 [0, 2, 1] lin h (ix3 f u v) = lin (ix3 f v (0 : Fin 1)) := by
  have hu : u = 0 := Fin.ext (by have := u.isLt; show u.val = 0; omega)
  rw [hu]
  exact transpose_ix3_021_apply lin h f (0 : Fin 1) v

theorem lin_tr_eq (lin : S26x100000x1.Idx → α) (h : S26x100000x1.Transposes [0, 2, 1] S26x1x100000) :
    transpose S26x1x100000 [0, 2, 1] lin h
      = fun j => lin (ix3 (⟨(j 0).val, idx3_lt0 j⟩ : Fin 26) (⟨(j 2).val, idx3_lt2 j⟩ : Fin 100000) (0 : Fin 1)) := by
  funext j
  exact (congrArg (transpose S26x1x100000 [0, 2, 1] lin h) (eq_ix3' j)).trans (lin_tr_apply lin h _ _ _)

/-! ## The flat accumulator as planes, and the bias as a matrix -/

/-- Plane entry `(c, j, t, i)` is flat entry `393216·c + 131072·j + 8192·t + i`. -/
theorem planes_apply (v4 : S786432.Idx → α) (h : S786432.ShapeCasts S2x3x16x8192) (c : Fin 2) (j : Fin 3) (t : Fin 16)
    (i : Fin 8192) (hlt : 393216 * c.val + 131072 * j.val + 8192 * t.val + i.val < 786432) :
    shapeCast S2x3x16x8192 v4 h (ix4 c j t i) = v4 (ix1 ⟨393216 * c.val + 131072 * j.val + 8192 * t.val + i.val, hlt⟩) :=
  shapeCast_apply v4 h _ _ (by
    rw [Shape.rowMajor_val_one, Shape.rowMajor_val_four]
    show 393216 * c.val + 131072 * j.val + 8192 * t.val + i.val = ((c.val * 3 + j.val) * 16 + t.val) * 8192 + i.val
    omega)

theorem planes_eq (v4 : S786432.Idx → α) (h : S786432.ShapeCasts S2x3x16x8192) :
    shapeCast S2x3x16x8192 v4 h
      = fun j => v4 (ix1 (⟨393216 * (j 0).val + 131072 * (j 1).val + 8192 * (j 2).val + (j 3).val, by
          have := idx4_lt0 j; have := idx4_lt1 j; have := idx4_lt2 j; have := idx4_lt3 j; omega⟩ : Fin 786432)) := by
  funext j
  exact (congrArg (shapeCast S2x3x16x8192 v4 h) (eq_ix4' j)).trans (planes_apply v4 h _ _ _ _ _)

/-- The bias viewed as a [1, 1] array reads the bias. -/
theorem bias_apply (bias : S1.Idx → α) (h : S1.ShapeCasts S1x1) (u u' : Fin 1) :
    shapeCast S1x1 bias h (ix2 u u') = bias (ix1 (0 : Fin 1)) := by
  have hu : u' = 0 := Fin.ext (by have := u'.isLt; show u'.val = 0; omega)
  rw [hu]
  exact shapeCast_a_1a_apply bias h u (0 : Fin 1)

theorem bias_eq (bias : S1.Idx → α) (h : S1.ShapeCasts S1x1) :
    shapeCast S1x1 bias h = fun _ => bias (ix1 (0 : Fin 1)) := by
  funext j
  exact (congrArg (shapeCast S1x1 bias h) (eq_ix2' j)).trans (bias_apply bias h _ _)

end Cert.Proof.Kernel
-- ==== Proof.Kernel.ValsEq.lean ====
/-
  The arrays' contents along the host program, evaluated.  Each host operation writes one array, as a function of the
  arrays it reads, and leaves every other array as it was; so the contents after the program are read off operation by
  operation: the three inputs of the accumulation call are the transposed (and, for the indices, flattened) launch
  arrays; after the call and the two reshapes, the planes are the accumulated output viewed as [2, 3, 16, 8192], the
  bias matrix is the launch bias viewed as [1, 1], and the seven argument arrays still hold their launch contents.
-/
import proofs.«207209_g54674933678763_cont_9to1_m_278_38_alg».proof.Proof.Kernel.Vals
import proofs.«207209_g54674933678763_cont_9to1_m_278_38_alg».proof.Proof.Kernel.HostValue

noncomputable section

namespace Cert.Proof.Kernel

open Cert.Kernel Cert.Kernel.Gen

open Idealize.ShloMosaic
open Idealize.ShloMosaic.SparseCore (S V T)
open Idealize.ShloMosaic.SparseCore.Cfg (HIx)
open Idealize.SL Idealize.SL.RA Idealize.SL.BI
open Idealize.ShloMosaic.StableHlo (unary_result unary_result_ne reshape_result reshape_result_ne devRef_ne_of_ne)

variable {F : FTy → Type}

variable (m : (ℓ : Loc nD τ sig) → Buf (Elt F) ℓ)
variable [FloatOps F]

/-! ## Arrays no operation writes -/

/-- Before the call, an array that is none of the four results holds its launch contents. -/
theorem V4_keep (d : Dev nD) (b : Ref sig .tc) (h0 : b ≠ main_v0) (h1 : b ≠ main_v1) (h2 : b ≠ main_v2) (h3 : b ≠ main_v3) :
    V4 m d (r b) = m ((SparseCore.T d).loc b) := by
  unfold V4
  rw [unary_result_ne (h := h3), unary_result_ne (h := h2), reshape_result_ne (h := h1), unary_result_ne (h := h0)]
  rfl

/-- After the program, an array that is none of the seven results holds its launch contents. -/
theorem V6_keep (d : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) :
    V6 m d (r b) = m ((SparseCore.T d).loc b) := by
  unfold V6 Vc
  rw [reshape_result_ne (h := h6), reshape_result_ne (h := h5), Function.update_of_ne (devRef_ne_of_ne h4)]
  exact V4_keep m d b h0 h1 h2 h3

theorem V6_arg0 (d : Dev nD) : V6 m d (r main_arg0) = m ((SparseCore.T d).loc main_arg0) :=
  V6_keep m d main_arg0 (by decide) (by decide) (by decide) (by decide) (by decide) (by decide) (by decide)
theorem V6_arg1 (d : Dev nD) : V6 m d (r main_arg1) = m ((SparseCore.T d).loc main_arg1) :=
  V6_keep m d main_arg1 (by decide) (by decide) (by decide) (by decide) (by decide) (by decide) (by decide)
theorem V6_arg2 (d : Dev nD) : V6 m d (r main_arg2) = m ((SparseCore.T d).loc main_arg2) :=
  V6_keep m d main_arg2 (by decide) (by decide) (by decide) (by decide) (by decide) (by decide) (by decide)
theorem V6_arg3 (d : Dev nD) : V6 m d (r main_arg3) = m ((SparseCore.T d).loc main_arg3) :=
  V6_keep m d main_arg3 (by decide) (by decide) (by decide) (by decide) (by decide) (by decide) (by decide)
theorem V6_arg4 (d : Dev nD) : V6 m d (r main_arg4) = m ((SparseCore.T d).loc main_arg4) :=
  V6_keep m d main_arg4 (by decide) (by decide) (by decide) (by decide) (by decide) (by decide) (by decide)
theorem V6_arg5 (d : Dev nD) : V6 m d (r main_arg5) = m ((SparseCore.T d).loc main_arg5) :=
  V6_keep m d main_arg5 (by decide) (by decide) (by decide) (by decide) (by decide) (by decide) (by decide)
theorem V6_arg6 (d : Dev nD) : V6 m d (r main_arg6) = m ((SparseCore.T d).loc main_arg6) :=
  V6_keep m d main_arg6 (by decide) (by decide) (by decide) (by decide) (by decide) (by decide) (by decide)

/-! ## The call's three inputs -/

/-- The index words the call reads: the launch index matrix, transposed and flattened. -/
theorem A1_eq (d : Dev nD) :
    A1 m d = shapeCast S425984 (transpose S26x16384 [1, 0] (m ((SparseCore.T d).loc main_arg1)) transposes_S16384x26_S26x16384_1_0)
      shapeCasts_S26x16384_S425984 := by
  unfold A1 V4
  rw [unary_result_ne (h := by decide), unary_result_ne (h := by decide), reshape_result, unary_result]
  rfl

/-- The factor table the call reads: the launch table with the vocabulary axis moved last. -/
theorem A2_eq (d : Dev nD) :
    A2 m d = transpose S26x16x100000 [0, 2, 1] (m ((SparseCore.T d).loc main_arg6)) transposes_S26x100000x16_S26x16x100000_0_2_1 := by
  unfold A2 V4
  rw [unary_result_ne (h := by decide), unary_result, reshape_result_ne (h := by decide), unary_result_ne (h := by decide)]
  rfl

/-- The linear table the call reads: the launch table with the vocabulary axis moved last. -/
theorem A3_eq (d : Dev nD) :
    A3 m d = transpose S26x1x100000 [0, 2, 1] (m ((SparseCore.T d).loc main_arg4)) transposes_S26x100000x1_S26x1x100000_0_2_1 := by
  unfold A3 V4
  rw [unary_result, unary_result_ne (h := by decide), reshape_result_ne (h := by decide), unary_result_ne (h := by decide)]
  rfl

/-! ## The combining region's two reshaped inputs -/

/-- The planes: the accumulated output viewed as [2, 3, 16, 8192]. -/
theorem V6_v5 (d : Dev nD) :
    V6 m d (r main_v5) = shapeCast S2x3x16x8192 (outBuf (A1 m d) (A2 m d) (A3 m d)) shapeCasts_S786432_S2x3x16x8192 := by
  unfold V6 Vc
  rw [reshape_result_ne (h := by decide), reshape_result, Function.update_self]
  rfl

/-- The bias matrix: the launch bias viewed as [1, 1]. -/
theorem V6_v6 (d : Dev nD) :
    V6 m d (r main_v6) = shapeCast S1x1 (m ((SparseCore.T d).loc main_arg2)) shapeCasts_S1_S1x1 := by
  unfold V6 Vc
  rw [reshape_result, reshape_result_ne (h := by decide), Function.update_of_ne (devRef_ne_of_ne (by decide)),
    V4_keep m d main_arg2 (by decide) (by decide) (by decide) (by decide)]
  rfl

end Cert.Proof.Kernel

end
-- ==== Proof.Kernel.PreIdx.lean ====
/-
  From the precondition to the index facts the accumulation kernel needs: every word of the flattened index array the
  subcores read is a word of the categorical index matrix, hence below the vocabulary size.
-/
import proofs.«207209_g54674933678763_cont_9to1_m_278_38_alg».proof.Proof.Kernel.Common
import Idealize.ShloMosaic.Lib.Pipeline.Frame
import proofs.«207209_g54674933678763_cont_9to1_m_278_38_alg».proof.Proof.Kernel.ValsEq
import proofs.«207209_g54674933678763_cont_9to1_m_278_38_alg».proof.Proof.PreDomain

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable (m : (ℓ : Loc nD τ sig) → Buf (Elt F) ℓ)
variable [FloatOps F]

theorem idx_lt_of_pre [Cert.Pre_input_domain.Facts] (d : Dev nD)
    (h : Cert.Pre_input_domain.fn (F := F) (m ((SparseCore.T d).loc main_arg0)) (m ((SparseCore.T d).loc main_arg1)) (m ((SparseCore.T d).loc main_arg2))
      (m ((SparseCore.T d).loc main_arg3)) (m ((SparseCore.T d).loc main_arg4)) (m ((SparseCore.T d).loc main_arg5)) (m ((SparseCore.T d).loc main_arg6)) = fun _ => 1#1) :
    ∀ j, (A1 m d j).toNat < 100000 := by
  rw [A1_eq]
  exact cat_flat_lt _ _ _ (Cert.PreDomain.xcat_lt _ _ _ _ _ _ _ h)

end Cert.Proof.Kernel

end
-- ==== Proof.Kernel.TileSetup.lean ====
/-
  The vector subcore's own storage, taken apart: of the scoped semaphores the five the kernel uses and the rest, of the
  scoped buffers the four scratches and the rest; and the spellings of a held buffer the kernel's memrefs read it by.
-/
import proofs.«207209_g54674933678763_cont_9to1_m_278_38_alg».proof.Proof.Kernel.TileRes

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-- The subcore's DMA semaphore of a one-element array, as a cell. -/
abbrev cellV (s : DmaSems sig S_) : GSem nD τ sig := (V d (cV L) (jV L), .dma s.sem)

theorem cellV_ne {a b : DmaSems sig S_} (h : a.sem ≠ b.sem) : cellV d L a ≠ cellV d L b :=
  fun e => h (SemLoc.dma.inj (Prod.mk.inj e).2)

theorem cellV_mem (s : DmaSems sig S_) (h : (SemLoc.dma s.sem : SemLoc sig).isScoped .scVector = true) :
    cellV d L s ∈ ownCells (V d (cV L) (jV L)) := (mem_ownCells (g := cellV d L s)).mpr ⟨rfl, h⟩

theorem ownSems0_V :
    (ownSems0 (V d (cV L) (jV L)) : sProp 𝕄)
      = iprop(semVal (cellV d L cc0_scratch4) 0 ∗ semVal (cellV d L cc0_scratch5) 0 ∗ semVal (cellV d L cc0_scoped0) 0
          ∗ semVal (cellV d L cc0_scoped1) 0 ∗ semVal (cellV d L cc0_scoped2) 0
          ∗ bigSep ((((((ownCells (V d (cV L) (jV L))).erase (cellV d L cc0_scratch4)).erase (cellV d L cc0_scratch5)).erase (cellV d L cc0_scoped0)).erase
              (cellV d L cc0_scoped1)).erase (cellV d L cc0_scoped2)) fun g => semVal g 0) := by
  unfold SparseCore.Cfg.ownSems0
  have m4 := cellV_mem d L cc0_scratch4 (by decide)
  have m5 := cellV_mem d L cc0_scratch5 (by decide)
  have m0 := cellV_mem d L cc0_scoped0 (by decide)
  have m1 := cellV_mem d L cc0_scoped1 (by decide)
  have m2 := cellV_mem d L cc0_scoped2 (by decide)
  rw [SparseCore.bigSep_erase' m4,
    SparseCore.bigSep_erase' (Finset.mem_erase.mpr ⟨cellV_ne d L (by decide), m5⟩),
    SparseCore.bigSep_erase' (Finset.mem_erase.mpr ⟨cellV_ne d L (by decide), Finset.mem_erase.mpr ⟨cellV_ne d L (by decide), m0⟩⟩),
    SparseCore.bigSep_erase' (Finset.mem_erase.mpr ⟨cellV_ne d L (by decide), Finset.mem_erase.mpr ⟨cellV_ne d L (by decide),
      Finset.mem_erase.mpr ⟨cellV_ne d L (by decide), m1⟩⟩⟩),
    SparseCore.bigSep_erase' (Finset.mem_erase.mpr ⟨cellV_ne d L (by decide), Finset.mem_erase.mpr ⟨cellV_ne d L (by decide),
      Finset.mem_erase.mpr ⟨cellV_ne d L (by decide), Finset.mem_erase.mpr ⟨cellV_ne d L (by decide), m2⟩⟩⟩⟩)]

abbrev refV (b : Ref sig .scVector) : DevRef τ sig := (Proc.scVector (cV L) (jV L)).devRef b

theorem refV_ne {a b : Ref sig .scVector} (h : a ≠ b) : refV L a ≠ refV L b := fun e => h (Proc.devRef_injective _ e)
theorem refV_mem (b : Ref sig .scVector) (h : (refV L b).owner = .proc (Proc.scVector (cV L) (jV L))) :
    refV L b ∈ ownRefs (τ := τ) (sig := sig) (.scVector (cV L) (jV L)) :=
  SparseCore.Cfg.mem_ownRefs_of_owner (p := Proc.scVector (cV L) (jV L)) (b := refV L b) h

/-- The four scratches are among the subcore's own buffers: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (refV L cc0_scratch0)).erase (refV L cc0_scratch1)).erase
              (refV L cc0_scratch2)).erase (refV L cc0_scratch3))
              fun b => iprop(∃ f, ((d, b) : Loc nD τ sig) ↦{fullShare} f)) := by
  unfold SparseCore.Cfg.ownBufs
  refine (SparseCore.bigSep_erase' (refV_mem L cc0_scratch0 rfl)).trans ?_
  rw [SparseCore.bigSep_erase' (Finset.mem_erase.mpr ⟨refV_ne L (by decide), refV_mem L cc0_scratch1 rfl⟩),
    SparseCore.bigSep_erase' (Finset.mem_erase.mpr ⟨refV_ne L (by decide), Finset.mem_erase.mpr ⟨refV_ne L (by decide), refV_mem L cc0_scratch2 rfl⟩⟩),
    SparseCore.bigSep_erase' (Finset.mem_erase.mpr ⟨refV_ne L (by decide), Finset.mem_erase.mpr ⟨refV_ne L (by decide),
      Finset.mem_erase.mpr ⟨refV_ne L (by decide), refV_mem L cc0_scratch3 rfl⟩⟩⟩)]

end Cert.Proof.Kernel

end
-- ==== Proof.Kernel.TileTripF.lean ====
/-
  One trip of each of the accumulation kernel's counted loops, footprint only: what the trip needs of the subcore's
  scratches and that it gives them back.  The gathered rows are in range because every index word held in the index
  scratch is below the vocabulary size.
-/
import proofs.«207209_g54674933678763_cont_9to1_m_278_38_alg».proof.Proof.Kernel.TileSetup

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "v2W" => (Memref.whole Cert.Kernel.main_v2_scv : Memref Cert.Kernel.sig Kind.scVector Space.hbm Cert.Kernel.S26x16x100000 EltTy.f32)
local notation "v3W" => (Memref.whole Cert.Kernel.main_v3_scv : Memref Cert.Kernel.sig Kind.scVector Space.hbm Cert.Kernel.S26x1x100000 EltTy.f32)
local notation "v1W" => (Memref.whole Cert.Kernel.main_v1_scv : Memref Cert.Kernel.sig Kind.scVector Space.hbm Cert.Kernel.S425984 EltTy.i32)
local notation "v4W" => (Memref.whole Cert.Kernel.main_v4_scv : Memref Cert.Kernel.sig Kind.scVector Space.hbm Cert.Kernel.S786432 EltTy.f32)
local notation "s0W" => (Memref.whole Cert.Kernel.cc0_scratch0 : Memref Cert.Kernel.sig Kind.scVector Space.vmem Cert.Kernel.S100000 EltTy.f32)
local notation "s1W" => (Memref.whole Cert.Kernel.cc0_scratch1 : Memref Cert.Kernel.sig Kind.scVector Space.vmem Cert.Kernel.S8192 EltTy.i32)
local notation "s2W" => (Memref.whole Cert.Kernel.cc0_scratch2 : Memref Cert.Kernel.sig Kind.scVector Space.vmem Cert.Kernel.S8192 EltTy.f32)
local notation "s3W" => (Memref.whole Cert.Kernel.cc0_scratch3 : Memref Cert.Kernel.sig Kind.scVector Space.vmem Cert.Kernel.S8192 EltTy.f32)

abbrev thrV : Thread nD τ := V d (cV L) (jV L)

abbrev s0At (f : Buf (Elt F) ((thrV d L).loc cc0_scratch0)) : sProp 𝕄 := (s0W).view.loc (thrV d L) ↦{fullShare} f
abbrev s1At (f : Buf (Elt F) ((thrV d L).loc cc0_scratch1)) : sProp 𝕄 := (s1W).view.loc (thrV d L) ↦{fullShare} f
abbrev s2At (f : Buf (Elt F) ((thrV d L).loc cc0_scratch2)) : sProp 𝕄 := (s2W).view.loc (thrV d L) ↦{fullShare} f
abbrev s3At (f : Buf (Elt F) ((thrV d L).loc cc0_scratch3)) : sProp 𝕄 := (s3W).view.loc (thrV d L) ↦{fullShare} f

/-- A trip of the zeroing loop over both accumulators. -/
theorem trip1F (k : Fin k0_t1_loop.trips)
    (a : Buf (Elt F) ((thrV d L).loc cc0_scratch2)) (b : Buf (Elt F) ((thrV d L).loc cc0_scratch3)) :
    iprop(s2At d L a ∗ s3At d L b)
      ⊢ wp frame (wpE (defs₀ (F := F)) 𝒱₀ (thrV d L) none) Set.univ
          (k0_t1_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop((∃ a', s2At d L a') ∗ ∃ b', s3At d L b') := by
  unfold k0_t1_body
  iintro ⟨H2, H3⟩
  sl_exec
  sl_step
  isplitl [H2]
  · iexists _; iexact H2
  · iexists _; iexact H3

/-- A trip of the zeroing loop over the first accumulator. -/
theorem trip4F (k : Fin k0_t4_loop.trips) (a : Buf (Elt F) ((thrV d L).loc cc0_scratch2)) :
    s2At d L a
      ⊢ wp frame (wpE (defs₀ (F := F)) 𝒱₀ (thrV d L) none) Set.univ
          (k0_t4_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(∃ a', s2At d L a') := by
  unfold k0_t4_body
  iintro H2
  sl_exec
  sl_step
  iexists _; iexact H2

/-- A trip of the factor loop: four chunks of sixteen lanes gathered from the row scratch at the index scratch's
    words and added into both accumulators. -/
theorem trip3F (Pf : Buf (Elt F) ((thrV d L).loc cc0_scratch0)) (If : Buf (Elt F) ((thrV d L).loc cc0_scratch1))
    (hI : ∀ y, (If y).toNat < 100000) (k : Fin k0_t3_loop.trips)
    (a : Buf (Elt F) ((thrV d L).loc cc0_scratch2)) (b : Buf (Elt F) ((thrV d L).loc cc0_scratch3)) :
    iprop(s0At d L Pf ∗ s1At d L If ∗ s2At d L a ∗ s3At d L b)
      ⊢ wp frame (wpE (defs₀ (F := F)) 𝒱₀ (thrV d L) none) Set.univ
          (k0_t3_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ (∃ a', s2At d L a') ∗ ∃ b', s3At d L b') := by
  unfold k0_t3_body
  simp only [k0_part1_eq_skeleton]; unfold k0_part1_skel
  unfold SparseCore.vectorLoadIdx
  iintro ⟨H0, H1, H2, H3⟩
  sl_exec (disch := (intro a x; obtain rfl : a = 0 := Subsingleton.elim _ _; exact hI _))
  sl_step
  isplitl [H0]; · iexact H0
  isplitl [H1]; · iexact H1
  isplitl [H2]
  · iexists _; iexact H2
  · iexists _; iexact H3

/-- A trip of the first linear loop. -/
theorem trip5F (Pf : Buf (Elt F) ((thrV d L).loc cc0_scratch0)) (If : Buf (Elt F) ((thrV d L).loc cc0_scratch1))
    (hI : ∀ y, (If y).toNat < 100000) (k : Fin k0_t5_loop.trips)
    (a : Buf (Elt F) ((thrV d L).loc cc0_scratch2)) :
    iprop(s0At d L Pf ∗ s1At d L If ∗ s2At d L a)
      ⊢ wp frame (wpE (defs₀ (F := F)) 𝒱₀ (thrV d L) none) Set.univ
          (k0_t5_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ ∃ a', s2At d L a') := by
  unfold k0_t5_body
  unfold SparseCore.vectorLoadIdx
  iintro ⟨H0, H1, H2⟩
  sl_exec (disch := (intro a x; obtain rfl : a = 0 := Subsingleton.elim _ _; exact hI _))
  sl_step
  isplitl [H0]; · iexact H0
  isplitl [H1]; · iexact H1
  iexists _; iexact H2

/-- A trip of the second linear loop (run when the subcore has a second field). -/
theorem trip6F (h1 : k0_cond1 L = 1#1) (Pf : Buf (Elt F) ((thrV d L).loc cc0_scratch0)) (If : Buf (Elt F) ((thrV d L).loc cc0_scratch1))
    (hI : ∀ y, (If y).toNat < 100000) (k : Fin k0_t6_loop.trips)
    (a : Buf (Elt F) ((thrV d L).loc cc0_scratch2)) :
    iprop(s0At d L Pf ∗ s1At d L If ∗ s2At d L a)
      ⊢ wp frame (wpE (defs₀ (F := F)) 𝒱₀ (thrV d L) none) Set.univ
          (k0_t6_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 h1 k ⟨⟩)
          fun _ => iprop(s0At d L Pf ∗ s1At d L If ∗ ∃ a', s2At d L a') := by
  unfold k0_t6_body
  unfold SparseCore.vectorLoadIdx
  iintro ⟨H0, H1, H2⟩
  sl_exec (disch := first | (intro _ a x; obtain rfl : a = 0 := Subsingleton.elim _ _; exact hI _) | (intro a x; obtain rfl : a = 0 := Subsingleton.elim _ _; exact hI _))
  sl_step
  isplitl [H0]; · iexact H0
  isplitl [H1]; · iexact H1
  iexists _; iexact H2

end Cert.Proof.Kernel

end
-- ==== Proof.Kernel.TileFieldF.lean ====
/-
  One field of the factor loop, and the whole first part of the kernel, footprint only.
-/
import proofs.«207209_g54674933678763_cont_9to1_m_278_38_alg».proof.Proof.Kernel.TileTripF

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "v2W" => (Memref.whole Cert.Kernel.main_v2_scv : Memref Cert.Kernel.sig Kind.scVector Space.hbm Cert.Kernel.S26x16x100000 EltTy.f32)
local notation "v3W" => (Memref.whole Cert.Kernel.main_v3_scv : Memref Cert.Kernel.sig Kind.scVector Space.hbm Cert.Kernel.S26x1x100000 EltTy.f32)
local notation "v1W" => (Memref.whole Cert.Kernel.main_v1_scv : Memref Cert.Kernel.sig Kind.scVector Space.hbm Cert.Kernel.S425984 EltTy.i32)
local notation "v4W" => (Memref.whole Cert.Kernel.main_v4_scv : Memref Cert.Kernel.sig Kind.scVector Space.hbm Cert.Kernel.S786432 EltTy.f32)
local notation "s0W" => (Memref.whole Cert.Kernel.cc0_scratch0 : Memref Cert.Kernel.sig Kind.scVector Space.vmem Cert.Kernel.S100000 EltTy.f32)
local notation "s1W" => (Memref.whole Cert.Kernel.cc0_scratch1 : Memref Cert.Kernel.sig Kind.scVector Space.vmem Cert.Kernel.S8192 EltTy.i32)
local notation "s2W" => (Memref.whole Cert.Kernel.cc0_scratch2 : Memref Cert.Kernel.sig Kind.scVector Space.vmem Cert.Kernel.S8192 EltTy.f32)
local notation "s3W" => (Memref.whole Cert.Kernel.cc0_scratch3 : Memref Cert.Kernel.sig Kind.scVector Space.vmem Cert.Kernel.S8192 EltTy.f32)

/-- The inner loop's invariant: the row and index scratches as the copies left them, the accumulators at some contents. -/
def inv3F (Pf : Buf (Elt F) ((thrV d L).loc cc0_scratch0)) (If : Buf (Elt F) ((thrV d L).loc cc0_scratch1)) (_ : Nat) (_ : PUnit) : sProp 𝕄 :=
  iprop(s0At d L Pf ∗ s1At d L If ∗ (∃ a', s2At d L a') ∗ ∃ b', s3At d L b')

/-- The field loop's invariant: the two tables at their read shares, the four scratches at some contents, the two
    semaphores' counters at zero, and what the subcore owes with only its own waits added. -/
def inv2F (q : PosShare TreeShare) (A1 : Buf (Elt F) (v1Loc d)) (A2 : Buf (Elt F) (v2Loc d))
    (O : CellTallies nD τ sig (HIx 1)) (W : Waits sig (HIx 1)) (_ : Nat) (_ : PUnit) : sProp 𝕄 :=
  iprop(Transfers.MayWaits (thrV d L) (none : HIx 1) O
    ∗ ((v2W).view.loc (thrV d L) ↦{q} A2) ∗ ((v1W).view.loc (thrV d L) ↦{q} A1)
    ∗ (∃ f0, s0At d L f0) ∗ (∃ f1, s1At d L f1) ∗ (∃ a, s2At d L a) ∗ (∃ b, s3At d L b)
    ∗ semVal (cellV d L cc0_scratch4) 0 ∗ semVal (cellV d L cc0_scratch5) 0
    ∗ ∃ W', ⌜∀ p ∈ W', p ∈ W ∨ p.2 = none⌝ ∗ owes (thrV d L) O W')

theorem fieldF (q : PosShare TreeShare) (A1 : Buf (Elt F) (v1Loc d)) (A2 : Buf (Elt F) (v2Loc d))
    (hidx : ∀ j, (A1 j).toNat < 100000)
    (O : CellTallies nD τ sig (HIx 1)) (W : Waits sig (HIx 1)) (f : Fin k0_t2_loop.trips) :
    inv2F d L q A1 A2 O W f.val ⟨⟩
      ⊢ wp frame (wpE (defs₀ (F := F)) 𝒱₀ (thrV d L) none) Set.univ
          (k0_t2_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 f ⟨⟩)
          (inv2F d L q A1 A2 O W (f.val + 1)) := by
  unfold k0_t2_body inv2F
  iintro ⟨Hmw, H2, H1, ⟨%f0, Hs0⟩, ⟨%f1, Hs1⟩, ⟨%a, Hs2⟩, ⟨%b, Hs3⟩, Hm4, Hm5, %W', %hW', HO⟩
  sl_exec
  have e0 : View.write (Elt F) (s0W).view f0 (fieldF.sl.dma0 d L A2 f) Finset.univ = fieldF.sl.dma0 d L A2 f := View.write_whole_univ _ _ _
  have e1 : View.write (Elt F) (s1W).view f1 (fieldF.sl.dma0_1 d L A1 f) Finset.univ = fieldF.sl.dma0_1 d L A1 f := View.write_whole_univ _ _ _
  rw [e0, e1]
  have hI : ∀ y, ((fieldF.sl.dma0_1 d L A1 f) y).toNat < 100000 := fun y => hidx _
  sl_for (inv3F d L (fieldF.sl.dma0 d L A2 f) (fieldF.sl.dma0_1 d L A1 f)) $$ [Hs0 Hs1 Hs2 Hs3]
  case region =>
    intro k _
    unfold inv3F
    iintro ⟨H0, H1, ⟨%a', H2⟩, ⟨%b', H3⟩⟩
    iapply (trip3F d L _ _ hI k a' b')
    isplitl [H0]; · iexact H0
    isplitl [H1]; · iexact H1
    isplitl [H2]; · iexact H2
    iexact H3
  · unfold inv3F
    isplitl [Hs0]; · iexact Hs0
    isplitl [Hs1]; · iexact Hs1
    isplitl [Hs2]
    · iexists _; iexact Hs2
    · iexists _; iexact Hs3
  iintro %_ HI
  unfold inv3F
  icases HI with ⟨Hs0, Hs1, ⟨%a', Hs2⟩, ⟨%b', Hs3⟩⟩
  sl_exec
  sl_step
  isplitl [Hmw]; · iexact Hmw
  isplitl [H2]; · iexact H2
  isplitl [H1]; · iexact H1
  isplitl [Hs0]; · iexists _; iexact Hs0
  isplitl [Hs1]; · iexists _; iexact Hs1
  isplitl [Hs2]; · iexists _; iexact Hs2
  isplitl [Hs3]; · iexists _; iexact Hs3
  isplitl [Hm4]; · iexact Hm4
  isplitl [Hm5]; · iexact Hm5
  iexists (insert (SemLoc.dma cc0_scratch5.sem, (default : HIx 1)) (insert (SemLoc.dma cc0_scratch4.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.Kernel

end
-- ==== Proof.Kernel.TileBodyF.lean ====
/-
  The whole task of one vector subcore, footprint only: it reads the three inputs, writes its three output slices and
  gives its own storage back.
-/
import proofs.«207209_g54674933678763_cont_9to1_m_278_38_alg».proof.Proof.Kernel.TileFieldF

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "v2W" => (Memref.whole Cert.Kernel.main_v2_scv : Memref Cert.Kernel.sig Kind.scVector Space.hbm Cert.Kernel.S26x16x100000 EltTy.f32)
local notation "v3W" => (Memref.whole Cert.Kernel.main_v3_scv : Memref Cert.Kernel.sig Kind.scVector Space.hbm Cert.Kernel.S26x1x100000 EltTy.f32)
local notation "v1W" => (Memref.whole Cert.Kernel.main_v1_scv : Memref Cert.Kernel.sig Kind.scVector Space.hbm Cert.Kernel.S425984 EltTy.i32)
local notation "v4W" => (Memref.whole Cert.Kernel.main_v4_scv : Memref Cert.Kernel.sig Kind.scVector Space.hbm Cert.Kernel.S786432 EltTy.f32)
local notation "s0W" => (Memref.whole Cert.Kernel.cc0_scratch0 : Memref Cert.Kernel.sig Kind.scVector Space.vmem Cert.Kernel.S100000 EltTy.f32)
local notation "s1W" => (Memref.whole Cert.Kernel.cc0_scratch1 : Memref Cert.Kernel.sig Kind.scVector Space.vmem Cert.Kernel.S8192 EltTy.i32)
local notation "s2W" => (Memref.whole Cert.Kernel.cc0_scratch2 : Memref Cert.Kernel.sig Kind.scVector Space.vmem Cert.Kernel.S8192 EltTy.f32)
local notation "s3W" => (Memref.whole Cert.Kernel.cc0_scratch3 : Memref Cert.Kernel.sig Kind.scVector Space.vmem Cert.Kernel.S8192 EltTy.f32)

def inv1F (_ : Nat) (_ : PUnit) : sProp 𝕄 := iprop((∃ a, s2At d L a) ∗ ∃ b, s3At d L b)
def inv4F (_ : Nat) (_ : PUnit) : sProp 𝕄 := iprop(∃ a, s2At d L a)
def inv5F (Pf : Buf (Elt F) ((thrV d L).loc cc0_scratch0)) (If : Buf (Elt F) ((thrV d L).loc cc0_scratch1)) (_ : Nat) (_ : PUnit) : sProp 𝕄 :=
  iprop(s0At d L Pf ∗ s1At d L If ∗ ∃ a', s2At d L a')

/-- The three output slices, as the kernel slices them. -/
abbrev outK0 : Memref sig .scVector .hbm S8192 .f32 := (v4W).slice (Rect.unit (s := S786432) (k0_off9 L 0#32) S8192.size (k0_off9_inb L 0)) (fun _ => rfl)
abbrev outK1 : Memref sig .scVector .hbm S8192 .f32 := (v4W).slice (Rect.unit (s := S786432) (k0_off9 L 1#32) S8192.size (k0_off9_inb L 1)) (fun _ => rfl)
abbrev outK2 : Memref sig .scVector .hbm S8192 .f32 := (v4W).slice (Rect.unit (s := S786432) (k0_off9 L 2#32) S8192.size (k0_off9_inb L 2)) (fun _ => rfl)

theorem tile_bodyF (hF : (K (F := F)).Facts) (q : PosShare TreeShare)
    (A1 : Buf (Elt F) (v1Loc d)) (A2 : Buf (Elt F) (v2Loc d)) (A3 : Buf (Elt F) (v3Loc d)) (B4 : Buf (Elt F) (v4Loc d))
    (hidx : ∀ j, (A1 j).toNat < 100000)
    (O : CellTallies nD τ sig (HIx 1)) (W : Waits sig (HIx 1)) (hO : ∀ g, O g none = 0) :
    iprop(levAts (K (F := F)).L (K (F := F)).lev ∗ emp ∗ goRes d L q A1 A2 A3 B4
        ∗ scopedBufs (thrV d L) ∗ scopedSems0 (thrV d L) ∗ owes (thrV d L) O W)
      ⊢ wp frame (wpE (defs₀ (F := F)) 𝒱₀ (thrV d L) none) Set.univ
          (cc0_k L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2)
          fun _ => iprop(tdResF d L q A1 A2 A3 ∗ scopedBufs (thrV d L) ∗ scopedSems0 (thrV d L)
            ∗ ∃ W', ⌜∀ p ∈ W', p ∈ W ∨ p.2 = none⌝ ∗ owes (thrV d L) O W') := by
  simp only [cc0_k_eq_skeleton]; unfold cc0_k_skel
  simp only [k0_part2_eq_skeleton]; unfold k0_part2_skel
  simp only [Prog.bind_assoc]
  rw [(K (F := F)).scopedBufs_V hF d (cV L) (jV L), SparseCore.Cfg.scopedSems0_V (Val := Elt F) d (cV L) (jV L), ownSems0_V, ownBufs_V]
  unfold goRes inRes outRes
  iintro ⟨#Hlv, -, ⟨⟨H2, H3, H1⟩, Ho0, Ho1, Ho2⟩, ⟨⟨%f0, Hs0⟩, ⟨%f1, Hs1⟩, ⟨%f2, Hs2⟩, ⟨%f3, Hs3⟩, Hbufs⟩, ⟨Hm4, Hm5, Hc0, Hc1, Hc2, Hsems⟩, HO⟩
  ihave Hmw := ((K (F := F)).mayWaits_none (thr := thrV d L) hO) $$ Hlv
  ihave H2' := (Entails.of_eq (show ((v2W).view.loc (thrV d L) ↦{q} A2 : sProp 𝕄) = (v2Loc d ↦{q} A2) from rfl).symm) $$ H2
  ihave H3' := (Entails.of_eq (show ((v3W).view.loc (thrV d L) ↦{q} A3 : sProp 𝕄) = (v3Loc d ↦{q} A3) from rfl).symm) $$ H3
  ihave H1' := (Entails.of_eq (show ((v1W).view.loc (thrV d L) ↦{q} A1 : sProp 𝕄) = (v1Loc d ↦{q} A1) from rfl).symm) $$ H1
  ihave Ho0 := (Entails.of_eq (show ((outK0 L).view.loc (thrV d L) ↦[(outK0 L).view.set]{fullShare} B4 : sProp 𝕄) = (v4Loc d ↦[outSet L 0]{fullShare} B4) from rfl).symm) $$ Ho0
  ihave Ho1 := (Entails.of_eq (show ((outK1 L).view.loc (thrV d L) ↦[(outK1 L).view.set]{fullShare} B4 : sProp 𝕄) = (v4Loc d ↦[outSet L 1]{fullShare} B4) from rfl).symm) $$ Ho1
  ihave Ho2 := (Entails.of_eq (show ((outK2 L).view.loc (thrV d L) ↦[(outK2 L).view.set]{fullShare} B4 : sProp 𝕄) = (v4Loc d ↦[outSet L 2]{fullShare} B4) from rfl).symm) $$ Ho2
  ihave Hs0 := (Entails.of_eq (show (s0At d L f0 : sProp 𝕄) = ((thrV d L).loc cc0_scratch0 ↦{fullShare} f0) from rfl).symm) $$ Hs0
  ihave Hs1 := (Entails.of_eq (show (s1At d L f1 : sProp 𝕄) = ((thrV d L).loc cc0_scratch1 ↦{fullShare} f1) from rfl).symm) $$ Hs1
  ihave Hs2 := (Entails.of_eq (show (s2At d L f2 : sProp 𝕄) = ((thrV d L).loc cc0_scratch2 ↦{fullShare} f2) from rfl).symm) $$ Hs2
  ihave Hs3 := (Entails.of_eq (show (s3At d L f3 : sProp 𝕄) = ((thrV d L).loc cc0_scratch3 ↦{fullShare} f3) from rfl).symm) $$ Hs3
  sl_exec
  -- the accumulators zeroed
  sl_for (inv1F (F := F) d L) $$ [Hs2 Hs3]
  case region =>
    intro k _
    unfold inv1F
    iintro ⟨⟨%a, Ha⟩, ⟨%b, Hb⟩⟩
    iapply (trip1F d L k a b)
    isplitl [Ha]; · iexact Ha
    iexact Hb
  · unfold inv1F
    isplitl [Hs2]
    · iexists _; iexact Hs2
    · iexists _; iexact Hs3
  iintro %_ HI
  unfold inv1F
  icases HI with ⟨⟨%a1, Hs2⟩, ⟨%b1, Hs3⟩⟩
  sl_exec
  -- the twenty-six fields
  sl_for (inv2F d L q A1 A2 O W) $$ [Hmw H2' H1' Hs0 Hs1 Hs2 Hs3 Hm4 Hm5 HO]
  case region =>
    intro k _
    exact fieldF d L q A1 A2 hidx O W k
  · unfold inv2F
    isplitl [Hmw]; · iexact Hmw
    isplitl [H2']; · iexact H2'
    isplitl [H1']; · iexact H1'
    isplitl [Hs0]; · iexists _; iexact Hs0
    isplitl [Hs1]; · iexists _; iexact Hs1
    isplitl [Hs2]; · iexists _; iexact Hs2
    isplitl [Hs3]; · iexists _; iexact Hs3
    isplitl [Hm4]; · iexact Hm4
    isplitl [Hm5]; · iexact Hm5
    iexists W; isplitr
    · ipureintro; exact fun p hp => .inl hp
    · iexact HO
  iintro %_ HI
  unfold inv2F
  icases HI with ⟨Hmw, H2', H1', ⟨%g0, Hs0⟩, ⟨%g1, Hs1⟩, ⟨%a2, Hs2⟩, ⟨%b2, Hs3⟩, Hm4, Hm5, %W', %hW', HO⟩
  -- the two accumulators written out, the first zeroed again
  sl_exec
  sl_for (inv4F (F := F) d L) $$ [Hs2]
  case region =>
    intro k _
    unfold inv4F
    iintro ⟨%a, Ha⟩
    iapply (trip4F d L k a)
    iexact Ha
  · unfold inv4F
    iexists _; iexact Hs2
  iintro %_ HI
  unfold inv4F
  icases HI with ⟨%a3, Hs2⟩
  -- the subcore's own linear field
  sl_exec
  have e0 : View.write (Elt F) (s0W).view g0 (tile_bodyF.sl.dma0_2 d L A3) Finset.univ = tile_bodyF.sl.dma0_2 d L A3 := View.write_whole_univ _ _ _
  have e1 : View.write (Elt F) (s1W).view g1 (tile_bodyF.sl.dma0_3 d L A1) Finset.univ = tile_bodyF.sl.dma0_3 d L A1 := View.write_whole_univ _ _ _
  rw [e0, e1]
  have hI : ∀ y, ((tile_bodyF.sl.dma0_3 d L A1) y).toNat < 100000 := fun y => hidx _
  sl_for (inv5F d L (tile_bodyF.sl.dma0_2 d L A3) (tile_bodyF.sl.dma0_3 d L A1)) $$ [Hs0 Hs1 Hs2]
  case region =>
    intro k _
    unfold inv5F
    iintro ⟨H0, H1, ⟨%a', H2⟩⟩
    iapply (trip5F d L _ _ hI k a')
    isplitl [H0]; · iexact H0
    isplitl [H1]; · iexact H1
    iexact H2
  · unfold inv5F
    isplitl [Hs0]; · iexact Hs0
    isplitl [Hs1]; · iexact Hs1
    iexists _; iexact Hs2
  iintro %_ HI
  unfold inv5F
  icases HI with ⟨Hs0, Hs1, ⟨%a4, Hs2⟩⟩
  by_cases h1 : k0_cond1 L = 1#1
  · -- the subcore's second linear field
    sl_exec
    have e0' : View.write (Elt F) (s0W).view (tile_bodyF.sl.dma0_2 d L A3) (tile_bodyF.sl.dma0_4 d L A3 h1) Finset.univ = tile_bodyF.sl.dma0_4 d L A3 h1 := View.write_whole_univ _ _ _
    have e1' : View.write (Elt F) (s1W).view (tile_bodyF.sl.dma0_3 d L A1) (tile_bodyF.sl.dma0_5 d L A1 h1) Finset.univ = tile_bodyF.sl.dma0_5 d L A1 h1 := View.write_whole_univ _ _ _
    rw [e0', e1']
    have hI' : ∀ y, ((tile_bodyF.sl.dma0_5 d L A1 h1) y).toNat < 100000 := fun y => hidx _
    sl_for (inv5F d L (tile_bodyF.sl.dma0_4 d L A3 h1) (tile_bodyF.sl.dma0_5 d L A1 h1)) $$ [Hs0 Hs1 Hs2]
    case region =>
      intro k _
      unfold inv5F
      iintro ⟨H0, H1, ⟨%a', H2⟩⟩
      iapply (trip6F d L h1 _ _ hI' k a')
      isplitl [H0]; · iexact H0
      isplitl [H1]; · iexact H1
      iexact H2
    · unfold inv5F
      isplitl [Hs0]; · iexact Hs0
      isplitl [Hs1]; · iexact Hs1
      iexists _; iexact Hs2
    iintro %_ HI
    unfold inv5F
    icases HI with ⟨Hs0, Hs1, ⟨%a5, Hs2⟩⟩
    sl_exec
    sl_step
    unfold tdResF inRes
    isplitl [H2' H3' H1' Ho0 Ho1 Ho2]
    · isplitl [H2' H3' H1']
      · isplitl [H2']; · iexact H2'
        isplitl [H3']; · iexact H3'
        iexact H1'
      isplitl [Ho0]; · iexists _; iexact Ho0
      isplitl [Ho1]; · iexists _; iexact Ho1
      iexists _; iexact Ho2
    isplitl [Hs0 Hs1 Hs2 Hs3 Hbufs]
    · isplitl [Hs0]; · iexists _; iexact Hs0
      isplitl [Hs1]; · iexists _; iexact Hs1
      isplitl [Hs2]; · iexists _; iexact Hs2
      isplitl [Hs3]; · iexists _; iexact Hs3
      iexact Hbufs
    isplitl [Hm4 Hm5 Hc0 Hc1 Hc2 Hsems]
    · isplitl [Hm4]; · iexact Hm4
      isplitl [Hm5]; · iexact Hm5
      isplitl [Hc0]; · iexact Hc0
      isplitl [Hc1]; · iexact Hc1
      isplitl [Hc2]; · iexact Hc2
      iexact Hsems
    iexists (insert (SemLoc.dma cc0_scoped2.sem, (default : HIx 1)) (insert (SemLoc.dma cc0_scratch5.sem, (default : HIx 1)) (insert (SemLoc.dma cc0_scratch4.sem, (default : HIx 1)) (insert (SemLoc.dma cc0_scratch5.sem, (default : HIx 1)) (insert (SemLoc.dma cc0_scratch4.sem, (default : HIx 1)) (insert (SemLoc.dma cc0_scoped1.sem, (default : HIx 1)) (insert (SemLoc.dma cc0_scoped0.sem, (default : HIx 1)) W'))))))); isplitr
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      · exact hW' p hp
    · iexact HO
  · sl_exec
    sl_step
    unfold tdResF inRes
    isplitl [H2' H3' H1' Ho0 Ho1 Ho2]
    · isplitl [H2' H3' H1']
      · isplitl [H2']; · iexact H2'
        isplitl [H3']; · iexact H3'
        iexact H1'
      isplitl [Ho0]; · iexists _; iexact Ho0
      isplitl [Ho1]; · iexists _; iexact Ho1
      iexists _; iexact Ho2
    isplitl [Hs0 Hs1 Hs2 Hs3 Hbufs]
    · isplitl [Hs0]; · iexists _; iexact Hs0
      isplitl [Hs1]; · iexists _; iexact Hs1
      isplitl [Hs2]; · iexists _; iexact Hs2
      isplitl [Hs3]; · iexists _; iexact Hs3
      iexact Hbufs
    isplitl [Hm4 Hm5 Hc0 Hc1 Hc2 Hsems]
    · isplitl [Hm4]; · iexact Hm4
      isplitl [Hm5]; · iexact Hm5
      isplitl [Hc0]; · iexact Hc0
      isplitl [Hc1]; · iexact Hc1
      isplitl [Hc2]; · iexact Hc2
      iexact Hsems
    iexists (insert (SemLoc.dma cc0_scoped2.sem, (default : HIx 1)) (insert (SemLoc.dma cc0_scratch5.sem, (default : HIx 1)) (insert (SemLoc.dma cc0_scratch4.sem, (default : HIx 1)) (insert (SemLoc.dma cc0_scoped1.sem, (default : HIx 1)) (insert (SemLoc.dma cc0_scoped0.sem, (default : HIx 1)) W'))))); isplitr
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      · exact hW' p hp
    · iexact HO

end Cert.Proof.Kernel

end
-- ==== Proof.Kernel.TileArith.lean ====
/-
  The contents the kernel's loops leave in the accumulators, in closed form: a zero fill sixteen lanes a trip, a
  gather-and-add sixty-four lanes a trip.
-/
import proofs.«207209_g54674933678763_cont_9to1_m_278_38_alg».proof.Proof.Kernel.TileRes
import proofs.«207209_g54674933678763_cont_9to1_m_278_38_alg».proof.Proof.WritesClosed
import Idealize.ShloMosaic.Lib.SparseCore.Ops

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

local notation "v2W" => (Memref.whole Cert.Kernel.main_v2_scv : Memref Cert.Kernel.sig Kind.scVector Space.hbm Cert.Kernel.S26x16x100000 EltTy.f32)
local notation "v3W" => (Memref.whole Cert.Kernel.main_v3_scv : Memref Cert.Kernel.sig Kind.scVector Space.hbm Cert.Kernel.S26x1x100000 EltTy.f32)
local notation "v1W" => (Memref.whole Cert.Kernel.main_v1_scv : Memref Cert.Kernel.sig Kind.scVector Space.hbm Cert.Kernel.S425984 EltTy.i32)
local notation "v4W" => (Memref.whole Cert.Kernel.main_v4_scv : Memref Cert.Kernel.sig Kind.scVector Space.hbm Cert.Kernel.S786432 EltTy.f32)
local notation "s0W" => (Memref.whole Cert.Kernel.cc0_scratch0 : Memref Cert.Kernel.sig Kind.scVector Space.vmem Cert.Kernel.S100000 EltTy.f32)
local notation "s1W" => (Memref.whole Cert.Kernel.cc0_scratch1 : Memref Cert.Kernel.sig Kind.scVector Space.vmem Cert.Kernel.S8192 EltTy.i32)
local notation "s2W" => (Memref.whole Cert.Kernel.cc0_scratch2 : Memref Cert.Kernel.sig Kind.scVector Space.vmem Cert.Kernel.S8192 EltTy.f32)
local notation "s3W" => (Memref.whole Cert.Kernel.cc0_scratch3 : Memref Cert.Kernel.sig Kind.scVector Space.vmem Cert.Kernel.S8192 EltTy.f32)

/-- Lanes below 16·n zeroed. -/
def zeroUpTo (n : ℕ) (a : S8192.Idx → F .f32) : S8192.Idx → F .f32 := fun y => if (y 0).val < 16 * n then fzero else a y

/-- g added onto the lanes below 64·n. -/
def addUpTo (g : S8192.Idx → F .f32) (n : ℕ) (a : S8192.Idx → F .f32) : S8192.Idx → F .f32 :=
  fun y => if (y 0).val < 64 * n then FloatOps.addf (a y) (g y) else a y

/-- The square of a lane function. -/
def sqr (g : S8192.Idx → F .f32) : S8192.Idx → F .f32 := fun y => FloatOps.mulf (g y) (g y)

/-- What the indexed load reads for example y: the row scratch at the word the index scratch holds for y. -/
def gath (Pf : S100000.Idx → F .f32) (If : S8192.Idx → BitVec 32) (y : S8192.Idx) : F .f32 :=
  Pf (ix1 ⟨(If y).toNat % 100000, Nat.mod_lt _ (by norm_num)⟩)

theorem readAt_s2 (a : S8192.Idx → F .f32) (o : Fin 1 → ℕ) (sz : Fin 1 → ℕ) (inb : ∀ a, o a + sz a ≤ S8192.size a)
    (x : (Rect.unit (s := S8192) o sz inb).shape.Idx) :
    View.readAt (Elt F) (s2W).view (Rect.unit (s := S8192) o sz inb).toLoadRect a x = a ((Rect.unit (s := S8192) o sz inb).emb x) := rfl

theorem readAt_s3 (a : S8192.Idx → F .f32) (o : Fin 1 → ℕ) (sz : Fin 1 → ℕ) (inb : ∀ a, o a + sz a ≤ S8192.size a)
    (x : (Rect.unit (s := S8192) o sz inb).shape.Idx) :
    View.readAt (Elt F) (s3W).view (Rect.unit (s := S8192) o sz inb).toLoadRect a x = a ((Rect.unit (s := S8192) o sz inb).emb x) := rfl

theorem gath_piece (Pf : S100000.Idx → F .f32) (If : S8192.Idx → BitVec 32) (hI : ∀ y, (If y).toNat < 100000)
    (oI oA : Fin 1 → ℕ) (szI szA : Fin 1 → ℕ) (inbI : ∀ a, oI a + szI a ≤ S8192.size a) (inbA : ∀ a, oA a + szA a ≤ S8192.size a)
    (ho : oI = oA) (hsz : szI = szA)
    (h : ∀ a x, ((![View.readAt (Elt F) (s1W).view (Rect.unit (s := S8192) oI szI inbI).toLoadRect If] : Fin 1 → IVec _ 32) a x).toNat < S100000.size a)
    (x : (Rect.unit (s := S8192) oI szI inbI).shape.Idx) (x' : (Rect.unit (s := S8192) oA szA inbA).shape.Idx) (hx : (x 0).val = (x' 0).val) :
    loadIdx (View.readAt (Elt F) (s0W).view (LoadRect.whole S100000) Pf) ![View.readAt (Elt F) (s1W).view (Rect.unit (s := S8192) oI szI inbI).toLoadRect If] h x
      = gath Pf If ((Rect.unit (s := S8192) oA szA inbA).emb x') := by
  subst ho; subst hsz
  have hx' : x = x' := by funext a; obtain rfl : a = 0 := Subsingleton.elim _ _; exact Fin.ext hx
  subst hx'
  show Pf _ = Pf _
  congr 1
  funext a
  rcases a with ⟨_ | n, hn⟩
  swap
  · exact absurd hn (Nat.not_lt.2 (Nat.le_add_left 1 n))
  apply Fin.ext
  show 0 + 1 * (If ((Rect.unit (s := S8192) oI szI inbI).emb x)).toNat = (If ((Rect.unit (s := S8192) oI szI inbI).emb x)).toNat % 100000
  rw [Nat.mod_eq_of_lt (hI _)]; omega

theorem pay9_apply (v60 v62 : Vec F S16 .f32) (x : S16.Idx) : k0_pay9 v60 v62 x = FloatOps.addf (v62 x) (v60 x) := rfl
theorem pay10_apply (v60 v67 : Vec F S16 .f32) (x : S16.Idx) : k0_pay10 v60 v67 x = FloatOps.addf (v67 x) (FloatOps.mulf (v60 x) (v60 x)) := rfl
theorem pay15_apply (x : S16.Idx) : k0_pay15 (F := F) x = fzero := rfl

end Cert.Proof.Kernel

end
-- ==== Proof.Kernel.TileWrites.lean ====
/-
  A run of sixteen-lane stores into an 8192-word scratch, in closed form.

  One trip of an accumulation loop stores four consecutive chunks of sixteen lanes, from 64·k on; one trip of a zeroing
  loop one chunk, from 16·k on.  If every chunk's payload is the restriction of one function G to the chunk, the
  contents after the trip are G on the words [o, o + 64) (or [o, o + 16)) and what they were elsewhere.  Iterated from
  k = 0: after k trips the contents are G below 64·k (16·k) and the initial contents from there on; after the last
  trip they are G everywhere.
-/
import proofs.«207209_g54674933678763_cont_9to1_m_278_38_alg».proof.Proof.Kernel.TileRes
import proofs.«207209_g54674933678763_cont_9to1_m_278_38_alg».proof.Proof.WritesClosed
import proofs.«207209_g54674933678763_cont_9to1_m_278_38_alg».proof.Proof.Kernel.TileArith
import proofs.«207209_g54674933678763_cont_9to1_m_278_38_alg».proof.Proof.Gen.Kernel

noncomputable section

namespace Cert.Proof.Kernel

open Cert.Kernel Cert.Kernel.Gen

open Idealize.ShloMosaic Idealize.ShloMosaic.ValueIdx

/-! ## Generic: unit rectangles of a rank-one shape -/

section Generic
variable {sig : RefSig} {κ : Kind} {sp : Space} {e : EltTy} {Val : EltTy → Type} {n : ℕ}

/-- A word lies in the unit rectangle from o of length z iff it lies in [o, o + z). -/
theorem mem_unit1 (off size : Fin 1 → ℕ) (inb : ∀ a, off a + size a ≤ (⟨1, ![n]⟩ : Shape).size a) (o z : ℕ)
    (ho : off = ![o]) (hz : size 0 = z) (y : (⟨1, ![n]⟩ : Shape).Idx) :
    y ∈ (Rect.unit (s := ⟨1, ![n]⟩) off size inb).set ↔ o ≤ (y 0).val ∧ (y 0).val < o + z := by
  rw [Rect.mem_set_unit]
  subst ho
  constructor
  · intro h
    have := h 0
    rw [hz] at this
    exact this
  · intro h a
    obtain rfl : a = 0 := Subsingleton.elim _ _
    rw [hz]
    exact h

/-- One chunk stored: G on [o, o + z), the old contents elsewhere. -/
theorem read_writes1 (v : View sig κ sp ⟨1, ![n]⟩ e) (a : v.ty.Contents Val) (G : (⟨1, ![n]⟩ : Shape).Idx → Val e) (o z : ℕ)
    (off0 sz0 : Fin 1 → ℕ) (inb0 : ∀ a, off0 a + sz0 a ≤ (⟨1, ![n]⟩ : Shape).size a)
    (w0 : (Rect.unit (s := ⟨1, ![n]⟩) off0 sz0 inb0).shape.Idx → Val e)
    (h0 : off0 = ![o]) (hs0 : sz0 0 = z)
    (hw0 : ∀ x, w0 x = G ((Rect.unit (s := ⟨1, ![n]⟩) off0 sz0 inb0).emb x)) (y : (⟨1, ![n]⟩ : Shape).Idx) :
    v.read Val (v.writes Val a [⟨Rect.unit (s := ⟨1, ![n]⟩) off0 sz0 inb0, w0⟩]) y
      = if o ≤ (y 0).val ∧ (y 0).val < o + z then G y else v.read Val a y := by
  refine Cert.Proof.Writes.read_writes_closed v a G _ ?_ (fun y => o ≤ (y 0).val ∧ (y 0).val < o + z) ?_ y
  · intro p hp
    obtain rfl : p = ⟨Rect.unit (s := ⟨1, ![n]⟩) off0 sz0 inb0, w0⟩ := List.mem_singleton.mp hp
    exact hw0
  · intro y
    constructor
    · intro h
      exact ⟨_, List.mem_singleton.mpr rfl, (mem_unit1 off0 sz0 inb0 o z h0 hs0 y).mpr h⟩
    · rintro ⟨p, hp, hy⟩
      obtain rfl : p = ⟨Rect.unit (s := ⟨1, ![n]⟩) off0 sz0 inb0, w0⟩ := List.mem_singleton.mp hp
      exact (mem_unit1 off0 sz0 inb0 o z h0 hs0 y).mp hy

/-- Four consecutive chunks of sixteen stored (the last store first in the list): G on [o, o + 64), the old contents
    elsewhere. -/
theorem read_writes4 (v : View sig κ sp ⟨1, ![n]⟩ e) (a : v.ty.Contents Val) (G : (⟨1, ![n]⟩ : Shape).Idx → Val e) (o : ℕ)
    (off0 off1 off2 off3 sz0 sz1 sz2 sz3 : Fin 1 → ℕ)
    (inb0 : ∀ a, off0 a + sz0 a ≤ (⟨1, ![n]⟩ : Shape).size a) (inb1 : ∀ a, off1 a + sz1 a ≤ (⟨1, ![n]⟩ : Shape).size a)
    (inb2 : ∀ a, off2 a + sz2 a ≤ (⟨1, ![n]⟩ : Shape).size a) (inb3 : ∀ a, off3 a + sz3 a ≤ (⟨1, ![n]⟩ : Shape).size a)
    (w0 : (Rect.unit (s := ⟨1, ![n]⟩) off0 sz0 inb0).shape.Idx → Val e) (w1 : (Rect.unit (s := ⟨1, ![n]⟩) off1 sz1 inb1).shape.Idx → Val e)
    (w2 : (Rect.unit (s := ⟨1, ![n]⟩) off2 sz2 inb2).shape.Idx → Val e) (w3 : (Rect.unit (s := ⟨1, ![n]⟩) off3 sz3 inb3).shape.Idx → Val e)
    (h0 : off0 = ![o]) (h1 : off1 = ![o + 16]) (h2 : off2 = ![o + 32]) (h3 : off3 = ![o + 48])
    (hs0 : sz0 0 = 16) (hs1 : sz1 0 = 16) (hs2 : sz2 0 = 16) (hs3 : sz3 0 = 16)
    (hw0 : ∀ x, w0 x = G ((Rect.unit (s := ⟨1, ![n]⟩) off0 sz0 inb0).emb x))
    (hw1 : ∀ x, w1 x = G ((Rect.unit (s := ⟨1, ![n]⟩) off1 sz1 inb1).emb x))
    (hw2 : ∀ x, w2 x = G ((Rect.unit (s := ⟨1, ![n]⟩) off2 sz2 inb2).emb x))
    (hw3 : ∀ x, w3 x = G ((Rect.unit (s := ⟨1, ![n]⟩) off3 sz3 inb3).emb x)) (y : (⟨1, ![n]⟩ : Shape).Idx) :
    v.read Val (v.writes Val a [⟨Rect.unit (s := ⟨1, ![n]⟩) off3 sz3 inb3, w3⟩, ⟨Rect.unit (s := ⟨1, ![n]⟩) off2 sz2 inb2, w2⟩,
        ⟨Rect.unit (s := ⟨1, ![n]⟩) off1 sz1 inb1, w1⟩, ⟨Rect.unit (s := ⟨1, ![n]⟩) off0 sz0 inb0, w0⟩]) y
      = if o ≤ (y 0).val ∧ (y 0).val < o + 64 then G y else v.read Val a y := by
  have m0 := mem_unit1 off0 sz0 inb0 o 16 h0 hs0
  have m1 := mem_unit1 off1 sz1 inb1 (o + 16) 16 h1 hs1
  have m2 := mem_unit1 off2 sz2 inb2 (o + 32) 16 h2 hs2
  have m3 := mem_unit1 off3 sz3 inb3 (o + 48) 16 h3 hs3
  refine Cert.Proof.Writes.read_writes_closed v a G _ ?_ (fun y => o ≤ (y 0).val ∧ (y 0).val < o + 64) ?_ y
  · intro p hp
    simp only [List.mem_cons, List.not_mem_nil, or_false] at hp
    rcases hp with rfl | rfl | rfl | rfl
    · exact hw3
    · exact hw2
    · exact hw1
    · exact hw0
  · intro y
    constructor
    · intro h
      by_cases c1 : (y 0).val < o + 16
      · exact ⟨⟨Rect.unit (s := ⟨1, ![n]⟩) off0 sz0 inb0, w0⟩, .tail _ (.tail _ (.tail _ (.head _))), (m0 y).mpr ⟨h.1, by omega⟩⟩
      · by_cases c2 : (y 0).val < o + 32
        · exact ⟨⟨Rect.unit (s := ⟨1, ![n]⟩) off1 sz1 inb1, w1⟩, .tail _ (.tail _ (.head _)), (m1 y).mpr ⟨by omega, by omega⟩⟩
        · by_cases c3 : (y 0).val < o + 48
          · exact ⟨⟨Rect.unit (s := ⟨1, ![n]⟩) off2 sz2 inb2, w2⟩, .tail _ (.head _), (m2 y).mpr ⟨by omega, by omega⟩⟩
          · exact ⟨⟨Rect.unit (s := ⟨1, ![n]⟩) off3 sz3 inb3, w3⟩, .head _, (m3 y).mpr ⟨by omega, by omega⟩⟩
    · rintro ⟨p, hp, hy⟩
      simp only [List.mem_cons, List.not_mem_nil, or_false] at hp
      rcases hp with rfl | rfl | rfl | rfl
      · have := (m3 y).mp hy; constructor <;> omega
      · have := (m2 y).mp hy; constructor <;> omega
      · have := (m1 y).mp hy; constructor <;> omega
      · have := (m0 y).mp hy; constructor <;> omega

end Generic

/-- A chunk's lane x is the word o + x. -/
theorem emb_unit1_val {n : ℕ} (off size : Fin 1 → ℕ) (inb : ∀ a, off a + size a ≤ (⟨1, ![n]⟩ : Shape).size a) (o : ℕ)
    (ho : off = ![o]) (x : (Rect.unit (s := ⟨1, ![n]⟩) off size inb).shape.Idx) :
    (((Rect.unit (s := ⟨1, ![n]⟩) off size inb).emb x) 0).val = o + (x 0).val := by
  subst ho
  show (![o] : Fin 1 → ℕ) 0 + 1 * (x 0).val = o + (x 0).val
  rw [Nat.one_mul]
  rfl

/-! ## The loops' trips, with the rectangles as the kernel spells them (any in-bounds evidence) -/

section Trips
variable {sig' : RefSig} {κ : Kind} {sp : Space} {e : EltTy} {Val : EltTy → Type}
variable (v : View sig' κ sp S8192 e) (a : v.ty.Contents Val) (G : S8192.Idx → Val e)

/-- A trip of the zeroing loop over both accumulators: one chunk from 16·k. -/
theorem t1_read_writes (k : Fin k0_t1_loop.trips) (i0 : ∀ a, k0_off1 k a + S16.size a ≤ S8192.size a)
    (w0 : (Rect.unit (s := S8192) (k0_off1 k) S16.size i0).shape.Idx → Val e)
    (hw0 : ∀ x, w0 x = G ((Rect.unit (s := S8192) (k0_off1 k) S16.size i0).emb x)) (y : S8192.Idx) :
    v.read Val (v.writes Val a [⟨Rect.unit (s := S8192) (k0_off1 k) S16.size i0, w0⟩]) y
      = if 16 * k.val ≤ (y 0).val ∧ (y 0).val < 16 * k.val + 16 then G y else v.read Val a y :=
  read_writes1 v a G (16 * k.val) 16 _ _ i0 w0 (k0_off1_eq k) rfl hw0 y

/-- A trip of the zeroing loop over the first accumulator: one chunk from 16·k. -/
theorem t4_read_writes (k : Fin k0_t4_loop.trips) (i0 : ∀ a, k0_off10 k a + S16.size a ≤ S8192.size a)
    (w0 : (Rect.unit (s := S8192) (k0_off10 k) S16.size i0).shape.Idx → Val e)
    (hw0 : ∀ x, w0 x = G ((Rect.unit (s := S8192) (k0_off10 k) S16.size i0).emb x)) (y : S8192.Idx) :
    v.read Val (v.writes Val a [⟨Rect.unit (s := S8192) (k0_off10 k) S16.size i0, w0⟩]) y
      = if 16 * k.val ≤ (y 0).val ∧ (y 0).val < 16 * k.val + 16 then G y else v.read Val a y :=
  read_writes1 v a G (16 * k.val) 16 _ _ i0 w0 (k0_off10_eq k) rfl hw0 y

/-- A trip of the factor loop: four chunks from 64·k. -/
theorem t3_read_writes (k : Fin k0_t3_loop.trips)
    (i0 : ∀ a, k0_off5 k 0#32 a + S16.size a ≤ S8192.size a) (i1 : ∀ a, k0_off6 k 16#32 a + S16.size a ≤ S8192.size a)
    (i2 : ∀ a, k0_off7 k 32#32 a + S16.size a ≤ S8192.size a) (i3 : ∀ a, k0_off8 k a + S16.size a ≤ S8192.size a)
    (w0 : (Rect.unit (s := S8192) (k0_off5 k 0#32) S16.size i0).shape.Idx → Val e)
    (w1 : (Rect.unit (s := S8192) (k0_off6 k 16#32) S16.size i1).shape.Idx → Val e)
    (w2 : (Rect.unit (s := S8192) (k0_off7 k 32#32) S16.size i2).shape.Idx → Val e)
    (w3 : (Rect.unit (s := S8192) (k0_off8 k) S16.size i3).shape.Idx → Val e)
    (hw0 : ∀ x, w0 x = G ((Rect.unit (s := S8192) (k0_off5 k 0#32) S16.size i0).emb x))
    (hw1 : ∀ x, w1 x = G ((Rect.unit (s := S8192) (k0_off6 k 16#32) S16.size i1).emb x))
    (hw2 : ∀ x, w2 x = G ((Rect.unit (s := S8192) (k0_off7 k 32#32) S16.size i2).emb x))
    (hw3 : ∀ x, w3 x = G ((Rect.unit (s := S8192) (k0_off8 k) S16.size i3).emb x)) (y : S8192.Idx) :
    v.read Val (v.writes Val a [⟨Rect.unit (s := S8192) (k0_off8 k) S16.size i3, w3⟩, ⟨Rect.unit (s := S8192) (k0_off7 k 32#32) S16.size i2, w2⟩,
        ⟨Rect.unit (s := S8192) (k0_off6 k 16#32) S16.size i1, w1⟩, ⟨Rect.unit (s := S8192) (k0_off5 k 0#32) S16.size i0, w0⟩]) y
      = if 64 * k.val ≤ (y 0).val ∧ (y 0).val < 64 * k.val + 64 then G y else v.read Val a y :=
  read_writes4 v a G (64 * k.val) _ _ _ _ _ _ _ _ i0 i1 i2 i3 w0 w1 w2 w3
    (k0_off5_eq k 0) (k0_off6_eq k 0) (k0_off7_eq k 0) (k0_off8_eq k) rfl rfl rfl rfl hw0 hw1 hw2 hw3 y

/-- A trip of the first linear loop: four chunks from 64·k. -/
theorem t5_read_writes (k : Fin k0_t5_loop.trips)
    (i0 : ∀ a, k0_off14 k 0#32 a + S16.size a ≤ S8192.size a) (i1 : ∀ a, k0_off15 k 16#32 a + S16.size a ≤ S8192.size a)
    (i2 : ∀ a, k0_off16 k 32#32 a + S16.size a ≤ S8192.size a) (i3 : ∀ a, k0_off17 k a + S16.size a ≤ S8192.size a)
    (w0 : (Rect.unit (s := S8192) (k0_off14 k 0#32) S16.size i0).shape.Idx → Val e)
    (w1 : (Rect.unit (s := S8192) (k0_off15 k 16#32) S16.size i1).shape.Idx → Val e)
    (w2 : (Rect.unit (s := S8192) (k0_off16 k 32#32) S16.size i2).shape.Idx → Val e)
    (w3 : (Rect.unit (s := S8192) (k0_off17 k) S16.size i3).shape.Idx → Val e)
    (hw0 : ∀ x, w0 x = G ((Rect.unit (s := S8192) (k0_off14 k 0#32) S16.size i0).emb x))
    (hw1 : ∀ x, w1 x = G ((Rect.unit (s := S8192) (k0_off15 k 16#32) S16.size i1).emb x))
    (hw2 : ∀ x, w2 x = G ((Rect.unit (s := S8192) (k0_off16 k 32#32) S16.size i2).emb x))
    (hw3 : ∀ x, w3 x = G ((Rect.unit (s := S8192) (k0_off17 k) S16.size i3).emb x)) (y : S8192.Idx) :
    v.read Val (v.writes Val a [⟨Rect.unit (s := S8192) (k0_off17 k) S16.size i3, w3⟩, ⟨Rect.unit (s := S8192) (k0_off16 k 32#32) S16.size i2, w2⟩,
        ⟨Rect.unit (s := S8192) (k0_off15 k 16#32) S16.size i1, w1⟩, ⟨Rect.unit (s := S8192) (k0_off14 k 0#32) S16.size i0, w0⟩]) y
      = if 64 * k.val ≤ (y 0).val ∧ (y 0).val < 64 * k.val + 64 then G y else v.read Val a y :=
  read_writes4 v a G (64 * k.val) _ _ _ _ _ _ _ _ i0 i1 i2 i3 w0 w1 w2 w3
    (k0_off14_eq k 0) (k0_off15_eq k 0) (k0_off16_eq k 0) (k0_off17_eq k) rfl rfl rfl rfl hw0 hw1 hw2 hw3 y

/-- A trip of the second linear loop: four chunks from 64·k. -/
theorem t6_read_writes (k : Fin k0_t6_loop.trips)
    (i0 : ∀ a, k0_off21 k 0#32 a + S16.size a ≤ S8192.size a) (i1 : ∀ a, k0_off22 k 16#32 a + S16.size a ≤ S8192.size a)
    (i2 : ∀ a, k0_off23 k 32#32 a + S16.size a ≤ S8192.size a) (i3 : ∀ a, k0_off24 k a + S16.size a ≤ S8192.size a)
    (w0 : (Rect.unit (s := S8192) (k0_off21 k 0#32) S16.size i0).shape.Idx → Val e)
    (w1 : (Rect.unit (s := S8192) (k0_off22 k 16#32) S16.size i1).shape.Idx → Val e)
    (w2 : (Rect.unit (s := S8192) (k0_off23 k 32#32) S16.size i2).shape.Idx → Val e)
    (w3 : (Rect.unit (s := S8192) (k0_off24 k) S16.size i3).shape.Idx → Val e)
    (hw0 : ∀ x, w0 x = G ((Rect.unit (s := S8192) (k0_off21 k 0#32) S16.size i0).emb x))
    (hw1 : ∀ x, w1 x = G ((Rect.unit (s := S8192) (k0_off22 k 16#32) S16.size i1).emb x))
    (hw2 : ∀ x, w2 x = G ((Rect.unit (s := S8192) (k0_off23 k 32#32) S16.size i2).emb x))
    (hw3 : ∀ x, w3 x = G ((Rect.unit (s := S8192) (k0_off24 k) S16.size i3).emb x)) (y : S8192.Idx) :
    v.read Val (v.writes Val a [⟨Rect.unit (s := S8192) (k0_off24 k) S16.size i3, w3⟩, ⟨Rect.unit (s := S8192) (k0_off23 k 32#32) S16.size i2, w2⟩,
        ⟨Rect.unit (s := S8192) (k0_off22 k 16#32) S16.size i1, w1⟩, ⟨Rect.unit (s := S8192) (k0_off21 k 0#32) S16.size i0, w0⟩]) y
      = if 64 * k.val ≤ (y 0).val ∧ (y 0).val < 64 * k.val + 64 then G y else v.read Val a y :=
  read_writes4 v a G (64 * k.val) _ _ _ _ _ _ _ _ i0 i1 i2 i3 w0 w1 w2 w3
    (k0_off21_eq k 0) (k0_off22_eq k 0) (k0_off23_eq k 0) (k0_off24_eq k) rfl rfl rfl rfl hw0 hw1 hw2 hw3 y

end Trips

/-! ## The loop invariant's algebra -/

section Acc
variable {α : Type}

/-- The contents after the trips that cover the words below m: the new values below m, the old ones from m on. -/
def accUpTo (NEW OLD : S8192.Idx → α) (m : ℕ) : S8192.Idx → α := fun y => if (y 0).val < m then NEW y else OLD y

theorem accUpTo_zero (NEW OLD : S8192.Idx → α) : accUpTo NEW OLD 0 = OLD := by
  funext y; unfold accUpTo; rw [if_neg (Nat.not_lt_zero _)]

theorem accUpTo_full (NEW OLD : S8192.Idx → α) (m : ℕ) (h : 8192 ≤ m) : accUpTo NEW OLD m = NEW := by
  funext y; unfold accUpTo
  have : (y 0).val < 8192 := (y 0).isLt
  rw [if_pos (by omega)]

theorem accUpTo_of_lt (NEW OLD : S8192.Idx → α) (m : ℕ) (y : S8192.Idx) (h : (y 0).val < m) : accUpTo NEW OLD m y = NEW y := by
  unfold accUpTo; rw [if_pos h]

theorem accUpTo_of_ge (NEW OLD : S8192.Idx → α) (m : ℕ) (y : S8192.Idx) (h : m ≤ (y 0).val) : accUpTo NEW OLD m y = OLD y := by
  unfold accUpTo; rw [if_neg (by omega)]

/-- One more trip: the new values on [o, o + z) over the contents up to o are the contents up to o + z. -/
theorem accUpTo_step (NEW OLD : S8192.Idx → α) (o z : ℕ) :
    (fun y : S8192.Idx => if o ≤ (y 0).val ∧ (y 0).val < o + z then NEW y else accUpTo NEW OLD o y) = accUpTo NEW OLD (o + z) := by
  funext y
  unfold accUpTo
  by_cases h1 : (y 0).val < o
  · rw [if_neg (by omega), if_pos h1, if_pos (by omega)]
  · by_cases h2 : (y 0).val < o + z
    · rw [if_pos ⟨by omega, h2⟩, if_pos h2]
    · rw [if_neg (by omega), if_neg h1, if_neg h2]

/-- The same with the trip counter: 64 words a trip. -/
theorem accUpTo_step64 (NEW OLD : S8192.Idx → α) (k : ℕ) :
    (fun y : S8192.Idx => if 64 * k ≤ (y 0).val ∧ (y 0).val < 64 * k + 64 then NEW y else accUpTo NEW OLD (64 * k) y)
      = accUpTo NEW OLD (64 * (k + 1)) := by
  rw [accUpTo_step, Nat.mul_succ]

/-- The same with the trip counter: 16 words a trip. -/
theorem accUpTo_step16 (NEW OLD : S8192.Idx → α) (k : ℕ) :
    (fun y : S8192.Idx => if 16 * k ≤ (y 0).val ∧ (y 0).val < 16 * k + 16 then NEW y else accUpTo NEW OLD (16 * k) y)
      = accUpTo NEW OLD (16 * (k + 1)) := by
  rw [accUpTo_step, Nat.mul_succ]

end Acc

/-! ## The same for the two accumulator scratches read whole: equalities of whole arrays -/

section Whole
variable {F : FTy → Type}

local notation "s2W" => (Memref.whole Cert.Kernel.cc0_scratch2 : Memref Cert.Kernel.sig Kind.scVector Space.vmem Cert.Kernel.S8192 EltTy.f32)
local notation "s3W" => (Memref.whole Cert.Kernel.cc0_scratch3 : Memref Cert.Kernel.sig Kind.scVector Space.vmem Cert.Kernel.S8192 EltTy.f32)

theorem t1_writes_s2 (k : Fin k0_t1_loop.trips) (a : (s2W).view.ty.Contents (Elt F)) (G : S8192.Idx → Elt F .f32)
    (i0 : ∀ a, k0_off1 k a + S16.size a ≤ S8192.size a)
    (w0 : (Rect.unit (s := S8192) (k0_off1 k) S16.size i0).shape.Idx → Elt F .f32)
    (hw0 : ∀ x, w0 x = G ((Rect.unit (s := S8192) (k0_off1 k) S16.size i0).emb x)) :
    (s2W).view.writes (Elt F) a [⟨Rect.unit (s := S8192) (k0_off1 k) S16.size i0, w0⟩]
      = fun y => if 16 * k.val ≤ (y 0).val ∧ (y 0).val < 16 * k.val + 16 then G y else a y :=
  funext fun y => t1_read_writes (s2W).view a G k i0 w0 hw0 y

theorem t1_writes_s3 (k : Fin k0_t1_loop.trips) (a : (s3W).view.ty.Contents (Elt F)) (G : S8192.Idx → Elt F .f32)
    (i0 : ∀ a, k0_off1 k a + S16.size a ≤ S8192.size a)
    (w0 : (Rect.unit (s := S8192) (k0_off1 k) S16.size i0).shape.Idx → Elt F .f32)
    (hw0 : ∀ x, w0 x = G ((Rect.unit (s := S8192) (k0_off1 k) S16.size i0).emb x)) :
    (s3W).view.writes (Elt F) a [⟨Rect.unit (s := S8192) (k0_off1 k) S16.size i0, w0⟩]
      = fun y => if 16 * k.val ≤ (y 0).val ∧ (y 0).val < 16 * k.val + 16 then G y else a y :=
  funext fun y => t1_read_writes (s3W).view a G k i0 w0 hw0 y

theorem t4_writes_s2 (k : Fin k0_t4_loop.trips) (a : (s2W).view.ty.Contents (Elt F)) (G : S8192.Idx → Elt F .f32)
    (i0 : ∀ a, k0_off10 k a + S16.size a ≤ S8192.size a)
    (w0 : (Rect.unit (s := S8192) (k0_off10 k) S16.size i0).shape.Idx → Elt F .f32)
    (hw0 : ∀ x, w0 x = G ((Rect.unit (s := S8192) (k0_off10 k) S16.size i0).emb x)) :
    (s2W).view.writes (Elt F) a [⟨Rect.unit (s := S8192) (k0_off10 k) S16.size i0, w0⟩]
      = fun y => if 16 * k.val ≤ (y 0).val ∧ (y 0).val < 16 * k.val + 16 then G y else a y :=
  funext fun y => t4_read_writes (s2W).view a G k i0 w0 hw0 y

theorem t3_writes_s2 (k : Fin k0_t3_loop.trips) (a : (s2W).view.ty.Contents (Elt F)) (G : S8192.Idx → Elt F .f32)
    (i0 : ∀ a, k0_off5 k 0#32 a + S16.size a ≤ S8192.size a) (i1 : ∀ a, k0_off6 k 16#32 a + S16.size a ≤ S8192.size a)
    (i2 : ∀ a, k0_off7 k 32#32 a + S16.size a ≤ S8192.size a) (i3 : ∀ a, k0_off8 k a + S16.size a ≤ S8192.size a)
    (w0 : (Rect.unit (s := S8192) (k0_off5 k 0#32) S16.size i0).shape.Idx → Elt F .f32)
    (w1 : (Rect.unit (s := S8192) (k0_off6 k 16#32) S16.size i1).shape.Idx → Elt F .f32)
    (w2 : (Rect.unit (s := S8192) (k0_off7 k 32#32) S16.size i2).shape.Idx → Elt F .f32)
    (w3 : (Rect.unit (s := S8192) (k0_off8 k) S16.size i3).shape.Idx → Elt F .f32)
    (hw0 : ∀ x, w0 x = G ((Rect.unit (s := S8192) (k0_off5 k 0#32) S16.size i0).emb x))
    (hw1 : ∀ x, w1 x = G ((Rect.unit (s := S8192) (k0_off6 k 16#32) S16.size i1).emb x))
    (hw2 : ∀ x, w2 x = G ((Rect.unit (s := S8192) (k0_off7 k 32#32) S16.size i2).emb x))
    (hw3 : ∀ x, w3 x = G ((Rect.unit (s := S8192) (k0_off8 k) S16.size i3).emb x)) :
    (s2W).view.writes (Elt F) a [⟨Rect.unit (s := S8192) (k0_off8 k) S16.size i3, w3⟩, ⟨Rect.unit (s := S8192) (k0_off7 k 32#32) S16.size i2, w2⟩,
        ⟨Rect.unit (s := S8192) (k0_off6 k 16#32) S16.size i1, w1⟩, ⟨Rect.unit (s := S8192) (k0_off5 k 0#32) S16.size i0, w0⟩]
      = fun y => if 64 * k.val ≤ (y 0).val ∧ (y 0).val < 64 * k.val + 64 then G y else a y :=
  funext fun y => t3_read_writes (s2W).view a G k i0 i1 i2 i3 w0 w1 w2 w3 hw0 hw1 hw2 hw3 y

theorem t3_writes_s3 (k : Fin k0_t3_loop.trips) (a : (s3W).view.ty.Contents (Elt F)) (G : S8192.Idx → Elt F .f32)
    (i0 : ∀ a, k0_off5 k 0#32 a + S16.size a ≤ S8192.size a) (i1 : ∀ a, k0_off6 k 16#32 a + S16.size a ≤ S8192.size a)
    (i2 : ∀ a, k0_off7 k 32#32 a + S16.size a ≤ S8192.size a) (i3 : ∀ a, k0_off8 k a + S16.size a ≤ S8192.size a)
    (w0 : (Rect.unit (s := S8192) (k0_off5 k 0#32) S16.size i0).shape.Idx → Elt F .f32)
    (w1 : (Rect.unit (s := S8192) (k0_off6 k 16#32) S16.size i1).shape.Idx → Elt F .f32)
    (w2 : (Rect.unit (s := S8192) (k0_off7 k 32#32) S16.size i2).shape.Idx → Elt F .f32)
    (w3 : (Rect.unit (s := S8192) (k0_off8 k) S16.size i3).shape.Idx → Elt F .f32)
    (hw0 : ∀ x, w0 x = G ((Rect.unit (s := S8192) (k0_off5 k 0#32) S16.size i0).emb x))
    (hw1 : ∀ x, w1 x = G ((Rect.unit (s := S8192) (k0_off6 k 16#32) S16.size i1).emb x))
    (hw2 : ∀ x, w2 x = G ((Rect.unit (s := S8192) (k0_off7 k 32#32) S16.size i2).emb x))
    (hw3 : ∀ x, w3 x = G ((Rect.unit (s := S8192) (k0_off8 k) S16.size i3).emb x)) :
    (s3W).view.writes (Elt F) a [⟨Rect.unit (s := S8192) (k0_off8 k) S16.size i3, w3⟩, ⟨Rect.unit (s := S8192) (k0_off7 k 32#32) S16.size i2, w2⟩,
        ⟨Rect.unit (s := S8192) (k0_off6 k 16#32) S16.size i1, w1⟩, ⟨Rect.unit (s := S8192) (k0_off5 k 0#32) S16.size i0, w0⟩]
      = fun y => if 64 * k.val ≤ (y 0).val ∧ (y 0).val < 64 * k.val + 64 then G y else a y :=
  funext fun y => t3_read_writes (s3W).view a G k i0 i1 i2 i3 w0 w1 w2 w3 hw0 hw1 hw2 hw3 y

theorem t5_writes_s2 (k : Fin k0_t5_loop.trips) (a : (s2W).view.ty.Contents (Elt F)) (G : S8192.Idx → Elt F .f32)
    (i0 : ∀ a, k0_off14 k 0#32 a + S16.size a ≤ S8192.size a) (i1 : ∀ a, k0_off15 k 16#32 a + S16.size a ≤ S8192.size a)
    (i2 : ∀ a, k0_off16 k 32#32 a + S16.size a ≤ S8192.size a) (i3 : ∀ a, k0_off17 k a + S16.size a ≤ S8192.size a)
    (w0 : (Rect.unit (s := S8192) (k0_off14 k 0#32) S16.size i0).shape.Idx → Elt F .f32)
    (w1 : (Rect.unit (s := S8192) (k0_off15 k 16#32) S16.size i1).shape.Idx → Elt F .f32)
    (w2 : (Rect.unit (s := S8192) (k0_off16 k 32#32) S16.size i2).shape.Idx → Elt F .f32)
    (w3 : (Rect.unit (s := S8192) (k0_off17 k) S16.size i3).shape.Idx → Elt F .f32)
    (hw0 : ∀ x, w0 x = G ((Rect.unit (s := S8192) (k0_off14 k 0#32) S16.size i0).emb x))
    (hw1 : ∀ x, w1 x = G ((Rect.unit (s := S8192) (k0_off15 k 16#32) S16.size i1).emb x))
    (hw2 : ∀ x, w2 x = G ((Rect.unit (s := S8192) (k0_off16 k 32#32) S16.size i2).emb x))
    (hw3 : ∀ x, w3 x = G ((Rect.unit (s := S8192) (k0_off17 k) S16.size i3).emb x)) :
    (s2W).view.writes (Elt F) a [⟨Rect.unit (s := S8192) (k0_off17 k) S16.size i3, w3⟩, ⟨Rect.unit (s := S8192) (k0_off16 k 32#32) S16.size i2, w2⟩,
        ⟨Rect.unit (s := S8192) (k0_off15 k 16#32) S16.size i1, w1⟩, ⟨Rect.unit (s := S8192) (k0_off14 k 0#32) S16.size i0, w0⟩]
      = fun y => if 64 * k.val ≤ (y 0).val ∧ (y 0).val < 64 * k.val + 64 then G y else a y :=
  funext fun y => t5_read_writes (s2W).view a G k i0 i1 i2 i3 w0 w1 w2 w3 hw0 hw1 hw2 hw3 y

theorem t6_writes_s2 (k : Fin k0_t6_loop.trips) (a : (s2W).view.ty.Contents (Elt F)) (G : S8192.Idx → Elt F .f32)
    (i0 : ∀ a, k0_off21 k 0#32 a + S16.size a ≤ S8192.size a) (i1 : ∀ a, k0_off22 k 16#32 a + S16.size a ≤ S8192.size a)
    (i2 : ∀ a, k0_off23 k 32#32 a + S16.size a ≤ S8192.size a) (i3 : ∀ a, k0_off24 k a + S16.size a ≤ S8192.size a)
    (w0 : (Rect.unit (s := S8192) (k0_off21 k 0#32) S16.size i0).shape.Idx → Elt F .f32)
    (w1 : (Rect.unit (s := S8192) (k0_off22 k 16#32) S16.size i1).shape.Idx → Elt F .f32)
    (w2 : (Rect.unit (s := S8192) (k0_off23 k 32#32) S16.size i2).shape.Idx → Elt F .f32)
    (w3 : (Rect.unit (s := S8192) (k0_off24 k) S16.size i3).shape.Idx → Elt F .f32)
    (hw0 : ∀ x, w0 x = G ((Rect.unit (s := S8192) (k0_off21 k 0#32) S16.size i0).emb x))
    (hw1 : ∀ x, w1 x = G ((Rect.unit (s := S8192) (k0_off22 k 16#32) S16.size i1).emb x))
    (hw2 : ∀ x, w2 x = G ((Rect.unit (s := S8192) (k0_off23 k 32#32) S16.size i2).emb x))
    (hw3 : ∀ x, w3 x = G ((Rect.unit (s := S8192) (k0_off24 k) S16.size i3).emb x)) :
    (s2W).view.writes (Elt F) a [⟨Rect.unit (s := S8192) (k0_off24 k) S16.size i3, w3⟩, ⟨Rect.unit (s := S8192) (k0_off23 k 32#32) S16.size i2, w2⟩,
        ⟨Rect.unit (s := S8192) (k0_off22 k 16#32) S16.size i1, w1⟩, ⟨Rect.unit (s := S8192) (k0_off21 k 0#32) S16.size i0, w0⟩]
      = fun y => if 64 * k.val ≤ (y 0).val ∧ (y 0).val < 64 * k.val + 64 then G y else a y :=
  funext fun y => t6_read_writes (s2W).view a G k i0 i1 i2 i3 w0 w1 w2 w3 hw0 hw1 hw2 hw3 y

end Whole

/-! ## The same with only the offsets' and sizes' values on the one axis given -/

section GenericAt
variable {sig : RefSig} {κ : Kind} {sp : Space} {e : EltTy} {Val : EltTy → Type} {n : ℕ}

theorem mem_unit1' (off size : Fin 1 → ℕ) (inb : ∀ a, off a + size a ≤ (⟨1, ![n]⟩ : Shape).size a) (o z : ℕ)
    (ho : off 0 = o) (hz : size 0 = z) (y : (⟨1, ![n]⟩ : Shape).Idx) :
    y ∈ (Rect.unit (s := ⟨1, ![n]⟩) off size inb).set ↔ o ≤ (y 0).val ∧ (y 0).val < o + z := by
  rw [Rect.mem_set_unit]
  constructor
  · intro h
    have := h 0
    rw [ho, hz] at this
    exact this
  · intro h a
    obtain rfl : a = 0 := Subsingleton.elim _ _
    rw [ho, hz]
    exact h

theorem emb_unit1_val' (off size : Fin 1 → ℕ) (inb : ∀ a, off a + size a ≤ (⟨1, ![n]⟩ : Shape).size a) (o : ℕ)
    (ho : off 0 = o) (x : (Rect.unit (s := ⟨1, ![n]⟩) off size inb).shape.Idx) :
    (((Rect.unit (s := ⟨1, ![n]⟩) off size inb).emb x) 0).val = o + (x 0).val := by
  show off 0 + 1 * (x 0).val = o + (x 0).val
  rw [Nat.one_mul, ho]

theorem read_writes1' (v : View sig κ sp ⟨1, ![n]⟩ e) (a : v.ty.Contents Val) (G : (⟨1, ![n]⟩ : Shape).Idx → Val e) (o z : ℕ)
    (off0 sz0 : Fin 1 → ℕ) (inb0 : ∀ a, off0 a + sz0 a ≤ (⟨1, ![n]⟩ : Shape).size a)
    (w0 : (Rect.unit (s := ⟨1, ![n]⟩) off0 sz0 inb0).shape.Idx → Val e)
    (h0 : off0 0 = o) (hs0 : sz0 0 = z)
    (hw0 : ∀ x, w0 x = G ((Rect.unit (s := ⟨1, ![n]⟩) off0 sz0 inb0).emb x)) (y : (⟨1, ![n]⟩ : Shape).Idx) :
    v.read Val (v.writes Val a [⟨Rect.unit (s := ⟨1, ![n]⟩) off0 sz0 inb0, w0⟩]) y
      = if o ≤ (y 0).val ∧ (y 0).val < o + z then G y else v.read Val a y := by
  refine Cert.Proof.Writes.read_writes_closed v a G _ ?_ (fun y => o ≤ (y 0).val ∧ (y 0).val < o + z) ?_ y
  · intro p hp
    obtain rfl : p = ⟨Rect.unit (s := ⟨1, ![n]⟩) off0 sz0 inb0, w0⟩ := List.mem_singleton.mp hp
    exact hw0
  · intro y
    constructor
    · intro h
      exact ⟨_, List.mem_singleton.mpr rfl, (mem_unit1' off0 sz0 inb0 o z h0 hs0 y).mpr h⟩
    · rintro ⟨p, hp, hy⟩
      obtain rfl : p = ⟨Rect.unit (s := ⟨1, ![n]⟩) off0 sz0 inb0, w0⟩ := List.mem_singleton.mp hp
      exact (mem_unit1' off0 sz0 inb0 o z h0 hs0 y).mp hy

theorem read_writes4' (v : View sig κ sp ⟨1, ![n]⟩ e) (a : v.ty.Contents Val) (G : (⟨1, ![n]⟩ : Shape).Idx → Val e) (o : ℕ)
    (off0 off1 off2 off3 sz0 sz1 sz2 sz3 : Fin 1 → ℕ)
    (inb0 : ∀ a, off0 a + sz0 a ≤ (⟨1, ![n]⟩ : Shape).size a) (inb1 : ∀ a, off1 a + sz1 a ≤ (⟨1, ![n]⟩ : Shape).size a)
    (inb2 : ∀ a, off2 a + sz2 a ≤ (⟨1, ![n]⟩ : Shape).size a) (inb3 : ∀ a, off3 a + sz3 a ≤ (⟨1, ![n]⟩ : Shape).size a)
    (w0 : (Rect.unit (s := ⟨1, ![n]⟩) off0 sz0 inb0).shape.Idx → Val e) (w1 : (Rect.unit (s := ⟨1, ![n]⟩) off1 sz1 inb1).shape.Idx → Val e)
    (w2 : (Rect.unit (s := ⟨1, ![n]⟩) off2 sz2 inb2).shape.Idx → Val e) (w3 : (Rect.unit (s := ⟨1, ![n]⟩) off3 sz3 inb3).shape.Idx → Val e)
    (h0 : off0 0 = o) (h1 : off1 0 = o + 16) (h2 : off2 0 = o + 32) (h3 : off3 0 = o + 48)
    (hs0 : sz0 0 = 16) (hs1 : sz1 0 = 16) (hs2 : sz2 0 = 16) (hs3 : sz3 0 = 16)
    (hw0 : ∀ x, w0 x = G ((Rect.unit (s := ⟨1, ![n]⟩) off0 sz0 inb0).emb x))
    (hw1 : ∀ x, w1 x = G ((Rect.unit (s := ⟨1, ![n]⟩) off1 sz1 inb1).emb x))
    (hw2 : ∀ x, w2 x = G ((Rect.unit (s := ⟨1, ![n]⟩) off2 sz2 inb2).emb x))
    (hw3 : ∀ x, w3 x = G ((Rect.unit (s := ⟨1, ![n]⟩) off3 sz3 inb3).emb x)) (y : (⟨1, ![n]⟩ : Shape).Idx) :
    v.read Val (v.writes Val a [⟨Rect.unit (s := ⟨1, ![n]⟩) off3 sz3 inb3, w3⟩, ⟨Rect.unit (s := ⟨1, ![n]⟩) off2 sz2 inb2, w2⟩,
        ⟨Rect.unit (s := ⟨1, ![n]⟩) off1 sz1 inb1, w1⟩, ⟨Rect.unit (s := ⟨1, ![n]⟩) off0 sz0 inb0, w0⟩]) y
      = if o ≤ (y 0).val ∧ (y 0).val < o + 64 then G y else v.read Val a y := by
  have m0 := mem_unit1' off0 sz0 inb0 o 16 h0 hs0
  have m1 := mem_unit1' off1 sz1 inb1 (o + 16) 16 h1 hs1
  have m2 := mem_unit1' off2 sz2 inb2 (o + 32) 16 h2 hs2
  have m3 := mem_unit1' off3 sz3 inb3 (o + 48) 16 h3 hs3
  refine Cert.Proof.Writes.read_writes_closed v a G _ ?_ (fun y => o ≤ (y 0).val ∧ (y 0).val < o + 64) ?_ y
  · intro p hp
    simp only [List.mem_cons, List.not_mem_nil, or_false] at hp
    rcases hp with rfl | rfl | rfl | rfl
    · exact hw3
    · exact hw2
    · exact hw1
    · exact hw0
  · intro y
    constructor
    · intro h
      by_cases c1 : (y 0).val < o + 16
      · exact ⟨⟨Rect.unit (s := ⟨1, ![n]⟩) off0 sz0 inb0, w0⟩, .tail _ (.tail _ (.tail _ (.head _))), (m0 y).mpr ⟨h.1, by omega⟩⟩
      · by_cases c2 : (y 0).val < o + 32
        · exact ⟨⟨Rect.unit (s := ⟨1, ![n]⟩) off1 sz1 inb1, w1⟩, .tail _ (.tail _ (.head _)), (m1 y).mpr ⟨by omega, by omega⟩⟩
        · by_cases c3 : (y 0).val < o + 48
          · exact ⟨⟨Rect.unit (s := ⟨1, ![n]⟩) off2 sz2 inb2, w2⟩, .tail _ (.head _), (m2 y).mpr ⟨by omega, by omega⟩⟩
          · exact ⟨⟨Rect.unit (s := ⟨1, ![n]⟩) off3 sz3 inb3, w3⟩, .head _, (m3 y).mpr ⟨by omega, by omega⟩⟩
    · rintro ⟨p, hp, hy⟩
      simp only [List.mem_cons, List.not_mem_nil, or_false] at hp
      rcases hp with rfl | rfl | rfl | rfl
      · have := (m3 y).mp hy; constructor <;> omega
      · have := (m2 y).mp hy; constructor <;> omega
      · have := (m1 y).mp hy; constructor <;> omega
      · have := (m0 y).mp hy; constructor <;> omega

end GenericAt

/-! ## Pointwise, for the two accumulator scratches read whole; offsets, sizes and in-bounds evidence all free -/

section Scratch
variable {F : FTy → Type}

local notation "s2W" => (Memref.whole Cert.Kernel.cc0_scratch2 : Memref Cert.Kernel.sig Kind.scVector Space.vmem Cert.Kernel.S8192 EltTy.f32)
local notation "s3W" => (Memref.whole Cert.Kernel.cc0_scratch3 : Memref Cert.Kernel.sig Kind.scVector Space.vmem Cert.Kernel.S8192 EltTy.f32)

theorem s2_writes1 (a G : S8192.Idx → F .f32) (o z : ℕ) (off0 sz0 : Fin 1 → ℕ) (inb0 : ∀ a, off0 a + sz0 a ≤ S8192.size a)
    (w0 : (Rect.unit (s := S8192) off0 sz0 inb0).shape.Idx → F .f32) (h0 : off0 0 = o) (hs0 : sz0 0 = z)
    (hw0 : ∀ x, w0 x = G ((Rect.unit (s := S8192) off0 sz0 inb0).emb x)) (y : S8192.Idx) :
    (s2W).view.writes (Elt F) a [⟨Rect.unit (s := S8192) off0 sz0 inb0, w0⟩] y
      = if o ≤ (y 0).val ∧ (y 0).val < o + z then G y else a y :=
  read_writes1' (Val := Elt F) (s2W).view a G o z off0 sz0 inb0 w0 h0 hs0 hw0 y

theorem s2_writes4 (a G : S8192.Idx → F .f32) (o : ℕ) (off0 off1 off2 off3 sz0 sz1 sz2 sz3 : Fin 1 → ℕ)
    (inb0 : ∀ a, off0 a + sz0 a ≤ S8192.size a) (inb1 : ∀ a, off1 a + sz1 a ≤ S8192.size a)
    (inb2 : ∀ a, off2 a + sz2 a ≤ S8192.size a) (inb3 : ∀ a, off3 a + sz3 a ≤ S8192.size a)
    (w0 : (Rect.unit (s := S8192) off0 sz0 inb0).shape.Idx → F .f32) (w1 : (Rect.unit (s := S8192) off1 sz1 inb1).shape.Idx → F .f32)
    (w2 : (Rect.unit (s := S8192) off2 sz2 inb2).shape.Idx → F .f32) (w3 : (Rect.unit (s := S8192) off3 sz3 inb3).shape.Idx → F .f32)
    (h0 : off0 0 = o) (h1 : off1 0 = o + 16) (h2 : off2 0 = o + 32) (h3 : off3 0 = o + 48)
    (hs0 : sz0 0 = 16) (hs1 : sz1 0 = 16) (hs2 : sz2 0 = 16) (hs3 : sz3 0 = 16)
    (hw0 : ∀ x, w0 x = G ((Rect.unit (s := S8192) off0 sz0 inb0).emb x))
    (hw1 : ∀ x, w1 x = G ((Rect.unit (s := S8192) off1 sz1 inb1).emb x))
    (hw2 : ∀ x, w2 x = G ((Rect.unit (s := S8192) off2 sz2 inb2).emb x))
    (hw3 : ∀ x, w3 x = G ((Rect.unit (s := S8192) off3 sz3 inb3).emb x)) (y : S8192.Idx) :
    (s2W).view.writes (Elt F) a [⟨Rect.unit (s := S8192) off3 sz3 inb3, w3⟩, ⟨Rect.unit (s := S8192) off2 sz2 inb2, w2⟩,
        ⟨Rect.unit (s := S8192) off1 sz1 inb1, w1⟩, ⟨Rect.unit (s := S8192) off0 sz0 inb0, w0⟩] y
      = if o ≤ (y 0).val ∧ (y 0).val < o + 64 then G y else a y :=
  read_writes4' (Val := Elt F) (s2W).view a G o off0 off1 off2 off3 sz0 sz1 sz2 sz3 inb0 inb1 inb2 inb3 w0 w1 w2 w3
    h0 h1 h2 h3 hs0 hs1 hs2 hs3 hw0 hw1 hw2 hw3 y

theorem s3_writes1 (a G : S8192.Idx → F .f32) (o z : ℕ) (off0 sz0 : Fin 1 → ℕ) (inb0 : ∀ a, off0 a + sz0 a ≤ S8192.size a)
    (w0 : (Rect.unit (s := S8192) off0 sz0 inb0).shape.Idx → F .f32) (h0 : off0 0 = o) (hs0 : sz0 0 = z)
    (hw0 : ∀ x, w0 x = G ((Rect.unit (s := S8192) off0 sz0 inb0).emb x)) (y : S8192.Idx) :
    (s3W).view.writes (Elt F) a [⟨Rect.unit (s := S8192) off0 sz0 inb0, w0⟩] y
      = if o ≤ (y 0).val ∧ (y 0).val < o + z then G y else a y :=
  read_writes1' (Val := Elt F) (s3W).view a G o z off0 sz0 inb0 w0 h0 hs0 hw0 y

theorem s3_writes4 (a G : S8192.Idx → F .f32) (o : ℕ) (off0 off1 off2 off3 sz0 sz1 sz2 sz3 : Fin 1 → ℕ)
    (inb0 : ∀ a, off0 a + sz0 a ≤ S8192.size a) (inb1 : ∀ a, off1 a + sz1 a ≤ S8192.size a)
    (inb2 : ∀ a, off2 a + sz2 a ≤ S8192.size a) (inb3 : ∀ a, off3 a + sz3 a ≤ S8192.size a)
    (w0 : (Rect.unit (s := S8192) off0 sz0 inb0).shape.Idx → F .f32) (w1 : (Rect.unit (s := S8192) off1 sz1 inb1).shape.Idx → F .f32)
    (w2 : (Rect.unit (s := S8192) off2 sz2 inb2).shape.Idx → F .f32) (w3 : (Rect.unit (s := S8192) off3 sz3 inb3).shape.Idx → F .f32)
    (h0 : off0 0 = o) (h1 : off1 0 = o + 16) (h2 : off2 0 = o + 32) (h3 : off3 0 = o + 48)
    (hs0 : sz0 0 = 16) (hs1 : sz1 0 = 16) (hs2 : sz2 0 = 16) (hs3 : sz3 0 = 16)
    (hw0 : ∀ x, w0 x = G ((Rect.unit (s := S8192) off0 sz0 inb0).emb x))
    (hw1 : ∀ x, w1 x = G ((Rect.unit (s := S8192) off1 sz1 inb1).emb x))
    (hw2 : ∀ x, w2 x = G ((Rect.unit (s := S8192) off2 sz2 inb2).emb x))
    (hw3 : ∀ x, w3 x = G ((Rect.unit (s := S8192) off3 sz3 inb3).emb x)) (y : S8192.Idx) :
    (s3W).view.writes (Elt F) a [⟨Rect.unit (s := S8192) off3 sz3 inb3, w3⟩, ⟨Rect.unit (s := S8192) off2 sz2 inb2, w2⟩,
        ⟨Rect.unit (s := S8192) off1 sz1 inb1, w1⟩, ⟨Rect.unit (s := S8192) off0 sz0 inb0, w0⟩] y
      = if o ≤ (y 0).val ∧ (y 0).val < o + 64 then G y else a y :=
  read_writes4' (Val := Elt F) (s3W).view a G o off0 off1 off2 off3 sz0 sz1 sz2 sz3 inb0 inb1 inb2 inb3 w0 w1 w2 w3
    h0 h1 h2 h3 hs0 hs1 hs2 hs3 hw0 hw1 hw2 hw3 y

end Scratch

/-! ## The loops' closed forms, a trip at a time -/

section Arith
variable {F : FTy → Type} [FloatOps F]

/-- A trip of a gather-and-add loop: the sum on [64·k, 64·k + 64) over the contents after k trips is the contents after k + 1. -/
theorem addUpTo_step (g a : S8192.Idx → F .f32) (k : ℕ) (y : S8192.Idx) :
    (if 64 * k ≤ (y 0).val ∧ (y 0).val < 64 * k + 64 then FloatOps.addf (addUpTo g k a y) (g y) else addUpTo g k a y)
      = addUpTo g (k + 1) a y := by
  unfold addUpTo
  by_cases h1 : (y 0).val < 64 * k
  · rw [if_neg (by omega), if_pos h1, if_pos (by omega)]
  · by_cases h2 : (y 0).val < 64 * k + 64
    · rw [if_pos ⟨by omega, h2⟩, if_neg h1, if_pos (by omega)]
    · rw [if_neg (by omega), if_neg h1, if_neg (by omega)]

/-- A trip of a zeroing loop. -/
theorem zeroUpTo_step (a : S8192.Idx → F .f32) (k : ℕ) (y : S8192.Idx) :
    (if 16 * k ≤ (y 0).val ∧ (y 0).val < 16 * k + 16 then (fzero : F .f32) else zeroUpTo k a y) = zeroUpTo (k + 1) a y := by
  unfold zeroUpTo
  by_cases h1 : (y 0).val < 16 * k
  · rw [if_neg (by omega), if_pos h1, if_pos (by omega)]
  · by_cases h2 : (y 0).val < 16 * k + 16
    · rw [if_pos ⟨by omega, h2⟩, if_pos (by omega)]
    · rw [if_neg (by omega), if_neg h1, if_neg (by omega)]

end Arith

end Cert.Proof.Kernel

end
-- ==== Proof.Kernel.TileTripV.lean ====
/-
  One trip of each of the accumulation kernel's counted loops, with values: a trip of a zeroing loop zeroes sixteen more
  lanes; a trip of a gather loop adds, on sixty-four more lanes, the row scratch's word at the index scratch's word (and, in
  the factor loop, its square into the second accumulator).
-/
import proofs.«207209_g54674933678763_cont_9to1_m_278_38_alg».proof.Proof.Kernel.TileTripF
import proofs.«207209_g54674933678763_cont_9to1_m_278_38_alg».proof.Proof.Kernel.TileArith
import proofs.«207209_g54674933678763_cont_9to1_m_278_38_alg».proof.Proof.Kernel.TileWrites

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "v2W" => (Memref.whole Cert.Kernel.main_v2_scv : Memref Cert.Kernel.sig Kind.scVector Space.hbm Cert.Kernel.S26x16x100000 EltTy.f32)
local notation "v3W" => (Memref.whole Cert.Kernel.main_v3_scv : Memref Cert.Kernel.sig Kind.scVector Space.hbm Cert.Kernel.S26x1x100000 EltTy.f32)
local notation "v1W" => (Memref.whole Cert.Kernel.main_v1_scv : Memref Cert.Kernel.sig Kind.scVector Space.hbm Cert.Kernel.S425984 EltTy.i32)
local notation "v4W" => (Memref.whole Cert.Kernel.main_v4_scv : Memref Cert.Kernel.sig Kind.scVector Space.hbm Cert.Kernel.S786432 EltTy.f32)
local notation "s0W" => (Memref.whole Cert.Kernel.cc0_scratch0 : Memref Cert.Kernel.sig Kind.scVector Space.vmem Cert.Kernel.S100000 EltTy.f32)
local notation "s1W" => (Memref.whole Cert.Kernel.cc0_scratch1 : Memref Cert.Kernel.sig Kind.scVector Space.vmem Cert.Kernel.S8192 EltTy.i32)
local notation "s2W" => (Memref.whole Cert.Kernel.cc0_scratch2 : Memref Cert.Kernel.sig Kind.scVector Space.vmem Cert.Kernel.S8192 EltTy.f32)
local notation "s3W" => (Memref.whole Cert.Kernel.cc0_scratch3 : Memref Cert.Kernel.sig Kind.scVector Space.vmem Cert.Kernel.S8192 EltTy.f32)

/-- A buffer held at contents equal to others is held at those. -/
theorem s2At_of_eq {X Y : Buf (Elt F) ((thrV d L).loc cc0_scratch2)} (h : X = Y) : s2At d L X ⊢ (s2At d L Y : sProp 𝕄) := h ▸ .rfl
theorem s3At_of_eq {X Y : Buf (Elt F) ((thrV d L).loc cc0_scratch3)} (h : X = Y) : s3At d L X ⊢ (s3At d L Y : sProp 𝕄) := h ▸ .rfl

/-! ## The zeroing loops -/

/-- A trip of the zeroing loop over both accumulators. -/
theorem trip1V (k : Fin k0_t1_loop.trips)
    (a0 : Buf (Elt F) ((thrV d L).loc cc0_scratch2)) (b0 : Buf (Elt F) ((thrV d L).loc cc0_scratch3)) :
    iprop(s2At d L (zeroUpTo k.val a0) ∗ s3At d L (zeroUpTo k.val b0))
      ⊢ wp frame (wpE (defs₀ (F := F)) 𝒱₀ (thrV d L) none) Set.univ
          (k0_t1_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s2At d L (zeroUpTo (k.val + 1) a0) ∗ s3At d L (zeroUpTo (k.val + 1) b0)) := by
  unfold k0_t1_body
  iintro ⟨H2, H3⟩
  sl_exec
  sl_step
  isplitl [H2]
  · iapply (s2At_of_eq d L ?_)
    swap
    · iexact H2
    exact (t1_writes_s2 k _ (fun _ => fzero) _ _ (fun x => rfl)).trans (funext fun y => zeroUpTo_step a0 k.val y)
  · iapply (s3At_of_eq d L ?_)
    swap
    · iexact H3
    exact (t1_writes_s3 k _ (fun _ => fzero) _ _ (fun x => rfl)).trans (funext fun y => zeroUpTo_step b0 k.val y)

/-- A trip of the zeroing loop over the first accumulator. -/
theorem trip4V (k : Fin k0_t4_loop.trips) (a0 : Buf (Elt F) ((thrV d L).loc cc0_scratch2)) :
    s2At d L (zeroUpTo k.val a0)
      ⊢ wp frame (wpE (defs₀ (F := F)) 𝒱₀ (thrV d L) none) Set.univ
          (k0_t4_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => s2At d L (zeroUpTo (k.val + 1) a0) := by
  unfold k0_t4_body
  iintro H2
  sl_exec
  sl_step
  iapply (s2At_of_eq d L ?_)
  swap
  · iexact H2
  exact (t4_writes_s2 k _ (fun _ => fzero) _ _ (fun x => rfl)).trans (funext fun y => zeroUpTo_step a0 k.val y)

/-! ## The gather loops -/

/-- A trip of the factor loop: on sixty-four more lanes the gathered word is added into the first accumulator and its square
    into the second. -/
theorem trip3V (Pf : Buf (Elt F) ((thrV d L).loc cc0_scratch0)) (If : Buf (Elt F) ((thrV d L).loc cc0_scratch1))
    (hI : ∀ y, (If y).toNat < 100000) (k : Fin k0_t3_loop.trips)
    (a0 : Buf (Elt F) ((thrV d L).loc cc0_scratch2)) (b0 : Buf (Elt F) ((thrV d L).loc cc0_scratch3)) :
    iprop(s0At d L Pf ∗ s1At d L If ∗ s2At d L (addUpTo (gath Pf If) k.val a0) ∗ s3At d L (addUpTo (sqr (gath Pf If)) k.val b0))
      ⊢ wp frame (wpE (defs₀ (F := F)) 𝒱₀ (thrV d L) none) Set.univ
          (k0_t3_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ s2At d L (addUpTo (gath Pf If) (k.val + 1) a0) ∗ s3At d L (addUpTo (sqr (gath Pf If)) (k.val + 1) b0)) := by
  have o0 : k0_off4 k = k0_off5 k 0#32 := (k0_off4_eq k).trans (k0_off5_eq k 0).symm
  have o1 : k0_off5 k 16#32 = k0_off6 k 16#32 := (k0_off5_eq k 1).trans (k0_off6_eq k 0).symm
  have o2 : k0_off6 k 32#32 = k0_off7 k 32#32 := (k0_off6_eq k 1).trans (k0_off7_eq k 0).symm
  have o3 : k0_off7 k 48#32 = k0_off8 k := (k0_off7_eq k 1).trans (k0_off8_eq k).symm
  unfold k0_t3_body
  simp only [k0_part1_eq_skeleton]; unfold k0_part1_skel
  unfold SparseCore.vectorLoadIdx
  iintro ⟨H0, H1, H2, H3⟩
  sl_exec (disch := (intro a x; obtain rfl : a = 0 := Subsingleton.elim _ _; exact hI _))
  sl_step
  isplitl [H0]; · iexact H0
  isplitl [H1]; · iexact H1
  isplitl [H2]
  · iapply (s2At_of_eq d L ?_)
    swap
    · iexact H2
    refine (t3_writes_s2 k _ (fun y => FloatOps.addf (addUpTo (gath Pf If) k.val a0 y) (gath Pf If y)) _ _ _ _ _ _ _ _
      (fun x => ?_) (fun x => ?_) (fun x => ?_) (fun x => ?_)).trans (funext fun y => addUpTo_step (gath Pf If) a0 k.val y)
    · exact congrArg₂ FloatOps.addf rfl (gath_piece Pf If hI _ _ _ _ _ _ o0 rfl _ x x rfl)
    · exact congrArg₂ FloatOps.addf rfl (gath_piece Pf If hI _ _ _ _ _ _ o1 rfl _ x x rfl)
    · exact congrArg₂ FloatOps.addf rfl (gath_piece Pf If hI _ _ _ _ _ _ o2 rfl _ x x rfl)
    · exact congrArg₂ FloatOps.addf rfl (gath_piece Pf If hI _ _ _ _ _ _ o3 rfl _ x x rfl)
  · iapply (s3At_of_eq d L ?_)
    swap
    · iexact H3
    refine (t3_writes_s3 k _ (fun y => FloatOps.addf (addUpTo (sqr (gath Pf If)) k.val b0 y) (sqr (gath Pf If) y)) _ _ _ _ _ _ _ _
      (fun x => ?_) (fun x => ?_) (fun x => ?_) (fun x => ?_)).trans (funext fun y => addUpTo_step (sqr (gath Pf If)) b0 k.val y)
    · have e := gath_piece Pf If hI _ _ _ _ _ _ o0 rfl (fun a x' => by obtain rfl : a = 0 := Subsingleton.elim _ _; exact hI _) x x rfl
      exact congrArg₂ FloatOps.addf rfl (congrArg₂ FloatOps.mulf e e)
    · have e := gath_piece Pf If hI _ _ _ _ _ _ o1 rfl (fun a x' => by obtain rfl : a = 0 := Subsingleton.elim _ _; exact hI _) x x rfl
      exact congrArg₂ FloatOps.addf rfl (congrArg₂ FloatOps.mulf e e)
    · have e := gath_piece Pf If hI _ _ _ _ _ _ o2 rfl (fun a x' => by obtain rfl : a = 0 := Subsingleton.elim _ _; exact hI _) x x rfl
      exact congrArg₂ FloatOps.addf rfl (congrArg₂ FloatOps.mulf e e)
    · have e := gath_piece Pf If hI _ _ _ _ _ _ o3 rfl (fun a x' => by obtain rfl : a = 0 := Subsingleton.elim _ _; exact hI _) x x rfl
      exact congrArg₂ FloatOps.addf rfl (congrArg₂ FloatOps.mulf e e)

/-- A trip of the first linear loop: on sixty-four more lanes the gathered word is added into the accumulator. -/
theorem trip5V (Pf : Buf (Elt F) ((thrV d L).loc cc0_scratch0)) (If : Buf (Elt F) ((thrV d L).loc cc0_scratch1))
    (hI : ∀ y, (If y).toNat < 100000) (k : Fin k0_t5_loop.trips) (a0 : Buf (Elt F) ((thrV d L).loc cc0_scratch2)) :
    iprop(s0At d L Pf ∗ s1At d L If ∗ s2At d L (addUpTo (gath Pf If) k.val a0))
      ⊢ wp frame (wpE (defs₀ (F := F)) 𝒱₀ (thrV d L) none) Set.univ
          (k0_t5_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ s2At d L (addUpTo (gath Pf If) (k.val + 1) a0)) := by
  have o0 : k0_off13 k = k0_off14 k 0#32 := (k0_off13_eq k).trans (k0_off14_eq k 0).symm
  have o1 : k0_off14 k 16#32 = k0_off15 k 16#32 := (k0_off14_eq k 1).trans (k0_off15_eq k 0).symm
  have o2 : k0_off15 k 32#32 = k0_off16 k 32#32 := (k0_off15_eq k 1).trans (k0_off16_eq k 0).symm
  have o3 : k0_off16 k 48#32 = k0_off17 k := (k0_off16_eq k 1).trans (k0_off17_eq k).symm
  unfold k0_t5_body
  unfold SparseCore.vectorLoadIdx
  iintro ⟨H0, H1, H2⟩
  sl_exec (disch := (intro a x; obtain rfl : a = 0 := Subsingleton.elim _ _; exact hI _))
  sl_step
  isplitl [H0]; · iexact H0
  isplitl [H1]; · iexact H1
  iapply (s2At_of_eq d L ?_)
  swap
  · iexact H2
  refine (t5_writes_s2 k _ (fun y => FloatOps.addf (addUpTo (gath Pf If) k.val a0 y) (gath Pf If y)) _ _ _ _ _ _ _ _
    (fun x => ?_) (fun x => ?_) (fun x => ?_) (fun x => ?_)).trans (funext fun y => addUpTo_step (gath Pf If) a0 k.val y)
  · exact congrArg₂ FloatOps.addf rfl (gath_piece Pf If hI _ _ _ _ _ _ o0 rfl _ x x rfl)
  · exact congrArg₂ FloatOps.addf rfl (gath_piece Pf If hI _ _ _ _ _ _ o1 rfl _ x x rfl)
  · exact congrArg₂ FloatOps.addf rfl (gath_piece Pf If hI _ _ _ _ _ _ o2 rfl _ x x rfl)
  · exact congrArg₂ FloatOps.addf rfl (gath_piece Pf If hI _ _ _ _ _ _ o3 rfl _ x x rfl)

/-- A trip of the second linear loop (run when the subcore has a second field). -/
theorem trip6V (h1 : k0_cond1 L = 1#1) (Pf : Buf (Elt F) ((thrV d L).loc cc0_scratch0)) (If : Buf (Elt F) ((thrV d L).loc cc0_scratch1))
    (hI : ∀ y, (If y).toNat < 100000) (k : Fin k0_t6_loop.trips) (a0 : Buf (Elt F) ((thrV d L).loc cc0_scratch2)) :
    iprop(s0At d L Pf ∗ s1At d L If ∗ s2At d L (addUpTo (gath Pf If) k.val a0))
      ⊢ wp frame (wpE (defs₀ (F := F)) 𝒱₀ (thrV d L) none) Set.univ
          (k0_t6_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 h1 k ⟨⟩)
          fun _ => iprop(s0At d L Pf ∗ s1At d L If ∗ s2At d L (addUpTo (gath Pf If) (k.val + 1) a0)) := by
  have o0 : k0_off20 k = k0_off21 k 0#32 := (k0_off20_eq k).trans (k0_off21_eq k 0).symm
  have o1 : k0_off21 k 16#32 = k0_off22 k 16#32 := (k0_off21_eq k 1).trans (k0_off22_eq k 0).symm
  have o2 : k0_off22 k 32#32 = k0_off23 k 32#32 := (k0_off22_eq k 1).trans (k0_off23_eq k 0).symm
  have o3 : k0_off23 k 48#32 = k0_off24 k := (k0_off23_eq k 1).trans (k0_off24_eq k).symm
  unfold k0_t6_body
  unfold SparseCore.vectorLoadIdx
  iintro ⟨H0, H1, H2⟩
  sl_exec (disch := first | (intro _ a x; obtain rfl : a = 0 := Subsingleton.elim _ _; exact hI _) | (intro a x; obtain rfl : a = 0 := Subsingleton.elim _ _; exact hI _))
  sl_step
  isplitl [H0]; · iexact H0
  isplitl [H1]; · iexact H1
  iapply (s2At_of_eq d L ?_)
  swap
  · iexact H2
  refine (t6_writes_s2 k _ (fun y => FloatOps.addf (addUpTo (gath Pf If) k.val a0 y) (gath Pf If y)) _ _ _ _ _ _ _ _
    (fun x => ?_) (fun x => ?_) (fun x => ?_) (fun x => ?_)).trans (funext fun y => addUpTo_step (gath Pf If) a0 k.val y)
  · exact congrArg₂ FloatOps.addf rfl (gath_piece Pf If hI _ _ _ _ _ _ o0 rfl _ x x rfl)
  · exact congrArg₂ FloatOps.addf rfl (gath_piece Pf If hI _ _ _ _ _ _ o1 rfl _ x x rfl)
  · exact congrArg₂ FloatOps.addf rfl (gath_piece Pf If hI _ _ _ _ _ _ o2 rfl _ x x rfl)
  · exact congrArg₂ FloatOps.addf rfl (gath_piece Pf If hI _ _ _ _ _ _ o3 rfl _ x x rfl)

end Cert.Proof.Kernel

end
-- ==== Proof.Kernel.TileFacts.lean ====
/-
  Pure facts about the accumulation kernel's task at a grid point: what its copies bring in, when it has a second linear
  field, and what its output copies leave.

  * The row copied for field f is row (f, t) of the transposed factor table, and the index words copied are the
    flattened index array from 16384·f + 8192·c on: so the indexed load of the row at the copied word for example y reads
    the factor component the task's value is defined by.  The same for the linear table at field t, and at field t + 16.
  * The task has a second linear field exactly when t + 16 < 26.
  * The j-th output copy writes its 8192 words at 393216·c + 131072·j + 8192·t; a word there is the task's j-th value at
    the word's position in the slice, which is what the whole accumulated output holds at that word.
-/
import proofs.«207209_g54674933678763_cont_9to1_m_278_38_alg».proof.Proof.Kernel.TileArith
import proofs.«207209_g54674933678763_cont_9to1_m_278_38_alg».proof.Proof.Gen.Kernel
import Idealize.ShloMosaic.Lib.Pipeline.Value
import Idealize.ShloMosaic.Lib.Writes

noncomputable section

namespace Cert.Proof.Kernel

open Cert.Kernel Cert.Kernel.Gen

open Idealize.ShloMosaic Idealize.ShloMosaic.ValueIdx

variable {F : FTy → Type} [FloatOps F]

local notation "v2W" => (Memref.whole Cert.Kernel.main_v2_scv : Memref Cert.Kernel.sig Kind.scVector Space.hbm Cert.Kernel.S26x16x100000 EltTy.f32)
local notation "v3W" => (Memref.whole Cert.Kernel.main_v3_scv : Memref Cert.Kernel.sig Kind.scVector Space.hbm Cert.Kernel.S26x1x100000 EltTy.f32)
local notation "v1W" => (Memref.whole Cert.Kernel.main_v1_scv : Memref Cert.Kernel.sig Kind.scVector Space.hbm Cert.Kernel.S425984 EltTy.i32)
local notation "v4W" => (Memref.whole Cert.Kernel.main_v4_scv : Memref Cert.Kernel.sig Kind.scVector Space.hbm Cert.Kernel.S786432 EltTy.f32)

/-! ## The grid point's coordinates and the field counter, bounded -/

theorem L0_lt (L : grid0.Coords) : (L 0).val < 2 := (L 0).isLt
theorem L1_lt (L : grid0.Coords) : (L 1).val < 16 := (L 1).isLt
theorem t2_lt (f : Fin k0_t2_loop.trips) : f.val < 26 := lt_of_lt_of_le f.isLt k0_t2_abs.2.1

/-- The task has a second linear field exactly when t + 16 is a field. -/
theorem cond1_iff : ∀ L : grid0.Coords, k0_cond1 L = 1#1 ↔ (L 1).val + 16 < 26 := by decide +kernel

/-! ## A row of a table, copied -/

/-- The row the factor loop copies for field f: row (f, t) of the transposed factor table. -/
theorem rowFac_read (L : grid0.Coords) (f : Fin k0_t2_loop.trips) (A2 : S26x16x100000.Idx → F .f32) (v : Fin 100000) :
    (((v2W).slice (Rect.unit (s := S26x16x100000) (k0_off2 L f) S1x1x100000.size (k0_off2_inb L f)) (fun _ => rfl)).squeeze S100000
        squeezes_S1x1x100000_S100000).view.read (Elt F) A2 (ix1 v)
      = A2 (ix3 (⟨f.val, t2_lt f⟩ : Fin 26) (⟨(L 1).val, L1_lt L⟩ : Fin 16) v) := by
  have hc : (Rect.unit (s := S26x16x100000) (k0_off2 L f) S1x1x100000.size (k0_off2_inb L f)).shape.ShapeCasts S100000 :=
    squeezes_S1x1x100000_S100000.numel_eq
  refine (congrFun (Memref.read_squeeze_slice (Val := Elt F) (v2W) _ (fun _ => rfl) squeezes_S1x1x100000_S100000 hc A2) (ix1 v)).trans ?_
  refine (shapeCast_apply _ hc (ix1 v) (ix3 (0 : Fin 1) (0 : Fin 1) v) ?_).trans ?_
  · rw [Shape.rowMajor_val_three, Shape.rowMajor_val_one]
    show (0 * 1 + 0) * 100000 + v.val = v.val
    omega
  · show A2 _ = A2 _
    congr 1
    funext a
    apply Fin.ext
    have ho := k0_off2_eq L f
    match a with
    | ⟨0, _⟩ => show k0_off2 L f 0 + 1 * 0 = f.val; rw [ho]; rfl
    | ⟨1, _⟩ => show k0_off2 L f 1 + 1 * 0 = (L 1).val; rw [ho]; rfl
    | ⟨2, _⟩ => show k0_off2 L f 2 + 1 * v.val = v.val; rw [ho]; show 0 + 1 * v.val = v.val; omega

/-- The row the first linear loop copies: row t of the transposed linear table. -/
theorem rowLin_read (L : grid0.Coords) (A3 : S26x1x100000.Idx → F .f32) (v : Fin 100000) :
    (((v3W).slice (Rect.unit (s := S26x1x100000) (k0_off11 L) S1x1x100000.size (k0_off11_inb L)) (fun _ => rfl)).squeeze S100000
        squeezes_S1x1x100000_S100000).view.read (Elt F) A3 (ix1 v)
      = A3 (ix3 (⟨(L 1).val, by have := L1_lt L; omega⟩ : Fin 26) (0 : Fin 1) v) := by
  have hc : (Rect.unit (s := S26x1x100000) (k0_off11 L) S1x1x100000.size (k0_off11_inb L)).shape.ShapeCasts S100000 :=
    squeezes_S1x1x100000_S100000.numel_eq
  refine (congrFun (Memref.read_squeeze_slice (Val := Elt F) (v3W) _ (fun _ => rfl) squeezes_S1x1x100000_S100000 hc A3) (ix1 v)).trans ?_
  refine (shapeCast_apply _ hc (ix1 v) (ix3 (0 : Fin 1) (0 : Fin 1) v) ?_).trans ?_
  · rw [Shape.rowMajor_val_three, Shape.rowMajor_val_one]
    show (0 * 1 + 0) * 100000 + v.val = v.val
    omega
  · show A3 _ = A3 _
    congr 1
    funext a
    apply Fin.ext
    have ho := k0_off11_eq L
    match a with
    | ⟨0, _⟩ => show k0_off11 L 0 + 1 * 0 = (L 1).val; rw [ho]; rfl
    | ⟨1, _⟩ => show k0_off11 L 1 + 1 * 0 = 0; rw [ho]; rfl
    | ⟨2, _⟩ => show k0_off11 L 2 + 1 * v.val = v.val; rw [ho]; show 0 + 1 * v.val = v.val; omega

/-- The row the second linear loop copies: row t + 16 of the transposed linear table. -/
theorem rowLin'_read (L : grid0.Coords) (h1 : k0_cond1 L = 1#1) (A3 : S26x1x100000.Idx → F .f32) (v : Fin 100000) :
    (((v3W).slice (Rect.unit (s := S26x1x100000) (k0_off18 L) S1x1x100000.size (k0_off18_inb L h1)) (fun _ => rfl)).squeeze S100000
        squeezes_S1x1x100000_S100000).view.read (Elt F) A3 (ix1 v)
      = A3 (ix3 (⟨(L 1).val + 16, (cond1_iff L).mp h1⟩ : Fin 26) (0 : Fin 1) v) := by
  have hc : (Rect.unit (s := S26x1x100000) (k0_off18 L) S1x1x100000.size (k0_off18_inb L h1)).shape.ShapeCasts S100000 :=
    squeezes_S1x1x100000_S100000.numel_eq
  refine (congrFun (Memref.read_squeeze_slice (Val := Elt F) (v3W) _ (fun _ => rfl) squeezes_S1x1x100000_S100000 hc A3) (ix1 v)).trans ?_
  refine (shapeCast_apply _ hc (ix1 v) (ix3 (0 : Fin 1) (0 : Fin 1) v) ?_).trans ?_
  · rw [Shape.rowMajor_val_three, Shape.rowMajor_val_one]
    show (0 * 1 + 0) * 100000 + v.val = v.val
    omega
  · show A3 _ = A3 _
    congr 1
    funext a
    apply Fin.ext
    have ho := k0_off18_eq L
    match a with
    | ⟨0, _⟩ => show k0_off18 L 0 + 1 * 0 = (L 1).val + 16; rw [ho]; rfl
    | ⟨1, _⟩ => show k0_off18 L 1 + 1 * 0 = 0; rw [ho]; rfl
    | ⟨2, _⟩ => show k0_off18 L 2 + 1 * v.val = v.val; rw [ho]; show 0 + 1 * v.val = v.val; omega

/-! ## The index words, copied -/

/-- A slice of the flattened index array from word o on reads the array at o + y. -/
theorem idx_read (off : Fin 1 → ℕ) (inb : ∀ a, off a + S8192.size a ≤ S425984.size a) (o : ℕ) (ho : off = ![o])
    (A1 : S425984.Idx → BitVec 32) (y : S8192.Idx) (h : o + (y 0).val < 425984) :
    ((v1W).slice (Rect.unit (s := S425984) off S8192.size inb) (fun _ => rfl)).view.read (Elt F) A1 y = A1 (ix1 ⟨o + (y 0).val, h⟩) := by
  subst ho
  show A1 _ = A1 _
  congr 1
  funext a
  rcases a with ⟨_ | n, hn⟩
  swap
  · exact absurd hn (Nat.not_lt.2 (Nat.le_add_left 1 n))
  apply Fin.ext
  show (![o] : Fin 1 → ℕ) 0 + 1 * (y 0).val = o + (y 0).val
  rw [Nat.one_mul]
  rfl

/-- The same as the index word the task's value is defined by, for field number n. -/
theorem idx_read_idxW (L : grid0.Coords) (n : ℕ) (hn : n < 26) (off : Fin 1 → ℕ) (inb : ∀ a, off a + S8192.size a ≤ S425984.size a)
    (ho : off = ![16384 * n + 8192 * (L 0).val]) (A1 : S425984.Idx → BitVec 32) (y : S8192.Idx) :
    ((v1W).slice (Rect.unit (s := S425984) off S8192.size inb) (fun _ => rfl)).view.read (Elt F) A1 y = idxW A1 (L 0).val n y := by
  have hc := L0_lt L
  have hy : (y 0).val < 8192 := (y 0).isLt
  have hlt : 16384 * n + 8192 * (L 0).val + (y 0).val < 425984 := by omega
  rw [idx_read (F := F) off inb _ ho A1 y hlt]
  unfold idxW
  exact congrArg A1 (congrArg (ix1 (n := 425984)) (Fin.ext (Nat.mod_eq_of_lt hlt).symm))

/-! ## What the indexed loads read -/

/-- The factor loop's gather for field f reads the factor component the task's value is defined by. -/
theorem gathFac (L : grid0.Coords) : ∀ (A1 : S425984.Idx → BitVec 32) (A2 : S26x16x100000.Idx → F .f32) (f : Fin k0_t2_loop.trips) (y : S8192.Idx),
    gath ((((v2W).slice (Rect.unit (s := S26x16x100000) (k0_off2 L f) S1x1x100000.size (k0_off2_inb L f)) (fun _ => rfl)).squeeze S100000
            squeezes_S1x1x100000_S100000).view.read (Elt F) A2)
        (((v1W).slice (Rect.unit (s := S425984) (k0_off3 L f) S8192.size (k0_off3_inb L f)) (fun _ => rfl)).view.read (Elt F) A1) y
      = gFac A1 A2 (L 0).val (L 1).val f.val y := by
  intro A1 A2 f y
  have hf := t2_lt f
  have ht := L1_lt L
  unfold gath
  rw [rowFac_read L f A2]
  unfold gFac
  have ef : (⟨f.val, hf⟩ : Fin 26) = ⟨f.val % 26, Nat.mod_lt _ (by norm_num)⟩ := Fin.ext (Nat.mod_eq_of_lt hf).symm
  have et : (⟨(L 1).val, ht⟩ : Fin 16) = ⟨(L 1).val % 16, Nat.mod_lt _ (by norm_num)⟩ := Fin.ext (Nat.mod_eq_of_lt ht).symm
  have er : (⟨(((v1W).slice (Rect.unit (s := S425984) (k0_off3 L f) S8192.size (k0_off3_inb L f)) (fun _ => rfl)).view.read (Elt F) A1 y).toNat % 100000,
      Nat.mod_lt _ (by norm_num)⟩ : Fin 100000) = rowW A1 (L 0).val f.val y :=
    Fin.ext (by
      show _ % 100000 = (idxW A1 (L 0).val f.val y).toNat % 100000
      rw [idx_read_idxW (F := F) L f.val hf _ _ (k0_off3_eq L f) A1 y])
  rw [ef, et, er]

/-- The first linear loop's gather reads field t's linear weight. -/
theorem gathLin (L : grid0.Coords) : ∀ (A1 : S425984.Idx → BitVec 32) (A3 : S26x1x100000.Idx → F .f32) (y : S8192.Idx),
    gath ((((v3W).slice (Rect.unit (s := S26x1x100000) (k0_off11 L) S1x1x100000.size (k0_off11_inb L)) (fun _ => rfl)).squeeze S100000
            squeezes_S1x1x100000_S100000).view.read (Elt F) A3)
        (((v1W).slice (Rect.unit (s := S425984) (k0_off12 L) S8192.size (k0_off12_inb L)) (fun _ => rfl)).view.read (Elt F) A1) y
      = gLin A1 A3 (L 0).val (L 1).val y := by
  intro A1 A3 y
  have ht := L1_lt L
  have ht' : (L 1).val < 26 := by omega
  unfold gath
  rw [rowLin_read L A3]
  unfold gLin
  have et : (⟨(L 1).val, ht'⟩ : Fin 26) = ⟨(L 1).val % 26, Nat.mod_lt _ (by norm_num)⟩ := Fin.ext (Nat.mod_eq_of_lt ht').symm
  have er : (⟨(((v1W).slice (Rect.unit (s := S425984) (k0_off12 L) S8192.size (k0_off12_inb L)) (fun _ => rfl)).view.read (Elt F) A1 y).toNat % 100000,
      Nat.mod_lt _ (by norm_num)⟩ : Fin 100000) = rowW A1 (L 0).val (L 1).val y :=
    Fin.ext (by
      show _ % 100000 = (idxW A1 (L 0).val (L 1).val y).toNat % 100000
      rw [idx_read_idxW (F := F) L (L 1).val ht' _ _ (k0_off12_eq L) A1 y])
  rw [et, er]

/-- The second linear loop's gather reads field t + 16's linear weight. -/
theorem gathLin' (L : grid0.Coords) : ∀ (h1 : k0_cond1 L = 1#1) (A1 : S425984.Idx → BitVec 32) (A3 : S26x1x100000.Idx → F .f32) (y : S8192.Idx),
    gath ((((v3W).slice (Rect.unit (s := S26x1x100000) (k0_off18 L) S1x1x100000.size (k0_off18_inb L h1)) (fun _ => rfl)).squeeze S100000
            squeezes_S1x1x100000_S100000).view.read (Elt F) A3)
        (((v1W).slice (Rect.unit (s := S425984) (k0_off19 L) S8192.size (k0_off19_inb L h1)) (fun _ => rfl)).view.read (Elt F) A1) y
      = gLin A1 A3 (L 0).val ((L 1).val + 16) y := by
  intro h1 A1 A3 y
  have ht' : (L 1).val + 16 < 26 := (cond1_iff L).mp h1
  have ho : k0_off19 L = ![16384 * ((L 1).val + 16) + 8192 * (L 0).val] := by
    rw [k0_off19_eq]
    congr 1
    omega
  unfold gath
  rw [rowLin'_read L h1 A3]
  unfold gLin
  have et : (⟨(L 1).val + 16, ht'⟩ : Fin 26) = ⟨((L 1).val + 16) % 26, Nat.mod_lt _ (by norm_num)⟩ := Fin.ext (Nat.mod_eq_of_lt ht').symm
  have er : (⟨(((v1W).slice (Rect.unit (s := S425984) (k0_off19 L) S8192.size (k0_off19_inb L h1)) (fun _ => rfl)).view.read (Elt F) A1 y).toNat % 100000,
      Nat.mod_lt _ (by norm_num)⟩ : Fin 100000) = rowW A1 (L 0).val ((L 1).val + 16) y :=
    Fin.ext (by
      show _ % 100000 = (idxW A1 (L 0).val ((L 1).val + 16) y).toNat % 100000
      rw [idx_read_idxW (F := F) L ((L 1).val + 16) ht' _ _ ho A1 y])
  rw [et, er]

/-! ## What an output copy leaves -/

/-- A copy onto a whole slice of a buffer leaves, at the slice's word x, the payload's word x. -/
theorem slice_whole_writes_emb {sig' : RefSig} {κ : Kind} {Val : EltTy → Type} (b : Ref sig' κ) (r : Rect b.ty.shape)
    (g0 : b.ty.Contents Val) (w : r.shape.Idx → Val b.ty.elt) (x : r.shape.Idx) :
    ((View.whole b).slice r).writes Val g0 [⟨Rect.whole r.shape, w⟩] (r.emb x) = w x := by
  have h := View.read_writes_cons_emb (Val := Val) ((View.whole b).slice r) g0 (Rect.whole r.shape) w [] x
  rw [Rect.emb_whole_apply] at h
  exact h

/-- A word of the j-th output slice after the copy is what the whole accumulated output holds there. -/
theorem outClosed (L : grid0.Coords) : ∀ (j : Fin 3) (g0 : S786432.Idx → F .f32) (w : S8192.Idx → F .f32)
    (A1 : S425984.Idx → BitVec 32) (A2 : S26x16x100000.Idx → F .f32) (A3 : S26x1x100000.Idx → F .f32),
    (∀ y, w y = tileOutN A1 A2 A3 (L 0).val (L 1).val j.val y) →
    ∀ i ∈ (outM L j).view.set, (outM L j).view.writes (Elt F) g0 [⟨Rect.whole S8192, w⟩] i = outBuf A1 A2 A3 i := by
  intro j g0 w A1 A2 A3 hw i hi
  have hc := L0_lt L
  have ht := L1_lt L
  have hj := j.isLt
  obtain ⟨x, -, rfl⟩ := Finset.mem_map.mp hi
  have hx : (x 0).val < 8192 := (x 0).isLt
  have h1 : (outM L j).view.writes (Elt F) g0 [⟨Rect.whole S8192, w⟩] ((outM L j).view.emb x) = w x :=
    slice_whole_writes_emb (Val := Elt F) main_v4_scv (outR L j) g0 w x
  have e0 : (((outM L j).view.emb x) 0).val = 393216 * (L 0).val + 131072 * j.val + 8192 * (L 1).val + (x 0).val := by
    show k0_off9 L (BitVec.ofNat 32 j.val) 0 + 1 * (x 0).val = _
    rw [k0_off9_eq]
    show (393216 * (L 0).val + 131072 * j.val + 8192 * (L 1).val) + 1 * (x 0).val = _
    omega
  rw [h1, hw x]
  unfold outBuf
  beta_reduce
  have a1 : (((outM L j).view.emb x) 0).val / 393216 = (L 0).val := by rw [e0]; omega
  have a2 : (((outM L j).view.emb x) 0).val / 8192 % 16 = (L 1).val := by rw [e0]; omega
  have a3 : (((outM L j).view.emb x) 0).val / 131072 % 3 = j.val := by rw [e0]; omega
  have a4 : (ix1 (⟨(((outM L j).view.emb x) 0).val % 8192, Nat.mod_lt _ (by norm_num)⟩ : Fin 8192) : S8192.Idx) = x := by
    funext a
    obtain rfl : a = 0 := Subsingleton.elim _ _
    exact Fin.ext (by show (((outM L j).view.emb x) 0).val % 8192 = (x 0).val; rw [e0]; omega)
  rw [a1, a2, a3, a4]

end Cert.Proof.Kernel

end
-- ==== Proof.Kernel.TileBody.lean ====
/-
  The whole task of one vector subcore with the values it leaves: its three output slices hold the accumulated planes.
-/
import proofs.«207209_g54674933678763_cont_9to1_m_278_38_alg».proof.Proof.Kernel.TileBodyF
import proofs.«207209_g54674933678763_cont_9to1_m_278_38_alg».proof.Proof.Kernel.TileArith
import proofs.«207209_g54674933678763_cont_9to1_m_278_38_alg».proof.Proof.Kernel.TileTripV
import proofs.«207209_g54674933678763_cont_9to1_m_278_38_alg».proof.Proof.Kernel.TileFacts

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "v2W" => (Memref.whole Cert.Kernel.main_v2_scv : Memref Cert.Kernel.sig Kind.scVector Space.hbm Cert.Kernel.S26x16x100000 EltTy.f32)
local notation "v3W" => (Memref.whole Cert.Kernel.main_v3_scv : Memref Cert.Kernel.sig Kind.scVector Space.hbm Cert.Kernel.S26x1x100000 EltTy.f32)
local notation "v1W" => (Memref.whole Cert.Kernel.main_v1_scv : Memref Cert.Kernel.sig Kind.scVector Space.hbm Cert.Kernel.S425984 EltTy.i32)
local notation "v4W" => (Memref.whole Cert.Kernel.main_v4_scv : Memref Cert.Kernel.sig Kind.scVector Space.hbm Cert.Kernel.S786432 EltTy.f32)
local notation "s0W" => (Memref.whole Cert.Kernel.cc0_scratch0 : Memref Cert.Kernel.sig Kind.scVector Space.vmem Cert.Kernel.S100000 EltTy.f32)
local notation "s1W" => (Memref.whole Cert.Kernel.cc0_scratch1 : Memref Cert.Kernel.sig Kind.scVector Space.vmem Cert.Kernel.S8192 EltTy.i32)
local notation "s2W" => (Memref.whole Cert.Kernel.cc0_scratch2 : Memref Cert.Kernel.sig Kind.scVector Space.vmem Cert.Kernel.S8192 EltTy.f32)
local notation "s3W" => (Memref.whole Cert.Kernel.cc0_scratch3 : Memref Cert.Kernel.sig Kind.scVector Space.vmem Cert.Kernel.S8192 EltTy.f32)

/-! ## The source memrefs of the kernel's copies, as it slices them -/

abbrev rowM2 (f : Fin k0_t2_loop.trips) : Memref sig .scVector .hbm S100000 .f32 :=
  ((v2W).slice (Rect.unit (s := S26x16x100000) (k0_off2 L f) S1x1x100000.size (k0_off2_inb L f)) (fun _ => rfl)).squeeze S100000 squeezes_S1x1x100000_S100000
abbrev idxM2 (f : Fin k0_t2_loop.trips) : Memref sig .scVector .hbm S8192 .i32 :=
  (v1W).slice (Rect.unit (s := S425984) (k0_off3 L f) S8192.size (k0_off3_inb L f)) (fun _ => rfl)
abbrev rowM3 : Memref sig .scVector .hbm S100000 .f32 :=
  ((v3W).slice (Rect.unit (s := S26x1x100000) (k0_off11 L) S1x1x100000.size (k0_off11_inb L)) (fun _ => rfl)).squeeze S100000 squeezes_S1x1x100000_S100000
abbrev idxM3 : Memref sig .scVector .hbm S8192 .i32 :=
  (v1W).slice (Rect.unit (s := S425984) (k0_off12 L) S8192.size (k0_off12_inb L)) (fun _ => rfl)
abbrev rowM3' (h1 : k0_cond1 L = 1#1) : Memref sig .scVector .hbm S100000 .f32 :=
  ((v3W).slice (Rect.unit (s := S26x1x100000) (k0_off18 L) S1x1x100000.size (k0_off18_inb L h1)) (fun _ => rfl)).squeeze S100000 squeezes_S1x1x100000_S100000
abbrev idxM3' (h1 : k0_cond1 L = 1#1) : Memref sig .scVector .hbm S8192 .i32 :=
  (v1W).slice (Rect.unit (s := S425984) (k0_off19 L) S8192.size (k0_off19_inb L h1)) (fun _ => rfl)

/-! ## What the pure side supplies -/

/-- The factor gather reads the table entry the specification names. -/
def GathFac : Prop := ∀ (A1 : S425984.Idx → BitVec 32) (A2 : S26x16x100000.Idx → F .f32) (f : Fin k0_t2_loop.trips) (y : S8192.Idx),
  gath ((rowM2 L f).view.read (Elt F) A2) ((idxM2 L f).view.read (Elt F) A1) y = gFac A1 A2 (L 0).val (L 1).val f.val y
def GathLin : Prop := ∀ (A1 : S425984.Idx → BitVec 32) (A3 : S26x1x100000.Idx → F .f32) (y : S8192.Idx),
  gath ((rowM3 L).view.read (Elt F) A3) ((idxM3 L).view.read (Elt F) A1) y = gLin A1 A3 (L 0).val (L 1).val y
def GathLin' : Prop := ∀ (h1 : k0_cond1 L = 1#1) (A1 : S425984.Idx → BitVec 32) (A3 : S26x1x100000.Idx → F .f32) (y : S8192.Idx),
  gath ((rowM3' L h1).view.read (Elt F) A3) ((idxM3' L h1).view.read (Elt F) A1) y = gLin A1 A3 (L 0).val ((L 1).val + 16) y
def Cond1Iff : Prop := k0_cond1 L = 1#1 ↔ (L 1).val + 16 < 26
/-- A slice of the output written whole with the task's values holds the output array's values. -/
def OutClosed : Prop := ∀ (j : Fin 3) (g0 : S786432.Idx → F .f32) (w : S8192.Idx → F .f32) (A1 : S425984.Idx → BitVec 32) (A2 : S26x16x100000.Idx → F .f32)
    (A3 : S26x1x100000.Idx → F .f32), (∀ y, w y = tileOutN A1 A2 A3 (L 0).val (L 1).val j.val y) →
  ∀ i ∈ (outM L j).view.set, (outM L j).view.writes (Elt F) g0 [⟨Rect.whole S8192, w⟩] i = outBuf A1 A2 A3 i

/-! ## What the trips supply -/

def Trip1V : Prop := ∀ (k : Fin k0_t1_loop.trips) (a0 : Buf (Elt F) ((thrV d L).loc cc0_scratch2)) (b0 : Buf (Elt F) ((thrV d L).loc cc0_scratch3)),
  iprop(s2At d L (zeroUpTo k.val a0) ∗ s3At d L (zeroUpTo k.val b0))
    ⊢ wp frame (wpE (defs₀ (F := F)) 𝒱₀ (thrV d L) none) Set.univ
          (k0_t1_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s2At d L (zeroUpTo (k.val + 1) a0) ∗ s3At d L (zeroUpTo (k.val + 1) b0))
def Trip4V : Prop := ∀ (k : Fin k0_t4_loop.trips) (a0 : Buf (Elt F) ((thrV d L).loc cc0_scratch2)),
  s2At d L (zeroUpTo k.val a0)
    ⊢ wp frame (wpE (defs₀ (F := F)) 𝒱₀ (thrV d L) none) Set.univ
          (k0_t4_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => s2At d L (zeroUpTo (k.val + 1) a0)
def Trip3V : Prop := ∀ (Pf : Buf (Elt F) ((thrV d L).loc cc0_scratch0)) (If : Buf (Elt F) ((thrV d L).loc cc0_scratch1))
    (_ : ∀ y, (If y).toNat < 100000) (k : Fin k0_t3_loop.trips)
    (a0 : Buf (Elt F) ((thrV d L).loc cc0_scratch2)) (b0 : Buf (Elt F) ((thrV d L).loc cc0_scratch3)),
  iprop(s0At d L Pf ∗ s1At d L If ∗ s2At d L (addUpTo (gath Pf If) k.val a0) ∗ s3At d L (addUpTo (sqr (gath Pf If)) k.val b0))
    ⊢ wp frame (wpE (defs₀ (F := F)) 𝒱₀ (thrV d L) none) Set.univ
          (k0_t3_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ s2At d L (addUpTo (gath Pf If) (k.val + 1) a0) ∗ s3At d L (addUpTo (sqr (gath Pf If)) (k.val + 1) b0))
def Trip5V : Prop := ∀ (Pf : Buf (Elt F) ((thrV d L).loc cc0_scratch0)) (If : Buf (Elt F) ((thrV d L).loc cc0_scratch1))
    (_ : ∀ y, (If y).toNat < 100000) (k : Fin k0_t5_loop.trips) (a0 : Buf (Elt F) ((thrV d L).loc cc0_scratch2)),
  iprop(s0At d L Pf ∗ s1At d L If ∗ s2At d L (addUpTo (gath Pf If) k.val a0))
    ⊢ wp frame (wpE (defs₀ (F := F)) 𝒱₀ (thrV d L) none) Set.univ
          (k0_t5_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 k ⟨⟩)
          fun _ => iprop(s0At d L Pf ∗ s1At d L If ∗ s2At d L (addUpTo (gath Pf If) (k.val + 1) a0))
def Trip6V : Prop := ∀ (h1 : k0_cond1 L = 1#1) (Pf : Buf (Elt F) ((thrV d L).loc cc0_scratch0)) (If : Buf (Elt F) ((thrV d L).loc cc0_scratch1))
    (_ : ∀ y, (If y).toNat < 100000) (k : Fin k0_t6_loop.trips) (a0 : Buf (Elt F) ((thrV d L).loc cc0_scratch2)),
  iprop(s0At d L Pf ∗ s1At d L If ∗ s2At d L (addUpTo (gath Pf If) k.val a0))
    ⊢ wp frame (wpE (defs₀ (F := F)) 𝒱₀ (thrV d L) none) Set.univ
          (k0_t6_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 h1 k ⟨⟩)
          fun _ => iprop(s0At d L Pf ∗ s1At d L If ∗ s2At d L (addUpTo (gath Pf If) (k.val + 1) a0))

/-! ## The arithmetic of the invariants -/

theorem zeroUpTo_zero_b (a : S8192.Idx → F .f32) : zeroUpTo 0 a = a := by
  funext y; simp [zeroUpTo]
theorem addUpTo_zero_b (g a : S8192.Idx → F .f32) : addUpTo g 0 a = a := by
  funext y; simp [addUpTo]
theorem zeroUpTo_full_b (a : S8192.Idx → F .f32) : zeroUpTo 512 a = fun _ => fzero := by
  funext y; have := (y 0).isLt; simp only [zeroUpTo]; rw [if_pos]; exact this
theorem addUpTo_full_b (g a : S8192.Idx → F .f32) : addUpTo g 128 a = fun y => FloatOps.addf (a y) (g y) := by
  funext y; have := (y 0).isLt; simp only [addUpTo]; rw [if_pos]; exact this

/-! ## One field of the factor loop -/

/-- The inner loop's invariant: the row and index scratches as the copies left them, the accumulators at the entry
    contents with the gathered values added over the lanes done. -/
def inv3V (Pf : Buf (Elt F) ((thrV d L).loc cc0_scratch0)) (If : Buf (Elt F) ((thrV d L).loc cc0_scratch1))
    (a0 : Buf (Elt F) ((thrV d L).loc cc0_scratch2)) (b0 : Buf (Elt F) ((thrV d L).loc cc0_scratch3)) (k : Nat) (_ : PUnit) : sProp 𝕄 :=
  iprop(s0At d L Pf ∗ s1At d L If ∗ s2At d L (addUpTo (gath Pf If) k a0) ∗ s3At d L (addUpTo (sqr (gath Pf If)) k b0))

/-- The field loop's invariant: as the footprint one, the accumulators at the sums over the fields done. -/
def inv2V (q : PosShare TreeShare) (A1 : Buf (Elt F) (v1Loc d)) (A2 : Buf (Elt F) (v2Loc d))
    (O : CellTallies nD τ sig (HIx 1)) (W : Waits sig (HIx 1)) (n : Nat) (_ : PUnit) : sProp 𝕄 :=
  iprop(Transfers.MayWaits (thrV d L) (none : HIx 1) O
    ∗ ((v2W).view.loc (thrV d L) ↦{q} A2) ∗ ((v1W).view.loc (thrV d L) ↦{q} A1)
    ∗ (∃ f0, s0At d L f0) ∗ (∃ f1, s1At d L f1)
    ∗ s2At d L (accSum A1 A2 (L 0).val (L 1).val n) ∗ s3At d L (accSq A1 A2 (L 0).val (L 1).val n)
    ∗ semVal (cellV d L cc0_scratch4) 0 ∗ semVal (cellV d L cc0_scratch5) 0
    ∗ ∃ W', ⌜∀ p ∈ W', p ∈ W ∨ p.2 = none⌝ ∗ owes (thrV d L) O W')

theorem accSum_succ (A1 : S425984.Idx → BitVec 32) (A2 : S26x16x100000.Idx → F .f32) (c t n : ℕ) (g : S8192.Idx → F .f32)
    (hg : ∀ y, g y = gFac A1 A2 c t n y) : addUpTo g 128 (accSum A1 A2 c t n) = accSum A1 A2 c t (n + 1) := by
  rw [addUpTo_full_b]; funext y; rw [hg]; rfl
theorem accSq_succ (A1 : S425984.Idx → BitVec 32) (A2 : S26x16x100000.Idx → F .f32) (c t n : ℕ) (g : S8192.Idx → F .f32)
    (hg : ∀ y, g y = gFac A1 A2 c t n y) : addUpTo (sqr g) 128 (accSq A1 A2 c t n) = accSq A1 A2 c t (n + 1) := by
  rw [addUpTo_full_b]; funext y; simp only [sqr]; rw [hg]; rfl

theorem fieldV (h3 : Trip3V (F := F) d L) (hgf : GathFac (F := F) L) (q : PosShare TreeShare) (A1 : Buf (Elt F) (v1Loc d)) (A2 : Buf (Elt F) (v2Loc d))
    (hidx : ∀ j, (A1 j).toNat < 100000)
    (O : CellTallies nD τ sig (HIx 1)) (W : Waits sig (HIx 1)) (f : Fin k0_t2_loop.trips) :
    inv2V d L q A1 A2 O W f.val ⟨⟩
      ⊢ wp frame (wpE (defs₀ (F := F)) 𝒱₀ (thrV d L) none) Set.univ
          (k0_t2_body L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2 f ⟨⟩)
          (inv2V d L q A1 A2 O W (f.val + 1)) := by
  unfold k0_t2_body inv2V
  iintro ⟨Hmw, H2, H1, ⟨%f0, Hs0⟩, ⟨%f1, Hs1⟩, Hs2, Hs3, Hm4, Hm5, %W', %hW', HO⟩
  sl_exec
  have e0 : View.write (Elt F) (s0W).view f0 (fieldV.sl.dma0 d L A2 f) Finset.univ = fieldV.sl.dma0 d L A2 f := View.write_whole_univ _ _ _
  have e1 : View.write (Elt F) (s1W).view f1 (fieldV.sl.dma0_1 d L A1 f) Finset.univ = fieldV.sl.dma0_1 d L A1 f := View.write_whole_univ _ _ _
  rw [e0, e1]
  have hI : ∀ y, ((fieldV.sl.dma0_1 d L A1 f) y).toNat < 100000 := fun y => hidx _
  have hg : ∀ y, gath (fieldV.sl.dma0 d L A2 f) (fieldV.sl.dma0_1 d L A1 f) y = gFac A1 A2 (L 0).val (L 1).val f.val y := hgf A1 A2 f
  ihave Hs2 := (Entails.of_eq (congrArg (s2At d L) (addUpTo_zero_b (gath (fieldV.sl.dma0 d L A2 f) (fieldV.sl.dma0_1 d L A1 f)) (accSum A1 A2 (L 0).val (L 1).val f.val)).symm)) $$ Hs2
  ihave Hs3 := (Entails.of_eq (congrArg (s3At d L) (addUpTo_zero_b (sqr (gath (fieldV.sl.dma0 d L A2 f) (fieldV.sl.dma0_1 d L A1 f))) (accSq A1 A2 (L 0).val (L 1).val f.val)).symm)) $$ Hs3
  sl_for (inv3V d L (fieldV.sl.dma0 d L A2 f) (fieldV.sl.dma0_1 d L A1 f) (accSum A1 A2 (L 0).val (L 1).val f.val) (accSq A1 A2 (L 0).val (L 1).val f.val)) $$ [Hs0 Hs1 Hs2 Hs3]
  case region =>
    intro k _
    unfold inv3V
    exact h3 _ _ hI k _ _
  · unfold inv3V
    isplitl [Hs0]; · iexact Hs0
    isplitl [Hs1]; · iexact Hs1
    isplitl [Hs2]; · iexact Hs2
    iexact Hs3
  iintro %_ HI
  unfold inv3V
  rw [show Scf.trips k0_t3_loop.lb k0_t3_loop.ub k0_t3_loop.st = 128 from by decide]
  icases HI with ⟨Hs0, Hs1, Hs2, Hs3⟩
  ihave Hs2 := (Entails.of_eq (congrArg (s2At d L) (accSum_succ A1 A2 (L 0).val (L 1).val f.val _ hg))) $$ Hs2
  ihave Hs3 := (Entails.of_eq (congrArg (s3At d L) (accSq_succ A1 A2 (L 0).val (L 1).val f.val _ hg))) $$ Hs3
  sl_exec
  sl_step
  isplitl [Hmw]; · iexact Hmw
  isplitl [H2]; · iexact H2
  isplitl [H1]; · iexact H1
  isplitl [Hs0]; · iexists _; iexact Hs0
  isplitl [Hs1]; · iexists _; iexact Hs1
  isplitl [Hs2]; · iexact Hs2
  isplitl [Hs3]; · iexact Hs3
  isplitl [Hm4]; · iexact Hm4
  isplitl [Hm5]; · iexact Hm5
  iexists (insert (SemLoc.dma cc0_scratch5.sem, (default : HIx 1)) (insert (SemLoc.dma cc0_scratch4.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

/-! ## The whole task -/

def inv1V (a0 : Buf (Elt F) ((thrV d L).loc cc0_scratch2)) (b0 : Buf (Elt F) ((thrV d L).loc cc0_scratch3)) (k : Nat) (_ : PUnit) : sProp 𝕄 :=
  iprop(s2At d L (zeroUpTo k a0) ∗ s3At d L (zeroUpTo k b0))
def inv4V (a0 : Buf (Elt F) ((thrV d L).loc cc0_scratch2)) (k : Nat) (_ : PUnit) : sProp 𝕄 := s2At d L (zeroUpTo k a0)
def inv5V (Pf : Buf (Elt F) ((thrV d L).loc cc0_scratch0)) (If : Buf (Elt F) ((thrV d L).loc cc0_scratch1))
    (a0 : Buf (Elt F) ((thrV d L).loc cc0_scratch2)) (k : Nat) (_ : PUnit) : sProp 𝕄 :=
  iprop(s0At d L Pf ∗ s1At d L If ∗ s2At d L (addUpTo (gath Pf If) k a0))

theorem tileOutN_zero (A1 : S425984.Idx → BitVec 32) (A2 : S26x16x100000.Idx → F .f32) (A3 : S26x1x100000.Idx → F .f32) (c t : ℕ) (y : S8192.Idx) :
    tileOutN A1 A2 A3 c t 0 y = accSum A1 A2 c t 26 y := if_pos rfl
theorem tileOutN_one (A1 : S425984.Idx → BitVec 32) (A2 : S26x16x100000.Idx → F .f32) (A3 : S26x1x100000.Idx → F .f32) (c t : ℕ) (y : S8192.Idx) :
    tileOutN A1 A2 A3 c t 1 y = accSq A1 A2 c t 26 y := by unfold tileOutN; rw [if_neg (by decide), if_pos rfl]
theorem tileOutN_two (A1 : S425984.Idx → BitVec 32) (A2 : S26x16x100000.Idx → F .f32) (A3 : S26x1x100000.Idx → F .f32) (c t : ℕ) (y : S8192.Idx) :
    tileOutN A1 A2 A3 c t 2 y = accLin A1 A3 c t y := by unfold tileOutN; rw [if_neg (by decide), if_neg (by decide)]

theorem lin_first (A1 : S425984.Idx → BitVec 32) (A3 : S26x1x100000.Idx → F .f32) (c t : ℕ) (g : S8192.Idx → F .f32)
    (hg : ∀ y, g y = gLin A1 A3 c t y) :
    addUpTo g 128 (fun _ => fzero) = fun y => FloatOps.addf fzero (gLin A1 A3 c t y) := by
  rw [addUpTo_full_b]; funext y; rw [hg]
theorem lin_second (A1 : S425984.Idx → BitVec 32) (A3 : S26x1x100000.Idx → F .f32) (c t : ℕ) (g : S8192.Idx → F .f32)
    (hg : ∀ y, g y = gLin A1 A3 c (t + 16) y) (ht : t + 16 < 26) :
    addUpTo g 128 (fun y => FloatOps.addf fzero (gLin A1 A3 c t y)) = accLin A1 A3 c t := by
  rw [addUpTo_full_b]; funext y; rw [hg]; unfold accLin; rw [if_pos ht]
theorem lin_only (A1 : S425984.Idx → BitVec 32) (A3 : S26x1x100000.Idx → F .f32) (c t : ℕ) (ht : ¬ t + 16 < 26) :
    (fun y => FloatOps.addf fzero (gLin A1 A3 c t y)) = accLin A1 A3 c t := by
  funext y; unfold accLin; rw [if_neg ht]

set_option maxHeartbeats 2000000 in
theorem tile_body_of (h1V : Trip1V (F := F) d L) (h4V : Trip4V (F := F) d L) (h3V : Trip3V (F := F) d L) (h5V : Trip5V (F := F) d L) (h6V : Trip6V (F := F) d L)
    (hgf : GathFac (F := F) L) (hgl : GathLin (F := F) L) (hgl' : GathLin' (F := F) L) (hc1 : Cond1Iff L) (hout : OutClosed (F := F) L)
    (hF : (K (F := F)).Facts) (q : PosShare TreeShare)
    (A1 : Buf (Elt F) (v1Loc d)) (A2 : Buf (Elt F) (v2Loc d)) (A3 : Buf (Elt F) (v3Loc d)) (B4 : Buf (Elt F) (v4Loc d))
    (hidx : ∀ j, (A1 j).toNat < 100000)
    (O : CellTallies nD τ sig (HIx 1)) (W : Waits sig (HIx 1)) (hO : ∀ g, O g none = 0) :
    iprop(levAts (K (F := F)).L (K (F := F)).lev ∗ emp ∗ goRes d L q A1 A2 A3 B4
        ∗ scopedBufs (thrV d L) ∗ scopedSems0 (thrV d L) ∗ owes (thrV d L) O W)
      ⊢ wp frame (wpE (defs₀ (F := F)) 𝒱₀ (thrV d L) none) Set.univ
          (cc0_k L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2)
          fun _ => iprop(tdRes d L q A1 A2 A3 ∗ scopedBufs (thrV d L) ∗ scopedSems0 (thrV d L)
            ∗ ∃ W', ⌜∀ p ∈ W', p ∈ W ∨ p.2 = none⌝ ∗ owes (thrV d L) O W') := by
  simp only [cc0_k_eq_skeleton]; unfold cc0_k_skel
  simp only [k0_part2_eq_skeleton]; unfold k0_part2_skel
  simp only [Prog.bind_assoc]
  rw [(K (F := F)).scopedBufs_V hF d (cV L) (jV L), SparseCore.Cfg.scopedSems0_V (Val := Elt F) d (cV L) (jV L), ownSems0_V, ownBufs_V]
  unfold goRes inRes outRes
  iintro ⟨#Hlv, -, ⟨⟨H2, H3, H1⟩, Ho0, Ho1, Ho2⟩, ⟨⟨%f0, Hs0⟩, ⟨%f1, Hs1⟩, ⟨%f2, Hs2⟩, ⟨%f3, Hs3⟩, Hbufs⟩, ⟨Hm4, Hm5, Hc0, Hc1, Hc2, Hsems⟩, HO⟩
  ihave Hmw := ((K (F := F)).mayWaits_none (thr := thrV d L) hO) $$ Hlv
  ihave H2' := (Entails.of_eq (show ((v2W).view.loc (thrV d L) ↦{q} A2 : sProp 𝕄) = (v2Loc d ↦{q} A2) from rfl).symm) $$ H2
  ihave H3' := (Entails.of_eq (show ((v3W).view.loc (thrV d L) ↦{q} A3 : sProp 𝕄) = (v3Loc d ↦{q} A3) from rfl).symm) $$ H3
  ihave H1' := (Entails.of_eq (show ((v1W).view.loc (thrV d L) ↦{q} A1 : sProp 𝕄) = (v1Loc d ↦{q} A1) from rfl).symm) $$ H1
  ihave Ho0 := (Entails.of_eq (show ((outK0 L).view.loc (thrV d L) ↦[(outK0 L).view.set]{fullShare} B4 : sProp 𝕄) = (v4Loc d ↦[outSet L 0]{fullShare} B4) from rfl).symm) $$ Ho0
  ihave Ho1 := (Entails.of_eq (show ((outK1 L).view.loc (thrV d L) ↦[(outK1 L).view.set]{fullShare} B4 : sProp 𝕄) = (v4Loc d ↦[outSet L 1]{fullShare} B4) from rfl).symm) $$ Ho1
  ihave Ho2 := (Entails.of_eq (show ((outK2 L).view.loc (thrV d L) ↦[(outK2 L).view.set]{fullShare} B4 : sProp 𝕄) = (v4Loc d ↦[outSet L 2]{fullShare} B4) from rfl).symm) $$ Ho2
  ihave Hs0 := (Entails.of_eq (show (s0At d L f0 : sProp 𝕄) = ((thrV d L).loc cc0_scratch0 ↦{fullShare} f0) from rfl).symm) $$ Hs0
  ihave Hs1 := (Entails.of_eq (show (s1At d L f1 : sProp 𝕄) = ((thrV d L).loc cc0_scratch1 ↦{fullShare} f1) from rfl).symm) $$ Hs1
  ihave Hs2 := (Entails.of_eq (show (s2At d L (zeroUpTo 0 f2) : sProp 𝕄) = ((thrV d L).loc cc0_scratch2 ↦{fullShare} f2) from by rw [zeroUpTo_zero_b]).symm) $$ Hs2
  ihave Hs3 := (Entails.of_eq (show (s3At d L (zeroUpTo 0 f3) : sProp 𝕄) = ((thrV d L).loc cc0_scratch3 ↦{fullShare} f3) from by rw [zeroUpTo_zero_b]).symm) $$ Hs3
  sl_exec
  -- the accumulators zeroed
  sl_for (inv1V d L f2 f3) $$ [Hs2 Hs3]
  case region =>
    intro k _
    unfold inv1V
    exact h1V k f2 f3
  · unfold inv1V
    isplitl [Hs2]; · iexact Hs2
    iexact Hs3
  iintro %_ HI
  unfold inv1V
  rw [show Scf.trips k0_t1_loop.lb k0_t1_loop.ub k0_t1_loop.st = 512 from by decide, zeroUpTo_full_b, zeroUpTo_full_b]
  icases HI with ⟨Hs2, Hs3⟩
  sl_exec
  -- the twenty-six fields
  sl_for (inv2V d L q A1 A2 O W) $$ [Hmw H2' H1' Hs0 Hs1 Hs2 Hs3 Hm4 Hm5 HO]
  case region =>
    intro k _
    exact fieldV d L h3V hgf q A1 A2 hidx O W k
  · unfold inv2V
    isplitl [Hmw]; · iexact Hmw
    isplitl [H2']; · iexact H2'
    isplitl [H1']; · iexact H1'
    isplitl [Hs0]; · iexists _; iexact Hs0
    isplitl [Hs1]; · iexists _; iexact Hs1
    isplitl [Hs2]; · iexact Hs2
    isplitl [Hs3]; · iexact Hs3
    isplitl [Hm4]; · iexact Hm4
    isplitl [Hm5]; · iexact Hm5
    iexists W; isplitr
    · ipureintro; exact fun p hp => .inl hp
    · iexact HO
  iintro %_ HI
  unfold inv2V
  rw [show Scf.trips k0_t2_loop.lb k0_t2_loop.ub k0_t2_loop.st = 26 from by decide]
  icases HI with ⟨Hmw, H2', H1', ⟨%g0, Hs0⟩, ⟨%g1, Hs1⟩, Hs2, Hs3, Hm4, Hm5, %W', %hW', HO⟩
  -- the two accumulators written out, the first zeroed again
  sl_exec
  ihave Ho0 := (Entails.of_eq (pointsTo_congr (hout 0 _ _ A1 A2 A3 fun y => (tileOutN_zero A1 A2 A3 (L 0).val (L 1).val y).symm))) $$ Ho0
  ihave Ho1 := (Entails.of_eq (pointsTo_congr (hout 1 _ _ A1 A2 A3 fun y => (tileOutN_one A1 A2 A3 (L 0).val (L 1).val y).symm))) $$ Ho1
  ihave Hs2 := (Entails.of_eq (congrArg (s2At d L) (zeroUpTo_zero_b (accSum A1 A2 (L 0).val (L 1).val 26)).symm)) $$ Hs2
  sl_for (inv4V d L (accSum A1 A2 (L 0).val (L 1).val 26)) $$ [Hs2]
  case region =>
    intro k _
    unfold inv4V
    exact h4V k _
  · unfold inv4V
    iexact Hs2
  iintro %_ HI
  unfold inv4V
  rw [show Scf.trips k0_t4_loop.lb k0_t4_loop.ub k0_t4_loop.st = 512 from by decide, zeroUpTo_full_b]
  icases HI with Hs2
  -- the subcore's own linear field
  sl_exec
  have e0 : View.write (Elt F) (s0W).view g0 (tile_body_of.sl.dma0_2 d L A3) Finset.univ = tile_body_of.sl.dma0_2 d L A3 := View.write_whole_univ _ _ _
  have e1 : View.write (Elt F) (s1W).view g1 (tile_body_of.sl.dma0_3 d L A1) Finset.univ = tile_body_of.sl.dma0_3 d L A1 := View.write_whole_univ _ _ _
  rw [e0, e1]
  have hI : ∀ y, ((tile_body_of.sl.dma0_3 d L A1) y).toNat < 100000 := fun y => hidx _
  have hg : ∀ y, gath (tile_body_of.sl.dma0_2 d L A3) (tile_body_of.sl.dma0_3 d L A1) y = gLin A1 A3 (L 0).val (L 1).val y := hgl A1 A3
  ihave Hs2 := (Entails.of_eq (congrArg (s2At d L) (addUpTo_zero_b (gath (tile_body_of.sl.dma0_2 d L A3) (tile_body_of.sl.dma0_3 d L A1)) (fun _ => fzero)).symm)) $$ Hs2
  sl_for (inv5V d L (tile_body_of.sl.dma0_2 d L A3) (tile_body_of.sl.dma0_3 d L A1) (fun _ => fzero)) $$ [Hs0 Hs1 Hs2]
  case region =>
    intro k _
    unfold inv5V
    exact h5V _ _ hI k _
  · unfold inv5V
    isplitl [Hs0]; · iexact Hs0
    isplitl [Hs1]; · iexact Hs1
    iexact Hs2
  iintro %_ HI
  unfold inv5V
  rw [show Scf.trips k0_t5_loop.lb k0_t5_loop.ub k0_t5_loop.st = 128 from by decide]
  icases HI with ⟨Hs0, Hs1, Hs2⟩
  ihave Hs2 := (Entails.of_eq (congrArg (s2At d L) (lin_first A1 A3 (L 0).val (L 1).val _ hg))) $$ Hs2
  by_cases h1 : k0_cond1 L = 1#1
  · -- the subcore's second linear field
    sl_exec
    have e0' : View.write (Elt F) (s0W).view (tile_body_of.sl.dma0_2 d L A3) (tile_body_of.sl.dma0_4 d L A3 h1) Finset.univ = tile_body_of.sl.dma0_4 d L A3 h1 := View.write_whole_univ _ _ _
    have e1' : View.write (Elt F) (s1W).view (tile_body_of.sl.dma0_3 d L A1) (tile_body_of.sl.dma0_5 d L A1 h1) Finset.univ = tile_body_of.sl.dma0_5 d L A1 h1 := View.write_whole_univ _ _ _
    rw [e0', e1']
    have hI' : ∀ y, ((tile_body_of.sl.dma0_5 d L A1 h1) y).toNat < 100000 := fun y => hidx _
    have hg' : ∀ y, gath (tile_body_of.sl.dma0_4 d L A3 h1) (tile_body_of.sl.dma0_5 d L A1 h1) y = gLin A1 A3 (L 0).val ((L 1).val + 16) y := hgl' h1 A1 A3
    ihave Hs2 := (Entails.of_eq (congrArg (s2At d L) (addUpTo_zero_b (gath (tile_body_of.sl.dma0_4 d L A3 h1) (tile_body_of.sl.dma0_5 d L A1 h1)) (fun y => FloatOps.addf fzero (gLin A1 A3 (L 0).val (L 1).val y))).symm)) $$ Hs2
    sl_for (inv5V d L (tile_body_of.sl.dma0_4 d L A3 h1) (tile_body_of.sl.dma0_5 d L A1 h1) (fun y => FloatOps.addf fzero (gLin A1 A3 (L 0).val (L 1).val y))) $$ [Hs0 Hs1 Hs2]
    case region =>
      intro k _
      unfold inv5V
      exact h6V h1 _ _ hI' k _
    · unfold inv5V
      isplitl [Hs0]; · iexact Hs0
      isplitl [Hs1]; · iexact Hs1
      iexact Hs2
    iintro %_ HI
    unfold inv5V
    rw [show Scf.trips k0_t6_loop.lb k0_t6_loop.ub k0_t6_loop.st = 128 from by decide]
    icases HI with ⟨Hs0, Hs1, Hs2⟩
    ihave Hs2 := (Entails.of_eq (congrArg (s2At d L) (lin_second A1 A3 (L 0).val (L 1).val _ hg' (hc1.mp h1)))) $$ Hs2
    sl_exec
    ihave Ho2 := (Entails.of_eq (pointsTo_congr (hout 2 _ _ A1 A2 A3 fun y => (tileOutN_two A1 A2 A3 (L 0).val (L 1).val y).symm))) $$ Ho2
    sl_step
    unfold tdRes inRes outRes
    isplitl [H2' H3' H1' Ho0 Ho1 Ho2]
    · isplitl [H2' H3' H1']
      · isplitl [H2']; · iexact H2'
        isplitl [H3']; · iexact H3'
        iexact H1'
      isplitl [Ho0]; · iexact Ho0
      isplitl [Ho1]; · iexact Ho1
      iexact Ho2
    isplitl [Hs0 Hs1 Hs2 Hs3 Hbufs]
    · isplitl [Hs0]; · iexists _; iexact Hs0
      isplitl [Hs1]; · iexists _; iexact Hs1
      isplitl [Hs2]; · iexists _; iexact Hs2
      isplitl [Hs3]; · iexists _; iexact Hs3
      iexact Hbufs
    isplitl [Hm4 Hm5 Hc0 Hc1 Hc2 Hsems]
    · isplitl [Hm4]; · iexact Hm4
      isplitl [Hm5]; · iexact Hm5
      isplitl [Hc0]; · iexact Hc0
      isplitl [Hc1]; · iexact Hc1
      isplitl [Hc2]; · iexact Hc2
      iexact Hsems
    iexists (insert (SemLoc.dma cc0_scoped2.sem, (default : HIx 1)) (insert (SemLoc.dma cc0_scratch5.sem, (default : HIx 1)) (insert (SemLoc.dma cc0_scratch4.sem, (default : HIx 1)) (insert (SemLoc.dma cc0_scratch5.sem, (default : HIx 1)) (insert (SemLoc.dma cc0_scratch4.sem, (default : HIx 1)) (insert (SemLoc.dma cc0_scoped1.sem, (default : HIx 1)) (insert (SemLoc.dma cc0_scoped0.sem, (default : HIx 1)) W'))))))); isplitr
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      · exact hW' p hp
    · iexact HO
  · ihave Hs2 := (Entails.of_eq (congrArg (s2At d L) (lin_only A1 A3 (L 0).val (L 1).val (fun h => h1 (hc1.mpr h))))) $$ Hs2
    sl_exec
    ihave Ho2 := (Entails.of_eq (pointsTo_congr (hout 2 _ _ A1 A2 A3 fun y => (tileOutN_two A1 A2 A3 (L 0).val (L 1).val y).symm))) $$ Ho2
    sl_step
    unfold tdRes inRes outRes
    isplitl [H2' H3' H1' Ho0 Ho1 Ho2]
    · isplitl [H2' H3' H1']
      · isplitl [H2']; · iexact H2'
        isplitl [H3']; · iexact H3'
        iexact H1'
      isplitl [Ho0]; · iexact Ho0
      isplitl [Ho1]; · iexact Ho1
      iexact Ho2
    isplitl [Hs0 Hs1 Hs2 Hs3 Hbufs]
    · isplitl [Hs0]; · iexists _; iexact Hs0
      isplitl [Hs1]; · iexists _; iexact Hs1
      isplitl [Hs2]; · iexists _; iexact Hs2
      isplitl [Hs3]; · iexists _; iexact Hs3
      iexact Hbufs
    isplitl [Hm4 Hm5 Hc0 Hc1 Hc2 Hsems]
    · isplitl [Hm4]; · iexact Hm4
      isplitl [Hm5]; · iexact Hm5
      isplitl [Hc0]; · iexact Hc0
      isplitl [Hc1]; · iexact Hc1
      isplitl [Hc2]; · iexact Hc2
      iexact Hsems
    iexists (insert (SemLoc.dma cc0_scoped2.sem, (default : HIx 1)) (insert (SemLoc.dma cc0_scratch5.sem, (default : HIx 1)) (insert (SemLoc.dma cc0_scratch4.sem, (default : HIx 1)) (insert (SemLoc.dma cc0_scoped1.sem, (default : HIx 1)) (insert (SemLoc.dma cc0_scoped0.sem, (default : HIx 1)) W'))))); isplitr
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      · exact hW' p hp
    · iexact HO

/-- The task on the vector subcore of grid point L of device d: from the three inputs at read shares and its three
    output slices, it leaves the slices holding the accumulated planes and gives everything else back. -/
theorem tile_body (hF : (K (F := F)).Facts) (q : PosShare TreeShare)
    (A1 : Buf (Elt F) (v1Loc d)) (A2 : Buf (Elt F) (v2Loc d)) (A3 : Buf (Elt F) (v3Loc d)) (B4 : Buf (Elt F) (v4Loc d))
    (hidx : ∀ j, (A1 j).toNat < 100000)
    (O : CellTallies nD τ sig (HIx 1)) (W : Waits sig (HIx 1)) (hO : ∀ g, O g none = 0) :
    iprop(levAts (K (F := F)).L (K (F := F)).lev ∗ emp ∗ goRes d L q A1 A2 A3 B4
        ∗ scopedBufs (thrV d L) ∗ scopedSems0 (thrV d L) ∗ owes (thrV d L) O W)
      ⊢ wp frame (wpE (defs₀ (F := F)) 𝒱₀ (thrV d L) none) Set.univ
          (cc0_k L v2W (Memref.isWhole_whole _) v3W (Memref.isWhole_whole _) v1W (Memref.isWhole_whole _) v4W (Memref.isWhole_whole _)
            s0W (Memref.isWhole_whole _) s1W (Memref.isWhole_whole _) s2W (Memref.isWhole_whole _) s3W (Memref.isWhole_whole _)
            cc0_scratch4 cc0_scratch5 cc0_scoped0 cc0_scoped1 cc0_scoped2)
          fun _ => iprop(tdRes d L q A1 A2 A3 ∗ scopedBufs (thrV d L) ∗ scopedSems0 (thrV d L)
            ∗ ∃ W', ⌜∀ p ∈ W', p ∈ W ∨ p.2 = none⌝ ∗ owes (thrV d L) O W') :=
  tile_body_of d L (trip1V d L) (trip4V d L) (trip3V d L) (trip5V d L) (trip6V d L)
    (gathFac L) (gathLin L) (gathLin' L) (cond1_iff L) (outClosed L) hF q A1 A2 A3 B4 hidx O W hO

end Cert.Proof.Kernel

end
-- ==== Proof.RefOps.lean ====
/-
  The reference program's host function as the list of its operations, in order, the two lookups and the
  index wrap they call written out at their call sites over the calls' own buffers.
-/
import proofs.«207209_g54674933678763_cont_9to1_m_278_38_alg».proof.ReferenceIdeal
import Idealize.ShloMosaic.Lib.StableHlo.Run

noncomputable section

namespace Cert.RefSide

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The 77 operations of the reference, in order: the linear part, the first lookup (24 operations), the dense
    products, the second lookup (24 operations), the concatenation, the three sums and the combination. -/
abbrev ops : List (HloOp τ sig (Elt F)) :=
  [ StableHlo.unary main_arg3 main_v0 ((transpose S13x1 [1, 0] · transposes_S1x13_S13x1_1_0) : (⟨S1x13, .f32⟩ : BufTy).Contents (Elt F) → (⟨S13x1, .f32⟩ : BufTy).Contents (Elt F)),
    StableHlo.binary main_arg0 main_v0 main_v1 ((fun l r => Host.dotGeneral dot_S16384x13_S13x1_S16384x1_1_0_0_1_n_n none l r) : (⟨S16384x13, .f32⟩ : BufTy).Contents (Elt F) → (⟨S13x1, .f32⟩ : BufTy).Contents (Elt F) → (⟨S16384x1, .f32⟩ : BufTy).Contents (Elt F)),
    StableHlo.unary main_arg2 main_v2 (broadcastInDim S1x1 ![1] bcast_S1_S1x1_1 : (⟨S1, .f32⟩ : BufTy).Contents (Elt F) → (⟨S1x1, .f32⟩ : BufTy).Contents (Elt F)),
    StableHlo.unary main_v2 main_v3 (broadcastInDim S16384x1 ![0, 1] bcast_S1x1_S16384x1_0_1 : (⟨S1x1, .f32⟩ : BufTy).Contents (Elt F) → (⟨S16384x1, .f32⟩ : BufTy).Contents (Elt F)),
    StableHlo.binary main_v3 main_v1 main_v4 (addf : (⟨S16384x1, .f32⟩ : BufTy).Contents (Elt F) → (⟨S16384x1, .f32⟩ : BufTy).Contents (Elt F) → (⟨S16384x1, .f32⟩ : BufTy).Contents (Elt F)),
    StableHlo.TRef.nullary main_call0.c (constantI S_ 32 0#32),
    StableHlo.TRef.unary main_call0.c main_call0.v0 (broadcastInDim S16384x26 ![] bcast_S_S16384x26),
    StableHlo.TRef.binary (.of main_arg1 : StableHlo.TRef sig ⟨S16384x26, .i32⟩) main_call0.v0 main_call0.v1 (cmpi .slt),
    StableHlo.TRef.nullary main_call0.c_0 (constantI S_ 32 100000#32),
    StableHlo.TRef.unary main_call0.c_0 main_call0.v2 (broadcastInDim S16384x26 ![] bcast_S_S16384x26),
    StableHlo.TRef.binary (.of main_arg1 : StableHlo.TRef sig ⟨S16384x26, .i32⟩) main_call0.v2 main_call0.v3 addi,
    StableHlo.TRef.ternary main_call0.v1 main_call0.v3 (.of main_arg1 : StableHlo.TRef sig ⟨S16384x26, .i32⟩) main_call0.call0.v0 select,
    StableHlo.TRef.unary main_call0.call0.v0 main_call0.v5 (transpose S26x16384 [1, 0] · transposes_S16384x26_S26x16384_1_0),
    StableHlo.TRef.unary main_call0.v5 main_call0.v6 (broadcastInDim S26x16384x1 ![0, 1] bcast_S26x16384_S26x16384x1_0_1),
    StableHlo.TRef.nullary main_call0.c_1 (constantI S1 32 99999#32),
    StableHlo.TRef.nullary main_call0.c_2 (constantI S_ 32 0#32),
    StableHlo.TRef.unary main_call0.c_2 main_call0.v7 (broadcastInDim S26x16384x1 ![] bcast_S_S26x16384x1),
    StableHlo.TRef.binary main_call0.v6 main_call0.v7 main_call0.v8 (cmpi .sge),
    StableHlo.TRef.unary main_call0.c_1 main_call0.v9 (broadcastInDim S1x1x1 ![2] bcast_S1_S1x1x1_2),
    StableHlo.TRef.unary main_call0.v9 main_call0.v10 (broadcastInDim S26x16384x1 ![0, 1, 2] bcast_S1x1x1_S26x16384x1_0_1_2),
    StableHlo.TRef.binary main_call0.v6 main_call0.v10 main_call0.v11 (cmpi .sle),
    StableHlo.TRef.binary main_call0.v8 main_call0.v11 main_call0.v12 andi,
    StableHlo.TRef.nullary main_call0.c_3 (constantI S_ 1 1#1),
    StableHlo.TRef.binary main_call0.v12 main_call0.c_3 main_call0.v13 (fun x v => Host.reduce IntOp.andi x v reducesTo_S26x16384x1_S26x16384_d2 h_S_),
    StableHlo.TRef.binary (.of main_arg4 : StableHlo.TRef sig ⟨S26x100000x1, .f32⟩) main_call0.v6 main_call0.v14 (fun x i => Host.gather gather_S26x100000x1_S26x16384x1_S26x16384x1_2_1_0_0_1_2_111 x i),
    StableHlo.TRef.unary main_call0.v13 main_call0.v15 (broadcastInDim S26x16384x1 ![0, 1] bcast_S26x16384_S26x16384x1_0_1),
    StableHlo.TRef.nullary main_call0.cst (constant S_ .f32 0x7FC00000#32),
    StableHlo.TRef.unary main_call0.cst main_call0.v16 (broadcastInDim S26x16384x1 ![] bcast_S_S26x16384x1),
    StableHlo.TRef.ternary main_call0.v15 main_call0.v14 main_call0.v16 main_call0.v17 select,
    StableHlo.nullary main_cst (constant S_ .f32 0x00000000#32),
    StableHlo.binary main_v5 main_cst main_v6 ((fun x v => Host.reduceAdd x v reducesTo_S26x16384x1_S16384x1_d0 h_S_) : (⟨S26x16384x1, .f32⟩ : BufTy).Contents (Elt F) → (⟨S_, .f32⟩ : BufTy).Contents (Elt F) → (⟨S16384x1, .f32⟩ : BufTy).Contents (Elt F)),
    StableHlo.binary main_v4 main_v6 main_v7 (addf : (⟨S16384x1, .f32⟩ : BufTy).Contents (Elt F) → (⟨S16384x1, .f32⟩ : BufTy).Contents (Elt F) → (⟨S16384x1, .f32⟩ : BufTy).Contents (Elt F)),
    StableHlo.unary main_arg0 main_v8 (broadcastInDim S16384x13x1 ![0, 1] bcast_S16384x13_S16384x13x1_0_1 : (⟨S16384x13, .f32⟩ : BufTy).Contents (Elt F) → (⟨S16384x13x1, .f32⟩ : BufTy).Contents (Elt F)),
    StableHlo.unary main_arg5 main_v9 (broadcastInDim S1x13x16 ![1, 2] bcast_S13x16_S1x13x16_1_2 : (⟨S13x16, .f32⟩ : BufTy).Contents (Elt F) → (⟨S1x13x16, .f32⟩ : BufTy).Contents (Elt F)),
    StableHlo.unary main_v8 main_v10 (broadcastInDim S16384x13x16 ![0, 1, 2] bcast_S16384x13x1_S16384x13x16_0_1_2 : (⟨S16384x13x1, .f32⟩ : BufTy).Contents (Elt F) → (⟨S16384x13x16, .f32⟩ : BufTy).Contents (Elt F)),
    StableHlo.unary main_v9 main_v11 (broadcastInDim S16384x13x16 ![0, 1, 2] bcast_S1x13x16_S16384x13x16_0_1_2 : (⟨S1x13x16, .f32⟩ : BufTy).Contents (Elt F) → (⟨S16384x13x16, .f32⟩ : BufTy).Contents (Elt F)),
    StableHlo.binary main_v10 main_v11 main_v12 (mulf : (⟨S16384x13x16, .f32⟩ : BufTy).Contents (Elt F) → (⟨S16384x13x16, .f32⟩ : BufTy).Contents (Elt F) → (⟨S16384x13x16, .f32⟩ : BufTy).Contents (Elt F)),
    StableHlo.TRef.nullary main_call1.c (constantI S_ 32 0#32),
    StableHlo.TRef.unary main_call1.c main_call1.v0 (broadcastInDim S16384x26 ![] bcast_S_S16384x26),
    StableHlo.TRef.binary (.of main_arg1 : StableHlo.TRef sig ⟨S16384x26, .i32⟩) main_call1.v0 main_call1.v1 (cmpi .slt),
    StableHlo.TRef.nullary main_call1.c_0 (constantI S_ 32 100000#32),
    StableHlo.TRef.unary main_call1.c_0 main_call1.v2 (broadcastInDim S16384x26 ![] bcast_S_S16384x26),
    StableHlo.TRef.binary (.of main_arg1 : StableHlo.TRef sig ⟨S16384x26, .i32⟩) main_call1.v2 main_call1.v3 addi,
    StableHlo.TRef.ternary main_call1.v1 main_call1.v3 (.of main_arg1 : StableHlo.TRef sig ⟨S16384x26, .i32⟩) main_call1.call0.v0 select,
    StableHlo.TRef.unary main_call1.call0.v0 main_call1.v5 (transpose S26x16384 [1, 0] · transposes_S16384x26_S26x16384_1_0),
    StableHlo.TRef.unary main_call1.v5 main_call1.v6 (broadcastInDim S26x16384x1 ![0, 1] bcast_S26x16384_S26x16384x1_0_1),
    StableHlo.TRef.nullary main_call1.c_1 (constantI S1 32 99999#32),
    StableHlo.TRef.nullary main_call1.c_2 (constantI S_ 32 0#32),
    StableHlo.TRef.unary main_call1.c_2 main_call1.v7 (broadcastInDim S26x16384x1 ![] bcast_S_S26x16384x1),
    StableHlo.TRef.binary main_call1.v6 main_call1.v7 main_call1.v8 (cmpi .sge),
    StableHlo.TRef.unary main_call1.c_1 main_call1.v9 (broadcastInDim S1x1x1 ![2] bcast_S1_S1x1x1_2),
    StableHlo.TRef.unary main_call1.v9 main_call1.v10 (broadcastInDim S26x16384x1 ![0, 1, 2] bcast_S1x1x1_S26x16384x1_0_1_2),
    StableHlo.TRef.binary main_call1.v6 main_call1.v10 main_call1.v11 (cmpi .sle),
    StableHlo.TRef.binary main_call1.v8 main_call1.v11 main_call1.v12 andi,
    StableHlo.TRef.nullary main_call1.c_3 (constantI S_ 1 1#1),
    StableHlo.TRef.binary main_call1.v12 main_call1.c_3 main_call1.v13 (fun x v => Host.reduce IntOp.andi x v reducesTo_S26x16384x1_S26x16384_d2 h_S_),
    StableHlo.TRef.binary (.of main_arg6 : StableHlo.TRef sig ⟨S26x100000x16, .f32⟩) main_call1.v6 main_call1.v14 (fun x i => Host.gather gather_S26x100000x16_S26x16384x1_S26x16384x16_2_1_0_0_1_2_1116 x i),
    StableHlo.TRef.unary main_call1.v13 main_call1.v15 (broadcastInDim S26x16384x16 ![0, 1] bcast_S26x16384_S26x16384x16_0_1),
    StableHlo.TRef.nullary main_call1.cst (constant S_ .f32 0x7FC00000#32),
    StableHlo.TRef.unary main_call1.cst main_call1.v16 (broadcastInDim S26x16384x16 ![] bcast_S_S26x16384x16),
    StableHlo.TRef.ternary main_call1.v15 main_call1.v14 main_call1.v16 main_call1.v17 select,
    StableHlo.unary main_v13 main_v14 ((transpose S16384x26x16 [1, 0, 2] · transposes_S26x16384x16_S16384x26x16_1_0_2) : (⟨S26x16384x16, .f32⟩ : BufTy).Contents (Elt F) → (⟨S16384x26x16, .f32⟩ : BufTy).Contents (Elt F)),
    StableHlo.binary main_v12 main_v14 main_v15 ((fun a b => concatenate S16384x39x16 1 [⟨S16384x13x16, a⟩, ⟨S16384x26x16, b⟩] concatenates_S16384x13x16_S16384x26x16_S16384x39x16_d1) : (⟨S16384x13x16, .f32⟩ : BufTy).Contents (Elt F) → (⟨S16384x26x16, .f32⟩ : BufTy).Contents (Elt F) → (⟨S16384x39x16, .f32⟩ : BufTy).Contents (Elt F)),
    StableHlo.nullary main_cst_0 (constant S_ .f32 0x00000000#32),
    StableHlo.binary main_v15 main_cst_0 main_v16 ((fun x v => Host.reduceAdd x v reducesTo_S16384x39x16_S16384x16_d1 h_S_) : (⟨S16384x39x16, .f32⟩ : BufTy).Contents (Elt F) → (⟨S_, .f32⟩ : BufTy).Contents (Elt F) → (⟨S16384x16, .f32⟩ : BufTy).Contents (Elt F)),
    StableHlo.binary main_v16 main_v16 main_v17 (mulf : (⟨S16384x16, .f32⟩ : BufTy).Contents (Elt F) → (⟨S16384x16, .f32⟩ : BufTy).Contents (Elt F) → (⟨S16384x16, .f32⟩ : BufTy).Contents (Elt F)),
    StableHlo.binary main_v15 main_v15 main_v18 (mulf : (⟨S16384x39x16, .f32⟩ : BufTy).Contents (Elt F) → (⟨S16384x39x16, .f32⟩ : BufTy).Contents (Elt F) → (⟨S16384x39x16, .f32⟩ : BufTy).Contents (Elt F)),
    StableHlo.nullary main_cst_1 (constant S_ .f32 0x00000000#32),
    StableHlo.binary main_v18 main_cst_1 main_v19 ((fun x v => Host.reduceAdd x v reducesTo_S16384x39x16_S16384x16_d1 h_S_) : (⟨S16384x39x16, .f32⟩ : BufTy).Contents (Elt F) → (⟨S_, .f32⟩ : BufTy).Contents (Elt F) → (⟨S16384x16, .f32⟩ : BufTy).Contents (Elt F)),
    StableHlo.binary main_v17 main_v19 main_v20 (subf : (⟨S16384x16, .f32⟩ : BufTy).Contents (Elt F) → (⟨S16384x16, .f32⟩ : BufTy).Contents (Elt F) → (⟨S16384x16, .f32⟩ : BufTy).Contents (Elt F)),
    StableHlo.nullary main_cst_2 (constant S_ .f32 0x00000000#32),
    StableHlo.binary main_v20 main_cst_2 main_v21 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.unary main_v21 main_v22 (broadcastInDim S16384x1 ![0] bcast_S16384_S16384x1_0 : (⟨S16384, .f32⟩ : BufTy).Contents (Elt F) → (⟨S16384x1, .f32⟩ : BufTy).Contents (Elt F)),
    StableHlo.nullary main_cst_3 (constant S_ .f32 0x3F000000#32),
    StableHlo.unary main_cst_3 main_v23 (broadcastInDim S16384x1 ![] bcast_S_S16384x1 : (⟨S_, .f32⟩ : BufTy).Contents (Elt F) → (⟨S16384x1, .f32⟩ : BufTy).Contents (Elt F)),
    StableHlo.binary main_v23 main_v22 main_v24 (mulf : (⟨S16384x1, .f32⟩ : BufTy).Contents (Elt F) → (⟨S16384x1, .f32⟩ : BufTy).Contents (Elt F) → (⟨S16384x1, .f32⟩ : BufTy).Contents (Elt F)),
    StableHlo.binary main_v7 main_v24 main_v25 (addf : (⟨S16384x1, .f32⟩ : BufTy).Contents (Elt F) → (⟨S16384x1, .f32⟩ : BufTy).Contents (Elt F) → (⟨S16384x1, .f32⟩ : BufTy).Contents (Elt F)) ]

set_option maxRecDepth 4096 in
set_option maxHeartbeats 4000000 in
/-- The program is that straight line: the called functions unfolded at their calls, sequencing reassociated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., binary_bufs_sub .., binary_bufs_sub .., binary_bufs_sub .., nullary_bufs_sub .., binary_bufs_sub .., binary_bufs_sub .., nullary_bufs_sub .., binary_bufs_sub .., unary_bufs_sub .., nullary_bufs_sub .., unary_bufs_sub .., binary_bufs_sub .., binary_bufs_sub ..⟩

/-- Every weakly fair execution of the reference ends, each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
/-
  The reference program's result as one pure term of its seven arguments — the operations' composition, its
  shared parts named.
-/
import proofs.«207209_g54674933678763_cont_9to1_m_278_38_alg».proof.ReferenceIdeal

noncomputable section

namespace Cert.RefSide

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## The composed term, its shared parts named -/

/-- The index array both lookups read: a negative index wrapped by the vocabulary size, the fields first, a unit
    axis appended. -/
def idx (xc : IVec S16384x26 32) : IVec S26x16384x1 32 :=
  broadcastInDim S26x16384x1 ![0, 1] bcast_S26x16384_S26x16384x1_0_1
    (transpose S26x16384 [1, 0]
      (select (cmpi .slt xc (broadcastInDim S16384x26 ![] bcast_S_S16384x26 (constantI S_ 32 0#32)))
        (addi xc (broadcastInDim S16384x26 ![] bcast_S_S16384x26 (constantI S_ 32 100000#32))) xc)
      transposes_S16384x26_S26x16384_1_0)

/-- Which lookups are in range: 0 ≤ index ≤ 99999, per field and example. -/
def mask (xc : IVec S16384x26 32) : IVec S26x16384 1 :=
  Host.reduce IntOp.andi
    (andi (cmpi .sge (idx xc) (broadcastInDim S26x16384x1 ![] bcast_S_S26x16384x1 (constantI S_ 32 0#32)))
      (cmpi .sle (idx xc) (broadcastInDim S26x16384x1 ![0, 1, 2] bcast_S1x1x1_S26x16384x1_0_1_2
        (broadcastInDim S1x1x1 ![2] bcast_S1_S1x1x1_2 (constantI S1 32 99999#32)))))
    (constantI S_ 1 1#1) reducesTo_S26x16384x1_S26x16384_d2 h_S_

/-- The linear embeddings looked up, an out-of-range lookup replaced by the not-a-number word. -/
def takeL (lin : FVec F S26x100000x1 .f32) (xc : IVec S16384x26 32) : FVec F S26x16384x1 .f32 :=
  select (broadcastInDim S26x16384x1 ![0, 1] bcast_S26x16384_S26x16384x1_0_1 (mask xc))
    (Host.gather gather_S26x100000x1_S26x16384x1_S26x16384x1_2_1_0_0_1_2_111 lin (idx xc))
    (broadcastInDim S26x16384x1 ![] bcast_S_S26x16384x1 (constant S_ .f32 0x7FC00000#32))

/-- The factor embeddings looked up, likewise. -/
def takeF (vc : FVec F S26x100000x16 .f32) (xc : IVec S16384x26 32) : FVec F S26x16384x16 .f32 :=
  select (broadcastInDim S26x16384x16 ![0, 1] bcast_S26x16384_S26x16384x16_0_1 (mask xc))
    (Host.gather gather_S26x100000x16_S26x16384x1_S26x16384x16_2_1_0_0_1_2_1116 vc (idx xc))
    (broadcastInDim S26x16384x16 ![] bcast_S_S26x16384x16 (constant S_ .f32 0x7FC00000#32))

/-- Bias plus the dense linear term. -/
def lin0 (xn : FVec F S16384x13 .f32) (bias : FVec F S1 .f32) (W : FVec F S1x13 .f32) : FVec F S16384x1 .f32 :=
  addf (broadcastInDim S16384x1 ![0, 1] bcast_S1x1_S16384x1_0_1 (broadcastInDim S1x1 ![1] bcast_S1_S1x1_1 bias))
    (Host.dotGeneral dot_S16384x13_S13x1_S16384x1_1_0_0_1_n_n none xn (transpose S13x1 [1, 0] W transposes_S1x13_S13x1_1_0))

/-- The 39 vectors of every example: the 13 dense products, then the 26 factor embeddings. -/
def vecs (xn : FVec F S16384x13 .f32) (xc : IVec S16384x26 32) (vn : FVec F S13x16 .f32) (vc : FVec F S26x100000x16 .f32) :
    FVec F S16384x39x16 .f32 :=
  concatenate S16384x39x16 1
    [⟨S16384x13x16, mulf (broadcastInDim S16384x13x16 ![0, 1, 2] bcast_S16384x13x1_S16384x13x16_0_1_2
        (broadcastInDim S16384x13x1 ![0, 1] bcast_S16384x13_S16384x13x1_0_1 xn))
      (broadcastInDim S16384x13x16 ![0, 1, 2] bcast_S1x13x16_S16384x13x16_0_1_2
        (broadcastInDim S1x13x16 ![1, 2] bcast_S13x16_S1x13x16_1_2 vn))⟩,
     ⟨S16384x26x16, transpose S16384x26x16 [1, 0, 2] (takeF vc xc) transposes_S26x16384x16_S16384x26x16_1_0_2⟩]
    concatenates_S16384x13x16_S16384x26x16_S16384x39x16_d1

/-- Per example and component: the square of the vectors' sum minus the sum of their squares. -/
def cross (v : FVec F S16384x39x16 .f32) : FVec F S16384x16 .f32 :=
  subf (mulf (Host.reduceAdd v (constant S_ .f32 0x00000000#32) reducesTo_S16384x39x16_S16384x16_d1 h_S_)
        (Host.reduceAdd v (constant S_ .f32 0x00000000#32) reducesTo_S16384x39x16_S16384x16_d1 h_S_))
    (Host.reduceAdd (mulf v v) (constant S_ .f32 0x00000000#32) reducesTo_S16384x39x16_S16384x16_d1 h_S_)

/-- The reference's result as one term of its seven arguments. -/
def out (xn : FVec F S16384x13 .f32) (xc : IVec S16384x26 32) (bias : FVec F S1 .f32) (W : FVec F S1x13 .f32)
    (lin : FVec F S26x100000x1 .f32) (vn : FVec F S13x16 .f32) (vc : FVec F S26x100000x16 .f32) : FVec F S16384x1 .f32 :=
  addf (addf (lin0 xn bias W)
      (Host.reduceAdd (takeL lin xc) (constant S_ .f32 0x00000000#32) reducesTo_S26x16384x1_S16384x1_d0 h_S_))
    (mulf (broadcastInDim S16384x1 ![] bcast_S_S16384x1 (constant S_ .f32 0x3F000000#32))
      (broadcastInDim S16384x1 ![0] bcast_S16384_S16384x1_0
        (Host.reduceAdd (cross (vecs xn xc vn vc)) (constant S_ .f32 0x00000000#32) reducesTo_S16384x16_S16384_d1 h_S_)))

end Cert.RefSide

end
-- ==== Proof.RefOut.lean ====
/-
  The fold of the reference's 77 operations, read at the result buffer, is the term `out` of the arguments' contents.
-/
import proofs.«207209_g54674933678763_cont_9to1_m_278_38_alg».proof.Proof.RefOps
import proofs.«207209_g54674933678763_cont_9to1_m_278_38_alg».proof.Proof.RefTerm

noncomputable section

namespace Cert.RefSide

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.reduce Host.reduceAdd Host.gather concatenate in
set_option maxRecDepth 16384 in
set_option maxHeartbeats 4000000 in
/-- Each operation's result read at its own buffer is its function of its operands' contents, and at any other
    buffer what was there: unfolded along the list, the result buffer holds `out` of the arguments. -/
theorem out_eq (V : Valuation τ sig (Elt F)) :
    after ops V (main_v25 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

end Cert.RefSide

end
-- ==== Proof.RefKeep.lean ====
/-
  The reference's operations write the 77 intermediate and result buffers and nothing else: an argument's buffer
  holds after the run what it held before.
-/
import proofs.«207209_g54674933678763_cont_9to1_m_278_38_alg».proof.Proof.RefOps

noncomputable section

namespace Cert.RefSide

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The buffers the operations write, in order. -/
abbrev written : List (Ref sig .tc) :=
  [main_v0, main_v1, main_v2, main_v3, main_v4, main_call0_c, main_call0_v0, main_call0_v1, main_call0_c_0, main_call0_v2, main_call0_v3, main_call0_v4, main_call0_v5, main_call0_v6, main_call0_c_1, main_call0_c_2, main_call0_v7, main_call0_v8, main_call0_v9, main_call0_v10, main_call0_v11, main_call0_v12, main_call0_c_3, main_call0_v13, main_call0_v14, main_call0_v15, main_call0_cst, main_call0_v16, main_v5, main_cst, main_v6, main_v7, main_v8, main_v9, main_v10, main_v11, main_v12, main_call1_c, main_call1_v0, main_call1_v1, main_call1_c_0, main_call1_v2, main_call1_v3, main_call1_v4, main_call1_v5, main_call1_v6, main_call1_c_1, main_call1_c_2, main_call1_v7, main_call1_v8, main_call1_v9, main_call1_v10, main_call1_v11, main_call1_v12, main_call1_c_3, main_call1_v13, main_call1_v14, main_call1_v15, main_call1_cst, main_call1_v16, main_v13, main_v14, main_v15, main_cst_0, main_v16, main_v17, main_v18, main_cst_1, main_v19, main_v20, main_cst_2, main_v21, main_v22, main_cst_3, main_v23, main_v24, main_v25]

theorem writes_sub {op : HloOp τ sig (Elt F)} (y : Ref sig .tc) (h : op.writes = {Proc.devRef .tc y}) (hy : y ∈ written) :
    op.writes ⊆ (written.map (Proc.devRef (τ := τ) .tc)).toFinset := by
  rw [h, Finset.singleton_subset_iff, List.mem_toFinset]
  exact List.mem_map.mpr ⟨y, hy, rfl⟩

theorem ops_writes : (ops : List (HloOp τ sig (Elt F))).Forall fun op => op.writes ⊆ (written.map (Proc.devRef (τ := τ) .tc)).toFinset :=
  ⟨writes_sub main_v0 rfl (by decide),
   writes_sub main_v1 rfl (by decide),
   writes_sub main_v2 rfl (by decide),
   writes_sub main_v3 rfl (by decide),
   writes_sub main_v4 rfl (by decide),
   writes_sub main_call0_c rfl (by decide),
   writes_sub main_call0_v0 rfl (by decide),
   writes_sub main_call0_v1 rfl (by decide),
   writes_sub main_call0_c_0 rfl (by decide),
   writes_sub main_call0_v2 rfl (by decide),
   writes_sub main_call0_v3 rfl (by decide),
   writes_sub main_call0_v4 rfl (by decide),
   writes_sub main_call0_v5 rfl (by decide),
   writes_sub main_call0_v6 rfl (by decide),
   writes_sub main_call0_c_1 rfl (by decide),
   writes_sub main_call0_c_2 rfl (by decide),
   writes_sub main_call0_v7 rfl (by decide),
   writes_sub main_call0_v8 rfl (by decide),
   writes_sub main_call0_v9 rfl (by decide),
   writes_sub main_call0_v10 rfl (by decide),
   writes_sub main_call0_v11 rfl (by decide),
   writes_sub main_call0_v12 rfl (by decide),
   writes_sub main_call0_c_3 rfl (by decide),
   writes_sub main_call0_v13 rfl (by decide),
   writes_sub main_call0_v14 rfl (by decide),
   writes_sub main_call0_v15 rfl (by decide),
   writes_sub main_call0_cst rfl (by decide),
   writes_sub main_call0_v16 rfl (by decide),
   writes_sub main_v5 rfl (by decide),
   writes_sub main_cst rfl (by decide),
   writes_sub main_v6 rfl (by decide),
   writes_sub main_v7 rfl (by decide),
   writes_sub main_v8 rfl (by decide),
   writes_sub main_v9 rfl (by decide),
   writes_sub main_v10 rfl (by decide),
   writes_sub main_v11 rfl (by decide),
   writes_sub main_v12 rfl (by decide),
   writes_sub main_call1_c rfl (by decide),
   writes_sub main_call1_v0 rfl (by decide),
   writes_sub main_call1_v1 rfl (by decide),
   writes_sub main_call1_c_0 rfl (by decide),
   writes_sub main_call1_v2 rfl (by decide),
   writes_sub main_call1_v3 rfl (by decide),
   writes_sub main_call1_v4 rfl (by decide),
   writes_sub main_call1_v5 rfl (by decide),
   writes_sub main_call1_v6 rfl (by decide),
   writes_sub main_call1_c_1 rfl (by decide),
   writes_sub main_call1_c_2 rfl (by decide),
   writes_sub main_call1_v7 rfl (by decide),
   writes_sub main_call1_v8 rfl (by decide),
   writes_sub main_call1_v9 rfl (by decide),
   writes_sub main_call1_v10 rfl (by decide),
   writes_sub main_call1_v11 rfl (by decide),
   writes_sub main_call1_v12 rfl (by decide),
   writes_sub main_call1_c_3 rfl (by decide),
   writes_sub main_call1_v13 rfl (by decide),
   writes_sub main_call1_v14 rfl (by decide),
   writes_sub main_call1_v15 rfl (by decide),
   writes_sub main_call1_cst rfl (by decide),
   writes_sub main_call1_v16 rfl (by decide),
   writes_sub main_v13 rfl (by decide),
   writes_sub main_v14 rfl (by decide),
   writes_sub main_v15 rfl (by decide),
   writes_sub main_cst_0 rfl (by decide),
   writes_sub main_v16 rfl (by decide),
   writes_sub main_v17 rfl (by decide),
   writes_sub main_v18 rfl (by decide),
   writes_sub main_cst_1 rfl (by decide),
   writes_sub main_v19 rfl (by decide),
   writes_sub main_v20 rfl (by decide),
   writes_sub main_cst_2 rfl (by decide),
   writes_sub main_v21 rfl (by decide),
   writes_sub main_v22 rfl (by decide),
   writes_sub main_cst_3 rfl (by decide),
   writes_sub main_v23 rfl (by decide),
   writes_sub main_v24 rfl (by decide),
   writes_sub main_v25 rfl (by decide)⟩

/-- A buffer that is not written keeps its contents through the run. -/
theorem after_keep (V : Valuation τ sig (Elt F)) (r : Ref sig .tc) (hr : r ∉ written) :
    after ops V (Proc.devRef .tc r) = V (Proc.devRef .tc r) :=
  after_of_writes_sub ops V ops_writes hr

end Cert.RefSide

end
-- ==== Proof.RefRun.lean ====
/-
  The reference program's run, read back: every weakly fair execution ends with the result buffer at one pure
  term of the seven arguments (`out`, the operations' composition) and the arguments unchanged.
-/
import proofs.«207209_g54674933678763_cont_9to1_m_278_38_alg».proof.Proof.RefOut
import proofs.«207209_g54674933678763_cont_9to1_m_278_38_alg».proof.Proof.RefKeep

noncomputable section

namespace Cert.RefSide

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- From any memory with zero counters, for any float values: every weakly fair execution of the reference ends,
    the result at `out` of the arguments' launch contents, the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v25).trans (out_eq _),
      (h c main_arg0).trans (after_keep _ main_arg0 (by decide)),
      (h c main_arg1).trans (after_keep _ main_arg1 (by decide)),
      (h c main_arg2).trans (after_keep _ main_arg2 (by decide)),
      (h c main_arg3).trans (after_keep _ main_arg3 (by decide)),
      (h c main_arg4).trans (after_keep _ main_arg4 (by decide)),
      (h c main_arg5).trans (after_keep _ main_arg5 (by decide)),
      (h c main_arg6).trans (after_keep _ main_arg6 (by decide))⟩)
    (run_main m ρ)

end Cert.RefSide

end
-- ==== Proof.RefRead.lean ====
/-
  The reference's term read at an index. Under the input domain (every categorical word below the vocabulary size)
  the index wrap never fires and every lookup is in range, so the not-a-number branch is never taken; each layout
  operation reads one operand element, each sum is a finite sum over one axis, and the term at example `b` is the
  textbook formula `Cert.Spec.refOut` there.
-/
import proofs.«207209_g54674933678763_cont_9to1_m_278_38_alg».proof.Proof.RefTerm
import proofs.«207209_g54674933678763_cont_9to1_m_278_38_alg».proof.Proof.Spec
import Idealize.ShloMosaic.Lib.ValueLayout
import Idealize.ShloMosaic.Lib.IdealHost
import Idealize.ShloMosaic.Lib.ReduceAll

noncomputable section

namespace Cert.RefSide

open Cert.ReferenceIdeal Cert.ReferenceIdeal.Facts₀ Cert.ReferenceIdeal.Facts Idealize.ShloMosaic Idealize.ShloMosaic.ValueIdx
open scoped BigOperators

variable [Cert.ReferenceIdeal.Facts]

/-! ## Words below the vocabulary size -/

theorem toInt_of_lt {w : BitVec 32} (h : w.toNat < 100000) : w.toInt = (w.toNat : ℤ) := by
  rw [BitVec.toInt_eq_toNat_cond]
  split <;> omega

theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1) (1#1) = 1#1 := by decide
    rw [List.foldl_cons, h a List.mem_cons_self, e]
    exact foldl_andi_one f l fun n hn => h n (List.mem_cons_of_mem _ hn)

section Index
variable (xc : IVec S16384x26 32) (hx : ∀ j, (xc j).toNat < 100000)
include hx

/-- The wrap of negative indices leaves a word below the vocabulary size as it is. -/
theorem wrap_apply (i : S16384x26.Idx) :
    select (cmpi .slt xc (broadcastInDim S16384x26 ![] bcast_S_S16384x26 (constantI S_ 32 0#32)))
      (addi xc (broadcastInDim S16384x26 ![] bcast_S_S16384x26 (constantI S_ 32 100000#32))) xc i = xc i := by
  rw [select_apply]
  have hc : cmpi .slt xc (broadcastInDim S16384x26 ![] bcast_S_S16384x26 (constantI S_ 32 0#32)) i = 0#1 := by
    apply eq_zero_of_ne_one
    intro h
    have h2 : (xc i).toInt < (broadcastInDim S16384x26 ![] bcast_S_S16384x26 (constantI S_ 32 0#32) i).toInt := IntOp.cmpi_slt.mp h
    rw [broadcastInDim_scalar_apply, constantI_apply, toInt_of_lt (hx i)] at h2
    have h0 : (0#32 : BitVec 32).toInt = 0 := by decide
    rw [h0] at h2
    omega
  rw [hc, select_zero]

/-- The index array at field `f`, example `b`: the example's word for that field. -/
theorem idx_apply (f : Fin 26) (b : Fin 16384) (z : Fin 1) : idx xc (ix3 f b z) = xc (ix2 b f) := by
  unfold idx
  rw [broadcastInDim_apply _ _ _ (ix3 f b z) (ix2 f b) (fun a => match a with | ⟨0, _⟩ => rfl | ⟨1, _⟩ => rfl),
    transpose_ix2_apply]
  exact wrap_apply xc hx _

/-- Every lookup is in range. -/
theorem mask_apply (f : Fin 26) (b : Fin 16384) : mask xc (ix2 f b) = 1#1 := by
  unfold mask
  rw [Host.reduce_eq_foldl]
  refine foldl_andi_one _ _ fun i _ => ?_
  obtain ⟨f', b', z', rfl⟩ : ∃ f' b' z', i = ix3 f' b' z' := ⟨i 0, i 1, i 2, eq_ix3 i⟩
  show IntOp.andi (IntOp.cmpi .sge (idx xc (ix3 f' b' z')) _) (IntOp.cmpi .sle (idx xc (ix3 f' b' z')) _) = 1#1
  rw [idx_apply xc hx]
  have h1 : IntOp.cmpi .sge (xc (ix2 b' f')) (broadcastInDim S26x16384x1 ![] bcast_S_S26x16384x1 (constantI S_ 32 0#32) (ix3 f' b' z')) = 1#1 := by
    rw [IntOp.cmpi_sge, broadcastInDim_scalar_apply, constantI_apply, toInt_of_lt (hx _)]
    have h0 : (0#32 : BitVec 32).toInt = 0 := by decide
    rw [h0]; omega
  have h2 : IntOp.cmpi .sle (xc (ix2 b' f')) (broadcastInDim S26x16384x1 ![0, 1, 2] bcast_S1x1x1_S26x16384x1_0_1_2
        (broadcastInDim S1x1x1 ![2] bcast_S1_S1x1x1_2 (constantI S1 32 99999#32)) (ix3 f' b' z')) = 1#1 := by
    rw [IntOp.cmpi_sle, broadcastInDim_apply _ _ _ (ix3 f' b' z') (ix3 (0 : Fin 1) (0 : Fin 1) (0 : Fin 1))
        (fun a => match a with | ⟨0, _⟩ => rfl | ⟨1, _⟩ => rfl | ⟨2, _⟩ => rfl),
      broadcastInDim_apply _ _ _ (ix3 (0 : Fin 1) (0 : Fin 1) (0 : Fin 1)) (ix1 (0 : Fin 1)) (fun a => match a with | ⟨0, _⟩ => rfl),
      constantI_apply, toInt_of_lt (hx _)]
    have h0 : (99999#32 : BitVec 32).toInt = 99999 := by decide
    rw [h0]; have := hx (ix2 b' f'); omega
  rw [h1, h2]; decide

end Index

/-! ## The batched lookups read at an index

Both lookups read, for field `f` and example `b`, row `min idx 99999` of table `f` (the start index read signed and
clamped into the table), at the offset coordinate `z`. -/

theorem gatherL_apply {α : Type} (x : S26x100000x1.Idx → α) (ix : IVec S26x16384x1 32) (f : Fin 26) (b : Fin 16384) (z : Fin 1) :
    Host.gather gather_S26x100000x1_S26x16384x1_S26x16384x1_2_1_0_0_1_2_111 x ix (ix3 f b z)
      = x (ix3 f (⟨min (ix (ix3 f b (0 : Fin 1))).toInt.toNat 99999, by omega⟩ : Fin 100000) z) := by
  unfold Host.gather
  congr 1
  funext a
  refine Fin.ext ?_
  show GatherDims.start gather_S26x100000x1_S26x16384x1_S26x16384x1_2_1_0_0_1_2_111 (ix3 f b z) ix a
      + GatherDims.batchCoord gather_S26x100000x1_S26x16384x1_S26x16384x1_2_1_0_0_1_2_111 (ix3 f b z) a
      + GatherDims.offCoord gather_S26x100000x1_S26x16384x1_S26x16384x1_2_1_0_0_1_2_111 (ix3 f b z) a = _
  match a with
  | ⟨0, _⟩ =>
    rw [GatherDims.start_batching _ _ _ _ (show (0 : Fin 3) ∈ [(0 : Fin 3)] from List.mem_singleton.mpr rfl),
      GatherDims.offCoord_eq_zero _ _ _ (fun h => ((GatherDims.mem_sKept _ _).mp h).2 (show (0 : Fin 3) ∈ [(0 : Fin 3)] from List.mem_singleton.mpr rfl))]
    simp only [Nat.zero_add, Nat.add_zero]
    rfl
  | ⟨1, h1⟩ =>
    have hm : (⟨1, h1⟩ : Fin S26x100000x1.rank) ∈ GatherDims.startIndexMap gather_S26x100000x1_S26x16384x1_S26x16384x1_2_1_0_0_1_2_111 := List.mem_singleton.mpr rfl
    rw [GatherDims.batchCoord_eq_zero _ _ _ (show (1 : Fin 3) ∉ [(0 : Fin 3)] by decide),
      GatherDims.offCoord_eq_zero _ _ _ (fun h => ((GatherDims.mem_sKept _ _).mp h).1 (show (1 : Fin 3) ∈ [(1 : Fin 3)] from List.mem_singleton.mpr rfl))]
    simp only [Nat.add_zero]
    unfold GatherDims.start
    rw [dif_pos hm]
    have hsi : GatherDims.siIdx gather_S26x100000x1_S26x16384x1_S26x16384x1_2_1_0_0_1_2_111 (ix3 f b z)
        ⟨List.idxOf (⟨1, h1⟩ : Fin S26x100000x1.rank) (GatherDims.startIndexMap gather_S26x100000x1_S26x16384x1_S26x16384x1_2_1_0_0_1_2_111), List.idxOf_lt_length_iff.2 hm⟩
          = ix3 f b (0 : Fin 1) := by
      funext c; refine Fin.ext ?_
      match c with
      | ⟨0, _⟩ => rfl
      | ⟨1, _⟩ => rfl
      | ⟨2, _⟩ => rfl
    rw [hsi]
    rfl
  | ⟨2, h2⟩ =>
    have hm : (⟨2, h2⟩ : Fin S26x100000x1.rank) ∉ GatherDims.startIndexMap gather_S26x100000x1_S26x16384x1_S26x16384x1_2_1_0_0_1_2_111 := by
      intro h
      have e : (2 : ℕ) = ((1 : Fin 3) : ℕ) := congrArg Fin.val (List.mem_singleton.mp h)
      exact absurd e (by decide)
    rw [GatherDims.batchCoord_eq_zero _ _ _ (show (2 : Fin 3) ∉ [(0 : Fin 3)] by decide)]
    unfold GatherDims.start
    rw [dif_neg hm]
    simp only [Nat.zero_add, Nat.add_zero]
    rfl

theorem gatherF_apply {α : Type} (x : S26x100000x16.Idx → α) (ix : IVec S26x16384x1 32) (f : Fin 26) (b : Fin 16384) (z : Fin 16) :
    Host.gather gather_S26x100000x16_S26x16384x1_S26x16384x16_2_1_0_0_1_2_1116 x ix (ix3 f b z)
      = x (ix3 f (⟨min (ix (ix3 f b (0 : Fin 1))).toInt.toNat 99999, by omega⟩ : Fin 100000) z) := by
  unfold Host.gather
  congr 1
  funext a
  refine Fin.ext ?_
  show GatherDims.start gather_S26x100000x16_S26x16384x1_S26x16384x16_2_1_0_0_1_2_1116 (ix3 f b z) ix a
      + GatherDims.batchCoord gather_S26x100000x16_S26x16384x1_S26x16384x16_2_1_0_0_1_2_1116 (ix3 f b z) a
      + GatherDims.offCoord gather_S26x100000x16_S26x16384x1_S26x16384x16_2_1_0_0_1_2_1116 (ix3 f b z) a = _
  match a with
  | ⟨0, _⟩ =>
    rw [GatherDims.start_batching _ _ _ _ (show (0 : Fin 3) ∈ [(0 : Fin 3)] from List.mem_singleton.mpr rfl),
      GatherDims.offCoord_eq_zero _ _ _ (fun h => ((GatherDims.mem_sKept _ _).mp h).2 (show (0 : Fin 3) ∈ [(0 : Fin 3)] from List.mem_singleton.mpr rfl))]
    simp only [Nat.zero_add, Nat.add_zero]
    rfl
  | ⟨1, h1⟩ =>
    have hm : (⟨1, h1⟩ : Fin S26x100000x16.rank) ∈ GatherDims.startIndexMap gather_S26x100000x16_S26x16384x1_S26x16384x16_2_1_0_0_1_2_1116 := List.mem_singleton.mpr rfl
    rw [GatherDims.batchCoord_eq_zero _ _ _ (show (1 : Fin 3) ∉ [(0 : Fin 3)] by decide),
      GatherDims.offCoord_eq_zero _ _ _ (fun h => ((GatherDims.mem_sKept _ _).mp h).1 (show (1 : Fin 3) ∈ [(1 : Fin 3)] from List.mem_singleton.mpr rfl))]
    simp only [Nat.add_zero]
    unfold GatherDims.start
    rw [dif_pos hm]
    have hsi : GatherDims.siIdx gather_S26x100000x16_S26x16384x1_S26x16384x16_2_1_0_0_1_2_1116 (ix3 f b z)
        ⟨List.idxOf (⟨1, h1⟩ : Fin S26x100000x16.rank) (GatherDims.startIndexMap gather_S26x100000x16_S26x16384x1_S26x16384x16_2_1_0_0_1_2_1116), List.idxOf_lt_length_iff.2 hm⟩
          = ix3 f b (0 : Fin 1) := by
      funext c; refine Fin.ext ?_
      match c with
      | ⟨0, _⟩ => rfl
      | ⟨1, _⟩ => rfl
      | ⟨2, _⟩ => rfl
    rw [hsi]
    rfl
  | ⟨2, h2⟩ =>
    have hm : (⟨2, h2⟩ : Fin S26x100000x16.rank) ∉ GatherDims.startIndexMap gather_S26x100000x16_S26x16384x1_S26x16384x16_2_1_0_0_1_2_1116 := by
      intro h
      have e : (2 : ℕ) = ((1 : Fin 3) : ℕ) := congrArg Fin.val (List.mem_singleton.mp h)
      exact absurd e (by decide)
    rw [GatherDims.batchCoord_eq_zero _ _ _ (show (2 : Fin 3) ∉ [(0 : Fin 3)] by decide)]
    unfold GatherDims.start
    rw [dif_neg hm]
    simp only [Nat.zero_add, Nat.add_zero]
    rfl

/-! ## The two lookups under the input domain -/

/-- A word below the vocabulary size, read signed and clamped into the table, names its own row. -/
theorem row_min (w : BitVec 32) (h : w.toNat < 100000) :
    (⟨min w.toInt.toNat 99999, by omega⟩ : Fin 100000) = Cert.Spec.row w := by
  apply Fin.ext
  show min w.toInt.toNat 99999 = w.toNat % 100000
  have e : w.toInt.toNat = w.toNat := by rw [toInt_of_lt h]; simp
  rw [e, Nat.mod_eq_of_lt h]
  omega

/-- The same for a word known equal to one below the vocabulary size. -/
theorem row_clamp (w v : BitVec 32) (e : w = v) (h : v.toNat < 100000) :
    (⟨min w.toInt.toNat 99999, by omega⟩ : Fin 100000) = Cert.Spec.row v := by
  subst e; exact row_min w h

section Takes
variable (xc : IVec S16384x26 32) (hx : ∀ j, (xc j).toNat < 100000)
include hx

/-- The linear lookup: the row the example's word names, in the field's table. -/
theorem takeL_apply (lin : FVec Ideal S26x100000x1 .f32) (f : Fin 26) (b : Fin 16384) :
    takeL lin xc (ix3 f b (0 : Fin 1)) = lin (ix3 f (Cert.Spec.row (xc (ix2 b f))) (0 : Fin 1)) := by
  unfold takeL
  rw [select_apply,
    broadcastInDim_apply _ _ _ (ix3 f b (0 : Fin 1)) (ix2 f b) (fun a => match a with | ⟨0, _⟩ => rfl | ⟨1, _⟩ => rfl),
    mask_apply xc hx, select_one, gatherL_apply, row_clamp _ _ (idx_apply xc hx f b 0) (hx _)]

/-- The factor lookup, likewise, at component `k`. -/
theorem takeF_apply (vc : FVec Ideal S26x100000x16 .f32) (f : Fin 26) (b : Fin 16384) (k : Fin 16) :
    takeF vc xc (ix3 f b k) = vc (ix3 f (Cert.Spec.row (xc (ix2 b f))) k) := by
  unfold takeF
  rw [select_apply,
    broadcastInDim_apply _ _ _ (ix3 f b k) (ix2 f b) (fun a => match a with | ⟨0, _⟩ => rfl | ⟨1, _⟩ => rfl),
    mask_apply xc hx, select_one, gatherF_apply, row_clamp _ _ (idx_apply xc hx f b 0) (hx _)]

end Takes

end Cert.RefSide

end
-- ==== Proof.RefCross.lean ====
/-
  The reference's term downstream of its two lookups, read at an index: the dense linear term is a finite sum over the 13
  dense features; the 39 vectors of an example are its 13 dense products followed by its 26 looked-up embeddings; the
  cross term is the square of their sum minus the sum of their squares, component by component; and the result at example
  `b` is the textbook formula `Cert.Spec.refOut` there, once each lookup reads the table row its word names.
-/
import proofs.«207209_g54674933678763_cont_9to1_m_278_38_alg».proof.Proof.RefTerm
import proofs.«207209_g54674933678763_cont_9to1_m_278_38_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.RefSide

open Cert.ReferenceIdeal Cert.ReferenceIdeal.Facts₀ Cert.ReferenceIdeal.Facts Idealize.ShloMosaic Idealize.ShloMosaic.ValueIdx
open scoped BigOperators

variable [Cert.ReferenceIdeal.Facts]

/-! ## The sums over one axis -/

/-- The zero word is the extended real zero, wherever the rank-0 constant is read. -/
theorem zero_const (i : S_.Idx) : constant (F := Ideal) S_ .f32 0x00000000#32 i = 0 := by
  rw [constant_apply, Ideal.ofBits_zero_f32]

/-- The sum over the 26 fields of a [26, 16384, 1] array. -/
theorem sumFields_apply (x : FVec Ideal S26x16384x1 .f32) (b : Fin 16384) :
    Host.reduceAdd x (constant S_ .f32 0x00000000#32) reducesTo_S26x16384x1_S16384x1_d0 h_S_ (ix2 b (0 : Fin 1))
      = ∑ f : Fin 26, x (ix3 f b (0 : Fin 1)) := by
  rw [hostReduceAdd_apply, zero_const,
    Ideal.hostReduceAdd_single reducesTo_S26x16384x1_S16384x1_d0 (by decide : S26x16384x1.Reduces [0] S16384x1), zero_add]
  refine Finset.sum_congr rfl fun f _ => congrArg x (funext fun c => Fin.ext ?_)
  match c with
  | ⟨0, _⟩ => rfl
  | ⟨1, _⟩ => rfl
  | ⟨2, _⟩ => rfl

/-- The sum over the 39 vectors of a [16384, 39, 16] array. -/
theorem sumVecs_apply (v : FVec Ideal S16384x39x16 .f32) (b : Fin 16384) (k : Fin 16) :
    Host.reduceAdd v (constant S_ .f32 0x00000000#32) reducesTo_S16384x39x16_S16384x16_d1 h_S_ (ix2 b k)
      = ∑ j : Fin 39, v (ix3 b j k) := by
  rw [hostReduceAdd_apply, zero_const,
    Ideal.hostReduceAdd_single reducesTo_S16384x39x16_S16384x16_d1 (by decide : S16384x39x16.Reduces [1] S16384x16), zero_add]
  refine Finset.sum_congr rfl fun j _ => congrArg v (funext fun c => Fin.ext ?_)
  match c with
  | ⟨0, _⟩ => rfl
  | ⟨1, _⟩ => rfl
  | ⟨2, _⟩ => rfl

/-- The sum over the 16 components of a [16384, 16] array. -/
theorem sumComps_apply (x : FVec Ideal S16384x16 .f32) (b : Fin 16384) :
    Host.reduceAdd x (constant S_ .f32 0x00000000#32) reducesTo_S16384x16_S16384_d1 h_S_ (ix1 b) = ∑ k : Fin 16, x (ix2 b k) := by
  rw [hostReduceAdd_apply, zero_const,
    Ideal.hostReduceAdd_single reducesTo_S16384x16_S16384_d1 (by decide : S16384x16.Reduces [1] S16384), zero_add]
  refine Finset.sum_congr rfl fun k _ => congrArg x (funext fun c => Fin.ext ?_)
  match c with
  | ⟨0, _⟩ => rfl
  | ⟨1, _⟩ => rfl

/-! ## Bias plus the dense linear term -/

theorem lin0_apply (xn : FVec Ideal S16384x13 .f32) (bias : FVec Ideal S1 .f32) (W : FVec Ideal S1x13 .f32) (b : Fin 16384) :
    lin0 xn bias W (ix2 b (0 : Fin 1)) = bias (ix1 (0 : Fin 1)) + ∑ n : Fin 13, xn (ix2 b n) * W (ix2 (0 : Fin 1) n) := by
  unfold lin0
  rw [addf_apply]
  refine congrArg₂ (· + ·) ?_ ?_
  · refine (broadcastInDim_apply _ bcast_S1x1_S16384x1_0_1 _ (ix2 b (0 : Fin 1)) (ix2 (0 : Fin 1) (0 : Fin 1)) fun a => ?_).trans ?_
    · match a with
      | ⟨0, _⟩ => rfl
      | ⟨1, _⟩ => rfl
    · refine broadcastInDim_apply _ bcast_S1_S1x1_1 bias (ix2 (0 : Fin 1) (0 : Fin 1)) (ix1 (0 : Fin 1)) fun a => ?_
      match a with
      | ⟨0, _⟩ => rfl
  · show FloatOps.dotGeneral dot_S16384x13_S13x1_S16384x1_1_0_0_1_n_n none _ xn (transpose S13x1 [1, 0] W transposes_S1x13_S13x1_1_0) (ix2 b (0 : Fin 1)) = _
    rw [Ideal.dotGeneral_apply, ← Equiv.sum_comp (contrEquiv1 dot_S16384x13_S13x1_S16384x1_1_0_0_1_n_n 13 rfl rfl).symm]
    refine Finset.sum_congr rfl fun c _ => ?_
    have c2 := contrEquiv1_symm_val dot_S16384x13_S13x1_S16384x1_1_0_0_1_n_n 13 rfl rfl c
    have l2 : dot_S16384x13_S13x1_S16384x1_1_0_0_1_n_n.lhsIdx (ix2 b (0 : Fin 1)) ((contrEquiv1 dot_S16384x13_S13x1_S16384x1_1_0_0_1_n_n 13 rfl rfl).symm c) = ix2 b c := by
      funext ax; apply Fin.ext
      match ax with
      | ⟨0, _⟩ => simp [DotDims.lhsIdx, dot_S16384x13_S13x1_S16384x1_1_0_0_1_n_n] <;> rfl
      | ⟨1, _⟩ => simp [DotDims.lhsIdx, dot_S16384x13_S13x1_S16384x1_1_0_0_1_n_n] <;> exact c2
    have r2 : dot_S16384x13_S13x1_S16384x1_1_0_0_1_n_n.rhsIdx (ix2 b (0 : Fin 1)) ((contrEquiv1 dot_S16384x13_S13x1_S16384x1_1_0_0_1_n_n 13 rfl rfl).symm c) = ix2 c (0 : Fin 1) := by
      funext ax; apply Fin.ext
      match ax with
      | ⟨0, _⟩ => simp [DotDims.rhsIdx, dot_S16384x13_S13x1_S16384x1_1_0_0_1_n_n] <;> exact c2
      | ⟨1, _⟩ => simp [DotDims.rhsIdx, dot_S16384x13_S13x1_S16384x1_1_0_0_1_n_n] <;> rfl
    rw [l2, r2, transpose_ix2_apply]

/-! ## The 39 vectors -/

/-- Vector `j` of example `b`, component `k`: a dense product for `j < 13`, else the looked-up factor embedding of field `j - 13`. -/
theorem vecs_apply (xn : FVec Ideal S16384x13 .f32) (xc : IVec S16384x26 32) (vn : FVec Ideal S13x16 .f32) (vc : FVec Ideal S26x100000x16 .f32)
    (b : Fin 16384) (j : Fin 39) (k : Fin 16) :
    vecs xn xc vn vc (ix3 b j k)
      = if h : j.val < 13 then xn (ix2 b ⟨j.val, h⟩) * vn (ix2 (⟨j.val, h⟩ : Fin 13) k)
        else takeF vc xc (ix3 (⟨j.val - 13, by have := j.isLt; omega⟩ : Fin 26) b k) := by
  unfold vecs
  split
  · next h =>
    refine (concatenate_pair_apply_left 1 _ _ concatenates_S16384x13x16_S16384x26x16_S16384x39x16_d1 (ix3 b j k) rfl
      (ix3 b (⟨j.val, h⟩ : Fin 13) k) fun c => ?_).trans ?_
    · match c with
      | ⟨0, _⟩ => rfl
      | ⟨1, _⟩ => rfl
      | ⟨2, _⟩ => rfl
    · rw [mulf_apply]
      refine congrArg₂ (· * ·) ?_ ?_
      · refine (broadcastInDim_apply _ bcast_S16384x13x1_S16384x13x16_0_1_2 _ (ix3 b (⟨j.val, h⟩ : Fin 13) k) (ix3 b (⟨j.val, h⟩ : Fin 13) (0 : Fin 1)) fun a => ?_).trans ?_
        · match a with
          | ⟨0, _⟩ => rfl
          | ⟨1, _⟩ => rfl
          | ⟨2, _⟩ => rfl
        · refine broadcastInDim_apply _ bcast_S16384x13_S16384x13x1_0_1 xn (ix3 b (⟨j.val, h⟩ : Fin 13) (0 : Fin 1)) (ix2 b (⟨j.val, h⟩ : Fin 13)) fun a => ?_
          match a with
          | ⟨0, _⟩ => rfl
          | ⟨1, _⟩ => rfl
      · refine (broadcastInDim_apply _ bcast_S1x13x16_S16384x13x16_0_1_2 _ (ix3 b (⟨j.val, h⟩ : Fin 13) k) (ix3 (0 : Fin 1) (⟨j.val, h⟩ : Fin 13) k) fun a => ?_).trans ?_
        · match a with
          | ⟨0, _⟩ => rfl
          | ⟨1, _⟩ => rfl
          | ⟨2, _⟩ => rfl
        · refine broadcastInDim_apply _ bcast_S13x16_S1x13x16_1_2 vn (ix3 (0 : Fin 1) (⟨j.val, h⟩ : Fin 13) k) (ix2 (⟨j.val, h⟩ : Fin 13) k) fun a => ?_
          match a with
          | ⟨0, _⟩ => rfl
          | ⟨1, _⟩ => rfl
  · next h =>
    have hj : j.val < 39 := j.isLt
    refine (concatenate_pair_apply_right 1 _ _ concatenates_S16384x13x16_S16384x26x16_S16384x39x16_d1 (ix3 b j k) rfl rfl
      (ix3 b (⟨j.val - 13, by omega⟩ : Fin 26) k) (fun c hc => ?_) ?_).trans ?_
    · match c with
      | ⟨0, _⟩ => rfl
      | ⟨1, _⟩ => exact absurd rfl hc
      | ⟨2, _⟩ => rfl
    · show j.val - 13 + 13 = j.val
      omega
    · exact transpose_apply _ _ transposes_S26x16384x16_S16384x26x16_1_0_2 (ix3 b (⟨j.val - 13, by omega⟩ : Fin 26) k)
        (ix3 (⟨j.val - 13, by omega⟩ : Fin 26) b k) fun c => match c with | ⟨0, _⟩ => rfl | ⟨1, _⟩ => rfl | ⟨2, _⟩ => rfl

/-! ## The cross term -/

theorem cross_apply (v : FVec Ideal S16384x39x16 .f32) (b : Fin 16384) (k : Fin 16) :
    cross v (ix2 b k) = (∑ j : Fin 39, v (ix3 b j k)) * (∑ j : Fin 39, v (ix3 b j k)) - ∑ j : Fin 39, v (ix3 b j k) * v (ix3 b j k) := by
  unfold cross
  rw [subf_apply, mulf_apply, sumVecs_apply, sumVecs_apply]
  rfl

/-! ## The result -/

theorem out_apply (xn : FVec Ideal S16384x13 .f32) (xc : IVec S16384x26 32) (bias : FVec Ideal S1 .f32) (W : FVec Ideal S1x13 .f32)
    (lin : FVec Ideal S26x100000x1 .f32) (vn : FVec Ideal S13x16 .f32) (vc : FVec Ideal S26x100000x16 .f32) (b : Fin 16384) :
    out xn xc bias W lin vn vc (ix2 b (0 : Fin 1))
      = ((bias (ix1 (0 : Fin 1)) + ∑ n : Fin 13, xn (ix2 b n) * W (ix2 (0 : Fin 1) n)) + ∑ f : Fin 26, takeL lin xc (ix3 f b (0 : Fin 1)))
        + Cert.Spec.half * ∑ k : Fin 16, ((∑ j : Fin 39, vecs xn xc vn vc (ix3 b j k)) * (∑ j : Fin 39, vecs xn xc vn vc (ix3 b j k))
            - ∑ j : Fin 39, vecs xn xc vn vc (ix3 b j k) * vecs xn xc vn vc (ix3 b j k)) := by
  unfold out
  rw [addf_apply, addf_apply, mulf_apply, lin0_apply, sumFields_apply, broadcastInDim_scalar_apply, constant_apply]
  refine congrArg₂ (· + ·) rfl (congrArg₂ (· * ·) rfl ?_)
  refine (broadcastInDim_apply _ bcast_S16384_S16384x1_0 _ (ix2 b (0 : Fin 1)) (ix1 b) fun a => ?_).trans ?_
  · match a with
    | ⟨0, _⟩ => rfl
  · rw [sumComps_apply]
    exact Finset.sum_congr rfl fun k _ => cross_apply _ b k

/-- THE REFERENCE'S RESULT is the textbook layer, once each lookup reads the table row its word names. -/
theorem out_value (xn : FVec Ideal S16384x13 .f32) (xc : IVec S16384x26 32) (bias : FVec Ideal S1 .f32) (W : FVec Ideal S1x13 .f32)
    (lin : FVec Ideal S26x100000x1 .f32) (vn : FVec Ideal S13x16 .f32) (vc : FVec Ideal S26x100000x16 .f32)
    (hL : ∀ (f : Fin 26) (b : Fin 16384), takeL lin xc (ix3 f b (0 : Fin 1)) = lin (ix3 f (Cert.Spec.row (xc (ix2 b f))) (0 : Fin 1)))
    (hF : ∀ (f : Fin 26) (b : Fin 16384) (k : Fin 16), takeF vc xc (ix3 f b k) = vc (ix3 f (Cert.Spec.row (xc (ix2 b f))) k)) :
    out (F := Ideal) xn xc bias W lin vn vc = Cert.Spec.outArr xn xc bias W lin vn vc := by
  funext j
  obtain ⟨b, z, rfl⟩ : ∃ (b : Fin 16384) (z : Fin 1), j = ix2 b z := ⟨j 0, j 1, eq_ix2 j⟩
  obtain rfl : z = 0 := Fin.ext (by have := z.isLt; omega)
  rw [out_apply]
  show _ = Cert.Spec.refOut xn xc bias W lin vn vc b
  unfold Cert.Spec.refOut Cert.Spec.embL
  have hv : ∀ (j : Fin 39) (k : Fin 16), vecs xn xc vn vc (ix3 b j k) = Cert.Spec.vec xn xc vn vc b j k := fun j k => by
    rw [vecs_apply]; unfold Cert.Spec.vec Cert.Spec.embF
    split
    · rfl
    · rw [hF]
  simp only [hL, hv]

end Cert.RefSide

end
-- ==== Proof.RefValue.lean ====
/-
  The reference's run under the precondition: the result buffer ends at the layer's textbook formula
  `Cert.Spec.outArr` of the arguments, the arguments unchanged. The run gives the operations' composed term; the
  input domain puts every categorical word below the vocabulary size, so both lookups read the row the word names;
  the rest of the term read at an index is the formula.
-/
import proofs.«207209_g54674933678763_cont_9to1_m_278_38_alg».proof.Defs
import proofs.«207209_g54674933678763_cont_9to1_m_278_38_alg».proof.Proof.RefRun
import proofs.«207209_g54674933678763_cont_9to1_m_278_38_alg».proof.Proof.RefRead
import proofs.«207209_g54674933678763_cont_9to1_m_278_38_alg».proof.Proof.RefCross
import proofs.«207209_g54674933678763_cont_9to1_m_278_38_alg».proof.Proof.PreDomain

noncomputable section

namespace Cert.RefSide

open Cert.ReferenceIdeal Idealize.ShloMosaic Idealize.ShloMosaic.TcCoe Idealize.SL.Sem

/-- Under the precondition every weakly fair execution of the reference ends, its result the layer's formula of
    the arguments, the arguments unchanged. -/
theorem run [hReferenceIdeal : Cert.ReferenceIdeal.Facts] [hPre_input_domain : Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v25) = Cert.Spec.outArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run _ _ _).mono (fun _ h c => by
      obtain ⟨h25, hargs⟩ := h c
      refine ⟨h25.trans ?_, hargs⟩
      have hx := Cert.PreDomain.xcat_lt _ _ _ _ _ _ _ (hpre c)
      exact out_value _ _ _ _ _ _ _ (fun f b => takeL_apply _ hx _ f b) (fun f b k => takeF_apply _ hx _ f b k))
    (run_term (F := Ideal) m g)

end Cert.RefSide

end
-- ==== Proof.Claims.lean ====
/-
  The five conjuncts of the claim.

  The kernel's program, at either float instance, runs to the end from any launch memory the precondition holds of (the
  accumulation on the thirty-two vector subcores needs every categorical index below the vocabulary size, which the
  precondition gives), leaves its arguments unchanged and leaves the result array at a value named once for both
  instances; the reference's program does the same at the exact instance with the textbook formula as its result.  At
  the exact instance the kernel's named value IS that formula: the accumulated planes are the sums over the fields of the
  embeddings' components, of their squares and of the linear embeddings; the combining region adds the dense part; and
  over the extended reals the two arrangements of those sums agree (only commutativity and associativity of + and ·
  are used, so no finiteness is needed).  The idealization rewrote nothing, so the preservation conjunct is trivial.
-/
import proofs.«207209_g54674933678763_cont_9to1_m_278_38_alg».proof.Defs
import proofs.«207209_g54674933678763_cont_9to1_m_278_38_alg».proof.Proof.KernelIdeal.Run
import proofs.«207209_g54674933678763_cont_9to1_m_278_38_alg».proof.Proof.KernelIdeal.PreIdx
import proofs.«207209_g54674933678763_cont_9to1_m_278_38_alg».proof.Proof.KernelIdeal.TileValue
import proofs.«207209_g54674933678763_cont_9to1_m_278_38_alg».proof.Proof.KernelIdeal.RegionValue
import proofs.«207209_g54674933678763_cont_9to1_m_278_38_alg».proof.Proof.KernelIdeal.TileBody
import proofs.«207209_g54674933678763_cont_9to1_m_278_38_alg».proof.Proof.Kernel.Run
import proofs.«207209_g54674933678763_cont_9to1_m_278_38_alg».proof.Proof.Kernel.PreIdx
import proofs.«207209_g54674933678763_cont_9to1_m_278_38_alg».proof.Proof.Kernel.TileBody
import proofs.«207209_g54674933678763_cont_9to1_m_278_38_alg».proof.Proof.RefValue
import proofs.«207209_g54674933678763_cont_9to1_m_278_38_alg».proof.Proof.Gen.Kernel
import proofs.«207209_g54674933678763_cont_9to1_m_278_38_alg».proof.Proof.Gen.KernelIdeal
import proofs.«207209_g54674933678763_cont_9to1_m_278_38_alg».proof.Proof.Gen.ReferenceIdeal
import proofs.«207209_g54674933678763_cont_9to1_m_278_38_alg».proof.Proof.Gen.Pre_input_domain

noncomputable section

namespace Cert.Proof.Claims

open Idealize.ShloMosaic Idealize.SL.Sem

/-- A subcore's task at the exact instance, from the precondition's index fact. -/
theorem tileBody_ideal (m : (ℓ : Loc Cert.KernelIdeal.nD Cert.KernelIdeal.τ Cert.KernelIdeal.sig) → Buf (Elt Ideal) ℓ)
    (hx : ∀ d j, (Cert.Proof.KernelIdeal.A1 m d j).toNat < 100000) : Cert.Proof.KernelIdeal.TileBody (F := Ideal) m :=
  fun d L q O W hO => Cert.Proof.KernelIdeal.tile_body d L Cert.Proof.KernelIdeal.facts q _ _ _ _ (hx d) O W hO

/-- The same at the word-level instance. -/
theorem tileBody_bits (m : (ℓ : Loc Cert.Kernel.nD Cert.Kernel.τ Cert.Kernel.sig) → Buf (Elt Bits) ℓ)
    (hx : ∀ d j, (Cert.Proof.Kernel.A1 m d j).toNat < 100000) : Cert.Proof.Kernel.TileBody (F := Bits) m :=
  fun d L q O W hO => Cert.Proof.Kernel.tile_body d L Cert.Proof.Kernel.facts q _ _ _ _ (hx d) O W hO

theorem frame_k : Cert.frame_Kernel := fun m g hpre =>
  (θ_run Cert.Kernel.defs _ _).mono (fun _ h c => (h c).2)
    (Cert.Proof.Kernel.run_main (F := Bits) m g (tileBody_bits m fun d => Cert.Proof.Kernel.idx_lt_of_pre m d (hpre d)) Cert.Proof.Kernel.region_wp)

theorem frame_ki : Cert.frame_KernelIdeal := fun m g hpre =>
  (θ_run Cert.KernelIdeal.defs _ _).mono (fun _ h c => (h c).2)
    (Cert.Proof.KernelIdeal.run_main (F := Ideal) m g (tileBody_ideal m fun d => Cert.Proof.KernelIdeal.idx_lt_of_pre m d (hpre d)) Cert.Proof.KernelIdeal.region_wp)

theorem frame_ri : Cert.frame_ReferenceIdeal := fun m g hpre =>
  (θ_run Cert.ReferenceIdeal.defs _ _).mono (fun _ h c => (h c).2) (Cert.RefSide.run m g hpre)

theorem preserves : Cert.preserves_Kernel_KernelIdeal := trivial

theorem algebraic : Cert.algebraic_KernelIdeal_ReferenceIdeal := by
  intro m g m' g' hpre hagree
  have hx : ∀ d j, (Cert.Proof.KernelIdeal.A1 m d j).toNat < 100000 := fun d => Cert.Proof.KernelIdeal.idx_lt_of_pre m d (hpre d)
  have hxc : ∀ d j, (Cert.Proof.KernelIdeal.xcOf m d j).toNat < 100000 := fun d => Cert.PreDomain.xcat_lt _ _ _ _ _ _ _ (hpre d)
  refine ⟨fun c => Cert.Proof.KernelIdeal.OUT (F := Ideal) m c,
    Cert.Proof.KernelIdeal.run_main (F := Ideal) m g (tileBody_ideal m hx) Cert.Proof.KernelIdeal.region_wp, ?_⟩
  have hpre' : Cert.Pre_ReferenceIdeal m' := fun c => by
    have := hpre c
    rw [← (hagree c).1, ← (hagree c).2.1, ← (hagree c).2.2.1, ← (hagree c).2.2.2.1, ← (hagree c).2.2.2.2.1, ← (hagree c).2.2.2.2.2.1, ← (hagree c).2.2.2.2.2.2] at this
    exact this
  refine (θ_run Cert.ReferenceIdeal.defs _ _).mono (fun _ h c => ⟨(h c).1.trans ?_, (h c).2⟩) (Cert.RefSide.run m' g' hpre')
  rw [(hagree c).1, (hagree c).2.1, (hagree c).2.2.1, (hagree c).2.2.2.1, (hagree c).2.2.2.2.1, (hagree c).2.2.2.2.2.1, (hagree c).2.2.2.2.2.2]
  exact (Cert.Proof.KernelIdeal.OUT_eq m c (hxc c) Cert.Proof.KernelIdeal.tileValue
    (fun X5 X0 Xvn XW Xb bias P hP hb j => Cert.Proof.KernelIdeal.regionOut_value X5 X0 Xvn XW Xb bias P hP hb j)).symm

end Cert.Proof.Claims

end
-- ==== Proof.lean ====
/-
  The certificate of the factorization-machine layer: the kernel's program — per-field embedding sums accumulated on
  the SparseCores' vector subcores, combined with the dense part by a pipelined TensorCore region — against the plain
  formula  bias + x·Wᵀ + Σ_f lin_f[i_f] + ½ Σ_k ((Σ_j v_jk)² − Σ_j v_jk²).

  Each of the thirty-two subcores (2 SparseCores × 16) owns one factor component t and one half c of the batch: for
  every field it copies row (f, t) of the transposed factor table and the half's index words into its scratches, gathers,
  and adds the gathered words (and their squares) into two accumulators; then the same once or twice for the linear
  table (fields t and t + 16); the three accumulators are the subcore's three slices of the planes array.  The region
  then walks the batch in 32 blocks of 512 examples: transposes the block's planes, adds x·vn and x²·vn², and sums.
  Every copy is waited for before its buffers are touched again and each semaphore carries one copy at a time, so the
  subcores' copies need no schedule; the subcores share the inputs at read shares and write disjoint slices.

  The proof: the launch theorem for SparseCore programs, with one task obligation proved at a symbolic grid point; the
  host program on the TensorCore around the call and the region; the values carried in the loops' invariants and read
  back as sums; the reference's run read back operation by operation; and the algebra that joins the two sides on the
  extended reals (Proof/Spec.lean states it, Proof/Algebra.lean proves it).  Proof/Claims.lean assembles the conjuncts.
-/
import proofs.«207209_g54674933678763_cont_9to1_m_278_38_alg».proof.Defs
import proofs.«207209_g54674933678763_cont_9to1_m_278_38_alg».proof.Proof.Gen.Kernel
import proofs.«207209_g54674933678763_cont_9to1_m_278_38_alg».proof.Proof.Gen.Kernel.Skeleton
import proofs.«207209_g54674933678763_cont_9to1_m_278_38_alg».proof.Proof.Gen.Kernel.Launch
import proofs.«207209_g54674933678763_cont_9to1_m_278_38_alg».proof.Proof.Gen.Kernel.Points
import proofs.«207209_g54674933678763_cont_9to1_m_278_38_alg».proof.Proof.Gen.KernelIdeal
import proofs.«207209_g54674933678763_cont_9to1_m_278_38_alg».proof.Proof.Gen.KernelIdeal.Skeleton
import proofs.«207209_g54674933678763_cont_9to1_m_278_38_alg».proof.Proof.Gen.KernelIdeal.Launch
import proofs.«207209_g54674933678763_cont_9to1_m_278_38_alg».proof.Proof.Gen.KernelIdeal.Points
import proofs.«207209_g54674933678763_cont_9to1_m_278_38_alg».proof.Proof.Gen.ReferenceIdeal
import proofs.«207209_g54674933678763_cont_9to1_m_278_38_alg».proof.Proof.Gen.Pre_input_domain
import proofs.«207209_g54674933678763_cont_9to1_m_278_38_alg».proof.Proof.Claims

noncomputable section

namespace Cert.Proof

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, Claims.preserves, Claims.algebraic⟩

end Cert.Proof

end
